-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S1000x4x512 : Shape := ⟨3, ![1000, 4, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S1000x4x512 : S_.BroadcastsInDim S1000x4x512 (![] : Fin 0 → Fin S1000x4x512.rank)
  reducesTo_S1000x4x512_S_d0_1_2 : S1000x4x512.ReducesTo [0, 1, 2] S_

variable [Facts]

def fn {F : FTy → Type} [FloatOps F] (main_arg0 : FVec F S512x512 .f32) (main_arg1 : FVec F S1000x4x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S1000x4x512 .f32 := Host.absf main_arg1
  let main_cst_0 : FVec F S_ .f32 := constant S_ .f32 0x7F800000#32
  let main_v5 : FVec F S1000x4x512 .f32 := broadcastInDim S1000x4x512 ![] bcast_S_S1000x4x512 main_cst_0
  let main_v6 : IVec S1000x4x512 1 := cmpf .olt main_v4 main_v5
  let main_c_1 : IVec S_ 1 := constantI S_ 1 1#1
  let main_v7 : IVec S_ 1 := (fun x v => Host.reduce IntOp.andi x v reducesTo_S1000x4x512_S_d0_1_2 h_S_) main_v6 main_c_1
  let main_v8 : IVec S_ 1 := andi main_v3 main_v7
  main_v8
-- ==== Kernel.lean ====
abbrev S512x512 : Shape := ⟨2, ![512, 512]⟩
abbrev S1000x4x512 : Shape := ⟨3, ![1000, 4, 512]⟩
abbrev S4x1000x512 : Shape := ⟨3, ![4, 1000, 512]⟩
abbrev S_ : Shape := ⟨0, ![]⟩
abbrev S4x1024x512 : Shape := ⟨3, ![4, 1024, 512]⟩
abbrev S512x1024 : Shape := ⟨2, ![512, 1024]⟩
abbrev S4x512x512 : Shape := ⟨3, ![4, 512, 512]⟩
abbrev S512 : Shape := ⟨1, ![512]⟩
abbrev S512x1 : Shape := ⟨2, ![512, 1]⟩
abbrev S1x512x512 : Shape := ⟨3, ![1, 512, 512]⟩
abbrev S1x512 : Shape := ⟨2, ![1, 512]⟩
abbrev S512x1000 : Shape := ⟨2, ![512, 1000]⟩
abbrev S4000x512 : Shape := ⟨2, ![4000, 512]⟩
abbrev S4096x512 : Shape := ⟨2, ![4096, 512]⟩
abbrev S4096 : Shape := ⟨1, ![4096]⟩
abbrev S1x1 : Shape := ⟨2, ![1, 1]⟩
abbrev S1 : Shape := ⟨1, ![1]⟩
abbrev S512x1001 : Shape := ⟨2, ![512, 1001]⟩

abbrev nBuf : Space → Nat
  | .hbm => 26
  | .vmem => 24
  | .smem => 0
  | _ => 0

abbrev bufTy : (tb : Table) → Fin (tcTables nBuf tb) → BufTy
  | .hbm, ⟨0, _⟩ => ⟨S512x512, .f32⟩
  | .hbm, ⟨1, _⟩ => ⟨S1000x4x512, .f32⟩
  | .hbm, ⟨2, _⟩ => ⟨S4x1000x512, .f32⟩
  | .hbm, ⟨3, _⟩ => ⟨S_, .i32⟩
  | .hbm, ⟨4, _⟩ => ⟨S_, .f32⟩
  | .hbm, ⟨5, _⟩ => ⟨S4x1024x512, .f32⟩
  | .hbm, ⟨6, _⟩ => ⟨S512x1024, .f32⟩
  | .hbm, ⟨7, _⟩ => ⟨S512x1000, .f32⟩
  | .hbm, ⟨8, _⟩ => ⟨S4000x512, .f32⟩
  | .hbm, ⟨9, _⟩ => ⟨S_, .i32⟩
  | .hbm, ⟨10, _⟩ => ⟨S_, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096, .f32⟩
  | .hbm, ⟨15, _⟩ => ⟨S1x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x1, .f32⟩
  | .hbm, ⟨20, _⟩ => ⟨S1x1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S512x1, .f32⟩
  | .hbm, ⟨25, _⟩ => ⟨S512x1001, .f32⟩
  | .local _ .vmem, ⟨0, _⟩ => ⟨S512x512, .f32⟩
  | .local _ .vmem, ⟨1, _⟩ => ⟨S4x512x512, .f32⟩
  | .local _ .vmem, ⟨2, _⟩ => ⟨S4x512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512, .f32⟩
  | .local _ .vmem, ⟨10, _⟩ => ⟨S512, .f32⟩
  | .local _ .vmem, ⟨11, _⟩ => ⟨S512, .f32⟩
  | .local _ .vmem, ⟨12, _⟩ => ⟨S512, .f32⟩
  | .local _ .vmem, ⟨13, _⟩ => ⟨S1x1, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512, .f32⟩
  | .local _ .vmem, ⟨19, _⟩ => ⟨S512, .f32⟩
  | .local _ .vmem, ⟨20, _⟩ => ⟨S512, .f32⟩
  | .local _ .vmem, ⟨21, _⟩ => ⟨S512, .f32⟩
  | .local _ .vmem, ⟨22, _⟩ => ⟨S1x1, .f32⟩
  | .local _ .vmem, ⟨23, _⟩ => ⟨S1x1, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem5_0 : DmaSem sig := 23

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  ![arg0.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  ![arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

class Facts₀ : Prop where
  transposes_S1000x4x512_S4x1000x512_1_0_2 : S1000x4x512.Transposes [1, 0, 2] S4x1000x512
  pads_S4x1000x512_S4x1024x512_000_0240_000 : S4x1000x512.Pads (![0, 0, 0] : Fin 3 → Nat) ![0, 24, 0] ![0, 0, 0] S4x1024x512
  h_S_ : 0 < S_.numel
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  reduces_S512x512_S512 : S512x512.Reduces [1] S512
  shapeCasts_S512_S512x1 : S512.ShapeCasts S512x1
  inb_S4x512x512_S1x512x512_0_0_0 : ∀ a, (![0, 0, 0] : Fin 3 → Nat) a + S1x512x512.size a ≤ S4x512x512.size a
  h_S1x512x512 : 0 < S1x512x512.numel
  shapeCasts_S1x512x512_S512x512 : S1x512x512.ShapeCasts S512x512
  transposes_S512x512_p1_0_S512x512 : S512x512.Transposes [1, 0] S512x512
  shapeCasts_S512_S1x512 : S512.ShapeCasts S1x512
  broadcasts_S512x1_S512x512 : S512x1.Broadcasts S512x512
  broadcasts_S1x512_S512x512 : S1x512.Broadcasts S512x512
  inb_S4x512x512_S1x512x512_1_0_0 : ∀ a, (![1, 0, 0] : Fin 3 → Nat) a + S1x512x512.size a ≤ S4x512x512.size a
  inb_S4x512x512_S1x512x512_2_0_0 : ∀ a, (![2, 0, 0] : Fin 3 → Nat) a + S1x512x512.size a ≤ S4x512x512.size a
  inb_S4x512x512_S1x512x512_3_0_0 : ∀ a, (![3, 0, 0] : Fin 3 → Nat) a + S1x512x512.size a ≤ S4x512x512.size a
  slices_S512x1024_S512x1000_0_0 : S512x1024.Slices ![0, 0] S512x1000
  shapeCasts_S1000x4x512_S4000x512 : S1000x4x512.ShapeCasts S4000x512
  pads_S4000x512_S4096x512_0960_000 : S4000x512.Pads (![0, 0] : Fin 2 → Nat) ![96, 0] ![0, 0] S4096x512
  reducesTo_S4096x512_S4096_d1 : S4096x512.ReducesTo [1] S4096
  inb_S1x1_S1x1_0_0 : ∀ a, (![0, 0] : Fin 2 → Nat) a + S1x1.size a ≤ S1x1.size a
  h_S1x1 : 0 < S1x1.numel
  shapeCasts_S512x512_S512x512 : S512x512.ShapeCasts S512x512
  inb_S512_S512_0 : ∀ a, (![0] : Fin 1 → Nat) a + S512.size a ≤ S512.size a
  h_S512 : 0 < S512.numel
  shapeCasts_S512_S512 : S512.ShapeCasts S512
  iota_S512x512_d0_w32 : S512x512.Iotas .tc 32 [0]
  iota_S512x512_d1_w32 : S512x512.Iotas .tc 32 [1]
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  shapeCasts_S_S1x1 : S_.ShapeCasts S1x1
  broadcasts_S1x1_S512x512 : S1x1.Broadcasts S512x512
  bcast_S_S512x1 : S_.BroadcastsInDim S512x1 (![] : Fin 0 → Fin S512x1.rank)
  concatenates_S512x1000_S512x1_S512x1001_d1 : Shape.Concatenates [S512x1000, S512x1] S512x1001 1
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x512.size a ≤ S4x1024x512.size a
  hwx0_1 : ∀ i : grid0.Coords, EltTy.bits .f32 = 32 ∨ (Rect.block (s := S4x1024x512) S4x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x1024.size a
  hwx0_2 : ∀ i : grid0.Coords, EltTy.bits .f32 = 32 ∨ (Rect.block (s := S512x1024) S512x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x512.size a
  hwx1_0 : ∀ i : grid1.Coords, EltTy.bits .f32 = 32 ∨ (Rect.block (s := S4096x512) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S4096x512.size a
  hwx1_1 : ∀ i : grid1.Coords, EltTy.bits .f32 = 32 ∨ (Rect.block (s := S4096x512) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S4096.size a
  hwx1_2 : ∀ i : grid1.Coords, EltTy.bits .f32 = 32 ∨ (Rect.block (s := S4096) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S4096.size a
  hwx1_3 : ∀ i : grid1.Coords, EltTy.bits .f32 = 32 ∨ (Rect.block (s := S4096) S512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S4096x512.size a
  hwx2_0 : ∀ i : grid2.Coords, EltTy.bits .f32 = 32 ∨ (Rect.block (s := S4096x512) S512x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S4096x512.size a
  hwx2_1 : ∀ i : grid2.Coords, EltTy.bits .f32 = 32 ∨ (Rect.block (s := S4096x512) S512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512.size a ≤ S4096.size a
  hwx2_2 : ∀ i : grid2.Coords, EltTy.bits .f32 = 32 ∨ (Rect.block (s := S4096) S512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512.size a ≤ S4096.size a
  hwx2_3 : ∀ i : grid2.Coords, EltTy.bits .f32 = 32 ∨ (Rect.block (s := S4096) S512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v5) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v11) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v12) S1x1.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S512x512 : Shape := ⟨2, ![512, 512]⟩
abbrev S1000x4x512 : Shape := ⟨3, ![1000, 4, 512]⟩
abbrev S4000x512 : Shape := ⟨2, ![4000, 512]⟩
abbrev S_ : Shape := ⟨0, ![]⟩
abbrev S512 : Shape := ⟨1, ![512]⟩
abbrev S512x1 : Shape := ⟨2, ![512, 1]⟩
abbrev S4000 : Shape := ⟨1, ![4000]⟩
abbrev S512x4000 : Shape := ⟨2, ![512, 4000]⟩
abbrev S1x4000 : Shape := ⟨2, ![1, 4000]⟩
abbrev S512x1000x4 : Shape := ⟨3, ![512, 1000, 4]⟩
abbrev S512x1000 : Shape := ⟨2, ![512, 1000]⟩
abbrev S4000x4000 : Shape := ⟨2, ![4000, 4000]⟩
abbrev S4000x1 : Shape := ⟨2, ![4000, 1]⟩
abbrev S1x1 : Shape := ⟨2, ![1, 1]⟩
abbrev S512x1001 : Shape := ⟨2, ![512, 1001]⟩

abbrev nBuf : Space → Nat
  | .hbm => 71
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S1000x4x512, .f32⟩
  | .hbm, ⟨2, _⟩ => ⟨S4000x512, .f32⟩
  | .hbm, ⟨3, _⟩ => ⟨S512x512, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S4000x512, .f32⟩
  | .hbm, ⟨8, _⟩ => ⟨S_, .f32⟩
  | .hbm, ⟨9, _⟩ => ⟨S4000, .f32⟩
  | .hbm, ⟨10, _⟩ => ⟨S512x4000, .f32⟩
  | .hbm, ⟨11, _⟩ => ⟨S1x4000, .f32⟩
  | .hbm, ⟨12, _⟩ => ⟨S512x4000, .f32⟩
  | .hbm, ⟨13, _⟩ => ⟨S512x4000, .f32⟩
  | .hbm, ⟨14, _⟩ => ⟨S512x4000, .f32⟩
  | .hbm, ⟨15, _⟩ => ⟨S_, .f32⟩
  | .hbm, ⟨16, _⟩ => ⟨S512x4000, .f32⟩
  | .hbm, ⟨17, _⟩ => ⟨S512x4000, .f32⟩
  | .hbm, ⟨18, _⟩ => ⟨S512x4000, .f32⟩
  | .hbm, ⟨19, _⟩ => ⟨S512x1000x4, .f32⟩
  | .hbm, ⟨20, _⟩ => ⟨S512x1000x4, .f32⟩
  | .hbm, ⟨21, _⟩ => ⟨S_, .f32⟩
  | .hbm, ⟨22, _⟩ => ⟨S512x1000x4, .f32⟩
  | .hbm, ⟨23, _⟩ => ⟨S512x1000x4, .f32⟩
  | .hbm, ⟨24, _⟩ => ⟨S512x1000x4, .f32⟩
  | .hbm, ⟨25, _⟩ => ⟨S_, .f32⟩
  | .hbm, ⟨26, _⟩ => ⟨S512x1000, .f32⟩
  | .hbm, ⟨27, _⟩ => ⟨S4000x4000, .f32⟩
  | .hbm, ⟨28, _⟩ => ⟨S4000x1, .f32⟩
  | .hbm, ⟨29, _⟩ => ⟨S1x4000, .f32⟩
  | .hbm, ⟨30, _⟩ => ⟨S4000x4000, .f32⟩
  | .hbm, ⟨31, _⟩ => ⟨S4000x4000, .f32⟩
  | .hbm, ⟨32, _⟩ => ⟨S4000x4000, .f32⟩
  | .hbm, ⟨33, _⟩ => ⟨S_, .f32⟩
  | .hbm, ⟨34, _⟩ => ⟨S4000x4000, .f32⟩
  | .hbm, ⟨35, _⟩ => ⟨S4000x4000, .f32⟩
  | .hbm, ⟨36, _⟩ => ⟨S4000x4000, .f32⟩
  | .hbm, ⟨37, _⟩ => ⟨S_, .f32⟩
  | .hbm, ⟨38, _⟩ => ⟨S4000x4000, .f32⟩
  | .hbm, ⟨39, _⟩ => ⟨S4000x4000, .i32⟩
  | .hbm, ⟨40, _⟩ => ⟨S_, .i32⟩
  | .hbm, ⟨41, _⟩ => ⟨S4000x4000, .i32⟩
  | .hbm, ⟨42, _⟩ => ⟨S4000x4000, .i32⟩
  | .hbm, ⟨43, _⟩ => ⟨S4000x4000, .i32⟩
  | .hbm, ⟨44, _⟩ => ⟨S4000x4000, .i1⟩
  | .hbm, ⟨45, _⟩ => ⟨S_, .f32⟩
  | .hbm, ⟨46, _⟩ => ⟨S4000x4000, .f32⟩
  | .hbm, ⟨47, _⟩ => ⟨S4000x4000, .f32⟩
  | .hbm, ⟨48, _⟩ => ⟨S4000x4000, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S4000x4000, .f32⟩
  | .hbm, ⟨54, _⟩ => ⟨S4000x4000, .f32⟩
  | .hbm, ⟨55, _⟩ => ⟨S4000x4000, .f32⟩
  | .hbm, ⟨56, _⟩ => ⟨S4000x4000, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S512x1, .f32⟩
  | .hbm, ⟨62, _⟩ => ⟨S_, .f32⟩
  | .hbm, ⟨63, _⟩ => ⟨S1x1, .f32⟩
  | .hbm, ⟨64, _⟩ => ⟨S512x1, .f32⟩
  | .hbm, ⟨65, _⟩ => ⟨S512x1, .f32⟩
  | .hbm, ⟨66, _⟩ => ⟨S_, .f32⟩
  | .hbm, ⟨67, _⟩ => ⟨S512x1, .f32⟩
  | .hbm, ⟨68, _⟩ => ⟨S512x1, .f32⟩
  | .hbm, ⟨69, _⟩ => ⟨S512x1, .f32⟩
  | .hbm, ⟨70, _⟩ => ⟨S512x1001, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_4 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_call0_v0 : Ref sig .tc := ⟨.hbm, 39, rfl⟩
abbrev main_call0_c : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_cst : Ref sig .tc := ⟨.hbm, 45, rfl⟩
abbrev main_call0_v5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_cst_10 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_11 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩

abbrev nD : Nat := 1
abbrev τ : Topo := Topo.v7x

variable {F : FTy → Type} [FloatOps F]

class Facts₀ : Prop where
  shapeCasts_S1000x4x512_S4000x512 : S1000x4x512.ShapeCasts S4000x512
  reducesTo_S512x512_S512_d1 : S512x512.ReducesTo [1] S512
  h_S_ : 0 < S_.numel
  bcast_S512_S512x1_0 : S512.BroadcastsInDim S512x1 (![0] : Fin 1 → Fin S512x1.rank)
  reducesTo_S4000x512_S4000_d1 : S4000x512.ReducesTo [1] S4000
  bcast_S4000_S1x4000_1 : S4000.BroadcastsInDim S1x4000 (![1] : Fin 1 → Fin S1x4000.rank)
  bcast_S512x1_S512x4000_0_1 : S512x1.BroadcastsInDim S512x4000 (![0, 1] : Fin 2 → Fin S512x4000.rank)
  bcast_S1x4000_S512x4000_0_1 : S1x4000.BroadcastsInDim S512x4000 (![0, 1] : Fin 2 → Fin S512x4000.rank)
  bcast_S_S512x4000 : S_.BroadcastsInDim S512x4000 (![] : Fin 0 → Fin S512x4000.rank)
  shapeCasts_S512x4000_S512x1000x4 : S512x4000.ShapeCasts S512x1000x4
  bcast_S_S512x1000x4 : S_.BroadcastsInDim S512x1000x4 (![] : Fin 0 → Fin S512x1000x4.rank)
  reducesTo_S512x1000x4_S512x1000_d2 : S512x1000x4.ReducesTo [2] S512x1000
  bcast_S4000_S4000x1_0 : S4000.BroadcastsInDim S4000x1 (![0] : Fin 1 → Fin S4000x1.rank)
  bcast_S4000x1_S4000x4000_0_1 : S4000x1.BroadcastsInDim S4000x4000 (![0, 1] : Fin 2 → Fin S4000x4000.rank)
  bcast_S1x4000_S4000x4000_0_1 : S1x4000.BroadcastsInDim S4000x4000 (![0, 1] : Fin 2 → Fin S4000x4000.rank)
  bcast_S_S4000x4000 : S_.BroadcastsInDim S4000x4000 (![] : Fin 0 → Fin S4000x4000.rank)
  reducesTo_S4000x4000_S_d0_1 : S4000x4000.ReducesTo [0, 1] S_
  bcast_S_S512x1 : S_.BroadcastsInDim S512x1 (![] : Fin 0 → Fin S512x1.rank)
  bcast_S_S1x1 : S_.BroadcastsInDim S1x1 (![] : Fin 0 → Fin S1x1.rank)
  bcast_S1x1_S512x1_0_1 : S1x1.BroadcastsInDim S512x1 (![0, 1] : Fin 2 → Fin S512x1.rank)
  concatenates_S512x1000_S512x1_S512x1001_d1 : Shape.Concatenates [S512x1000, S512x1] S512x1001 1
  dot_S512x512_S4000x512_S512x4000_1_1_0_0_n_n_wf : DotDims.WF S512x512 S4000x512 S512x4000 [1] [1] [0] [0] [] []
  dot_S4000x512_S4000x512_S4000x4000_1_1_0_0_n_n_wf : DotDims.WF S4000x512 S4000x512 S4000x4000 [1] [1] [0] [0] [] []

variable [Facts₀]

def dot_S512x512_S4000x512_S512x4000_1_1_0_0_n_n : DotDims S512x512 S4000x512 S512x4000 where
  lhsContracting := [1]
  rhsContracting := [1]
  lhsNonContracting := [0]
  rhsNonContracting := [0]
  lhsBatch := []
  rhsBatch := []
  wf := dot_S512x512_S4000x512_S512x4000_1_1_0_0_n_n_wf
def dot_S4000x512_S4000x512_S4000x4000_1_1_0_0_n_n : DotDims S4000x512 S4000x512 S4000x4000 where
  lhsContracting := [1]
  rhsContracting := [1]
  lhsNonContracting := [0]
  rhsNonContracting := [0]
  lhsBatch := []
  rhsBatch := []
  wf := dot_S4000x512_S4000x512_S4000x4000_1_1_0_0_n_n_wf

class Facts : Prop extends Facts₀ where

variable [Facts]
-- ==== Proof.KIRun.lean ====
/-
  The kernel program's run with its result named, for any float instance.

  @main is ten items in a row: two stretches of host operations (the weights transposed and padded to 1024 classes), the
  distance kernel over two blocks of 512 classes, three stretches (the distances sliced back to 1000 columns; the weights
  flattened to 4000 rows, padded to 4096 and their squared row norms), the first pair-sum kernel over an 8 by 8 grid of
  tiles, a stretch scaling its sum into the mean, the second pair-sum kernel, and a last stretch scaling its sum and joining
  it to the distances as column 1000. Between two items a core holds every unscoped buffer whole; the contents are followed
  item by item (`V0` … `V10`), and at the end the result buffer is read off the last of them, together with the two
  arguments, which no item writes.
-/
import proofs.«134856_j3556232921452_1_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

set_option backward.isDefEq.respectTransparency.types false in
/-- The run with the result named. For any contents `outs` the three kernel regions leave in their output arrays and any
    record of each region entered from the buffers' contents before it and left at the contents after it: every weakly fair
    execution of @main terminates, the result buffer ends at what the last stretch of host operations makes of those
    contents (`V10 m outs c main_v16`: the distances' array sliced to 1000 columns, joined with the column that holds the
    scaled second pair sum), and both arguments end as launched. The contents between items are the fold of each host
    stretch over the contents before it, a region's output replaced by `outs`. Beside the buffers a core carries a rest `E k c`
    of the caller's choosing between the regions: the launch must make `E 0` on every core at once (`hE0`), and `E 3` must end
    owing nothing (`hE3`). The run starts from memory `m` with every semaphore counter at zero. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V2 m c) ∗ E 0 c) ⊢ R0.pre c)
    (hpost0 : ∀ c : Dev nD, R0.post c ⊢ iprop(StableHlo.held (c : Thread nD τ) (Pipeline.ucRefs τ sig) (V3 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V6 m outs c) ∗ E 1 c) ⊢ R1.pre c)
    (hpost1 : ∀ c : Dev nD, R1.post c ⊢ iprop(StableHlo.held (c : Thread nD τ) (Pipeline.ucRefs τ sig) (V7 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V8 m outs c) ∗ E 2 c) ⊢ R2.pre c)
    (hpost2 : ∀ c : Dev nD, R2.post c ⊢ iprop(StableHlo.held (c : Thread nD τ) (Pipeline.ucRefs τ sig) (V9 m outs c) ∗ E 3 c)) :
    θ_run defs (onTc (τ := τ) (main (F := F))) ⟨m, fun _ => 0, ρ⟩ (fun r => ∀ c : Dev nD,
      r.2.mem ((c.tc : Thread nD τ).loc main_v16) = V10 m outs c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m outs c))
    (hch := fun c => ⟨.rfl, .rfl, hpre0 c, hpost0 c, .rfl, .rfl, hpre1 c, hpost1 c, hpre2 c, hpost2 c, sep_mono .rfl (hE3 c)⟩)
    (hinit := ?_) (QY := fun c s => s.mem ((c.tc : Thread nD τ).loc main_v16) = V10 m outs c main_v16 ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result's buffer and each argument's buffer read off the last valuation
    unfold StableHlo.held
    iintro ⟨Hh, HSI⟩
    ihave Hr := (pointsTo_read_all (Pipeline.ucRefs τ sig) (fun b => ((c : Thread nD τ).1, b)) (V10 m outs c) s') $$ [Hh HSI]
    · isplitl [Hh] <;> iassumption
    icases Hr with ⟨%h, HSI⟩
    imodintro
    isplitr
    · ipureintro
      exact ⟨h (Proc.devRef .tc main_v16) (Finset.mem_filter.mpr ⟨StableHlo.devRef_mem_tcRefs main_v16, by decide⟩),
        (h (Proc.devRef .tc main_arg0) (Finset.mem_filter.mpr ⟨StableHlo.devRef_mem_tcRefs main_arg0, by decide⟩)).trans (V10_main_arg0 m outs c),
        (h (Proc.devRef .tc main_arg1) (Finset.mem_filter.mpr ⟨StableHlo.devRef_mem_tcRefs main_arg1, by decide⟩)).trans (V10_main_arg1 m outs c)⟩
    · iexact HSI

end Cert.KernelIdeal.Hand

end
-- ==== Proof.KIData.lean ====
/-
  What the three kernel regions leave, as one family of contents.

  The contents of the unscoped buffers between two items of @main are the fold of the host operations over the launch memory,
  with each region's output array replaced by what the region leaves there. What a region leaves is computed from the contents
  it is entered from, which may contain earlier regions' outputs, so the family is built in three stages: the distance kernel's
  output from the contents after the first two host stretches; the first pair-sum kernel's from the contents that hold it;
  the second pair-sum kernel's from the contents that hold both. The contents a region is entered from read only the
  outputs of the regions before it, so every stage agrees with the finished family where it matters.
-/
import proofs.«134856_j3556232921452_1_alg».proof.Proof.Gen.KernelIdeal.Regions

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- Contents nobody reads: the entries of the family that no region writes. -/
def idle (r : Ref sig .tc) (c : Dev nD) : Buf (Elt F) ((c : Thread nD τ).loc r) := m ((c : Thread nD τ).loc r)

/-- A family with one named entry. -/
def put (J : ℕ) (b : Ref sig .tc) (v : (c : Dev nD) → Buf (Elt F) ((c : Thread nD τ).loc b)) (rest : Outs (F := F)) : Outs (F := F) :=
  fun J' r c => if h : J' = J ∧ r = b then h.2 ▸ v c else rest J' r c

theorem put_self (J : ℕ) (b : Ref sig .tc) (v : (c : Dev nD) → Buf (Elt F) ((c : Thread nD τ).loc b)) (rest : Outs (F := F)) (c : Dev nD) :
    put J b v rest J b c = v c := by
  unfold put; rw [dif_pos ⟨rfl, rfl⟩]

theorem put_of_ne (J : ℕ) (b : Ref sig .tc) (v : (c : Dev nD) → Buf (Elt F) ((c : Thread nD τ).loc b)) (rest : Outs (F := F))
    (J' : ℕ) (r : Ref sig .tc) (c : Dev nD) (h : J' ≠ J) : put J b v rest J' r c = rest J' r c := by
  unfold put; rw [dif_neg fun h' => h h'.1]

section Stages

-- what each region leaves in its output array, as a function of the contents it is entered from
variable (o3 : Valuation τ sig (Elt F) → (c : Dev nD) → Buf (Elt F) ((c : Thread nD τ).loc main_v2))
  (o7 : Valuation τ sig (Elt F) → (c : Dev nD) → Buf (Elt F) ((c : Thread nD τ).loc main_v8))
  (o9 : Valuation τ sig (Elt F) → (c : Dev nD) → Buf (Elt F) ((c : Thread nD τ).loc main_v12))

/-- After the distance kernel. -/
def outsA : Outs (F := F) := put 3 main_v2 (fun c => o3 (V2 m c) c) (idle m |> fun f _ r c => f r c)
/-- After the first pair-sum kernel. -/
def outsB : Outs (F := F) := put 7 main_v8 (fun c => o7 (V6 m (outsA m o3) c) c) (outsA m o3)
/-- After the second pair-sum kernel: the finished family. -/
def outsC : Outs (F := F) := put 9 main_v12 (fun c => o9 (V8 m (outsB m o3 o7) c) c) (outsB m o3 o7)

theorem outsC_3 (c : Dev nD) : outsC m o3 o7 o9 3 main_v2 c = o3 (V2 m c) c := by
  unfold outsC; rw [put_of_ne _ _ _ _ _ _ _ (by decide)]
  unfold outsB; rw [put_of_ne _ _ _ _ _ _ _ (by decide)]
  unfold outsA; rw [put_self]

theorem outsB_3 (c : Dev nD) : outsB m o3 o7 3 main_v2 c = o3 (V2 m c) c := by
  unfold outsB; rw [put_of_ne _ _ _ _ _ _ _ (by decide)]
  unfold outsA; rw [put_self]

theorem outsA_3 (c : Dev nD) : outsA m o3 3 main_v2 c = o3 (V2 m c) c := by
  unfold outsA; rw [put_self]

theorem outsC_7 (c : Dev nD) : outsC m o3 o7 o9 7 main_v8 c = o7 (V6 m (outsA m o3) c) c := by
  unfold outsC; rw [put_of_ne _ _ _ _ _ _ _ (by decide)]
  unfold outsB; rw [put_self]

theorem outsB_7 (c : Dev nD) : outsB m o3 o7 7 main_v8 c = o7 (V6 m (outsA m o3) c) c := by
  unfold outsB; rw [put_self]

theorem outsC_9 (c : Dev nD) : outsC m o3 o7 o9 9 main_v12 c = o9 (V8 m (outsB m o3 o7) c) c := by
  unfold outsC; rw [put_self]

/-- The contents the first pair-sum kernel is entered from read only the distance kernel's output. -/
theorem V6_stage (c : Dev nD) : V6 m (outsC m o3 o7 o9) c = V6 m (outsA m o3) c := by
  show StableHlo.after hostOps1_2 (StableHlo.after hostOps1_1 (StableHlo.after hostOps1 (Function.update (V2 m c) main_v2 (outsC m o3 o7 o9 3 main_v2 c))))
    = StableHlo.after hostOps1_2 (StableHlo.after hostOps1_1 (StableHlo.after hostOps1 (Function.update (V2 m c) main_v2 (outsA m o3 3 main_v2 c))))
  rw [outsC_3, outsA_3]

/-- The contents the second pair-sum kernel is entered from read only the first two outputs. -/
theorem V8_stage (c : Dev nD) : V8 m (outsC m o3 o7 o9) c = V8 m (outsB m o3 o7) c := by
  show StableHlo.after hostOps2 (Function.update (V6 m (outsC m o3 o7 o9) c) main_v8 (outsC m o3 o7 o9 7 main_v8 c))
    = StableHlo.after hostOps2 (Function.update (V6 m (outsB m o3 o7) c) main_v8 (outsB m o3 o7 7 main_v8 c))
  have e : V6 m (outsB m o3 o7) c = V6 m (outsA m o3) c := by
    show StableHlo.after hostOps1_2 (StableHlo.after hostOps1_1 (StableHlo.after hostOps1 (Function.update (V2 m c) main_v2 (outsB m o3 o7 3 main_v2 c))))
      = StableHlo.after hostOps1_2 (StableHlo.after hostOps1_1 (StableHlo.after hostOps1 (Function.update (V2 m c) main_v2 (outsA m o3 3 main_v2 c))))
    rw [outsB_3, outsA_3]
  rw [V6_stage, e, outsC_7, outsB_7]

/-- So in the finished family each region's entry is what it leaves from the contents it is actually entered from. -/
theorem outs_7 (c : Dev nD) : outsC m o3 o7 o9 7 main_v8 c = o7 (V6 m (outsC m o3 o7 o9) c) c := by
  rw [outsC_7, V6_stage]

theorem outs_9 (c : Dev nD) : outsC m o3 o7 o9 9 main_v12 c = o9 (V8 m (outsC m o3 o7 o9) c) c := by
  rw [outsC_9, V8_stage]

end Stages

end Cert.KernelIdeal.Hand

end
-- ==== Proof.R0Body.lean ====
/-
  Region 0, the distance kernel: what its body leaves in its output buffer, and the body's triple.

  The body reads the 512x512 block x of the first operand whole, the four 512x512 slabs w_0 .. w_3 of the
  [4,512,512] block of the second operand one by one, and stores ONE 512x512 value over the whole output
  buffer: the elementwise maximum over k of exp (-(|x_b|^2 + |w_k,n|^2 - 2 <x_b, w_k,n>) / 10), spelt by the
  payloads k0_pay1 .. k0_pay5 of the skeleton.  The inputs' buffers are left as they were.
-/
import proofs.«134856_j3556232921452_1_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.R0

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The body's accesses -/

/-- The whole 512x512 buffer: the load of the first operand's block, and the one store into the output. -/
abbrev rX : Rect S512x512 := Rect.unit (s := S512x512) ![0, 0] S512x512.size inb_S512x512_S512x512_0_0
/-- Slab k of the [4,512,512] block: the rows (k, ·, ·). -/
abbrev rW0 : Rect S4x512x512 := Rect.unit (s := S4x512x512) ![0, 0, 0] S1x512x512.size inb_S4x512x512_S1x512x512_0_0_0
abbrev rW1 : Rect S4x512x512 := Rect.unit (s := S4x512x512) ![1, 0, 0] S1x512x512.size inb_S4x512x512_S1x512x512_1_0_0
abbrev rW2 : Rect S4x512x512 := Rect.unit (s := S4x512x512) ![2, 0, 0] S1x512x512.size inb_S4x512x512_S1x512x512_2_0_0
abbrev rW3 : Rect S4x512x512 := Rect.unit (s := S4x512x512) ![3, 0, 0] S1x512x512.size inb_S4x512x512_S1x512x512_3_0_0

/-! ## What the body leaves in the output buffer -/

/-- The stored value, from the block x of the first operand and the four slabs of the second: the running
    maximum of the four exponentials, the first two formed by the first part (k0_pay3, k0_pay4), the last two
    and the maxima by the second (k0_pay5). -/
def val0 (x : Vec F S512x512 .f32) (w0 w1 w2 w3 : Vec F S1x512x512 .f32) : Vec F S512x512 .f32 :=
  k0_pay5 (k0_pay1 x) (k0_pay2 x) (k0_pay3 x w0) (k0_pay4 x w1) (Scalar.ofBits .f32 0x41200000#32) w2 w3

/-- The output buffer after the body, from the two input buffers' contents: its one store, over the whole
    buffer, of val0 of what the loads read. -/
def out0 (x0 : Vec F S512x512 .f32) (x1 : Vec F S4x512x512 .f32) : Vec F S512x512 .f32 :=
  View.canon [⟨rX, val0 (View.ld x0 rX) (View.ld x1 rW0) (View.ld x1 rW1) (View.ld x1 rW2) (View.ld x1 rW3)⟩]

/-- The offsets of the whole-buffer rectangle are zero. -/
theorem hz : (![0, 0] : Fin S512x512.rank → Nat) = fun _ => 0 := by funext a; fin_cases a <;> rfl

/-- The store covers the buffer. -/
theorem cover0 (p0 : Vec F S512x512 .f32) (y : S512x512.Idx) :
    ∃ pc ∈ ([⟨rX, p0⟩] : List (View.Piece (Elt F) S512x512 .f32)), y ∈ pc.1.set :=
  ⟨_, List.mem_singleton_self _, View.mem_set_unit_zero hz inb_S512x512_S512x512_0_0 y⟩

/-- The output buffer holds val0 of x and the four slabs of the second operand's block. -/
theorem out0_eq (x0 : Vec F S512x512 .f32) (x1 : Vec F S4x512x512 .f32) :
    out0 x0 x1 = val0 x0 (View.ld x1 rW0) (View.ld x1 rW1) (View.ld x1 rW2) (View.ld x1 rW3) := by
  unfold out0
  rw [View.canon_unit_zero hz]
  simp only [View.ld_unit_zero (S := S512x512) hz]

/-! ## The body's triple -/

section Triple

variable {Ix : Type} [DecidableEq Ix] {U : Type} [URA U] {Lvl : Type} [Preorder Lvl]

local notation "𝕄" => MT nD τ sig Ix (Elt F) ℕ U Lvl

set_option maxHeartbeats 1000000 in
/-- The kernel body on whole staging memrefs, the two inputs' at read contents x0 and x1 and the output's at
    anything, runs to the continuation holding the inputs' as they were and the output's at out0 x0 x1. -/
theorem sound_kernel0 (𝒱₀ : Variants) (c : Dev nD) (E : Set ℕ) (i : grid0.Coords)
    (arg1 : Memref sig .tc .vmem S512x512 .f32) (harg1 : arg1.IsWhole)
    (arg2 : Memref sig .tc .vmem S4x512x512 .f32) (harg2 : arg2.IsWhole)
    (arg3 : Memref sig .tc .vmem S512x512 .f32) (harg3 : arg3.IsWhole)
    (x0 : Vec F S512x512 .f32) (x1 : Vec F S4x512x512 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0 x0 x1)) -∗ K ⟨⟩))
      ⊢ wp frame (wpE (defs₀ (F := F)) 𝒱₀ c none) E (cc0__distance_kernel i arg1 harg1 arg2 harg2 arg3 harg3) K := by
  simp only [cc0__distance_kernel_eq_skeleton]; unfold cc0__distance_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover0 _)).trans ?_
  unfold out0 val0
  sl_unfold_run_names
  rfl

end Triple

end Cert.KernelIdeal.R0

end
-- ==== Proof.PDats.lean ====
/-
  The proof data of the three kernel regions as one family over the pipeline index: a literal match, so that
  the family at a numeral reduces to that region's own data.
-/
import proofs.«134856_j3556232921452_1_alg».proof.Proof.Gen.KernelIdeal
import Idealize.ShloMosaic.Lib.Pipeline.Dat

noncomputable section

namespace Cert.KernelIdeal

open Cert.KernelIdeal.Gen
open Idealize.ShloMosaic Idealize.SL Idealize.SL.RA

variable {F : FTy → Type} [FloatOps F]
variable {Ix : Type} [DecidableEq Ix] {U : Type} [URA U] {Lvl : Type}

/-- Region p's proof data on each core: region 0's, region 1's, region 2's. -/
def pdats3 (d0 : (c : Dev nD) → Pipeline.Dat τ (Elt F) Ix ℕ U Lvl cfg0 c)
    (d1 : (c : Dev nD) → Pipeline.Dat τ (Elt F) Ix ℕ U Lvl cfg1 c)
    (d2 : (c : Dev nD) → Pipeline.Dat τ (Elt F) Ix ℕ U Lvl cfg2 c) :
    (p : Fin 3) → (c : Dev nD) → Pipeline.Dat τ (Elt F) Ix ℕ U Lvl (cfgs p) c
  | ⟨0, _⟩ => d0
  | ⟨1, _⟩ => d1
  | ⟨2, _⟩ => d2

end Cert.KernelIdeal

end
-- ==== Proof.R0Seg.lean ====
/-
  Region 0, the distance kernel, as a segment of the program: the proof data of its pipeline, the body
  obligation at every grid point, and the region's record.

  The grid has two points.  Window 0 is the whole first operand (one block, fetched at the first point and
  kept at the second), window 1 the block (·, t, ·) of the second operand, window 2 the block (·, t) of the
  result, written back at every point.  At point t the body leaves in the result's buffer out0 of the two
  input blocks at t, and leaves the inputs' buffers as it found them.
-/
import proofs.«134856_j3556232921452_1_alg».proof.Proof.R0Body
import proofs.«134856_j3556232921452_1_alg».proof.Proof.PDats
import proofs.«134856_j3556232921452_1_alg».proof.Proof.Gen.KernelIdeal.Launch
import proofs.«134856_j3556232921452_1_alg».proof.Proof.Gen.KernelIdeal.Points
import proofs.«134856_j3556232921452_1_alg».proof.Proof.Gen.KernelIdeal.Regions
import Idealize.ShloMosaic.Lib.Pipeline.FrameBody
import Idealize.ShloMosaic.Lib.Pipeline.Regions
import Idealize.ShloMosaic.Lib.Pipeline.RegionsLoop
import Idealize.ShloMosaic.Lib.Tactic

set_option maxRecDepth 16384

noncomputable section

namespace Cert.KernelIdeal.R0

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Segs

variable {Ix : Type} [DecidableEq Ix] {U : Type} [URA U] {Lvl : Type} [Preorder Lvl]

local notation "𝕄" => MT nD τ sig Ix (Elt F) ℕ U Lvl

/-! ## The windows' blocks -/

/-- Window w's block at point t, read off its array as the region finds it (V). -/
def blk0 (V : Valuation τ sig (Elt F)) (w : Fin cfg0.W) (t : Fin cfg0.N) :
    ((cfg0.win w).xblock (cfg0.grid.coords t)).Idx → Elt F (cfg0.win w).elt :=
  ((cfg0.win w).blk t).view.read (Elt F) (V (Pipeline.arrRef spec0 w))

/-! ## The proof data -/

/-- The proof data of the region on core c: the arrays as the region finds them; after the body at point t each
    input's buffer at its block and the result's at out0 of the two input blocks; the invariant the scoped
    buffers no window stages; nothing owed; full shares. -/
def dat0 (V : Valuation τ sig (Elt F)) (c : Dev nD) : Dat τ (Elt F) Ix ℕ U Lvl cfg0 c where
  A w := V (Pipeline.arrRef spec0 w)
  after w t := match w with
    | ⟨0, _⟩ => blk0 V 0 t
    | ⟨1, _⟩ => blk0 V 1 t
    | ⟨2, _⟩ => out0 (blk0 V 0 t) (blk0 V 1 t)
  Φ _ := Pipeline.scopedRest spec0 c
  q _ := fullShare
  owed _ := 0

variable (V : Valuation τ sig (Elt F)) (c : Dev nD)

theorem A_eq0 (w : Fin cfg0.W) : (dat0 (Ix := Ix) (U := U) (Lvl := Lvl) V c).A w = V (Pipeline.arrRef spec0 w) := by
  dsimp only [dat0]

theorem after0_0 (t : Fin cfg0.N) : (dat0 (Ix := Ix) (U := U) (Lvl := Lvl) V c).after 0 t = blk0 V 0 t := by dsimp only [dat0]
theorem after0_1 (t : Fin cfg0.N) : (dat0 (Ix := Ix) (U := U) (Lvl := Lvl) V c).after 1 t = blk0 V 1 t := by dsimp only [dat0]
theorem after0_2 (t : Fin cfg0.N) :
    (dat0 (Ix := Ix) (U := U) (Lvl := Lvl) V c).after 2 t = out0 (blk0 V 0 t) (blk0 V 1 t) := by dsimp only [dat0]

/-- The first operand's buffer holds its one block at both points: fetched at the first, kept at the second. -/
theorem before0_0 (t : Fin cfg0.N) (d) : (dat0 (Ix := Ix) (U := U) (Lvl := Lvl) V c).before 0 t d = blk0 V 0 t :=
  ((dat0 V c).before_in_eq_fetched 0 rfl (fun _ => rfl) (fun _ _ _ => rfl)
    (fun t => by rw [after0_0]; unfold Dat.blockOf blk0; rw [A_eq0]; try rfl) t d).trans
    (by unfold Dat.fetched Dat.blockOf blk0; rw [A_eq0]; try rfl)

/-- The second operand's buffer holds the block of the point: fetched at every point. -/
theorem before0_1 (t : Fin cfg0.N) (d) : (dat0 (Ix := Ix) (U := U) (Lvl := Lvl) V c).before 1 t d = blk0 V 1 t :=
  ((dat0 V c).before_in_eq_fetched 1 rfl (fun _ => rfl) (fun _ _ _ => rfl)
    (fun t => by rw [after0_1]; unfold Dat.blockOf blk0; rw [A_eq0]; try rfl) t d).trans
    (by unfold Dat.fetched Dat.blockOf blk0; rw [A_eq0]; try rfl)

/-! ## The body obligation, at a generic point -/

variable (𝒱₀ : Variants) (ι : Ix)

/-- What the body is called with at point t: the invariant, the core's dues, the three current buffers. -/
def bodyPre0 (t : Fin cfg0.N) : sProp 𝕄 :=
  iprop((dat0 (Ix := Ix) (U := U) (Lvl := Lvl) V c).Φ t.castSucc ∗ (dat0 (Ix := Ix) (U := U) (Lvl := Lvl) V c).owesAt ι t.castSucc
    ∗ (∃ d, owns (c : Thread nD τ) (st0_0 t) fullShare ((dat0 (Ix := Ix) (U := U) (Lvl := Lvl) V c).before 0 t d))
    ∗ (∃ d, owns (c : Thread nD τ) (st0_1 t) fullShare ((dat0 (Ix := Ix) (U := U) (Lvl := Lvl) V c).before 1 t d))
    ∗ (∃ d, owns (c : Thread nD τ) (st0_2 t) fullShare ((dat0 (Ix := Ix) (U := U) (Lvl := Lvl) V c).before 2 t d)))

/-- and what it returns. -/
def bodyPost0 (t : Fin cfg0.N) : sProp 𝕄 :=
  iprop((dat0 (Ix := Ix) (U := U) (Lvl := Lvl) V c).Φ t.succ ∗ (dat0 (Ix := Ix) (U := U) (Lvl := Lvl) V c).owesAt ι t.succ
    ∗ owns (c : Thread nD τ) (st0_0 t) fullShare ((dat0 (Ix := Ix) (U := U) (Lvl := Lvl) V c).after 0 t)
    ∗ owns (c : Thread nD τ) (st0_1 t) fullShare ((dat0 (Ix := Ix) (U := U) (Lvl := Lvl) V c).after 1 t)
    ∗ owns (c : Thread nD τ) (st0_2 t) fullShare ((dat0 (Ix := Ix) (U := U) (Lvl := Lvl) V c).after 2 t))

/-- The body at any point: the inputs' buffers hold their blocks, so the body's triple applies; the invariant
    and the core's dues pass through unread. -/
theorem sound_body0 (t : Fin cfg0.N) :
    (bodyPre0 (U := U) (Lvl := Lvl) V c ι t : sProp 𝕄) ⊢ wp frame (wpE (defs₀ (F := F)) 𝒱₀ c none) Set.univ (bodyAt0 t) (fun _ => bodyPost0 (U := U) (Lvl := Lvl) V c ι t) := by
  unfold bodyPre0 bodyPost0 bodyAt0
  simp only [before0_0, before0_1]
  rw [show (dat0 (Ix := Ix) (U := U) (Lvl := Lvl) V c).Φ t.succ = (dat0 V c).Φ t.castSucc from rfl,
    show (dat0 (Ix := Ix) (U := U) (Lvl := Lvl) V c).owesAt ι t.succ = (dat0 V c).owesAt ι t.castSucc from rfl,
    after0_0, after0_1, after0_2]
  iintro ⟨HΦ, Ho, ⟨%d0, H0⟩, ⟨%d1, H1⟩, ⟨%d2, H2⟩⟩
  iapply (sound_kernel0 𝒱₀ c Set.univ _ _ _ _ _ _ _ (blk0 V 0 t) (blk0 V 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 : BodyObligation (dat0 (Ix := Ix) (U := U) (Lvl := Lvl) V c) (defs₀ (F := F)) 𝒱₀ ι Set.univ := fun t => by
  rw [bigSep_W0, bigSep_W0]
  exact sound_body0 (U := U) (Lvl := Lvl) V c 𝒱₀ ι t

/-- The body obligation as the pipeline's loop uses it. -/
theorem body0 : Pipeline.BodyObligationLoose (dat0 (Ix := Ix) (U := U) (Lvl := Lvl) V c) (defs₀ (F := F)) 𝒱₀ ι Set.univ :=
  (body_obligation0 V c 𝒱₀ ι).loose

end Segs

/-! ## The region's record -/

section Record

variable {Ix : Type} [DecidableEq Ix] {U : Type} [URA U] {Lvl : Type} [Preorder Lvl]

local notation "𝕄" => MT nD τ sig Ix (Elt F) ℕ U Lvl

variable (V : (c : Dev nD) → Valuation τ sig (Elt F))
  (d1 : (c : Dev nD) → Dat τ (Elt F) Ix ℕ U Lvl cfg1 c) (d2 : (c : Dev nD) → Dat τ (Elt F) Ix ℕ U Lvl cfg2 c)

/-- The three regions' proof data with region 0's at the contents V. -/
abbrev pd : (p : Fin 3) → (c : Dev nD) → Dat τ (Elt F) Ix ℕ U Lvl (cfgs p) c :=
  pdats3 (fun c => dat0 (V c) c) d1 d2

/-- The contents V read at the TensorCore's references. -/
abbrev Vr (W : Valuation τ sig (Elt F)) (c : Dev nD) : (b : Ref sig .tc) → Buf (Elt F) ((c : Thread nD τ).loc b) := fun b => W b

/-- The contents the region leaves: V with the result array at what the two write-backs make of it. -/
abbrev Vout (c : Dev nD) : Valuation τ sig (Elt F) :=
  Function.update (V c) main_v2 ((dat0 (Ix := Ix) (U := U) (Lvl := Lvl) (V c) c).arrAt 2 2)

/-- Each array of the region holds at its end what Vout says: the inputs what they held, the result its
    write-backs. -/
theorem hF0 (c : Dev nD) (w : Fin cfg0.W) :
    (pd (Ix := Ix) (U := U) (Lvl := Lvl) V d1 d2 0 c).arrAt w cfg0.N = Vr (Vout (Ix := Ix) (U := U) (Lvl := Lvl) V c) c (Pipeline.arrRef spec0 w) := by
  match w with
  | ⟨0, _⟩ =>
    refine ((dat0 (V c) c).arrAt_in 0 rfl _).trans ?_
    rw [A_eq0]
    exact (Function.update_of_ne (StableHlo.devRef_ne_of_ne (by decide)) _ _).symm
  | ⟨1, _⟩ =>
    refine ((dat0 (V c) c).arrAt_in 1 rfl _).trans ?_
    rw [A_eq0]
    exact (Function.update_of_ne (StableHlo.devRef_ne_of_ne (by decide)) _ _).symm
  | ⟨2, _⟩ =>
    rw [show cfg0.N = 2 from N_0]
    exact (Function.update_self (Proc.devRef (τ := τ) .tc main_v2) _ (V c)).symm

/-- Every other unscoped buffer holds what it held. -/
theorem hrest0 (c : Dev nD) : ∀ b, b ∉ Finset.univ.image (Pipeline.arrRef spec0) →
    Vr (Vout (Ix := Ix) (U := U) (Lvl := Lvl) V c) c b = Vr (V c) c b := fun b hb =>
  Function.update_of_ne (StableHlo.devRef_ne_of_ne fun e => hb (Finset.mem_image.mpr ⟨2, Finset.mem_univ _, e.symm⟩)) _ _

end Record

section Record2

variable {Ix : Type} [DecidableEq Ix] {U : Type} [URA U] {Lvl : Type} [Preorder Lvl]

local notation "𝕄" => MT nD τ sig Ix (Elt F) ℕ U Lvl

variable (V : (c : Dev nD) → Valuation τ sig (Elt F))
  (d1 : (c : Dev nD) → Dat τ (Elt F) Ix ℕ U Lvl cfg1 c) (d2 : (c : Dev nD) → Dat τ (Elt F) Ix ℕ U Lvl cfg2 c)
  (ι : Ix) (𝒱₀ : Variants) (L : GSem nD τ sig → Finset Ix) (lv : GSem nD τ sig → Ix → Lvl)
  (E' : Dev nD → sProp (MT nD τ sig Ix (Elt F) ℕ U Lvl))

/-- The thread state the region is entered from: every unscoped buffer at V, the core owing nothing, the rest. -/
abbrev pre0 (c : Dev nD) : sProp 𝕄 :=
  iprop(StableHlo.held (c : Thread nD τ) (Pipeline.ucRefs τ sig) (V c)
    ∗ (∃ W, owes (c : Thread nD τ) (0 : CellTallies nD τ sig Ix) W) ∗ E' c)
/-- The thread state it leaves: the result array at its two write-backs, all else as entered. -/
abbrev post0 (c : Dev nD) : sProp 𝕄 :=
  iprop(StableHlo.held (c : Thread nD τ) (Pipeline.ucRefs τ sig) (Vout (Ix := Ix) (U := U) (Lvl := Lvl) V c)
    ∗ (∃ W, owes (c : Thread nD τ) (0 : CellTallies nD τ sig Ix) W) ∗ E' c)
/-- What bypasses the region: the unscoped buffers that are no array of it, and the rest. -/
abbrev Z0 (c : Dev nD) : sProp 𝕄 :=
  iprop(Pipeline.unscopedRest (Ix := Ix) (Name := ℕ) (U := U) (Lvl := Lvl) spec0 c (Vr (V c) c) ∗ E' c)

set_option backward.isDefEq.respectTransparency.types false in
/-- Entry: the region's arrays split out of the unscoped buffers, the dues at the first tallies. -/
theorem hentry0 (c : Dev nD) :
    iprop(pre0 V E' c ∗ Pipeline.ownSems0 (fun k : PEmpty => k.elim) c ∗ levAts L lv)
      ⊢ |={Set.univ}=> iprop((pd V d1 d2 0 c).arrays ((pd V d1 d2 0 c).arrAt · 0)
          ∗ Pipeline.prefHeld (pcfgs (F := F) 0).pre c (fun _ => fullShare) (adm (F := F) 0).1
          ∗ (pd V d1 d2 0 c).owesAt ι 0 ∗ (iprop(emp) : sProp 𝕄) ∗ Z0 V E' c) := by
  rw [Pipeline.ownSems0_none]
  have hsplit := Pipeline.arrays_of_unscopedBufs (p := 0) (pcfgs (F := F)) adm (pd V d1 d2) launch0.win launch0.arr_whole c
    ((pd V d1 d2 0 c).share_full fun _ => rfl) (Vr (V c) c) fun _ => rfl
  rw [Pipeline.unscopedBufs_held] at hsplit
  iintro ⟨⟨Hub, HO, HE⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    icases HO with ⟨%W, HO⟩; iexists W; isplitr; · ipureintro; exact fun _ _ => Or.inl trivial
    iexact HO
  isplitr; · iempintro
  isplitl [Hrest]; · iexact Hrest
  iexact HE

set_option backward.isDefEq.respectTransparency.types false in
/-- Exit: the arrays at their final contents put back among the unscoped buffers. -/
theorem hexit0 (c : Dev nD) :
    iprop((pd V d1 d2 0 c).arrays ((pd V d1 d2 0 c).arrAt · cfg0.N) ∗ (pd V d1 d2 0 c).owesAt ι (Fin.last cfg0.N)
        ∗ (iprop(emp) : sProp 𝕄) ∗ Z0 V E' c)
      ⊢ |={Set.univ}=> post0 V E' c := by
  have hjoin := Pipeline.unscopedBufs_of_arrays (p := 0) (pcfgs (F := F)) adm (Ix := Ix) (Name := ℕ) (U := U) (Lvl := Lvl)
    launch0.win launch0.arr_whole c (pd V d1 d2) ((pd V d1 d2 0 c).share_full fun _ => rfl)
    (Vr (V c) c) (Vr (Vout (Ix := Ix) (U := U) (Lvl := Lvl) V c) c) ((pd V d1 d2 0 c).arrAt · cfg0.N) (hF0 V d1 d2 c) (hrest0 V c)
  rw [Pipeline.unscopedBufs_held] at hjoin
  iintro ⟨Ha, HO, -, Hrest, HE⟩
  imodintro
  isplitl [Ha Hrest]
  · iapply hjoin; isplitl [Ha] <;> iassumption
  isplitl [HO]
  · unfold Pipeline.Dat.owesAt Pipeline.owesWithin
    icases HO with ⟨%W, -, HO⟩; iexists W; iexact HO
  iexact HE

set_option backward.isDefEq.respectTransparency.types false in
/-- Region 0 over the thread state "every unscoped buffer at V, the core owing nothing, a rest E'": entered from
    V, left at V with the result array at its two write-backs.  Its arrays split out of the unscoped buffers and
    put back at the exit contents; nothing owed; no semaphore of the kernel's own; the rest bypasses the region. -/
def R0 : Pipeline.RegionSeg (pcfgs (F := F)) adm (pd V d1 d2) ι defs₀ 𝒱₀ L lv 0 where
  win := launch0.win.to₀
  block_pos := launch0.block_pos
  stage_whole := launch0.stage_whole
  K := PEmpty
  osem k := k.elim
  ho := Pipeline.OwnSemFacts.none _
  hbody c := body0 (V c) c 𝒱₀ ι
  hwaits := Pipeline.hwaits_of_owed_zero _ _ _ _ L lv 0 fun _ _ => rfl
  pre := pre0 V E'
  post := post0 V E'
  X _ := iprop(emp)
  Y _ := iprop(emp)
  Z := Z0 V E'
  hentry c := hentry0 V d1 d2 ι L lv E' c
  hin c := by
    rw [show (pd V d1 d2 0 c).Φ 0 = Pipeline.scopedRest spec0 c from rfl]
    iintro ⟨-, -, Hr⟩
    iexact Hr
  hout c := by
    rw [Pipeline.ownSems0_none, show (pd V d1 d2 0 c).Φ (Fin.last _) = Pipeline.scopedRest spec0 c from rfl]
    iintro Hr
    isplitr; · iempintro
    isplitr; · iempintro
    iexact Hr
  hexit c := hexit0 V d1 d2 ι E' c

end Record2

end Cert.KernelIdeal.R0

end
-- ==== Proof.R1Step.lean ====
import proofs.«134856_j3556232921452_1_alg».proof.Proof.Gen.KernelIdeal.Launch
import proofs.«134856_j3556232921452_1_alg».proof.Proof.Gen.KernelIdeal.Skeleton
import proofs.«134856_j3556232921452_1_alg».proof.Proof.Gen.KernelIdeal.Points
import Idealize.ShloMosaic.Lib.Pipeline.FrameBody
import Idealize.ShloMosaic.Lib.Pipeline.Value

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! # The pair-sum kernel: what one grid point adds to the accumulator

The grid is 8 x 8. At point (i, j) the body reads row blocks i and j of the padded points (512 x 512 each) and the
blocks i and j of their squared norms (512 each). It forms the 512 x 512 block
n_a + n_b - 2 (a b^T), the product taken of the two blocks rounded to bf16, keeps the entries whose global row index
512 i + r is below the global column index 512 j + s with both below 4000, puts zero elsewhere, sums the block, and
adds the sum to a 1 x 1 accumulator, which it first sets to zero at the point (0, 0). -/

/-- The guard of the zeroing store: both grid coordinates are zero (the scalar chain as printed). -/
abbrev cond1 (i : grid1.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- The guard holds at the first point of the grid and at no other. -/
theorem hcond1 : ∀ t : Fin cfg1.N, cond1 (grid1.coords t) ↔ t.val = 0 :=
  (by decide +kernel : ∀ t : Fin grid1.N, cond1 (grid1.coords t) ↔ t.val = 0)

/-- One accumulation at point `i`: the masked sum of the block built from `(x0, s0)` against `(x1, s1)`, added to `a`. -/
def step1 (i : grid1.Coords) (x0 x1 : Vec F S512x512 .f32) (s0 s1 : Vec F S512 .f32) (a : Vec F S1x1 .f32) : Vec F S1x1 .f32 :=
  k1_pay1 (k1_pay3 x0 x1 s0 s1) (k1_pay4 i) (k1_pay5 (F := F)) a

/-- What the body leaves in the accumulator at point `i`, having found `acc` there: one accumulation onto zero at the
    point (0, 0), onto `acc` at every other point. -/
def acc1 (i : grid1.Coords) (x0 x1 : Vec F S512x512 .f32) (s0 s1 : Vec F S512 .f32) (acc : Vec F S1x1 .f32) : Vec F S1x1 .f32 :=
  step1 i x0 x1 s0 s1 (if cond1 i then k1_pay2 (F := F) else acc)

theorem acc1_first (i : grid1.Coords) (hc : cond1 i) (x0 x1 : Vec F S512x512 .f32) (s0 s1 : Vec F S512 .f32) (acc : Vec F S1x1 .f32) :
    acc1 i x0 x1 s0 s1 acc = step1 i x0 x1 s0 s1 (k1_pay2 (F := F)) := by
  unfold acc1; rw [if_pos hc]

theorem acc1_later (i : grid1.Coords) (hc : ¬cond1 i) (x0 x1 : Vec F S512x512 .f32) (s0 s1 : Vec F S512 .f32) (acc : Vec F S1x1 .f32) :
    acc1 i x0 x1 s0 s1 acc = step1 i x0 x1 s0 s1 acc := by
  unfold acc1; rw [if_neg hc]

/-- The zero offsets of a rank-2 and of a rank-1 whole-buffer rectangle. -/
theorem hz2 : (![0, 0] : Fin 2 → Nat) = fun _ => 0 := funext fun a => by fin_cases a <;> rfl
theorem hz1 : (![0] : Fin 1 → Nat) = fun _ => 0 := funext fun a => by fin_cases a <;> rfl

end Cert.KernelIdeal.R1

end
-- ==== Proof.R1BodyFirst.lean ====
import proofs.«134856_j3556232921452_1_alg».proof.Proof.R1Step
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! # The pair-sum kernel's body at the point (0, 0) -/

set_option maxHeartbeats 1000000 in
/-- THE FIRST POINT. From the four input buffers held whole at `x0 x1 s0 s1` and the accumulator's buffer at anything,
    the body runs to its return leaving the inputs as they were and the accumulator at one accumulation onto zero:
    the zeroing store happens, and the read-back before the last store reads the zero it wrote. -/
theorem body_first (𝒱₀ : Variants) (c : Dev nD) (i : grid1.Coords)
    (arg2 : Memref sig .tc .vmem S512x512 .f32) (harg2 : arg2.IsWhole) (arg3 : Memref sig .tc .vmem S512x512 .f32) (harg3 : arg3.IsWhole)
    (arg4 : Memref sig .tc .vmem S512 .f32) (harg4 : arg4.IsWhole) (arg5 : Memref sig .tc .vmem S512 .f32) (harg5 : arg5.IsWhole)
    (arg6 : Memref sig .tc .vmem S1x1 .f32) (harg6 : arg6.IsWhole) (hc : cond1 i)
    (x0 x1 : Vec F S512x512 .f32) (s0 s1 : Vec F S512 .f32) (E : Set ℕ) (K : PUnit → sProp 𝕄) :
    iprop(owns (c : Thread nD τ) arg2 fullShare x0 ∗ owns (c : Thread nD τ) arg3 fullShare x1
        ∗ owns (c : Thread nD τ) arg4 fullShare s0 ∗ owns (c : Thread nD τ) arg5 fullShare s1
        ∗ (∃ d, owns (c : Thread nD τ) arg6 fullShare d)
        ∗ (iprop(owns (c : Thread nD τ) arg2 fullShare x0 ∗ owns (c : Thread nD τ) arg3 fullShare x1
        ∗ owns (c : Thread nD τ) arg4 fullShare s0 ∗ owns (c : Thread nD τ) arg5 fullShare s1
            ∗ owns (c : Thread nD τ) arg6 fullShare (step1 i x0 x1 s0 s1 (k1_pay2 (F := F)))) -∗ K ⟨⟩))
      ⊢ wp frame (wpE (defs₀ (F := F)) 𝒱₀ c none) E (cc1_kernel i arg2 harg2 arg3 harg3 arg4 harg4 arg5 harg5 arg6 harg6) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1
  obtain rfl := harg4.eq_unread hf2; obtain rfl := harg5.eq_unread hf3
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap; (· iexact H4)
  ipureintro
  rw [View.read_writes_eq_canon _ _ _ (fun y => ⟨_, List.mem_cons_self, View.mem_set_unit_zero (S := S1x1) hz2 inb_S1x1_S1x1_0_0 y⟩)]
  rw [View.canon_cons_unit_zero (S := S1x1) hz2]
  sl_unfold_words
  rw [View.readCov_unit_zero (S := S1x1) _ hz2]
  unfold step1
  simp only [View.readAt_eq_ld, harg2.read_unread, harg3.read_unread, harg4.read_unread, harg5.read_unread,
    View.ld_unit_zero (S := S512x512) hz2, View.ld_unit_zero (S := S512) hz1]

end Cert.KernelIdeal.R1

end
-- ==== Proof.R1BodyLater.lean ====
import proofs.«134856_j3556232921452_1_alg».proof.Proof.R1Step
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! # The pair-sum kernel's body at a point other than (0, 0) -/

set_option maxHeartbeats 1000000 in
/-- A LATER POINT. From the four input buffers held whole at `x0 x1 s0 s1` and the accumulator's buffer at `acc`, the
    body runs to its return leaving the inputs as they were and the accumulator at one accumulation onto `acc`: the
    zeroing store does not happen. -/
theorem body_later (𝒱₀ : Variants) (c : Dev nD) (i : grid1.Coords)
    (arg2 : Memref sig .tc .vmem S512x512 .f32) (harg2 : arg2.IsWhole) (arg3 : Memref sig .tc .vmem S512x512 .f32) (harg3 : arg3.IsWhole)
    (arg4 : Memref sig .tc .vmem S512 .f32) (harg4 : arg4.IsWhole) (arg5 : Memref sig .tc .vmem S512 .f32) (harg5 : arg5.IsWhole)
    (arg6 : Memref sig .tc .vmem S1x1 .f32) (harg6 : arg6.IsWhole) (hc : ¬cond1 i)
    (x0 x1 : Vec F S512x512 .f32) (s0 s1 : Vec F S512 .f32) (acc : Vec F S1x1 .f32) (E : Set ℕ) (K : PUnit → sProp 𝕄) :
    iprop(owns (c : Thread nD τ) arg2 fullShare x0 ∗ owns (c : Thread nD τ) arg3 fullShare x1
        ∗ owns (c : Thread nD τ) arg4 fullShare s0 ∗ owns (c : Thread nD τ) arg5 fullShare s1
        ∗ owns (c : Thread nD τ) arg6 fullShare acc
        ∗ (iprop(owns (c : Thread nD τ) arg2 fullShare x0 ∗ owns (c : Thread nD τ) arg3 fullShare x1
        ∗ owns (c : Thread nD τ) arg4 fullShare s0 ∗ owns (c : Thread nD τ) arg5 fullShare s1
            ∗ owns (c : Thread nD τ) arg6 fullShare (step1 i x0 x1 s0 s1 acc)) -∗ K ⟨⟩))
      ⊢ wp frame (wpE (defs₀ (F := F)) 𝒱₀ c none) E (cc1_kernel i arg2 harg2 arg3 harg3 arg4 harg4 arg5 harg5 arg6 harg6) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1
  obtain rfl := harg4.eq_unread hf2; obtain rfl := harg5.eq_unread hf3
  obtain rfl := harg6.eq_unread hf4
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap; (· iexact H4)
  ipureintro
  rw [View.read_writes_eq_canon _ _ _ (fun y => ⟨_, List.mem_cons_self, View.mem_set_unit_zero (S := S1x1) hz2 inb_S1x1_S1x1_0_0 y⟩)]
  rw [View.canon_cons_unit_zero (S := S1x1) hz2]
  sl_unfold_words
  unfold step1
  simp only [View.readAt_eq_ld, harg2.read_unread, harg3.read_unread, harg4.read_unread, harg5.read_unread, harg6.read_unread,
    View.ld_unit_zero (S := S512x512) hz2, View.ld_unit_zero (S := S512) hz1, View.ld_unit_zero (S := S1x1) hz2]

end Cert.KernelIdeal.R1

end
-- ==== Proof.R1Body.lean ====
import proofs.«134856_j3556232921452_1_alg».proof.Proof.R1BodyFirst
import proofs.«134856_j3556232921452_1_alg».proof.Proof.R1BodyLater

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

/-! # The pair-sum kernel's body at any grid point -/

/-- AT ANY POINT. From the four input buffers held whole at `x0 x1 s0 s1` and the accumulator's buffer at `acc`, the body
    runs to its return leaving the inputs as they were and the accumulator at `acc1 i x0 x1 s0 s1 acc`: by cases on the
    guard of the zeroing store. -/
theorem kernel1 (𝒱₀ : Variants) (c : Dev nD) (i : grid1.Coords)
    (arg2 : Memref sig .tc .vmem S512x512 .f32) (harg2 : arg2.IsWhole) (arg3 : Memref sig .tc .vmem S512x512 .f32) (harg3 : arg3.IsWhole)
    (arg4 : Memref sig .tc .vmem S512 .f32) (harg4 : arg4.IsWhole) (arg5 : Memref sig .tc .vmem S512 .f32) (harg5 : arg5.IsWhole)
    (arg6 : Memref sig .tc .vmem S1x1 .f32) (harg6 : arg6.IsWhole)
    (x0 x1 : Vec F S512x512 .f32) (s0 s1 : Vec F S512 .f32) (acc : Vec F S1x1 .f32) (E : Set ℕ) (K : PUnit → sProp 𝕄) :
    iprop(owns (c : Thread nD τ) arg2 fullShare x0 ∗ owns (c : Thread nD τ) arg3 fullShare x1
        ∗ owns (c : Thread nD τ) arg4 fullShare s0 ∗ owns (c : Thread nD τ) arg5 fullShare s1
        ∗ owns (c : Thread nD τ) arg6 fullShare acc
        ∗ (iprop(owns (c : Thread nD τ) arg2 fullShare x0 ∗ owns (c : Thread nD τ) arg3 fullShare x1
        ∗ owns (c : Thread nD τ) arg4 fullShare s0 ∗ owns (c : Thread nD τ) arg5 fullShare s1
            ∗ owns (c : Thread nD τ) arg6 fullShare (acc1 i x0 x1 s0 s1 acc)) -∗ K ⟨⟩))
      ⊢ wp frame (wpE (defs₀ (F := F)) 𝒱₀ c none) E (cc1_kernel i arg2 harg2 arg3 harg3 arg4 harg4 arg5 harg5 arg6 harg6) K := by
  by_cases hc : cond1 i
  · rw [acc1_first i hc]
    iintro ⟨H0, H1, H2, H3, H4, Hk⟩
    iapply (body_first 𝒱₀ c i arg2 harg2 arg3 harg3 arg4 harg4 arg5 harg5 arg6 harg6 hc x0 x1 s0 s1 E K)
    isplitl [H0]; · iexact H0
    isplitl [H1]; · iexact H1
    isplitl [H2]; · iexact H2
    isplitl [H3]; · iexact H3
    isplitl [H4]; · iexists _; iexact H4
    iexact Hk
  · rw [acc1_later i hc]
    exact body_later 𝒱₀ c i arg2 harg2 arg3 harg3 arg4 harg4 arg5 harg5 arg6 harg6 hc x0 x1 s0 s1 acc E K

end Cert.KernelIdeal.R1

end
-- ==== Proof.R1Dat.lean ====
import proofs.«134856_j3556232921452_1_alg».proof.Proof.R1Body
import proofs.«134856_j3556232921452_1_alg».proof.Proof.Gen.KernelIdeal.Regions
import Idealize.ShloMosaic.Lib.Pipeline.Frame
import Idealize.ShloMosaic.Lib.Pipeline.FrameBody

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! # The pair-sum region's proof data

Windows 0 and 1 stage row blocks i and j of the padded points, windows 2 and 3 blocks i and j of their squared norms,
window 4 the 1 x 1 result. The body only reads the four inputs, so after it each holds its block; the result's buffer
is the running sum, carried from point to point and written back once, after the last point. Two windows on one
array each hold a half share of it. -/

variable (V : Valuation τ sig (Elt F)) (c : Dev nD)

/-- Window `w`'s block at point `t`, read off its array as the region finds it. -/
def blk1 (w : Fin cfg1.W) (t : Fin cfg1.N) : ((cfg1.win w).xblock (cfg1.grid.coords t)).Idx → Elt F (cfg1.win w).elt :=
  ((cfg1.win w).blk t).view.read (Elt F) (V (Pipeline.arrRef spec1 w))

/-- THE RUNNING SUM after point `n`: one accumulation at the point, of its four blocks, onto the sum after the point
    before (at the first point the body starts from zero whatever it is given). -/
def accAt : (n : ℕ) → n < cfg1.N → Vec F S1x1 .f32
  | 0, h => acc1 (grid1.coords ⟨0, h⟩) (blk1 V 0 ⟨0, h⟩) (blk1 V 1 ⟨0, h⟩) (blk1 V 2 ⟨0, h⟩) (blk1 V 3 ⟨0, h⟩) (k1_pay2 (F := F))
  | n + 1, h => acc1 (grid1.coords ⟨n + 1, h⟩) (blk1 V 0 ⟨n + 1, h⟩) (blk1 V 1 ⟨n + 1, h⟩) (blk1 V 2 ⟨n + 1, h⟩) (blk1 V 3 ⟨n + 1, h⟩)
      (accAt n (Nat.lt_of_succ_lt h))

theorem accAt_zero (h : 0 < cfg1.N) :
    accAt V 0 h = acc1 (grid1.coords ⟨0, h⟩) (blk1 V 0 ⟨0, h⟩) (blk1 V 1 ⟨0, h⟩) (blk1 V 2 ⟨0, h⟩) (blk1 V 3 ⟨0, h⟩) (k1_pay2 (F := F)) := rfl

theorem accAt_succ (n : ℕ) (h : n + 1 < cfg1.N) :
    accAt V (n + 1) h = acc1 (grid1.coords ⟨n + 1, h⟩) (blk1 V 0 ⟨n + 1, h⟩) (blk1 V 1 ⟨n + 1, h⟩) (blk1 V 2 ⟨n + 1, h⟩) (blk1 V 3 ⟨n + 1, h⟩)
      (accAt V n (Nat.lt_of_succ_lt h)) := rfl

/-- The proof data on core `c`: the arrays as the region finds them; after the body each input's buffer at its block
    and the result's at the running sum; the invariant the scoped buffers no window stages; a half share of an array
    two windows read; nothing owed. -/
def dat1 : Dat τ (Elt F) Ix ℕ U Lvl cfg1 c where
  A w := V (Pipeline.arrRef spec1 w)
  after w t := match w with
    | ⟨0, _⟩ => blk1 V 0 t
    | ⟨1, _⟩ => blk1 V 1 t
    | ⟨2, _⟩ => blk1 V 2 t
    | ⟨3, _⟩ => blk1 V 3 t
    | ⟨4, _⟩ => accAt V t.val t.isLt
  Φ _ := Pipeline.scopedRest (Ix := Ix) (Name := ℕ) (U := U) (Lvl := Lvl) (Val := Elt F) spec1 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (w : Fin cfg1.W) : (dat1 (Ix := Ix) (U := U) (Lvl := Lvl) V c).A w = V (Pipeline.arrRef spec1 w) := by
  dsimp only [dat1]

theorem after1_0 (t : Fin cfg1.N) : (dat1 (Ix := Ix) (U := U) (Lvl := Lvl) V c).after 0 t = blk1 V 0 t := by dsimp only [dat1]
theorem after1_1 (t : Fin cfg1.N) : (dat1 (Ix := Ix) (U := U) (Lvl := Lvl) V c).after 1 t = blk1 V 1 t := by dsimp only [dat1]
theorem after1_2 (t : Fin cfg1.N) : (dat1 (Ix := Ix) (U := U) (Lvl := Lvl) V c).after 2 t = blk1 V 2 t := by dsimp only [dat1]
theorem after1_3 (t : Fin cfg1.N) : (dat1 (Ix := Ix) (U := U) (Lvl := Lvl) V c).after 3 t = blk1 V 3 t := by dsimp only [dat1]
theorem after1_4 (t : Fin cfg1.N) : (dat1 (Ix := Ix) (U := U) (Lvl := Lvl) V c).after 4 t = accAt V t.val t.isLt := by dsimp only [dat1]

/-! ## What the body finds in each staging buffer -/

/-- Each input's current staging buffer holds its block at every point, fetched there or not: unfetched, the block
    index has not moved since the point before, and the body left the block in place. -/
theorem before1_0 (t : Fin cfg1.N) (d) : (dat1 (Ix := Ix) (U := U) (Lvl := Lvl) V c).before 0 t d = blk1 V 0 t :=
  ((dat1 (Ix := Ix) (U := U) (Lvl := Lvl) V c).before_in_eq_fetched 0 rfl (fun _ => rfl) (fun _ _ _ => rfl)
    (fun t => by rw [after1_0]; unfold Dat.blockOf blk1; rw [A_eq]; try rfl) t d).trans
    (by unfold Dat.fetched Dat.blockOf blk1; rw [A_eq]; try rfl)
theorem before1_1 (t : Fin cfg1.N) (d) : (dat1 (Ix := Ix) (U := U) (Lvl := Lvl) V c).before 1 t d = blk1 V 1 t :=
  ((dat1 (Ix := Ix) (U := U) (Lvl := Lvl) V c).before_in_eq_fetched 1 rfl (fun _ => rfl) (fun _ _ _ => rfl)
    (fun t => by rw [after1_1]; unfold Dat.blockOf blk1; rw [A_eq]; try rfl) t d).trans
    (by unfold Dat.fetched Dat.blockOf blk1; rw [A_eq]; try rfl)
theorem before1_2 (t : Fin cfg1.N) (d) : (dat1 (Ix := Ix) (U := U) (Lvl := Lvl) V c).before 2 t d = blk1 V 2 t :=
  ((dat1 (Ix := Ix) (U := U) (Lvl := Lvl) V c).before_in_eq_fetched 2 rfl (fun _ => rfl) (fun _ _ _ => rfl)
    (fun t => by rw [after1_2]; unfold Dat.blockOf blk1; rw [A_eq]; try rfl) t d).trans
    (by unfold Dat.fetched Dat.blockOf blk1; rw [A_eq]; try rfl)
theorem before1_3 (t : Fin cfg1.N) (d) : (dat1 (Ix := Ix) (U := U) (Lvl := Lvl) V c).before 3 t d = blk1 V 3 t :=
  ((dat1 (Ix := Ix) (U := U) (Lvl := Lvl) V c).before_in_eq_fetched 3 rfl (fun _ => rfl) (fun _ _ _ => rfl)
    (fun t => by rw [after1_3]; unfold Dat.blockOf blk1; rw [A_eq]; try rfl) t d).trans
    (by unfold Dat.fetched Dat.blockOf blk1; rw [A_eq]; try rfl)

/-- After the first point the result's staging buffer holds the running sum the point before left: it is written back
    only after the last point, the window is live and uncut. -/
theorem before1_4_later (t : Fin cfg1.N) (h0 : t.val ≠ 0) (d) :
    (dat1 (Ix := Ix) (U := U) (Lvl := Lvl) V c).before 4 t d = accAt V (t.val - 1) (Nat.lt_of_le_of_lt (Nat.sub_le _ _) t.isLt) := by
  have hN : t.val < 64 := lt_of_lt_of_eq t.isLt (show cfg1.N = 64 from N_1)
  rw [Dat.before_out_kept (dat1 (Ix := Ix) (U := U) (Lvl := Lvl) V c) 4 rfl t h0 (Bool.eq_false_iff.mpr fun h => by have := (flush1_4 _).mp h; dsimp only at this; omega)
    (fun _ => rfl) (fun _ _ => rfl)]
  dsimp only [dat1]

/-- The running sum at the first point, -/
theorem accAt_first (t : Fin cfg1.N) (h0 : t.val = 0) :
    accAt V t.val t.isLt = step1 (grid1.coords t) (blk1 V 0 t) (blk1 V 1 t) (blk1 V 2 t) (blk1 V 3 t) (k1_pay2 (F := F)) := by
  obtain ⟨n, hn⟩ := t
  cases n with
  | zero => exact acc1_first _ ((hcond1 ⟨0, hn⟩).mpr rfl) _ _ _ _ _
  | succ n => exact absurd h0 (Nat.succ_ne_zero n)

/-- and at a later one. -/
theorem accAt_later (t : Fin cfg1.N) (h0 : t.val ≠ 0) :
    accAt V t.val t.isLt = step1 (grid1.coords t) (blk1 V 0 t) (blk1 V 1 t) (blk1 V 2 t) (blk1 V 3 t)
      (accAt V (t.val - 1) (Nat.lt_of_le_of_lt (Nat.sub_le _ _) t.isLt)) := by
  obtain ⟨n, hn⟩ := t
  cases n with
  | zero => exact absurd rfl h0
  | succ n => exact acc1_later _ (fun h => h0 ((hcond1 ⟨n + 1, hn⟩).mp h)) _ _ _ _ _

/-! ## The body obligation -/

/-- What the body is called with at point `t`, the windows one by one, -/
def bodyPre (ι : Ix) (t : Fin cfg1.N) : sProp 𝕄 :=
  iprop((dat1 (Ix := Ix) (U := U) (Lvl := Lvl) V c).Φ t.castSucc ∗ (dat1 (Ix := Ix) (U := U) (Lvl := Lvl) V c).owesAt ι t.castSucc
    ∗ (∃ d, owns (c : Thread nD τ) (st1_0 t) fullShare ((dat1 (Ix := Ix) (U := U) (Lvl := Lvl) V c).before 0 t d))
    ∗ (∃ d, owns (c : Thread nD τ) (st1_1 t) fullShare ((dat1 (Ix := Ix) (U := U) (Lvl := Lvl) V c).before 1 t d))
    ∗ (∃ d, owns (c : Thread nD τ) (st1_2 t) fullShare ((dat1 (Ix := Ix) (U := U) (Lvl := Lvl) V c).before 2 t d))
    ∗ (∃ d, owns (c : Thread nD τ) (st1_3 t) fullShare ((dat1 (Ix := Ix) (U := U) (Lvl := Lvl) V c).before 3 t d))
    ∗ (∃ d, owns (c : Thread nD τ) (st1_4 t) fullShare ((dat1 (Ix := Ix) (U := U) (Lvl := Lvl) V c).before 4 t d)))

/-- and what it returns. -/
def bodyPost (ι : Ix) (t : Fin cfg1.N) : sProp 𝕄 :=
  iprop((dat1 (Ix := Ix) (U := U) (Lvl := Lvl) V c).Φ t.succ ∗ (dat1 (Ix := Ix) (U := U) (Lvl := Lvl) V c).owesAt ι t.succ
    ∗ owns (c : Thread nD τ) (st1_0 t) fullShare ((dat1 (Ix := Ix) (U := U) (Lvl := Lvl) V c).after 0 t)
    ∗ owns (c : Thread nD τ) (st1_1 t) fullShare ((dat1 (Ix := Ix) (U := U) (Lvl := Lvl) V c).after 1 t)
    ∗ owns (c : Thread nD τ) (st1_2 t) fullShare ((dat1 (Ix := Ix) (U := U) (Lvl := Lvl) V c).after 2 t)
    ∗ owns (c : Thread nD τ) (st1_3 t) fullShare ((dat1 (Ix := Ix) (U := U) (Lvl := Lvl) V c).after 3 t)
    ∗ owns (c : Thread nD τ) (st1_4 t) fullShare ((dat1 (Ix := Ix) (U := U) (Lvl := Lvl) V c).after 4 t))

set_option maxHeartbeats 800000 in
/-- The body at any point: the inputs' buffers hold their blocks; at the first point the result's buffer holds anything
    and the body starts the sum from zero, at a later point it holds the sum so far and the body adds to it; the
    invariant passes through unread; the core owes nothing throughout. -/
theorem sound_body (𝒱₀ : Variants) (ι : Ix) (t : Fin cfg1.N) :
    bodyPre (U := U) (Lvl := Lvl) V c ι t ⊢ wp frame (wpE (defs₀ (F := F)) 𝒱₀ c none) Set.univ (bodyAt1 t) (fun _ => bodyPost (U := U) (Lvl := Lvl) V c ι t) := by
  unfold bodyPre bodyPost bodyAt1
  simp only [before1_0, before1_1, before1_2, before1_3]
  rw [show (dat1 (Ix := Ix) (U := U) (Lvl := Lvl) V c).Φ t.succ = (dat1 (Ix := Ix) (U := U) (Lvl := Lvl) V c).Φ t.castSucc from rfl,
    show (dat1 (Ix := Ix) (U := U) (Lvl := Lvl) V c).owesAt ι t.succ = (dat1 (Ix := Ix) (U := U) (Lvl := Lvl) V c).owesAt ι t.castSucc from rfl,
    after1_0, after1_1, after1_2, after1_3, after1_4]
  by_cases h0 : t.val = 0
  · rw [accAt_first V t h0]
    iintro ⟨HΦ, Ho, ⟨%d0, H0⟩, ⟨%d1, H1⟩, ⟨%d2, H2⟩, ⟨%d3, H3⟩, ⟨%d4, H4⟩⟩
    iapply (body_first 𝒱₀ c (grid1.coords t) _ _ _ _ _ _ _ _ _ _ ((hcond1 t).mpr h0) (blk1 V 0 t) (blk1 V 1 t) (blk1 V 2 t) (blk1 V 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [accAt_later V t h0]
    simp only [before1_4_later V c t h0]
    iintro ⟨HΦ, Ho, ⟨%d0, H0⟩, ⟨%d1, H1⟩, ⟨%d2, H2⟩, ⟨%d3, H3⟩, ⟨%d4, H4⟩⟩
    iapply (body_later 𝒱₀ c (grid1.coords t) _ _ _ _ _ _ _ _ _ _ (fun h => h0 ((hcond1 t).mp h)) (blk1 V 0 t) (blk1 V 1 t) (blk1 V 2 t) (blk1 V 3 t) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body1 (𝒱₀ : Variants) (ι : Ix) : BodyObligationLoose (dat1 (Ix := Ix) (U := U) (Lvl := Lvl) V c) (defs₀ (F := F)) 𝒱₀ ι Set.univ :=
  have h : BodyObligation (dat1 (Ix := Ix) (U := U) (Lvl := Lvl) V c) (defs₀ (F := F)) 𝒱₀ ι Set.univ := fun t => by
    rw [bigSep_W1, bigSep_W1]
    exact sound_body (U := U) (Lvl := Lvl) V c 𝒱₀ ι t
  h.loose

end Cert.KernelIdeal.R1

end
-- ==== Proof.R1Seg.lean ====
import proofs.«134856_j3556232921452_1_alg».proof.Proof.R1Dat
import proofs.«134856_j3556232921452_1_alg».proof.Proof.PDats
import Idealize.ShloMosaic.Lib.Pipeline.Regions

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! # The pair-sum region as a segment of the program

The region is entered holding every unscoped buffer whole. Three of them are its arrays: the padded points, read by
windows 0 and 1, their squared norms, read by windows 2 and 3, and the 1 x 1 result. An array two windows read is
dealt to them as the two halves of its full share, and the halves are joined again when the region is left; the
result's array comes back holding the last running sum; every other unscoped buffer goes round the region untouched. -/

/-- The buffers behind the region's arrays, one by one. -/
theorem arrBufs1_eq (c : Dev nD) (W : (b : Ref sig .tc) → Buf (Elt F) ((c : Thread nD τ).loc b)) :
    (Pipeline.arrBufs (Ix := Ix) (Name := ℕ) (U := U) (Lvl := Lvl) spec1 c W : sProp 𝕄)
      = iprop((((c : Thread nD τ).loc main_v5) ↦{fullShare} W main_v5) ∗ (((c : Thread nD τ).loc main_v7) ↦{fullShare} W main_v7)
          ∗ (((c : Thread nD τ).loc main_v8) ↦{fullShare} W main_v8)) := by
  unfold Pipeline.arrBufs
  exact bigSep_eq_bigSepL_of_eq [main_v5, main_v7, main_v8] (by decide) (by decide) _

/-- The region's arrays as the pipeline holds them, window by window: a half of the points to each of windows 0 and
    1, a half of the norms to each of windows 2 and 3, the result whole. -/
theorem arrays1_eq (V : Valuation τ sig (Elt F)) (c : Dev nD)
    (G : (w : Fin cfg1.W) → Buf (Elt F) ((cfg1.win w).arr.view.loc (c : Thread nD τ))) :
    ((dat1 (Ix := Ix) (U := U) (Lvl := Lvl) V c).arrays G : sProp 𝕄)
      = iprop((((c : Thread nD τ).loc main_v5) ↦{fullShare.left} G 0) ∗ (((c : Thread nD τ).loc main_v5) ↦{fullShare.right} G 1)
          ∗ (((c : Thread nD τ).loc main_v7) ↦{fullShare.left} G 2) ∗ (((c : Thread nD τ).loc main_v7) ↦{fullShare.right} G 3)
          ∗ (((c : Thread nD τ).loc main_v8) ↦{fullShare} G 4)) := by
  have h : ∀ w : Fin cfg1.W,
      ((cfg1.win w).arr.view.loc (c : Thread nD τ) ↦[(cfg1.win w).arr.view.set]{(dat1 (Ix := Ix) (U := U) (Lvl := Lvl) V c).share w} G w : sProp 𝕄)
        = ((cfg1.win w).arr.view.loc (c : Thread nD τ) ↦{(dat1 (Ix := Ix) (U := U) (Lvl := Lvl) V c).share w} G w) :=
    fun w => by rw [(arr_whole1 w).set_eq_univ]
  unfold Dat.arrays
  refine (bigSep_congr fun w _ => h w).trans ?_
  rw [bigSep_W1]
  rfl

/-- The unscoped buffers that are no array of the region do not see what the result's array holds. -/
theorem unscopedRest1_update (c : Dev nD) (W : Valuation τ sig (Elt F)) (X) :
    (Pipeline.unscopedRest (Ix := Ix) (Name := ℕ) (U := U) (Lvl := Lvl) spec1 c (fun b => Function.update W main_v8 X b) : sProp 𝕄)
      = Pipeline.unscopedRest spec1 c (fun b => W b) := by
  unfold Pipeline.unscopedRest
  refine bigSep_congr fun b hb => ?_
  have hne : b ≠ main_v8 := fun h => by
    subst h; exact (Finset.mem_sdiff.mp hb).2 (Finset.mem_image.mpr ⟨4, Finset.mem_univ _, rfl⟩)
  dsimp only
  rw [Function.update_of_ne (StableHlo.devRef_ne_of_ne hne)]

section Seg

variable (L : GSem nD τ sig → Finset Ix) (lv : GSem nD τ sig → Ix → Lvl) (ι : Ix)
variable (V : (c : Dev nD) → Valuation τ sig (Elt F))
variable (E' : Dev nD → sProp (MT nD τ sig Ix (Elt F) ℕ U Lvl))

/-- The thread state the region is entered from: every unscoped buffer whole at `V c`, the core's dues at zero, any rest. -/
def pre1 (c : Dev nD) : sProp 𝕄 :=
  iprop(StableHlo.held (c : Thread nD τ) (Pipeline.ucRefs τ sig) (V c)
    ∗ (∃ W, owes (c : Thread nD τ) (0 : CellTallies nD τ sig Ix) W) ∗ E' c)

/-- The one it is left in: the same, the result's array at the last running sum. -/
def post1 (c : Dev nD) : sProp 𝕄 :=
  iprop(StableHlo.held (c : Thread nD τ) (Pipeline.ucRefs τ sig) (Function.update (V c) main_v8 ((dat1 (Ix := Ix) (U := U) (Lvl := Lvl) (V c) c).arrAt 4 64))
    ∗ (∃ W, owes (c : Thread nD τ) (0 : CellTallies nD τ sig Ix) W) ∗ E' c)

/-- What goes round the region: the unscoped buffers that are no array of it, and the rest. -/
def Z1 (c : Dev nD) : sProp 𝕄 :=
  iprop(Pipeline.unscopedRest (Ix := Ix) (Name := ℕ) (U := U) (Lvl := Lvl) spec1 c (fun b => V c b) ∗ E' c)

/-- ENTRY. -/
theorem hentry1 (c : Dev nD) :
    iprop(pre1 V E' c ∗ Pipeline.ownSems0 (Ix := Ix) (Name := ℕ) (U := U) (Lvl := Lvl) (Val := Elt F) (τ := τ) (fun k : PEmpty => k.elim) c ∗ levAts L lv)
      ⊢ |={Set.univ}=> iprop((dat1 (Ix := Ix) (U := U) (Lvl := Lvl) (V c) c).arrays ((dat1 (Ix := Ix) (U := U) (Lvl := Lvl) (V c) c).arrAt · 0)
          ∗ Pipeline.prefHeld (pcfgs (F := F) 1).pre c (fun _ => fullShare) (adm (F := F) 1).1
          ∗ (dat1 (Ix := Ix) (U := U) (Lvl := Lvl) (V c) c).owesAt ι 0 ∗ (emp : sProp 𝕄) ∗ Z1 V E' c) := by
  unfold pre1 Z1
  have hs : (unscopedBufs (Ix := Ix) (Name := ℕ) (U := U) (Lvl := Lvl) c (fun b => V c b) : sProp 𝕄)
      = iprop(Pipeline.arrBufs spec1 c (fun b => V c b) ∗ Pipeline.unscopedRest spec1 c (fun b => V c b)) :=
    Pipeline.unscopedBufs_split₀ cfgs 1 winFacts₀1.arr_unscoped c _
  rw [← Pipeline.unscopedBufs_held (Ix := Ix) (Name := ℕ) (U := U) (Lvl := Lvl) c (V c), hs, arrBufs1_eq, arrays1_eq]
  iintro ⟨⟨⟨⟨H5, H7, H8⟩, Hrest⟩, HO, HE⟩, -, -⟩
  ihave H5' := (pointsTo_share (PosShare.mem_left_op_right fullShare)).1 $$ H5
  icases H5' with ⟨H5l, H5r⟩
  ihave H7' := (pointsTo_share (PosShare.mem_left_op_right fullShare)).1 $$ H7
  icases H7' with ⟨H7l, H7r⟩
  imodintro
  isplitl [H5l H5r H7l H7r H8]
  · isplitl [H5l]; · iexact H5l
    isplitl [H5r]; · iexact H5r
    isplitl [H7l]; · iexact H7l
    isplitl [H7r]; · iexact H7r
    iexact H8
  isplitr
  · unfold Pipeline.prefHeld; rw [show (Finset.univ : Finset (Fin 0)) = ∅ from rfl, BI.bigSep_empty]; iempintro
  isplitl [HO]
  · unfold Pipeline.Dat.owesAt Pipeline.owesWithin
    icases HO with ⟨%W, HO⟩; iexists W; isplitr; · ipureintro; exact fun _ _ => Or.inl trivial
    iexact HO
  isplitr; · iempintro
  isplitl [Hrest]; · iexact Hrest
  iexact HE

/-- The invariant before the first point is the scoped buffers no window stages. -/
theorem hin1 (c : Dev nD) :
    iprop((emp : sProp 𝕄) ∗ Pipeline.prefHeld (pcfgs (F := F) 1).pre c (fun _ => fullShare) (adm (F := F) 1).1
        ∗ Pipeline.scopedRest (Ix := Ix) (Name := ℕ) (U := U) (Lvl := Lvl) (Val := Elt F) spec1 c)
      ⊢ (dat1 (Ix := Ix) (U := U) (Lvl := Lvl) (V c) c).Φ 0 := by
  rw [show (dat1 (Ix := Ix) (U := U) (Lvl := Lvl) (V c) c).Φ 0 = Pipeline.scopedRest (Ix := Ix) (Name := ℕ) (U := U) (Lvl := Lvl) (Val := Elt F) spec1 c from rfl]
  iintro ⟨-, -, Hr⟩
  iexact Hr

/-- After the last point it gives them back; the kernel has no semaphore of its own. -/
theorem hout1 (c : Dev nD) :
    (dat1 (Ix := Ix) (U := U) (Lvl := Lvl) (V c) c).Φ (Fin.last cfg1.N)
      ⊢ iprop((emp : sProp 𝕄) ∗ Pipeline.ownSems0 (Ix := Ix) (Name := ℕ) (U := U) (Lvl := Lvl) (Val := Elt F) (τ := τ) (fun k : PEmpty => k.elim) c
          ∗ Pipeline.scopedRest (Ix := Ix) (Name := ℕ) (U := U) (Lvl := Lvl) (Val := Elt F) spec1 c) := by
  rw [show (dat1 (Ix := Ix) (U := U) (Lvl := Lvl) (V c) c).Φ (Fin.last cfg1.N) = Pipeline.scopedRest (Ix := Ix) (Name := ℕ) (U := U) (Lvl := Lvl) (Val := Elt F) spec1 c from rfl]
  iintro Hr
  isplitr; · iempintro
  isplitr
  · unfold Pipeline.ownSems0; rw [Finset.univ_eq_empty, BI.bigSep_empty]; iempintro
  iexact Hr

/-- EXIT: the halves of each shared array are joined again; the result's array holds the last running sum. -/
theorem hexit1 (c : Dev nD) :
    iprop((dat1 (Ix := Ix) (U := U) (Lvl := Lvl) (V c) c).arrays ((dat1 (Ix := Ix) (U := U) (Lvl := Lvl) (V c) c).arrAt · cfg1.N) ∗ (dat1 (Ix := Ix) (U := U) (Lvl := Lvl) (V c) c).owesAt ι (Fin.last cfg1.N) ∗ (emp : sProp 𝕄) ∗ Z1 V E' c)
      ⊢ |={Set.univ}=> post1 V E' c := by
  unfold post1 Z1
  have hs : (unscopedBufs (Ix := Ix) (Name := ℕ) (U := U) (Lvl := Lvl) c (fun b => Function.update (V c) main_v8 ((dat1 (Ix := Ix) (U := U) (Lvl := Lvl) (V c) c).arrAt 4 64) b) : sProp 𝕄)
      = iprop(Pipeline.arrBufs spec1 c (fun b => Function.update (V c) main_v8 ((dat1 (Ix := Ix) (U := U) (Lvl := Lvl) (V c) c).arrAt 4 64) b)
          ∗ Pipeline.unscopedRest spec1 c (fun b => Function.update (V c) main_v8 ((dat1 (Ix := Ix) (U := U) (Lvl := Lvl) (V c) c).arrAt 4 64) b)) :=
    Pipeline.unscopedBufs_split₀ cfgs 1 winFacts₀1.arr_unscoped c _
  rw [← Pipeline.unscopedBufs_held (Ix := Ix) (Name := ℕ) (U := U) (Lvl := Lvl) c (Function.update (V c) main_v8 ((dat1 (Ix := Ix) (U := U) (Lvl := Lvl) (V c) c).arrAt 4 64)),
    hs, arrBufs1_eq, unscopedRest1_update, arrays1_eq]
  dsimp only
  rw [(dat1 (Ix := Ix) (U := U) (Lvl := Lvl) (V c) c).arrAt_in 0 rfl, (dat1 (Ix := Ix) (U := U) (Lvl := Lvl) (V c) c).arrAt_in 1 rfl, (dat1 (Ix := Ix) (U := U) (Lvl := Lvl) (V c) c).arrAt_in 2 rfl, (dat1 (Ix := Ix) (U := U) (Lvl := Lvl) (V c) c).arrAt_in 3 rfl,
    Function.update_of_ne (StableHlo.devRef_ne_of_ne (by decide : main_v5 ≠ main_v8)),
    Function.update_of_ne (StableHlo.devRef_ne_of_ne (by decide : main_v7 ≠ main_v8)), Function.update_self]
  iintro ⟨⟨H5l, H5r, H7l, H7r, H8⟩, HO, -, Hrest, HE⟩
  ihave H5 := (pointsTo_share (PosShare.mem_left_op_right fullShare)).2 $$ [H5l H5r]
  · isplitl [H5l]; · iexact H5l
    iexact H5r
  ihave H7 := (pointsTo_share (PosShare.mem_left_op_right fullShare)).2 $$ [H7l H7r]
  · isplitl [H7l]; · iexact H7l
    iexact H7r
  imodintro
  isplitl [H5 H7 H8 Hrest]
  · isplitl [H5 H7 H8]
    · isplitl [H5]; · iexact H5
      isplitl [H7]; · iexact H7
      iexact H8
    iexact Hrest
  isplitl [HO]
  · unfold Pipeline.Dat.owesAt Pipeline.owesWithin
    icases HO with ⟨%W, -, HO⟩; iexists W; iexact HO
  iexact HE

variable (𝒱₀ : Variants)
variable (d0 : (c : Dev nD) → Dat τ (Elt F) Ix ℕ U Lvl cfg0 c) (d2 : (c : Dev nD) → Dat τ (Elt F) Ix ℕ U Lvl cfg2 c)

set_option backward.isDefEq.respectTransparency.types false in
/-- THE REGION as a segment: the layout, no semaphore of its own, the body obligation, and the four entailments
    around the thread states `pre1` and `post1`. -/
def R1 : Pipeline.RegionSeg (pcfgs (F := F)) adm (pdats3 d0 (fun c => dat1 (V c) c) d2) ι defs₀ 𝒱₀ L lv 1 where
  win := winFacts₀1
  block_pos := block_pos1
  stage_whole := stage_whole1
  K := PEmpty
  osem := fun k => k.elim
  ho := Pipeline.OwnSemFacts.none _
  hbody := fun c => body1 (V c) c 𝒱₀ ι
  hwaits := Pipeline.hwaits_of_owed_zero _ _ _ _ L lv 1 fun _ _ => rfl
  pre := pre1 V E'
  post := post1 V E'
  X := fun _ => iprop(emp)
  Y := fun _ => iprop(emp)
  Z := Z1 V E'
  hentry := hentry1 L lv ι V E'
  hin := hin1 V
  hout := hout1 V
  hexit := hexit1 ι V E'

/-- info: 'Cert.KernelIdeal.R1.R1' depends on axioms: [propext, Classical.choice, Quot.sound] -/
#guard_msgs in #print axioms R1

end Seg

end Cert.KernelIdeal.R1

end
-- ==== Proof.R2Step.lean ====
import proofs.«134856_j3556232921452_1_alg».proof.Proof.Gen.KernelIdeal.Launch
import proofs.«134856_j3556232921452_1_alg».proof.Proof.Gen.KernelIdeal.Skeleton
import proofs.«134856_j3556232921452_1_alg».proof.Proof.Gen.KernelIdeal.Points
import Idealize.ShloMosaic.Lib.Pipeline.FrameBody
import Idealize.ShloMosaic.Lib.Pipeline.Value

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! # The centred pair-sum kernel: what one grid point adds to the accumulator

The grid is 8 x 8. At point (i, j) the body reads row blocks i and j of the padded points (512 x 512 each), the blocks
i and j of their squared norms (512 each) and a 1 x 1 mean m. It forms the 512 x 512 block
n_a + n_b - 2 (a b^T), the product taken of the two blocks rounded to bf16, subtracts m from every entry and squares,
keeps the entries whose global row index 512 i + r is below the global column index 512 j + s with both below 4000,
puts zero elsewhere, sums the block, and adds the sum to a 1 x 1 accumulator, which it first sets to zero at the
point (0, 0). -/

/-- The guard of the zeroing store: both grid coordinates are zero (the scalar chain as printed). -/
abbrev cond2 (i : grid2.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- The guard holds at the first point of the grid and at no other. -/
theorem hcond2 : ∀ t : Fin cfg2.N, cond2 (grid2.coords t) ↔ t.val = 0 :=
  (by decide +kernel : ∀ t : Fin grid2.N, cond2 (grid2.coords t) ↔ t.val = 0)

/-- One accumulation at point `i`: the masked sum of the squared deviations from `mu` of the block built from
    `(x0, s0)` against `(x1, s1)`, added to `a`. -/
def step2 (i : grid2.Coords) (x0 x1 : Vec F S512x512 .f32) (s0 s1 : Vec F S512 .f32) (mu a : Vec F S1x1 .f32) : Vec F S1x1 .f32 :=
  k2_pay1 (k2_pay3 x0 x1 s0 s1) (k2_pay4 i) mu a

/-- What the body leaves in the accumulator at point `i`, having found `acc` there: one accumulation onto zero at the
    point (0, 0), onto `acc` at every other point. -/
def acc2 (i : grid2.Coords) (x0 x1 : Vec F S512x512 .f32) (s0 s1 : Vec F S512 .f32) (mu acc : Vec F S1x1 .f32) : Vec F S1x1 .f32 :=
  step2 i x0 x1 s0 s1 mu (if cond2 i then k2_pay2 (F := F) else acc)

theorem acc2_first (i : grid2.Coords) (hc : cond2 i) (x0 x1 : Vec F S512x512 .f32) (s0 s1 : Vec F S512 .f32) (mu acc : Vec F S1x1 .f32) :
    acc2 i x0 x1 s0 s1 mu acc = step2 i x0 x1 s0 s1 mu (k2_pay2 (F := F)) := by
  unfold acc2; rw [if_pos hc]

theorem acc2_later (i : grid2.Coords) (hc : ¬cond2 i) (x0 x1 : Vec F S512x512 .f32) (s0 s1 : Vec F S512 .f32) (mu acc : Vec F S1x1 .f32) :
    acc2 i x0 x1 s0 s1 mu acc = step2 i x0 x1 s0 s1 mu acc := by
  unfold acc2; rw [if_neg hc]

/-- The zero offsets of a rank-2 and of a rank-1 whole-buffer rectangle. -/
theorem hz2 : (![0, 0] : Fin 2 → Nat) = fun _ => 0 := funext fun a => by fin_cases a <;> rfl
theorem hz1 : (![0] : Fin 1 → Nat) = fun _ => 0 := funext fun a => by fin_cases a <;> rfl

end Cert.KernelIdeal.R2

end
-- ==== Proof.R2BodyFirst.lean ====
import proofs.«134856_j3556232921452_1_alg».proof.Proof.R2Step
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! # The centred pair-sum kernel's body at the point (0, 0) -/

set_option maxHeartbeats 1000000 in
/-- THE FIRST POINT. From the five input buffers held whole at `x0 x1 s0 s1 mu` and the accumulator's buffer at
    anything, the body runs to its return leaving the inputs as they were and the accumulator at one accumulation
    onto zero: the zeroing store happens, and the read-back before the last store reads the zero it wrote. -/
theorem body_first (𝒱₀ : Variants) (c : Dev nD) (i : grid2.Coords)
    (arg2 : Memref sig .tc .vmem S512x512 .f32) (harg2 : arg2.IsWhole) (arg3 : Memref sig .tc .vmem S512x512 .f32) (harg3 : arg3.IsWhole)
    (arg4 : Memref sig .tc .vmem S512 .f32) (harg4 : arg4.IsWhole) (arg5 : Memref sig .tc .vmem S512 .f32) (harg5 : arg5.IsWhole)
    (arg6 : Memref sig .tc .vmem S1x1 .f32) (harg6 : arg6.IsWhole) (arg7 : Memref sig .tc .vmem S1x1 .f32) (harg7 : arg7.IsWhole) (hc : cond2 i)
    (x0 x1 : Vec F S512x512 .f32) (s0 s1 : Vec F S512 .f32) (mu : Vec F S1x1 .f32) (E : Set ℕ) (K : PUnit → sProp 𝕄) :
    iprop(owns (c : Thread nD τ) arg2 fullShare x0 ∗ owns (c : Thread nD τ) arg3 fullShare x1
        ∗ owns (c : Thread nD τ) arg4 fullShare s0 ∗ owns (c : Thread nD τ) arg5 fullShare s1
        ∗ owns (c : Thread nD τ) arg6 fullShare mu
        ∗ (∃ d, owns (c : Thread nD τ) arg7 fullShare d)
        ∗ (iprop(owns (c : Thread nD τ) arg2 fullShare x0 ∗ owns (c : Thread nD τ) arg3 fullShare x1
        ∗ owns (c : Thread nD τ) arg4 fullShare s0 ∗ owns (c : Thread nD τ) arg5 fullShare s1
        ∗ owns (c : Thread nD τ) arg6 fullShare mu
            ∗ owns (c : Thread nD τ) arg7 fullShare (step2 i x0 x1 s0 s1 mu (k2_pay2 (F := F)))) -∗ K ⟨⟩))
      ⊢ wp frame (wpE (defs₀ (F := F)) 𝒱₀ c none) E (cc2_kernel i arg2 harg2 arg3 harg3 arg4 harg4 arg5 harg5 arg6 harg6 arg7 harg7) K := by
  simp only [cc2_kernel_eq_skeleton]; unfold cc2_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg2.eq_unread hf0; obtain rfl := harg3.eq_unread hf1
  obtain rfl := harg4.eq_unread hf2; obtain rfl := harg5.eq_unread hf3
  obtain rfl := harg6.eq_unread hf4
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr; swap; (· iexact H5)
  ipureintro
  rw [View.read_writes_eq_canon _ _ _ (fun y => ⟨_, List.mem_cons_self, View.mem_set_unit_zero (S := S1x1) hz2 inb_S1x1_S1x1_0_0 y⟩)]
  rw [View.canon_cons_unit_zero (S := S1x1) hz2]
  sl_unfold_words
  rw [View.readCov_unit_zero (S := S1x1) _ hz2]
  unfold step2
  simp only [View.readAt_eq_ld, harg2.read_unread, harg3.read_unread, harg4.read_unread, harg5.read_unread, harg6.read_unread,
    View.ld_unit_zero (S := S512x512) hz2, View.ld_unit_zero (S := S512) hz1, View.ld_unit_zero (S := S1x1) hz2]

end Cert.KernelIdeal.R2

end
-- ==== Proof.R2BodyLater.lean ====
import proofs.«134856_j3556232921452_1_alg».proof.Proof.R2Step
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! # The centred pair-sum kernel's body at a point other than (0, 0) -/

set_option maxHeartbeats 1000000 in
/-- A LATER POINT. From the five input buffers held whole at `x0 x1 s0 s1 mu` and the accumulator's buffer at `acc`,
    the body runs to its return leaving the inputs as they were and the accumulator at one accumulation onto `acc`:
    the zeroing store does not happen. -/
theorem body_later (𝒱₀ : Variants) (c : Dev nD) (i : grid2.Coords)
    (arg2 : Memref sig .tc .vmem S512x512 .f32) (harg2 : arg2.IsWhole) (arg3 : Memref sig .tc .vmem S512x512 .f32) (harg3 : arg3.IsWhole)
    (arg4 : Memref sig .tc .vmem S512 .f32) (harg4 : arg4.IsWhole) (arg5 : Memref sig .tc .vmem S512 .f32) (harg5 : arg5.IsWhole)
    (arg6 : Memref sig .tc .vmem S1x1 .f32) (harg6 : arg6.IsWhole) (arg7 : Memref sig .tc .vmem S1x1 .f32) (harg7 : arg7.IsWhole) (hc : ¬cond2 i)
    (x0 x1 : Vec F S512x512 .f32) (s0 s1 : Vec F S512 .f32) (mu : Vec F S1x1 .f32) (acc : Vec F S1x1 .f32) (E : Set ℕ) (K : PUnit → sProp 𝕄) :
    iprop(owns (c : Thread nD τ) arg2 fullShare x0 ∗ owns (c : Thread nD τ) arg3 fullShare x1
        ∗ owns (c : Thread nD τ) arg4 fullShare s0 ∗ owns (c : Thread nD τ) arg5 fullShare s1
        ∗ owns (c : Thread nD τ) arg6 fullShare mu
        ∗ owns (c : Thread nD τ) arg7 fullShare acc
        ∗ (iprop(owns (c : Thread nD τ) arg2 fullShare x0 ∗ owns (c : Thread nD τ) arg3 fullShare x1
        ∗ owns (c : Thread nD τ) arg4 fullShare s0 ∗ owns (c : Thread nD τ) arg5 fullShare s1
        ∗ owns (c : Thread nD τ) arg6 fullShare mu
            ∗ owns (c : Thread nD τ) arg7 fullShare (step2 i x0 x1 s0 s1 mu acc)) -∗ K ⟨⟩))
      ⊢ wp frame (wpE (defs₀ (F := F)) 𝒱₀ c none) E (cc2_kernel i arg2 harg2 arg3 harg3 arg4 harg4 arg5 harg5 arg6 harg6 arg7 harg7) K := by
  simp only [cc2_kernel_eq_skeleton]; unfold cc2_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1
  obtain rfl := harg4.eq_unread hf2; obtain rfl := harg5.eq_unread hf3
  obtain rfl := harg6.eq_unread hf4; obtain rfl := harg7.eq_unread hf5
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr; swap; (· iexact H5)
  ipureintro
  rw [View.read_writes_eq_canon _ _ _ (fun y => ⟨_, List.mem_cons_self, View.mem_set_unit_zero (S := S1x1) hz2 inb_S1x1_S1x1_0_0 y⟩)]
  rw [View.canon_cons_unit_zero (S := S1x1) hz2]
  sl_unfold_words
  unfold step2
  simp only [View.readAt_eq_ld, harg2.read_unread, harg3.read_unread, harg4.read_unread, harg5.read_unread, harg6.read_unread, harg7.read_unread,
    View.ld_unit_zero (S := S512x512) hz2, View.ld_unit_zero (S := S512) hz1, View.ld_unit_zero (S := S1x1) hz2]

end Cert.KernelIdeal.R2

end
-- ==== Proof.R2Body.lean ====
import proofs.«134856_j3556232921452_1_alg».proof.Proof.R2BodyFirst
import proofs.«134856_j3556232921452_1_alg».proof.Proof.R2BodyLater

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! # The centred pair-sum kernel's body at any grid point -/

/-- AT ANY POINT. From the five input buffers held whole at `x0 x1 s0 s1 mu` and the accumulator's buffer at `acc`, the
    body runs to its return leaving the inputs as they were and the accumulator at `acc2 i x0 x1 s0 s1 mu acc`: by cases
    on the guard of the zeroing store. -/
theorem kernel2 (𝒱₀ : Variants) (c : Dev nD) (i : grid2.Coords)
    (arg2 : Memref sig .tc .vmem S512x512 .f32) (harg2 : arg2.IsWhole) (arg3 : Memref sig .tc .vmem S512x512 .f32) (harg3 : arg3.IsWhole)
    (arg4 : Memref sig .tc .vmem S512 .f32) (harg4 : arg4.IsWhole) (arg5 : Memref sig .tc .vmem S512 .f32) (harg5 : arg5.IsWhole)
    (arg6 : Memref sig .tc .vmem S1x1 .f32) (harg6 : arg6.IsWhole) (arg7 : Memref sig .tc .vmem S1x1 .f32) (harg7 : arg7.IsWhole)
    (x0 x1 : Vec F S512x512 .f32) (s0 s1 : Vec F S512 .f32) (mu : Vec F S1x1 .f32) (acc : Vec F S1x1 .f32) (E : Set ℕ) (K : PUnit → sProp 𝕄) :
    iprop(owns (c : Thread nD τ) arg2 fullShare x0 ∗ owns (c : Thread nD τ) arg3 fullShare x1
        ∗ owns (c : Thread nD τ) arg4 fullShare s0 ∗ owns (c : Thread nD τ) arg5 fullShare s1
        ∗ owns (c : Thread nD τ) arg6 fullShare mu
        ∗ owns (c : Thread nD τ) arg7 fullShare acc
        ∗ (iprop(owns (c : Thread nD τ) arg2 fullShare x0 ∗ owns (c : Thread nD τ) arg3 fullShare x1
        ∗ owns (c : Thread nD τ) arg4 fullShare s0 ∗ owns (c : Thread nD τ) arg5 fullShare s1
        ∗ owns (c : Thread nD τ) arg6 fullShare mu
            ∗ owns (c : Thread nD τ) arg7 fullShare (acc2 i x0 x1 s0 s1 mu acc)) -∗ K ⟨⟩))
      ⊢ wp frame (wpE (defs₀ (F := F)) 𝒱₀ c none) E (cc2_kernel i arg2 harg2 arg3 harg3 arg4 harg4 arg5 harg5 arg6 harg6 arg7 harg7) K := by
  by_cases hc : cond2 i
  · rw [acc2_first i hc]
    iintro ⟨H0, H1, H2, H3, H4, H5, Hk⟩
    iapply (body_first 𝒱₀ c i arg2 harg2 arg3 harg3 arg4 harg4 arg5 harg5 arg6 harg6 arg7 harg7 hc x0 x1 s0 s1 mu E K)
    isplitl [H0]; · iexact H0
    isplitl [H1]; · iexact H1
    isplitl [H2]; · iexact H2
    isplitl [H3]; · iexact H3
    isplitl [H4]; · iexact H4
    isplitl [H5]; · iexists _; iexact H5
    iexact Hk
  · rw [acc2_later i hc]
    exact body_later 𝒱₀ c i arg2 harg2 arg3 harg3 arg4 harg4 arg5 harg5 arg6 harg6 arg7 harg7 hc x0 x1 s0 s1 mu acc E K

end Cert.KernelIdeal.R2

end
-- ==== Proof.R2Dat.lean ====
import proofs.«134856_j3556232921452_1_alg».proof.Proof.R2Body
import proofs.«134856_j3556232921452_1_alg».proof.Proof.Gen.KernelIdeal.Regions
import Idealize.ShloMosaic.Lib.Pipeline.Frame
import Idealize.ShloMosaic.Lib.Pipeline.FrameBody

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! # The centred pair-sum region's proof data

Windows 0 and 1 stage row blocks i and j of the padded points, windows 2 and 3 blocks i and j of their squared norms,
window 4 the 1 x 1 mean (one block, the whole array, fetched at the first point and kept at every later one), window 5
the 1 x 1 result. The body only reads the five inputs, so after it each holds its block; the result's buffer is the
running sum, carried from point to point and written back once, after the last point. Two windows on one array each
hold a half share of it. -/

variable (V : Valuation τ sig (Elt F)) (c : Dev nD)

/-- Window `w`'s block at point `t`, read off its array as the region finds it. -/
def blk2 (w : Fin cfg2.W) (t : Fin cfg2.N) : ((cfg2.win w).xblock (cfg2.grid.coords t)).Idx → Elt F (cfg2.win w).elt :=
  ((cfg2.win w).blk t).view.read (Elt F) (V (Pipeline.arrRef spec2 w))

/-- THE RUNNING SUM after point `n`: one accumulation at the point, of its five blocks, onto the sum after the point
    before (at the first point the body starts from zero whatever it is given). -/
def acc2At : (n : ℕ) → n < cfg2.N → Vec F S1x1 .f32
  | 0, h => acc2 (grid2.coords ⟨0, h⟩) (blk2 V 0 ⟨0, h⟩) (blk2 V 1 ⟨0, h⟩) (blk2 V 2 ⟨0, h⟩) (blk2 V 3 ⟨0, h⟩) (blk2 V 4 ⟨0, h⟩) (k2_pay2 (F := F))
  | n + 1, h => acc2 (grid2.coords ⟨n + 1, h⟩) (blk2 V 0 ⟨n + 1, h⟩) (blk2 V 1 ⟨n + 1, h⟩) (blk2 V 2 ⟨n + 1, h⟩) (blk2 V 3 ⟨n + 1, h⟩)
      (blk2 V 4 ⟨n + 1, h⟩) (acc2At n (Nat.lt_of_succ_lt h))

theorem acc2At_zero (h : 0 < cfg2.N) :
    acc2At V 0 h = acc2 (grid2.coords ⟨0, h⟩) (blk2 V 0 ⟨0, h⟩) (blk2 V 1 ⟨0, h⟩) (blk2 V 2 ⟨0, h⟩) (blk2 V 3 ⟨0, h⟩) (blk2 V 4 ⟨0, h⟩) (k2_pay2 (F := F)) := rfl

theorem acc2At_succ (n : ℕ) (h : n + 1 < cfg2.N) :
    acc2At V (n + 1) h = acc2 (grid2.coords ⟨n + 1, h⟩) (blk2 V 0 ⟨n + 1, h⟩) (blk2 V 1 ⟨n + 1, h⟩) (blk2 V 2 ⟨n + 1, h⟩) (blk2 V 3 ⟨n + 1, h⟩)
      (blk2 V 4 ⟨n + 1, h⟩) (acc2At V n (Nat.lt_of_succ_lt h)) := rfl

/-- The proof data on core `c`: the arrays as the region finds them; after the body each input's buffer at its block
    and the result's at the running sum; the invariant the scoped buffers no window stages; a half share of an array
    two windows read; nothing owed. -/
def dat2 : Dat τ (Elt F) Ix ℕ U Lvl cfg2 c where
  A w := V (Pipeline.arrRef spec2 w)
  after w t := match w with
    | ⟨0, _⟩ => blk2 V 0 t
    | ⟨1, _⟩ => blk2 V 1 t
    | ⟨2, _⟩ => blk2 V 2 t
    | ⟨3, _⟩ => blk2 V 3 t
    | ⟨4, _⟩ => blk2 V 4 t
    | ⟨5, _⟩ => acc2At V t.val t.isLt
  Φ _ := Pipeline.scopedRest (Ix := Ix) (Name := ℕ) (U := U) (Lvl := Lvl) (Val := Elt F) spec2 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq (w : Fin cfg2.W) : (dat2 (Ix := Ix) (U := U) (Lvl := Lvl) V c).A w = V (Pipeline.arrRef spec2 w) := by
  dsimp only [dat2]

theorem after2_0 (t : Fin cfg2.N) : (dat2 (Ix := Ix) (U := U) (Lvl := Lvl) V c).after 0 t = blk2 V 0 t := by dsimp only [dat2]
theorem after2_1 (t : Fin cfg2.N) : (dat2 (Ix := Ix) (U := U) (Lvl := Lvl) V c).after 1 t = blk2 V 1 t := by dsimp only [dat2]
theorem after2_2 (t : Fin cfg2.N) : (dat2 (Ix := Ix) (U := U) (Lvl := Lvl) V c).after 2 t = blk2 V 2 t := by dsimp only [dat2]
theorem after2_3 (t : Fin cfg2.N) : (dat2 (Ix := Ix) (U := U) (Lvl := Lvl) V c).after 3 t = blk2 V 3 t := by dsimp only [dat2]
theorem after2_4 (t : Fin cfg2.N) : (dat2 (Ix := Ix) (U := U) (Lvl := Lvl) V c).after 4 t = blk2 V 4 t := by dsimp only [dat2]
theorem after2_5 (t : Fin cfg2.N) : (dat2 (Ix := Ix) (U := U) (Lvl := Lvl) V c).after 5 t = acc2At V t.val t.isLt := by dsimp only [dat2]

/-! ## What the body finds in each staging buffer -/

/-- Each input's current staging buffer holds its block at every point, fetched there or not: unfetched, the block
    index has not moved since the point before, and the body left the block in place. -/
theorem before2_0 (t : Fin cfg2.N) (d) : (dat2 (Ix := Ix) (U := U) (Lvl := Lvl) V c).before 0 t d = blk2 V 0 t :=
  ((dat2 (Ix := Ix) (U := U) (Lvl := Lvl) V c).before_in_eq_fetched 0 rfl (fun _ => rfl) (fun _ _ _ => rfl)
    (fun t => by rw [after2_0]; unfold Dat.blockOf blk2; rw [A_eq]; try rfl) t d).trans
    (by unfold Dat.fetched Dat.blockOf blk2; rw [A_eq]; try rfl)
theorem before2_1 (t : Fin cfg2.N) (d) : (dat2 (Ix := Ix) (U := U) (Lvl := Lvl) V c).before 1 t d = blk2 V 1 t :=
  ((dat2 (Ix := Ix) (U := U) (Lvl := Lvl) V c).before_in_eq_fetched 1 rfl (fun _ => rfl) (fun _ _ _ => rfl)
    (fun t => by rw [after2_1]; unfold Dat.blockOf blk2; rw [A_eq]; try rfl) t d).trans
    (by unfold Dat.fetched Dat.blockOf blk2; rw [A_eq]; try rfl)
theorem before2_2 (t : Fin cfg2.N) (d) : (dat2 (Ix := Ix) (U := U) (Lvl := Lvl) V c).before 2 t d = blk2 V 2 t :=
  ((dat2 (Ix := Ix) (U := U) (Lvl := Lvl) V c).before_in_eq_fetched 2 rfl (fun _ => rfl) (fun _ _ _ => rfl)
    (fun t => by rw [after2_2]; unfold Dat.blockOf blk2; rw [A_eq]; try rfl) t d).trans
    (by unfold Dat.fetched Dat.blockOf blk2; rw [A_eq]; try rfl)
theorem before2_3 (t : Fin cfg2.N) (d) : (dat2 (Ix := Ix) (U := U) (Lvl := Lvl) V c).before 3 t d = blk2 V 3 t :=
  ((dat2 (Ix := Ix) (U := U) (Lvl := Lvl) V c).before_in_eq_fetched 3 rfl (fun _ => rfl) (fun _ _ _ => rfl)
    (fun t => by rw [after2_3]; unfold Dat.blockOf blk2; rw [A_eq]; try rfl) t d).trans
    (by unfold Dat.fetched Dat.blockOf blk2; rw [A_eq]; try rfl)
theorem before2_4 (t : Fin cfg2.N) (d) : (dat2 (Ix := Ix) (U := U) (Lvl := Lvl) V c).before 4 t d = blk2 V 4 t :=
  ((dat2 (Ix := Ix) (U := U) (Lvl := Lvl) V c).before_in_eq_fetched 4 rfl (fun _ => rfl) (fun _ _ _ => rfl)
    (fun t => by rw [after2_4]; unfold Dat.blockOf blk2; rw [A_eq]; try rfl) t d).trans
    (by unfold Dat.fetched Dat.blockOf blk2; rw [A_eq]; try rfl)

/-- After the first point the result's staging buffer holds the running sum the point before left: it is written back
    only after the last point, the window is live and uncut. -/
theorem before2_5_later (t : Fin cfg2.N) (h0 : t.val ≠ 0) (d) :
    (dat2 (Ix := Ix) (U := U) (Lvl := Lvl) V c).before 5 t d = acc2At V (t.val - 1) (Nat.lt_of_le_of_lt (Nat.sub_le _ _) t.isLt) := by
  have hN : t.val < 64 := lt_of_lt_of_eq t.isLt (show cfg2.N = 64 from N_2)
  rw [Dat.before_out_kept (dat2 (Ix := Ix) (U := U) (Lvl := Lvl) V c) 5 rfl t h0 (Bool.eq_false_iff.mpr fun h => by have := (flush2_5 _).mp h; dsimp only at this; omega)
    (fun _ => rfl) (fun _ _ => rfl)]
  dsimp only [dat2]

/-- The running sum at the first point, -/
theorem acc2At_first (t : Fin cfg2.N) (h0 : t.val = 0) :
    acc2At V t.val t.isLt = step2 (grid2.coords t) (blk2 V 0 t) (blk2 V 1 t) (blk2 V 2 t) (blk2 V 3 t) (blk2 V 4 t) (k2_pay2 (F := F)) := by
  obtain ⟨n, hn⟩ := t
  cases n with
  | zero => exact acc2_first _ ((hcond2 ⟨0, hn⟩).mpr rfl) _ _ _ _ _ _
  | succ n => exact absurd h0 (Nat.succ_ne_zero n)

/-- and at a later one. -/
theorem acc2At_later (t : Fin cfg2.N) (h0 : t.val ≠ 0) :
    acc2At V t.val t.isLt = step2 (grid2.coords t) (blk2 V 0 t) (blk2 V 1 t) (blk2 V 2 t) (blk2 V 3 t) (blk2 V 4 t)
      (acc2At V (t.val - 1) (Nat.lt_of_le_of_lt (Nat.sub_le _ _) t.isLt)) := by
  obtain ⟨n, hn⟩ := t
  cases n with
  | zero => exact absurd rfl h0
  | succ n => exact acc2_later _ (fun h => h0 ((hcond2 ⟨n + 1, hn⟩).mp h)) _ _ _ _ _ _

/-- The mean's window has one block, the whole 1 x 1 array: its block index is zero at every point. -/
theorem idx2_4 : ∀ t : Fin cfg2.N, win2_4.index t (0 : Fin 2) = 0 ∧ win2_4.index t (1 : Fin 2) = 0 :=
  (by decide +kernel : ∀ t : Fin grid2.N, win2_4.index t (0 : Fin 2) = 0 ∧ win2_4.index t (1 : Fin 2) = 0)

/-- At every point the mean's block is the mean's array. -/
theorem blk2_4_apply (t : Fin cfg2.N) (y : S1x1.Idx) : blk2 V 4 t y = V main_v11 y := by
  obtain ⟨e0, e1⟩ := idx2_4 t
  show V main_v11 (((cfg2.win 4).blk t).view.emb y) = V main_v11 y
  refine congrArg (V main_v11) (funext fun a => Fin.ext ?_)
  match a with
  | ⟨0, _⟩ => show win2_4.index t (0 : Fin 2) * 1 + 1 * (y 0).val = (y 0).val; omega
  | ⟨1, _⟩ => show win2_4.index t (1 : Fin 2) * 1 + 1 * (y 1).val = (y 1).val; omega

/-! ## The body obligation -/

/-- What the body is called with at point `t`, the windows one by one, -/
def bodyPre (ι : Ix) (t : Fin cfg2.N) : sProp 𝕄 :=
  iprop((dat2 (Ix := Ix) (U := U) (Lvl := Lvl) V c).Φ t.castSucc ∗ (dat2 (Ix := Ix) (U := U) (Lvl := Lvl) V c).owesAt ι t.castSucc
    ∗ (∃ d, owns (c : Thread nD τ) (st2_0 t) fullShare ((dat2 (Ix := Ix) (U := U) (Lvl := Lvl) V c).before 0 t d))
    ∗ (∃ d, owns (c : Thread nD τ) (st2_1 t) fullShare ((dat2 (Ix := Ix) (U := U) (Lvl := Lvl) V c).before 1 t d))
    ∗ (∃ d, owns (c : Thread nD τ) (st2_2 t) fullShare ((dat2 (Ix := Ix) (U := U) (Lvl := Lvl) V c).before 2 t d))
    ∗ (∃ d, owns (c : Thread nD τ) (st2_3 t) fullShare ((dat2 (Ix := Ix) (U := U) (Lvl := Lvl) V c).before 3 t d))
    ∗ (∃ d, owns (c : Thread nD τ) (st2_4 t) fullShare ((dat2 (Ix := Ix) (U := U) (Lvl := Lvl) V c).before 4 t d))
    ∗ (∃ d, owns (c : Thread nD τ) (st2_5 t) fullShare ((dat2 (Ix := Ix) (U := U) (Lvl := Lvl) V c).before 5 t d)))

/-- and what it returns. -/
def bodyPost (ι : Ix) (t : Fin cfg2.N) : sProp 𝕄 :=
  iprop((dat2 (Ix := Ix) (U := U) (Lvl := Lvl) V c).Φ t.succ ∗ (dat2 (Ix := Ix) (U := U) (Lvl := Lvl) V c).owesAt ι t.succ
    ∗ owns (c : Thread nD τ) (st2_0 t) fullShare ((dat2 (Ix := Ix) (U := U) (Lvl := Lvl) V c).after 0 t)
    ∗ owns (c : Thread nD τ) (st2_1 t) fullShare ((dat2 (Ix := Ix) (U := U) (Lvl := Lvl) V c).after 1 t)
    ∗ owns (c : Thread nD τ) (st2_2 t) fullShare ((dat2 (Ix := Ix) (U := U) (Lvl := Lvl) V c).after 2 t)
    ∗ owns (c : Thread nD τ) (st2_3 t) fullShare ((dat2 (Ix := Ix) (U := U) (Lvl := Lvl) V c).after 3 t)
    ∗ owns (c : Thread nD τ) (st2_4 t) fullShare ((dat2 (Ix := Ix) (U := U) (Lvl := Lvl) V c).after 4 t)
    ∗ owns (c : Thread nD τ) (st2_5 t) fullShare ((dat2 (Ix := Ix) (U := U) (Lvl := Lvl) V c).after 5 t))

set_option maxHeartbeats 800000 in
/-- The body at any point: the inputs' buffers hold their blocks; at the first point the result's buffer holds anything
    and the body starts the sum from zero, at a later point it holds the sum so far and the body adds to it; the
    invariant passes through unread; the core owes nothing throughout. -/
theorem sound_body (𝒱₀ : Variants) (ι : Ix) (t : Fin cfg2.N) :
    bodyPre (U := U) (Lvl := Lvl) V c ι t ⊢ wp frame (wpE (defs₀ (F := F)) 𝒱₀ c none) Set.univ (bodyAt2 t) (fun _ => bodyPost (U := U) (Lvl := Lvl) V c ι t) := by
  unfold bodyPre bodyPost bodyAt2
  simp only [before2_0, before2_1, before2_2, before2_3, before2_4]
  rw [show (dat2 (Ix := Ix) (U := U) (Lvl := Lvl) V c).Φ t.succ = (dat2 (Ix := Ix) (U := U) (Lvl := Lvl) V c).Φ t.castSucc from rfl,
    show (dat2 (Ix := Ix) (U := U) (Lvl := Lvl) V c).owesAt ι t.succ = (dat2 (Ix := Ix) (U := U) (Lvl := Lvl) V c).owesAt ι t.castSucc from rfl,
    after2_0, after2_1, after2_2, after2_3, after2_4, after2_5]
  by_cases h0 : t.val = 0
  · rw [acc2At_first V t h0]
    iintro ⟨HΦ, Ho, ⟨%d0, H0⟩, ⟨%d1, H1⟩, ⟨%d2, H2⟩, ⟨%d3, H3⟩, ⟨%d4, H4⟩, ⟨%d5, H5⟩⟩
    iapply (body_first 𝒱₀ c (grid2.coords t) _ _ _ _ _ _ _ _ _ _ _ _ ((hcond2 t).mpr h0) (blk2 V 0 t) (blk2 V 1 t) (blk2 V 2 t) (blk2 V 3 t) (blk2 V 4 t) Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc2At_later V t h0]
    simp only [before2_5_later V c t h0]
    iintro ⟨HΦ, Ho, ⟨%d0, H0⟩, ⟨%d1, H1⟩, ⟨%d2, H2⟩, ⟨%d3, H3⟩, ⟨%d4, H4⟩, ⟨%d5, H5⟩⟩
    iapply (body_later 𝒱₀ c (grid2.coords t) _ _ _ _ _ _ _ _ _ _ _ _ (fun h => h0 ((hcond2 t).mp h)) (blk2 V 0 t) (blk2 V 1 t) (blk2 V 2 t) (blk2 V 3 t) (blk2 V 4 t) _ Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body2 (𝒱₀ : Variants) (ι : Ix) : BodyObligationLoose (dat2 (Ix := Ix) (U := U) (Lvl := Lvl) V c) (defs₀ (F := F)) 𝒱₀ ι Set.univ :=
  have h : BodyObligation (dat2 (Ix := Ix) (U := U) (Lvl := Lvl) V c) (defs₀ (F := F)) 𝒱₀ ι Set.univ := fun t => by
    rw [bigSep_W2, bigSep_W2]
    exact sound_body (U := U) (Lvl := Lvl) V c 𝒱₀ ι t
  h.loose

end Cert.KernelIdeal.R2

end
-- ==== Proof.R2Seg.lean ====
import proofs.«134856_j3556232921452_1_alg».proof.Proof.R2Dat
import proofs.«134856_j3556232921452_1_alg».proof.Proof.PDats
import Idealize.ShloMosaic.Lib.Pipeline.Regions

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! # The centred pair-sum region as a segment of the program

The region is entered holding every unscoped buffer whole. Four of them are its arrays: the padded points, read by
windows 0 and 1, their squared norms, read by windows 2 and 3, the 1 x 1 mean, read by window 4, and the 1 x 1
result. An array two windows read is dealt to them as the two halves of its full share, and the halves are joined
again when the region is left; the result's array comes back holding the last running sum; every other unscoped
buffer goes round the region untouched. -/

/-- The buffers behind the region's arrays, one by one. -/
theorem arrBufs2_eq (c : Dev nD) (W : (b : Ref sig .tc) → Buf (Elt F) ((c : Thread nD τ).loc b)) :
    (Pipeline.arrBufs (Ix := Ix) (Name := ℕ) (U := U) (Lvl := Lvl) spec2 c W : sProp 𝕄)
      = iprop((((c : Thread nD τ).loc main_v5) ↦{fullShare} W main_v5) ∗ (((c : Thread nD τ).loc main_v7) ↦{fullShare} W main_v7)
          ∗ (((c : Thread nD τ).loc main_v11) ↦{fullShare} W main_v11) ∗ (((c : Thread nD τ).loc main_v12) ↦{fullShare} W main_v12)) := by
  unfold Pipeline.arrBufs
  exact bigSep_eq_bigSepL_of_eq [main_v5, main_v7, main_v11, main_v12] (by decide) (by decide) _

/-- The region's arrays as the pipeline holds them, window by window: a half of the points to each of windows 0 and
    1, a half of the norms to each of windows 2 and 3, the mean and the result whole. -/
theorem arrays2_eq (V : Valuation τ sig (Elt F)) (c : Dev nD)
    (G : (w : Fin cfg2.W) → Buf (Elt F) ((cfg2.win w).arr.view.loc (c : Thread nD τ))) :
    ((dat2 (Ix := Ix) (U := U) (Lvl := Lvl) V c).arrays G : sProp 𝕄)
      = iprop((((c : Thread nD τ).loc main_v5) ↦{fullShare.left} G 0) ∗ (((c : Thread nD τ).loc main_v5) ↦{fullShare.right} G 1)
          ∗ (((c : Thread nD τ).loc main_v7) ↦{fullShare.left} G 2) ∗ (((c : Thread nD τ).loc main_v7) ↦{fullShare.right} G 3)
          ∗ (((c : Thread nD τ).loc main_v11) ↦{fullShare} G 4) ∗ (((c : Thread nD τ).loc main_v12) ↦{fullShare} G 5)) := by
  have h : ∀ w : Fin cfg2.W,
      ((cfg2.win w).arr.view.loc (c : Thread nD τ) ↦[(cfg2.win w).arr.view.set]{(dat2 (Ix := Ix) (U := U) (Lvl := Lvl) V c).share w} G w : sProp 𝕄)
        = ((cfg2.win w).arr.view.loc (c : Thread nD τ) ↦{(dat2 (Ix := Ix) (U := U) (Lvl := Lvl) V c).share w} G w) :=
    fun w => by rw [(arr_whole2 w).set_eq_univ]
  unfold Dat.arrays
  refine (bigSep_congr fun w _ => h w).trans ?_
  rw [bigSep_W2]
  rfl

/-- The unscoped buffers that are no array of the region do not see what the result's array holds. -/
theorem unscopedRest2_update (c : Dev nD) (W : Valuation τ sig (Elt F)) (X) :
    (Pipeline.unscopedRest (Ix := Ix) (Name := ℕ) (U := U) (Lvl := Lvl) spec2 c (fun b => Function.update W main_v12 X b) : sProp 𝕄)
      = Pipeline.unscopedRest spec2 c (fun b => W b) := by
  unfold Pipeline.unscopedRest
  refine bigSep_congr fun b hb => ?_
  have hne : b ≠ main_v12 := fun h => by
    subst h; exact (Finset.mem_sdiff.mp hb).2 (Finset.mem_image.mpr ⟨5, Finset.mem_univ _, rfl⟩)
  dsimp only
  rw [Function.update_of_ne (StableHlo.devRef_ne_of_ne hne)]

section Seg

variable (L : GSem nD τ sig → Finset Ix) (lv : GSem nD τ sig → Ix → Lvl) (ι : Ix)
variable (V : (c : Dev nD) → Valuation τ sig (Elt F))
variable (E' : Dev nD → sProp (MT nD τ sig Ix (Elt F) ℕ U Lvl))

/-- The thread state the region is entered from: every unscoped buffer whole at `V c`, the core's dues at zero, any rest. -/
def pre2 (c : Dev nD) : sProp 𝕄 :=
  iprop(StableHlo.held (c : Thread nD τ) (Pipeline.ucRefs τ sig) (V c)
    ∗ (∃ W, owes (c : Thread nD τ) (0 : CellTallies nD τ sig Ix) W) ∗ E' c)

/-- The one it is left in: the same, the result's array at the last running sum. -/
def post2 (c : Dev nD) : sProp 𝕄 :=
  iprop(StableHlo.held (c : Thread nD τ) (Pipeline.ucRefs τ sig) (Function.update (V c) main_v12 ((dat2 (Ix := Ix) (U := U) (Lvl := Lvl) (V c) c).arrAt 5 64))
    ∗ (∃ W, owes (c : Thread nD τ) (0 : CellTallies nD τ sig Ix) W) ∗ E' c)

/-- What goes round the region: the unscoped buffers that are no array of it, and the rest. -/
def Z2 (c : Dev nD) : sProp 𝕄 :=
  iprop(Pipeline.unscopedRest (Ix := Ix) (Name := ℕ) (U := U) (Lvl := Lvl) spec2 c (fun b => V c b) ∗ E' c)

/-- ENTRY: each shared array's full share is dealt to its two windows as its halves. -/
theorem hentry2 (c : Dev nD) :
    iprop(pre2 V E' c ∗ Pipeline.ownSems0 (Ix := Ix) (Name := ℕ) (U := U) (Lvl := Lvl) (Val := Elt F) (τ := τ) (fun k : PEmpty => k.elim) c ∗ levAts L lv)
      ⊢ |={Set.univ}=> iprop((dat2 (Ix := Ix) (U := U) (Lvl := Lvl) (V c) c).arrays ((dat2 (Ix := Ix) (U := U) (Lvl := Lvl) (V c) c).arrAt · 0)
          ∗ Pipeline.prefHeld (pcfgs (F := F) 2).pre c (fun _ => fullShare) (adm (F := F) 2).1
          ∗ (dat2 (Ix := Ix) (U := U) (Lvl := Lvl) (V c) c).owesAt ι 0 ∗ (emp : sProp 𝕄) ∗ Z2 V E' c) := by
  unfold pre2 Z2
  have hs : (unscopedBufs (Ix := Ix) (Name := ℕ) (U := U) (Lvl := Lvl) c (fun b => V c b) : sProp 𝕄)
      = iprop(Pipeline.arrBufs spec2 c (fun b => V c b) ∗ Pipeline.unscopedRest spec2 c (fun b => V c b)) :=
    Pipeline.unscopedBufs_split₀ cfgs 2 winFacts₀2.arr_unscoped c _
  rw [← Pipeline.unscopedBufs_held (Ix := Ix) (Name := ℕ) (U := U) (Lvl := Lvl) c (V c), hs, arrBufs2_eq, arrays2_eq]
  iintro ⟨⟨⟨⟨H5, H7, H11, H12⟩, Hrest⟩, HO, HE⟩, -, -⟩
  ihave H5' := (pointsTo_share (PosShare.mem_left_op_right fullShare)).1 $$ H5
  icases H5' with ⟨H5l, H5r⟩
  ihave H7' := (pointsTo_share (PosShare.mem_left_op_right fullShare)).1 $$ H7
  icases H7' with ⟨H7l, H7r⟩
  imodintro
  isplitl [H5l H5r H7l H7r H11 H12]
  · isplitl [H5l]; · iexact H5l
    isplitl [H5r]; · iexact H5r
    isplitl [H7l]; · iexact H7l
    isplitl [H7r]; · iexact H7r
    isplitl [H11]; · iexact H11
    iexact H12
  isplitr
  · unfold Pipeline.prefHeld; rw [show (Finset.univ : Finset (Fin 0)) = ∅ from rfl, BI.bigSep_empty]; iempintro
  isplitl [HO]
  · unfold Pipeline.Dat.owesAt Pipeline.owesWithin
    icases HO with ⟨%W, HO⟩; iexists W; isplitr; · ipureintro; exact fun _ _ => Or.inl trivial
    iexact HO
  isplitr; · iempintro
  isplitl [Hrest]; · iexact Hrest
  iexact HE

/-- The invariant before the first point is the scoped buffers no window stages. -/
theorem hin2 (c : Dev nD) :
    iprop((emp : sProp 𝕄) ∗ Pipeline.prefHeld (pcfgs (F := F) 2).pre c (fun _ => fullShare) (adm (F := F) 2).1
        ∗ Pipeline.scopedRest (Ix := Ix) (Name := ℕ) (U := U) (Lvl := Lvl) (Val := Elt F) spec2 c)
      ⊢ (dat2 (Ix := Ix) (U := U) (Lvl := Lvl) (V c) c).Φ 0 := by
  rw [show (dat2 (Ix := Ix) (U := U) (Lvl := Lvl) (V c) c).Φ 0 = Pipeline.scopedRest (Ix := Ix) (Name := ℕ) (U := U) (Lvl := Lvl) (Val := Elt F) spec2 c from rfl]
  iintro ⟨-, -, Hr⟩
  iexact Hr

/-- After the last point it gives them back; the kernel has no semaphore of its own. -/
theorem hout2 (c : Dev nD) :
    (dat2 (Ix := Ix) (U := U) (Lvl := Lvl) (V c) c).Φ (Fin.last cfg2.N)
      ⊢ iprop((emp : sProp 𝕄) ∗ Pipeline.ownSems0 (Ix := Ix) (Name := ℕ) (U := U) (Lvl := Lvl) (Val := Elt F) (τ := τ) (fun k : PEmpty => k.elim) c
          ∗ Pipeline.scopedRest (Ix := Ix) (Name := ℕ) (U := U) (Lvl := Lvl) (Val := Elt F) spec2 c) := by
  rw [show (dat2 (Ix := Ix) (U := U) (Lvl := Lvl) (V c) c).Φ (Fin.last cfg2.N) = Pipeline.scopedRest (Ix := Ix) (Name := ℕ) (U := U) (Lvl := Lvl) (Val := Elt F) spec2 c from rfl]
  iintro Hr
  isplitr; · iempintro
  isplitr
  · unfold Pipeline.ownSems0; rw [Finset.univ_eq_empty, BI.bigSep_empty]; iempintro
  iexact Hr

/-- EXIT: the halves of each shared array are joined again; the result's array holds the last running sum. -/
theorem hexit2 (c : Dev nD) :
    iprop((dat2 (Ix := Ix) (U := U) (Lvl := Lvl) (V c) c).arrays ((dat2 (Ix := Ix) (U := U) (Lvl := Lvl) (V c) c).arrAt · cfg2.N) ∗ (dat2 (Ix := Ix) (U := U) (Lvl := Lvl) (V c) c).owesAt ι (Fin.last cfg2.N) ∗ (emp : sProp 𝕄) ∗ Z2 V E' c)
      ⊢ |={Set.univ}=> post2 V E' c := by
  unfold post2 Z2
  have hs : (unscopedBufs (Ix := Ix) (Name := ℕ) (U := U) (Lvl := Lvl) c (fun b => Function.update (V c) main_v12 ((dat2 (Ix := Ix) (U := U) (Lvl := Lvl) (V c) c).arrAt 5 64) b) : sProp 𝕄)
      = iprop(Pipeline.arrBufs spec2 c (fun b => Function.update (V c) main_v12 ((dat2 (Ix := Ix) (U := U) (Lvl := Lvl) (V c) c).arrAt 5 64) b)
          ∗ Pipeline.unscopedRest spec2 c (fun b => Function.update (V c) main_v12 ((dat2 (Ix := Ix) (U := U) (Lvl := Lvl) (V c) c).arrAt 5 64) b)) :=
    Pipeline.unscopedBufs_split₀ cfgs 2 winFacts₀2.arr_unscoped c _
  rw [← Pipeline.unscopedBufs_held (Ix := Ix) (Name := ℕ) (U := U) (Lvl := Lvl) c (Function.update (V c) main_v12 ((dat2 (Ix := Ix) (U := U) (Lvl := Lvl) (V c) c).arrAt 5 64)),
    hs, arrBufs2_eq, unscopedRest2_update, arrays2_eq]
  dsimp only
  rw [(dat2 (Ix := Ix) (U := U) (Lvl := Lvl) (V c) c).arrAt_in 0 rfl, (dat2 (Ix := Ix) (U := U) (Lvl := Lvl) (V c) c).arrAt_in 1 rfl, (dat2 (Ix := Ix) (U := U) (Lvl := Lvl) (V c) c).arrAt_in 2 rfl, (dat2 (Ix := Ix) (U := U) (Lvl := Lvl) (V c) c).arrAt_in 3 rfl, (dat2 (Ix := Ix) (U := U) (Lvl := Lvl) (V c) c).arrAt_in 4 rfl,
    Function.update_of_ne (StableHlo.devRef_ne_of_ne (by decide : main_v5 ≠ main_v12)),
    Function.update_of_ne (StableHlo.devRef_ne_of_ne (by decide : main_v7 ≠ main_v12)),
    Function.update_of_ne (StableHlo.devRef_ne_of_ne (by decide : main_v11 ≠ main_v12)), Function.update_self]
  iintro ⟨⟨H5l, H5r, H7l, H7r, H11, H12⟩, HO, -, Hrest, HE⟩
  ihave H5 := (pointsTo_share (PosShare.mem_left_op_right fullShare)).2 $$ [H5l H5r]
  · isplitl [H5l]; · iexact H5l
    iexact H5r
  ihave H7 := (pointsTo_share (PosShare.mem_left_op_right fullShare)).2 $$ [H7l H7r]
  · isplitl [H7l]; · iexact H7l
    iexact H7r
  imodintro
  isplitl [H5 H7 H11 H12 Hrest]
  · isplitl [H5 H7 H11 H12]
    · isplitl [H5]; · iexact H5
      isplitl [H7]; · iexact H7
      isplitl [H11]; · iexact H11
      iexact H12
    iexact Hrest
  isplitl [HO]
  · unfold Pipeline.Dat.owesAt Pipeline.owesWithin
    icases HO with ⟨%W, -, HO⟩; iexists W; iexact HO
  iexact HE

variable (𝒱₀ : Variants)
variable (d0 : (c : Dev nD) → Dat τ (Elt F) Ix ℕ U Lvl cfg0 c) (d1 : (c : Dev nD) → Dat τ (Elt F) Ix ℕ U Lvl cfg1 c)

set_option backward.isDefEq.respectTransparency.types false in
/-- THE REGION as a segment: the layout, no semaphore of its own, the body obligation, and the four entailments
    around the thread states `pre2` and `post2`. -/
def R2 : Pipeline.RegionSeg (pcfgs (F := F)) adm (pdats3 d0 d1 (fun c => dat2 (V c) c)) ι defs₀ 𝒱₀ L lv 2 where
  win := winFacts₀2
  block_pos := block_pos2
  stage_whole := stage_whole2
  K := PEmpty
  osem := fun k => k.elim
  ho := Pipeline.OwnSemFacts.none _
  hbody := fun c => body2 (V c) c 𝒱₀ ι
  hwaits := Pipeline.hwaits_of_owed_zero _ _ _ _ L lv 2 fun _ _ => rfl
  pre := pre2 V E'
  post := post2 V E'
  X := fun _ => iprop(emp)
  Y := fun _ => iprop(emp)
  Z := Z2 V E'
  hentry := hentry2 L lv ι V E'
  hin := hin2 V
  hout := hout2 V
  hexit := hexit2 ι V E'

/-- info: 'Cert.KernelIdeal.R2.R2' depends on axioms: [propext, Classical.choice, Quot.sound] -/
#guard_msgs in #print axioms R2

end Seg

end Cert.KernelIdeal.R2

end
-- ==== Proof.KIFinal.lean ====
/-
  The kernel program's run, with its result named, at the launch the three kernels need.

  No kernel here has a semaphore of its own and no core owes another anything, so the run is taken at the pipeline library's
  own algebra, with no levels assigned and nothing owed at launch; beside the buffers a core carries only that it owes
  nothing. The three regions' records are entered from the contents the host operations made before them and left at those
  contents with the region's output array replaced by what its proof data compute — the staged family of the regions'
  outputs —, which is exactly how the contents between items are defined.
-/
import proofs.«134856_j3556232921452_1_alg».proof.Proof.KIRun
import proofs.«134856_j3556232921452_1_alg».proof.Proof.KIData
import proofs.«134856_j3556232921452_1_alg».proof.Proof.R0Seg
import proofs.«134856_j3556232921452_1_alg».proof.Proof.R1Seg
import proofs.«134856_j3556232921452_1_alg».proof.Proof.R2Seg
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-- The pipeline library's algebra alone: no kernel here has a semaphore of its own. -/
abbrev EP₀ : Emb (UR sig nD τ) (MT nD τ sig Unit (Elt F) ℕ (UR sig nD τ) ℕ) := emb₁
/-- No core owes another anything: no level is assigned. -/
abbrev L₀ : GSem nD τ sig → Finset Unit := fun _ => ∅
abbrev lv₀ : GSem nD τ sig → Unit → ℕ := fun _ _ => 0
/-- The launch element: the pipeline library's at the staging cells. -/
def u₀ : UR sig nD τ := initOf (Pipeline.cells cfgs cellOf_inj) (Pipeline.launchToks cfgs cellOf_inj)
/-- What rides beside the buffers between items: the core owes nothing. -/
abbrev E₀ (k : Fin 4) (c : Dev nD) : sProp (MT nD τ sig Unit (Elt F) ℕ (UR sig nD τ) ℕ) :=
  iprop((∃ W, owes (c : Thread nD τ) (0 : CellTallies nD τ sig Unit) W) ∗ emp)

theorem hu₀ : (ownU (u₀) : sProp (MT nD τ sig Unit (Elt F) ℕ (UR sig nD τ) ℕ))
    ⊢ |={Set.univ}=> iprop(BI.own ((EP₀ (F := F)) (initOf (Pipeline.cells cfgs cellOf_inj) (Pipeline.launchToks cfgs cellOf_inj)))
        ∗ bigSep Finset.univ fun _ : Dev nD => (BI.emp : sProp (MT nD τ sig Unit (Elt F) ℕ (UR sig nD τ) ℕ))) := by
  unfold u₀
  rw [ownU_emb₁]
  iintro Hu
  imodintro
  isplitl [Hu]; · iexact Hu
  iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
  iempintro

theorem hE0_core (ρ : Dev nD → PrngReg) (c : Dev nD) :
    iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (BI.emp : sProp (MT nD τ sig Unit (Elt F) ℕ (UR sig nD τ) ℕ)))
      ⊢ (E₀ (F := F) 0 c : sProp (MT nD τ sig Unit (Elt F) ℕ (UR sig nD τ) ℕ)) := by
  iintro ⟨-, HO, -, -, -⟩
  isplitl [HO]
  · iexists ∅; iexact HO
  · iempintro

theorem hE0 (ρ : Dev nD → PrngReg) :
    iprop((bigSep Finset.univ fun c : Dev nD => iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (BI.emp : sProp (MT nD τ sig Unit (Elt F) ℕ (UR sig nD τ) ℕ)))) ∗ levAts L₀ lv₀)
      ⊢ (|={Set.univ}=> bigSep Finset.univ (E₀ (F := F) 0) : sProp (MT nD τ sig Unit (Elt F) ℕ (UR sig nD τ) ℕ)) := by
  have hmono : (bigSep Finset.univ fun c : Dev nD => iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (BI.emp : sProp (MT nD τ sig Unit (Elt F) ℕ (UR sig nD τ) ℕ))))
      ⊢ (bigSep Finset.univ (E₀ (F := F) 0) : sProp (MT nD τ sig Unit (Elt F) ℕ (UR sig nD τ) ℕ)) :=
    bigSep_mono fun c _ => hE0_core ρ c
  iintro ⟨H, -⟩
  imodintro
  iapply hmono
  iexact H

theorem hE3 (c : Dev nD) : E₀ (F := F) 3 c ⊢ (iprop(∃ W, owes (c : Thread nD τ) (0 : CellTallies nD τ sig Unit) W) : sProp (MT nD τ sig Unit (Elt F) ℕ (UR sig nD τ) ℕ)) := by
  iintro ⟨H, -⟩
  iexact H

/-! ## The regions' outputs and proof data -/

/-- What the distance kernel leaves in its output array from the contents it is entered from. -/
def o3 (V : Valuation τ sig (Elt F)) (c : Dev nD) : Buf (Elt F) ((c : Thread nD τ).loc main_v2) :=
  (R0.dat0 (Ix := Unit) (U := UR sig nD τ) (Lvl := ℕ) V c).arrAt 2 2
/-- What the first pair-sum kernel leaves. -/
def o7 (V : Valuation τ sig (Elt F)) (c : Dev nD) : Buf (Elt F) ((c : Thread nD τ).loc main_v8) :=
  (R1.dat1 (Ix := Unit) (U := UR sig nD τ) (Lvl := ℕ) V c).arrAt 4 64
/-- What the second pair-sum kernel leaves. -/
def o9 (V : Valuation τ sig (Elt F)) (c : Dev nD) : Buf (Elt F) ((c : Thread nD τ).loc main_v12) :=
  (R2.dat2 (Ix := Unit) (U := UR sig nD τ) (Lvl := ℕ) V c).arrAt 5 64

variable (m : (ℓ : Loc nD τ sig) → Buf (Elt F) ℓ)

/-- The regions' outputs, as one family. -/
abbrev outs : Outs (F := F) := outsC m o3 o7 o9

/-- The three regions' proof data, each over the contents its region is entered from. -/
abbrev pdats₀ : (p : Fin 3) → (c : Dev nD) → Dat τ (Elt F) Unit ℕ (UR sig nD τ) ℕ (cfgs p) c :=
  pdats3 (fun c => R0.dat0 (V2 m c) c) (fun c => R1.dat1 (V6 m (outs m) c) c) (fun c => R2.dat2 (V8 m (outs m) c) c)

theorem V3_eq (c : Dev nD) : V3 m (outs m) c = Function.update (V2 m c) main_v2 (o3 (V2 m c) c) := by
  show Function.update (V2 m c) main_v2 (outsC m o3 o7 o9 3 main_v2 c) = _
  rw [outsC_3]

theorem V7_eq (c : Dev nD) : V7 m (outs m) c = Function.update (V6 m (outs m) c) main_v8 (o7 (V6 m (outs m) c) c) := by
  show Function.update (V6 m (outs m) c) main_v8 (outsC m o3 o7 o9 7 main_v8 c) = _
  rw [outs_7]

theorem V9_eq (c : Dev nD) : V9 m (outs m) c = Function.update (V8 m (outs m) c) main_v12 (o9 (V8 m (outs m) c) c) := by
  show Function.update (V8 m (outs m) c) main_v12 (outsC m o3 o7 o9 9 main_v12 c) = _
  rw [outs_9]

/-! ## The run -/

/-- Region 0's record over the shared family of proof data. -/
abbrev reg0 : RegionSeg (pcfgs (F := F)) adm (pdats₀ m) () defs₀ Variants.none L₀ lv₀ 0 :=
  R0.R0 (fun c => V2 m c) (fun c => R1.dat1 (V6 m (outs m) c) c) (fun c => R2.dat2 (V8 m (outs m) c) c) () Variants.none L₀ lv₀
    (fun _ => (BI.emp : sProp (MT nD τ sig Unit (Elt F) ℕ (UR sig nD τ) ℕ)))

/-- Region 1's record over the same family. -/
abbrev reg1 : RegionSeg (pcfgs (F := F)) adm (pdats₀ m) () defs₀ Variants.none L₀ lv₀ 1 :=
  R1.R1 L₀ lv₀ () (fun c => V6 m (outs m) c) (fun _ => (BI.emp : sProp (MT nD τ sig Unit (Elt F) ℕ (UR sig nD τ) ℕ))) Variants.none
    (fun c => R0.dat0 (V2 m c) c) (fun c => R2.dat2 (V8 m (outs m) c) c)

theorem hpre0 (c : Dev nD) : iprop(StableHlo.held (c : Thread nD τ) (Pipeline.ucRefs τ sig) (V2 m c) ∗ E₀ (F := F) 0 c) ⊢ (reg0 m).pre c := .rfl

theorem hpost0 (c : Dev nD) : (reg0 m).post c ⊢ iprop(StableHlo.held (c : Thread nD τ) (Pipeline.ucRefs τ sig) (V3 m (outs m) c) ∗ E₀ (F := F) 1 c) := by
  rw [V3_eq]
  exact .rfl

theorem hpre1 (c : Dev nD) : iprop(StableHlo.held (c : Thread nD τ) (Pipeline.ucRefs τ sig) (V6 m (outs m) c) ∗ E₀ (F := F) 1 c) ⊢ (reg1 m).pre c := by
  show _ ⊢ R1.pre1 (fun c => V6 m (outs m) c) (fun _ => (BI.emp : sProp (MT nD τ sig Unit (Elt F) ℕ (UR sig nD τ) ℕ))) c
  unfold R1.pre1
  exact .rfl

theorem hpost1 (c : Dev nD) : (reg1 m).post c ⊢ iprop(StableHlo.held (c : Thread nD τ) (Pipeline.ucRefs τ sig) (V7 m (outs m) c) ∗ E₀ (F := F) 2 c) := by
  show R1.post1 (fun c => V6 m (outs m) c) (fun _ => (BI.emp : sProp (MT nD τ sig Unit (Elt F) ℕ (UR sig nD τ) ℕ))) c ⊢ _
  unfold R1.post1
  rw [V7_eq]
  exact .rfl

/-- Region 2's record over the same family. -/
abbrev reg2 : RegionSeg (pcfgs (F := F)) adm (pdats₀ m) () defs₀ Variants.none L₀ lv₀ 2 :=
  R2.R2 L₀ lv₀ () (fun c => V8 m (outs m) c) (fun _ => (BI.emp : sProp (MT nD τ sig Unit (Elt F) ℕ (UR sig nD τ) ℕ))) Variants.none
    (fun c => R0.dat0 (V2 m c) c) (fun c => R1.dat1 (V6 m (outs m) c) c)

theorem hpre2 (c : Dev nD) : iprop(StableHlo.held (c : Thread nD τ) (Pipeline.ucRefs τ sig) (V8 m (outs m) c) ∗ E₀ (F := F) 2 c) ⊢ (reg2 m).pre c := by
  show _ ⊢ R2.pre2 (fun c => V8 m (outs m) c) (fun _ => (BI.emp : sProp (MT nD τ sig Unit (Elt F) ℕ (UR sig nD τ) ℕ))) c
  unfold R2.pre2
  exact .rfl

theorem hpost2 (c : Dev nD) : (reg2 m).post c ⊢ iprop(StableHlo.held (c : Thread nD τ) (Pipeline.ucRefs τ sig) (V9 m (outs m) c) ∗ E₀ (F := F) 3 c) := by
  show R2.post2 (fun c => V8 m (outs m) c) (fun _ => (BI.emp : sProp (MT nD τ sig Unit (Elt F) ℕ (UR sig nD τ) ℕ))) c ⊢ _
  unfold R2.post2
  rw [V9_eq]
  exact .rfl

/-- THE RUN. From any memory with zero counters, every weakly fair execution of @main terminates; the result buffer ends at
    what the last host stretch makes of the three regions' outputs, and both arguments end as launched. -/
theorem run_named (ρ : Dev nD → PrngReg) :
    θ_run defs (onTc (τ := τ) (main (F := F))) ⟨m, fun _ => 0, ρ⟩ (fun r => ∀ c : Dev nD,
      r.2.mem ((c.tc : Thread nD τ).loc main_v16) = V10 m (outs m) c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond m (EP₀ (F := F)) () Variants.none L₀ lv₀ (fun _ _ => rfl) ρ (outs m) (pdats₀ m) (fun _ => 0)
    (fun _ => (BI.emp : sProp (MT nD τ sig Unit (Elt F) ℕ (UR sig nD τ) ℕ))) u₀ hu₀ (E₀ (F := F)) (hE0 ρ) hE3
    (reg0 m) (hpre0 m) (hpost0 m) (reg1 m) (hpre1 m) (hpost1 m) (reg2 m) (hpre2 m) (hpost2 m)

end Cert.KernelIdeal.Hand

end
-- ==== Proof.K.KIRun.lean ====
/-
  The kernel program's run with its result named, for any float instance.

  @main is ten items in a row: two stretches of host operations (the weights transposed and padded to 1024 classes), the
  distance kernel over two blocks of 512 classes, three stretches (the distances sliced back to 1000 columns; the weights
  flattened to 4000 rows, padded to 4096 and their squared row norms), the first pair-sum kernel over an 8 by 8 grid of
  tiles, a stretch scaling its sum into the mean, the second pair-sum kernel, and a last stretch scaling its sum and joining
  it to the distances as column 1000. Between two items a core holds every unscoped buffer whole; the contents are followed
  item by item (`V0` … `V10`), and at the end the result buffer is read off the last of them, together with the two
  arguments, which no item writes.
-/
import proofs.«134856_j3556232921452_1_alg».proof.Proof.Gen.Kernel.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

set_option backward.isDefEq.respectTransparency.types false in
/-- The run with the result named. For any contents `outs` the three kernel regions leave in their output arrays and any
    record of each region entered from the buffers' contents before it and left at the contents after it: every weakly fair
    execution of @main terminates, the result buffer ends at what the last stretch of host operations makes of those
    contents (`V10 m outs c main_v16`: the distances' array sliced to 1000 columns, joined with the column that holds the
    scaled second pair sum), and both arguments end as launched. The contents between items are the fold of each host
    stretch over the contents before it, a region's output replaced by `outs`. Beside the buffers a core carries a rest `E k c`
    of the caller's choosing between the regions: the launch must make `E 0` on every core at once (`hE0`), and `E 3` must end
    owing nothing (`hE3`). The run starts from memory `m` with every semaphore counter at zero. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V2 m c) ∗ E 0 c) ⊢ R0.pre c)
    (hpost0 : ∀ c : Dev nD, R0.post c ⊢ iprop(StableHlo.held (c : Thread nD τ) (Pipeline.ucRefs τ sig) (V3 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V6 m outs c) ∗ E 1 c) ⊢ R1.pre c)
    (hpost1 : ∀ c : Dev nD, R1.post c ⊢ iprop(StableHlo.held (c : Thread nD τ) (Pipeline.ucRefs τ sig) (V7 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V8 m outs c) ∗ E 2 c) ⊢ R2.pre c)
    (hpost2 : ∀ c : Dev nD, R2.post c ⊢ iprop(StableHlo.held (c : Thread nD τ) (Pipeline.ucRefs τ sig) (V9 m outs c) ∗ E 3 c)) :
    θ_run defs (onTc (τ := τ) (main (F := F))) ⟨m, fun _ => 0, ρ⟩ (fun r => ∀ c : Dev nD,
      r.2.mem ((c.tc : Thread nD τ).loc main_v16) = V10 m outs c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m outs c))
    (hch := fun c => ⟨.rfl, .rfl, hpre0 c, hpost0 c, .rfl, .rfl, hpre1 c, hpost1 c, hpre2 c, hpost2 c, sep_mono .rfl (hE3 c)⟩)
    (hinit := ?_) (QY := fun c s => s.mem ((c.tc : Thread nD τ).loc main_v16) = V10 m outs c main_v16 ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result's buffer and each argument's buffer read off the last valuation
    unfold StableHlo.held
    iintro ⟨Hh, HSI⟩
    ihave Hr := (pointsTo_read_all (Pipeline.ucRefs τ sig) (fun b => ((c : Thread nD τ).1, b)) (V10 m outs c) s') $$ [Hh HSI]
    · isplitl [Hh] <;> iassumption
    icases Hr with ⟨%h, HSI⟩
    imodintro
    isplitr
    · ipureintro
      exact ⟨h (Proc.devRef .tc main_v16) (Finset.mem_filter.mpr ⟨StableHlo.devRef_mem_tcRefs main_v16, by decide⟩),
        (h (Proc.devRef .tc main_arg0) (Finset.mem_filter.mpr ⟨StableHlo.devRef_mem_tcRefs main_arg0, by decide⟩)).trans (V10_main_arg0 m outs c),
        (h (Proc.devRef .tc main_arg1) (Finset.mem_filter.mpr ⟨StableHlo.devRef_mem_tcRefs main_arg1, by decide⟩)).trans (V10_main_arg1 m outs c)⟩
    · iexact HSI

end Cert.Kernel.Hand

end
-- ==== Proof.K.KIData.lean ====
/-
  What the three kernel regions leave, as one family of contents.

  The contents of the unscoped buffers between two items of @main are the fold of the host operations over the launch memory,
  with each region's output array replaced by what the region leaves there. What a region leaves is computed from the contents
  it is entered from, which may contain earlier regions' outputs, so the family is built in three stages: the distance kernel's
  output from the contents after the first two host stretches; the first pair-sum kernel's from the contents that hold it;
  the second pair-sum kernel's from the contents that hold both. The contents a region is entered from read only the
  outputs of the regions before it, so every stage agrees with the finished family where it matters.
-/
import proofs.«134856_j3556232921452_1_alg».proof.Proof.Gen.Kernel.Regions

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- Contents nobody reads: the entries of the family that no region writes. -/
def idle (r : Ref sig .tc) (c : Dev nD) : Buf (Elt F) ((c : Thread nD τ).loc r) := m ((c : Thread nD τ).loc r)

/-- A family with one named entry. -/
def put (J : ℕ) (b : Ref sig .tc) (v : (c : Dev nD) → Buf (Elt F) ((c : Thread nD τ).loc b)) (rest : Outs (F := F)) : Outs (F := F) :=
  fun J' r c => if h : J' = J ∧ r = b then h.2 ▸ v c else rest J' r c

theorem put_self (J : ℕ) (b : Ref sig .tc) (v : (c : Dev nD) → Buf (Elt F) ((c : Thread nD τ).loc b)) (rest : Outs (F := F)) (c : Dev nD) :
    put J b v rest J b c = v c := by
  unfold put; rw [dif_pos ⟨rfl, rfl⟩]

theorem put_of_ne (J : ℕ) (b : Ref sig .tc) (v : (c : Dev nD) → Buf (Elt F) ((c : Thread nD τ).loc b)) (rest : Outs (F := F))
    (J' : ℕ) (r : Ref sig .tc) (c : Dev nD) (h : J' ≠ J) : put J b v rest J' r c = rest J' r c := by
  unfold put; rw [dif_neg fun h' => h h'.1]

section Stages

-- what each region leaves in its output array, as a function of the contents it is entered from
variable (o3 : Valuation τ sig (Elt F) → (c : Dev nD) → Buf (Elt F) ((c : Thread nD τ).loc main_v2))
  (o7 : Valuation τ sig (Elt F) → (c : Dev nD) → Buf (Elt F) ((c : Thread nD τ).loc main_v8))
  (o9 : Valuation τ sig (Elt F) → (c : Dev nD) → Buf (Elt F) ((c : Thread nD τ).loc main_v12))

/-- After the distance kernel. -/
def outsA : Outs (F := F) := put 3 main_v2 (fun c => o3 (V2 m c) c) (idle m |> fun f _ r c => f r c)
/-- After the first pair-sum kernel. -/
def outsB : Outs (F := F) := put 7 main_v8 (fun c => o7 (V6 m (outsA m o3) c) c) (outsA m o3)
/-- After the second pair-sum kernel: the finished family. -/
def outsC : Outs (F := F) := put 9 main_v12 (fun c => o9 (V8 m (outsB m o3 o7) c) c) (outsB m o3 o7)

theorem outsC_3 (c : Dev nD) : outsC m o3 o7 o9 3 main_v2 c = o3 (V2 m c) c := by
  unfold outsC; rw [put_of_ne _ _ _ _ _ _ _ (by decide)]
  unfold outsB; rw [put_of_ne _ _ _ _ _ _ _ (by decide)]
  unfold outsA; rw [put_self]

theorem outsB_3 (c : Dev nD) : outsB m o3 o7 3 main_v2 c = o3 (V2 m c) c := by
  unfold outsB; rw [put_of_ne _ _ _ _ _ _ _ (by decide)]
  unfold outsA; rw [put_self]

theorem outsA_3 (c : Dev nD) : outsA m o3 3 main_v2 c = o3 (V2 m c) c := by
  unfold outsA; rw [put_self]

theorem outsC_7 (c : Dev nD) : outsC m o3 o7 o9 7 main_v8 c = o7 (V6 m (outsA m o3) c) c := by
  unfold outsC; rw [put_of_ne _ _ _ _ _ _ _ (by decide)]
  unfold outsB; rw [put_self]

theorem outsB_7 (c : Dev nD) : outsB m o3 o7 7 main_v8 c = o7 (V6 m (outsA m o3) c) c := by
  unfold outsB; rw [put_self]

theorem outsC_9 (c : Dev nD) : outsC m o3 o7 o9 9 main_v12 c = o9 (V8 m (outsB m o3 o7) c) c := by
  unfold outsC; rw [put_self]

/-- The contents the first pair-sum kernel is entered from read only the distance kernel's output. -/
theorem V6_stage (c : Dev nD) : V6 m (outsC m o3 o7 o9) c = V6 m (outsA m o3) c := by
  show StableHlo.after hostOps1_2 (StableHlo.after hostOps1_1 (StableHlo.after hostOps1 (Function.update (V2 m c) main_v2 (outsC m o3 o7 o9 3 main_v2 c))))
    = StableHlo.after hostOps1_2 (StableHlo.after hostOps1_1 (StableHlo.after hostOps1 (Function.update (V2 m c) main_v2 (outsA m o3 3 main_v2 c))))
  rw [outsC_3, outsA_3]

/-- The contents the second pair-sum kernel is entered from read only the first two outputs. -/
theorem V8_stage (c : Dev nD) : V8 m (outsC m o3 o7 o9) c = V8 m (outsB m o3 o7) c := by
  show StableHlo.after hostOps2 (Function.update (V6 m (outsC m o3 o7 o9) c) main_v8 (outsC m o3 o7 o9 7 main_v8 c))
    = StableHlo.after hostOps2 (Function.update (V6 m (outsB m o3 o7) c) main_v8 (outsB m o3 o7 7 main_v8 c))
  have e : V6 m (outsB m o3 o7) c = V6 m (outsA m o3) c := by
    show StableHlo.after hostOps1_2 (StableHlo.after hostOps1_1 (StableHlo.after hostOps1 (Function.update (V2 m c) main_v2 (outsB m o3 o7 3 main_v2 c))))
      = StableHlo.after hostOps1_2 (StableHlo.after hostOps1_1 (StableHlo.after hostOps1 (Function.update (V2 m c) main_v2 (outsA m o3 3 main_v2 c))))
    rw [outsB_3, outsA_3]
  rw [V6_stage, e, outsC_7, outsB_7]

/-- So in the finished family each region's entry is what it leaves from the contents it is actually entered from. -/
theorem outs_7 (c : Dev nD) : outsC m o3 o7 o9 7 main_v8 c = o7 (V6 m (outsC m o3 o7 o9) c) c := by
  rw [outsC_7, V6_stage]

theorem outs_9 (c : Dev nD) : outsC m o3 o7 o9 9 main_v12 c = o9 (V8 m (outsC m o3 o7 o9) c) c := by
  rw [outsC_9, V8_stage]

end Stages

end Cert.Kernel.Hand

end
-- ==== Proof.K.R0Body.lean ====
/-
  Region 0, the distance kernel: what its body leaves in its output buffer, and the body's triple.

  The body reads the 512x512 block x of the first operand whole, the four 512x512 slabs w_0 .. w_3 of the
  [4,512,512] block of the second operand one by one, and stores ONE 512x512 value over the whole output
  buffer: the elementwise maximum over k of exp (-(|x_b|^2 + |w_k,n|^2 - 2 <x_b, w_k,n>) / 10), spelt by the
  payloads k0_pay1 .. k0_pay5 of the skeleton.  The inputs' buffers are left as they were.
-/
import proofs.«134856_j3556232921452_1_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.R0

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The body's accesses -/

/-- The whole 512x512 buffer: the load of the first operand's block, and the one store into the output. -/
abbrev rX : Rect S512x512 := Rect.unit (s := S512x512) ![0, 0] S512x512.size inb_S512x512_S512x512_0_0
/-- Slab k of the [4,512,512] block: the rows (k, ·, ·). -/
abbrev rW0 : Rect S4x512x512 := Rect.unit (s := S4x512x512) ![0, 0, 0] S1x512x512.size inb_S4x512x512_S1x512x512_0_0_0
abbrev rW1 : Rect S4x512x512 := Rect.unit (s := S4x512x512) ![1, 0, 0] S1x512x512.size inb_S4x512x512_S1x512x512_1_0_0
abbrev rW2 : Rect S4x512x512 := Rect.unit (s := S4x512x512) ![2, 0, 0] S1x512x512.size inb_S4x512x512_S1x512x512_2_0_0
abbrev rW3 : Rect S4x512x512 := Rect.unit (s := S4x512x512) ![3, 0, 0] S1x512x512.size inb_S4x512x512_S1x512x512_3_0_0

/-! ## What the body leaves in the output buffer -/

/-- The stored value, from the block x of the first operand and the four slabs of the second: the running
    maximum of the four exponentials, the first two formed by the first part (k0_pay3, k0_pay4), the last two
    and the maxima by the second (k0_pay5). -/
def val0 (x : Vec F S512x512 .f32) (w0 w1 w2 w3 : Vec F S1x512x512 .f32) : Vec F S512x512 .f32 :=
  k0_pay5 (k0_pay1 x) (k0_pay2 x) (k0_pay3 x w0) (k0_pay4 x w1) (Scalar.ofBits .f32 0x41200000#32) w2 w3

/-- The output buffer after the body, from the two input buffers' contents: its one store, over the whole
    buffer, of val0 of what the loads read. -/
def out0 (x0 : Vec F S512x512 .f32) (x1 : Vec F S4x512x512 .f32) : Vec F S512x512 .f32 :=
  View.canon [⟨rX, val0 (View.ld x0 rX) (View.ld x1 rW0) (View.ld x1 rW1) (View.ld x1 rW2) (View.ld x1 rW3)⟩]

/-- The offsets of the whole-buffer rectangle are zero. -/
theorem hz : (![0, 0] : Fin S512x512.rank → Nat) = fun _ => 0 := by funext a; fin_cases a <;> rfl

/-- The store covers the buffer. -/
theorem cover0 (p0 : Vec F S512x512 .f32) (y : S512x512.Idx) :
    ∃ pc ∈ ([⟨rX, p0⟩] : List (View.Piece (Elt F) S512x512 .f32)), y ∈ pc.1.set :=
  ⟨_, List.mem_singleton_self _, View.mem_set_unit_zero hz inb_S512x512_S512x512_0_0 y⟩

/-- The output buffer holds val0 of x and the four slabs of the second operand's block. -/
theorem out0_eq (x0 : Vec F S512x512 .f32) (x1 : Vec F S4x512x512 .f32) :
    out0 x0 x1 = val0 x0 (View.ld x1 rW0) (View.ld x1 rW1) (View.ld x1 rW2) (View.ld x1 rW3) := by
  unfold out0
  rw [View.canon_unit_zero hz]
  simp only [View.ld_unit_zero (S := S512x512) hz]

/-! ## The body's triple -/

section Triple

variable {Ix : Type} [DecidableEq Ix] {U : Type} [URA U] {Lvl : Type} [Preorder Lvl]

local notation "𝕄" => MT nD τ sig Ix (Elt F) ℕ U Lvl

set_option maxHeartbeats 1000000 in
/-- The kernel body on whole staging memrefs, the two inputs' at read contents x0 and x1 and the output's at
    anything, runs to the continuation holding the inputs' as they were and the output's at out0 x0 x1. -/
theorem sound_kernel0 (𝒱₀ : Variants) (c : Dev nD) (E : Set ℕ) (i : grid0.Coords)
    (arg1 : Memref sig .tc .vmem S512x512 .f32) (harg1 : arg1.IsWhole)
    (arg2 : Memref sig .tc .vmem S4x512x512 .f32) (harg2 : arg2.IsWhole)
    (arg3 : Memref sig .tc .vmem S512x512 .f32) (harg3 : arg3.IsWhole)
    (x0 : Vec F S512x512 .f32) (x1 : Vec F S4x512x512 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0 x0 x1)) -∗ K ⟨⟩))
      ⊢ wp frame (wpE (defs₀ (F := F)) 𝒱₀ c none) E (cc0__distance_kernel i arg1 harg1 arg2 harg2 arg3 harg3) K := by
  simp only [cc0__distance_kernel_eq_skeleton]; unfold cc0__distance_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover0 _)).trans ?_
  unfold out0 val0
  sl_unfold_run_names
  rfl

end Triple

end Cert.Kernel.R0

end
-- ==== Proof.K.PDats.lean ====
/-
  The proof data of the three kernel regions as one family over the pipeline index: a literal match, so that
  the family at a numeral reduces to that region's own data.
-/
import proofs.«134856_j3556232921452_1_alg».proof.Proof.Gen.Kernel
import Idealize.ShloMosaic.Lib.Pipeline.Dat

noncomputable section

namespace Cert.Kernel

open Cert.Kernel.Gen
open Idealize.ShloMosaic Idealize.SL Idealize.SL.RA

variable {F : FTy → Type} [FloatOps F]
variable {Ix : Type} [DecidableEq Ix] {U : Type} [URA U] {Lvl : Type}

/-- Region p's proof data on each core: region 0's, region 1's, region 2's. -/
def pdats3 (d0 : (c : Dev nD) → Pipeline.Dat τ (Elt F) Ix ℕ U Lvl cfg0 c)
    (d1 : (c : Dev nD) → Pipeline.Dat τ (Elt F) Ix ℕ U Lvl cfg1 c)
    (d2 : (c : Dev nD) → Pipeline.Dat τ (Elt F) Ix ℕ U Lvl cfg2 c) :
    (p : Fin 3) → (c : Dev nD) → Pipeline.Dat τ (Elt F) Ix ℕ U Lvl (cfgs p) c
  | ⟨0, _⟩ => d0
  | ⟨1, _⟩ => d1
  | ⟨2, _⟩ => d2

end Cert.Kernel

end
-- ==== Proof.K.R0Seg.lean ====
/-
  Region 0, the distance kernel, as a segment of the program: the proof data of its pipeline, the body
  obligation at every grid point, and the region's record.

  The grid has two points.  Window 0 is the whole first operand (one block, fetched at the first point and
  kept at the second), window 1 the block (·, t, ·) of the second operand, window 2 the block (·, t) of the
  result, written back at every point.  At point t the body leaves in the result's buffer out0 of the two
  input blocks at t, and leaves the inputs' buffers as it found them.
-/
import proofs.«134856_j3556232921452_1_alg».proof.Proof.K.R0Body
import proofs.«134856_j3556232921452_1_alg».proof.Proof.K.PDats
import proofs.«134856_j3556232921452_1_alg».proof.Proof.Gen.Kernel.Launch
import proofs.«134856_j3556232921452_1_alg».proof.Proof.Gen.Kernel.Points
import proofs.«134856_j3556232921452_1_alg».proof.Proof.Gen.Kernel.Regions
import Idealize.ShloMosaic.Lib.Pipeline.FrameBody
import Idealize.ShloMosaic.Lib.Pipeline.Regions
import Idealize.ShloMosaic.Lib.Pipeline.RegionsLoop
import Idealize.ShloMosaic.Lib.Tactic

set_option maxRecDepth 16384

noncomputable section

namespace Cert.Kernel.R0

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Segs

variable {Ix : Type} [DecidableEq Ix] {U : Type} [URA U] {Lvl : Type} [Preorder Lvl]

local notation "𝕄" => MT nD τ sig Ix (Elt F) ℕ U Lvl

/-! ## The windows' blocks -/

/-- Window w's block at point t, read off its array as the region finds it (V). -/
def blk0 (V : Valuation τ sig (Elt F)) (w : Fin cfg0.W) (t : Fin cfg0.N) :
    ((cfg0.win w).xblock (cfg0.grid.coords t)).Idx → Elt F (cfg0.win w).elt :=
  ((cfg0.win w).blk t).view.read (Elt F) (V (Pipeline.arrRef spec0 w))

/-! ## The proof data -/

/-- The proof data of the region on core c: the arrays as the region finds them; after the body at point t each
    input's buffer at its block and the result's at out0 of the two input blocks; the invariant the scoped
    buffers no window stages; nothing owed; full shares. -/
def dat0 (V : Valuation τ sig (Elt F)) (c : Dev nD) : Dat τ (Elt F) Ix ℕ U Lvl cfg0 c where
  A w := V (Pipeline.arrRef spec0 w)
  after w t := match w with
    | ⟨0, _⟩ => blk0 V 0 t
    | ⟨1, _⟩ => blk0 V 1 t
    | ⟨2, _⟩ => out0 (blk0 V 0 t) (blk0 V 1 t)
  Φ _ := Pipeline.scopedRest spec0 c
  q _ := fullShare
  owed _ := 0

variable (V : Valuation τ sig (Elt F)) (c : Dev nD)

theorem A_eq0 (w : Fin cfg0.W) : (dat0 (Ix := Ix) (U := U) (Lvl := Lvl) V c).A w = V (Pipeline.arrRef spec0 w) := by
  dsimp only [dat0]

theorem after0_0 (t : Fin cfg0.N) : (dat0 (Ix := Ix) (U := U) (Lvl := Lvl) V c).after 0 t = blk0 V 0 t := by dsimp only [dat0]
theorem after0_1 (t : Fin cfg0.N) : (dat0 (Ix := Ix) (U := U) (Lvl := Lvl) V c).after 1 t = blk0 V 1 t := by dsimp only [dat0]
theorem after0_2 (t : Fin cfg0.N) :
    (dat0 (Ix := Ix) (U := U) (Lvl := Lvl) V c).after 2 t = out0 (blk0 V 0 t) (blk0 V 1 t) := by dsimp only [dat0]

/-- The first operand's buffer holds its one block at both points: fetched at the first, kept at the second. -/
theorem before0_0 (t : Fin cfg0.N) (d) : (dat0 (Ix := Ix) (U := U) (Lvl := Lvl) V c).before 0 t d = blk0 V 0 t :=
  ((dat0 V c).before_in_eq_fetched 0 rfl (fun _ => rfl) (fun _ _ _ => rfl)
    (fun t => by rw [after0_0]; unfold Dat.blockOf blk0; rw [A_eq0]; try rfl) t d).trans
    (by unfold Dat.fetched Dat.blockOf blk0; rw [A_eq0]; try rfl)

/-- The second operand's buffer holds the block of the point: fetched at every point. -/
theorem before0_1 (t : Fin cfg0.N) (d) : (dat0 (Ix := Ix) (U := U) (Lvl := Lvl) V c).before 1 t d = blk0 V 1 t :=
  ((dat0 V c).before_in_eq_fetched 1 rfl (fun _ => rfl) (fun _ _ _ => rfl)
    (fun t => by rw [after0_1]; unfold Dat.blockOf blk0; rw [A_eq0]; try rfl) t d).trans
    (by unfold Dat.fetched Dat.blockOf blk0; rw [A_eq0]; try rfl)

/-! ## The body obligation, at a generic point -/

variable (𝒱₀ : Variants) (ι : Ix)

/-- What the body is called with at point t: the invariant, the core's dues, the three current buffers. -/
def bodyPre0 (t : Fin cfg0.N) : sProp 𝕄 :=
  iprop((dat0 (Ix := Ix) (U := U) (Lvl := Lvl) V c).Φ t.castSucc ∗ (dat0 (Ix := Ix) (U := U) (Lvl := Lvl) V c).owesAt ι t.castSucc
    ∗ (∃ d, owns (c : Thread nD τ) (st0_0 t) fullShare ((dat0 (Ix := Ix) (U := U) (Lvl := Lvl) V c).before 0 t d))
    ∗ (∃ d, owns (c : Thread nD τ) (st0_1 t) fullShare ((dat0 (Ix := Ix) (U := U) (Lvl := Lvl) V c).before 1 t d))
    ∗ (∃ d, owns (c : Thread nD τ) (st0_2 t) fullShare ((dat0 (Ix := Ix) (U := U) (Lvl := Lvl) V c).before 2 t d)))

/-- and what it returns. -/
def bodyPost0 (t : Fin cfg0.N) : sProp 𝕄 :=
  iprop((dat0 (Ix := Ix) (U := U) (Lvl := Lvl) V c).Φ t.succ ∗ (dat0 (Ix := Ix) (U := U) (Lvl := Lvl) V c).owesAt ι t.succ
    ∗ owns (c : Thread nD τ) (st0_0 t) fullShare ((dat0 (Ix := Ix) (U := U) (Lvl := Lvl) V c).after 0 t)
    ∗ owns (c : Thread nD τ) (st0_1 t) fullShare ((dat0 (Ix := Ix) (U := U) (Lvl := Lvl) V c).after 1 t)
    ∗ owns (c : Thread nD τ) (st0_2 t) fullShare ((dat0 (Ix := Ix) (U := U) (Lvl := Lvl) V c).after 2 t))

/-- The body at any point: the inputs' buffers hold their blocks, so the body's triple applies; the invariant
    and the core's dues pass through unread. -/
theorem sound_body0 (t : Fin cfg0.N) :
    (bodyPre0 (U := U) (Lvl := Lvl) V c ι t : sProp 𝕄) ⊢ wp frame (wpE (defs₀ (F := F)) 𝒱₀ c none) Set.univ (bodyAt0 t) (fun _ => bodyPost0 (U := U) (Lvl := Lvl) V c ι t) := by
  unfold bodyPre0 bodyPost0 bodyAt0
  simp only [before0_0, before0_1]
  rw [show (dat0 (Ix := Ix) (U := U) (Lvl := Lvl) V c).Φ t.succ = (dat0 V c).Φ t.castSucc from rfl,
    show (dat0 (Ix := Ix) (U := U) (Lvl := Lvl) V c).owesAt ι t.succ = (dat0 V c).owesAt ι t.castSucc from rfl,
    after0_0, after0_1, after0_2]
  iintro ⟨HΦ, Ho, ⟨%d0, H0⟩, ⟨%d1, H1⟩, ⟨%d2, H2⟩⟩
  iapply (sound_kernel0 𝒱₀ c Set.univ _ _ _ _ _ _ _ (blk0 V 0 t) (blk0 V 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 : BodyObligation (dat0 (Ix := Ix) (U := U) (Lvl := Lvl) V c) (defs₀ (F := F)) 𝒱₀ ι Set.univ := fun t => by
  rw [bigSep_W0, bigSep_W0]
  exact sound_body0 (U := U) (Lvl := Lvl) V c 𝒱₀ ι t

/-- The body obligation as the pipeline's loop uses it. -/
theorem body0 : Pipeline.BodyObligationLoose (dat0 (Ix := Ix) (U := U) (Lvl := Lvl) V c) (defs₀ (F := F)) 𝒱₀ ι Set.univ :=
  (body_obligation0 V c 𝒱₀ ι).loose

end Segs

/-! ## The region's record -/

section Record

variable {Ix : Type} [DecidableEq Ix] {U : Type} [URA U] {Lvl : Type} [Preorder Lvl]

local notation "𝕄" => MT nD τ sig Ix (Elt F) ℕ U Lvl

variable (V : (c : Dev nD) → Valuation τ sig (Elt F))
  (d1 : (c : Dev nD) → Dat τ (Elt F) Ix ℕ U Lvl cfg1 c) (d2 : (c : Dev nD) → Dat τ (Elt F) Ix ℕ U Lvl cfg2 c)

/-- The three regions' proof data with region 0's at the contents V. -/
abbrev pd : (p : Fin 3) → (c : Dev nD) → Dat τ (Elt F) Ix ℕ U Lvl (cfgs p) c :=
  pdats3 (fun c => dat0 (V c) c) d1 d2

/-- The contents V read at the TensorCore's references. -/
abbrev Vr (W : Valuation τ sig (Elt F)) (c : Dev nD) : (b : Ref sig .tc) → Buf (Elt F) ((c : Thread nD τ).loc b) := fun b => W b

/-- The contents the region leaves: V with the result array at what the two write-backs make of it. -/
abbrev Vout (c : Dev nD) : Valuation τ sig (Elt F) :=
  Function.update (V c) main_v2 ((dat0 (Ix := Ix) (U := U) (Lvl := Lvl) (V c) c).arrAt 2 2)

/-- Each array of the region holds at its end what Vout says: the inputs what they held, the result its
    write-backs. -/
theorem hF0 (c : Dev nD) (w : Fin cfg0.W) :
    (pd (Ix := Ix) (U := U) (Lvl := Lvl) V d1 d2 0 c).arrAt w cfg0.N = Vr (Vout (Ix := Ix) (U := U) (Lvl := Lvl) V c) c (Pipeline.arrRef spec0 w) := by
  match w with
  | ⟨0, _⟩ =>
    refine ((dat0 (V c) c).arrAt_in 0 rfl _).trans ?_
    rw [A_eq0]
    exact (Function.update_of_ne (StableHlo.devRef_ne_of_ne (by decide)) _ _).symm
  | ⟨1, _⟩ =>
    refine ((dat0 (V c) c).arrAt_in 1 rfl _).trans ?_
    rw [A_eq0]
    exact (Function.update_of_ne (StableHlo.devRef_ne_of_ne (by decide)) _ _).symm
  | ⟨2, _⟩ =>
    rw [show cfg0.N = 2 from N_0]
    exact (Function.update_self (Proc.devRef (τ := τ) .tc main_v2) _ (V c)).symm

/-- Every other unscoped buffer holds what it held. -/
theorem hrest0 (c : Dev nD) : ∀ b, b ∉ Finset.univ.image (Pipeline.arrRef spec0) →
    Vr (Vout (Ix := Ix) (U := U) (Lvl := Lvl) V c) c b = Vr (V c) c b := fun b hb =>
  Function.update_of_ne (StableHlo.devRef_ne_of_ne fun e => hb (Finset.mem_image.mpr ⟨2, Finset.mem_univ _, e.symm⟩)) _ _

end Record

section Record2

variable {Ix : Type} [DecidableEq Ix] {U : Type} [URA U] {Lvl : Type} [Preorder Lvl]

local notation "𝕄" => MT nD τ sig Ix (Elt F) ℕ U Lvl

variable (V : (c : Dev nD) → Valuation τ sig (Elt F))
  (d1 : (c : Dev nD) → Dat τ (Elt F) Ix ℕ U Lvl cfg1 c) (d2 : (c : Dev nD) → Dat τ (Elt F) Ix ℕ U Lvl cfg2 c)
  (ι : Ix) (𝒱₀ : Variants) (L : GSem nD τ sig → Finset Ix) (lv : GSem nD τ sig → Ix → Lvl)
  (E' : Dev nD → sProp (MT nD τ sig Ix (Elt F) ℕ U Lvl))

/-- The thread state the region is entered from: every unscoped buffer at V, the core owing nothing, the rest. -/
abbrev pre0 (c : Dev nD) : sProp 𝕄 :=
  iprop(StableHlo.held (c : Thread nD τ) (Pipeline.ucRefs τ sig) (V c)
    ∗ (∃ W, owes (c : Thread nD τ) (0 : CellTallies nD τ sig Ix) W) ∗ E' c)
/-- The thread state it leaves: the result array at its two write-backs, all else as entered. -/
abbrev post0 (c : Dev nD) : sProp 𝕄 :=
  iprop(StableHlo.held (c : Thread nD τ) (Pipeline.ucRefs τ sig) (Vout (Ix := Ix) (U := U) (Lvl := Lvl) V c)
    ∗ (∃ W, owes (c : Thread nD τ) (0 : CellTallies nD τ sig Ix) W) ∗ E' c)
/-- What bypasses the region: the unscoped buffers that are no array of it, and the rest. -/
abbrev Z0 (c : Dev nD) : sProp 𝕄 :=
  iprop(Pipeline.unscopedRest (Ix := Ix) (Name := ℕ) (U := U) (Lvl := Lvl) spec0 c (Vr (V c) c) ∗ E' c)

set_option backward.isDefEq.respectTransparency.types false in
/-- Entry: the region's arrays split out of the unscoped buffers, the dues at the first tallies. -/
theorem hentry0 (c : Dev nD) :
    iprop(pre0 V E' c ∗ Pipeline.ownSems0 (fun k : PEmpty => k.elim) c ∗ levAts L lv)
      ⊢ |={Set.univ}=> iprop((pd V d1 d2 0 c).arrays ((pd V d1 d2 0 c).arrAt · 0)
          ∗ Pipeline.prefHeld (pcfgs (F := F) 0).pre c (fun _ => fullShare) (adm (F := F) 0).1
          ∗ (pd V d1 d2 0 c).owesAt ι 0 ∗ (iprop(emp) : sProp 𝕄) ∗ Z0 V E' c) := by
  rw [Pipeline.ownSems0_none]
  have hsplit := Pipeline.arrays_of_unscopedBufs (p := 0) (pcfgs (F := F)) adm (pd V d1 d2) launch0.win launch0.arr_whole c
    ((pd V d1 d2 0 c).share_full fun _ => rfl) (Vr (V c) c) fun _ => rfl
  rw [Pipeline.unscopedBufs_held] at hsplit
  iintro ⟨⟨Hub, HO, HE⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    icases HO with ⟨%W, HO⟩; iexists W; isplitr; · ipureintro; exact fun _ _ => Or.inl trivial
    iexact HO
  isplitr; · iempintro
  isplitl [Hrest]; · iexact Hrest
  iexact HE

set_option backward.isDefEq.respectTransparency.types false in
/-- Exit: the arrays at their final contents put back among the unscoped buffers. -/
theorem hexit0 (c : Dev nD) :
    iprop((pd V d1 d2 0 c).arrays ((pd V d1 d2 0 c).arrAt · cfg0.N) ∗ (pd V d1 d2 0 c).owesAt ι (Fin.last cfg0.N)
        ∗ (iprop(emp) : sProp 𝕄) ∗ Z0 V E' c)
      ⊢ |={Set.univ}=> post0 V E' c := by
  have hjoin := Pipeline.unscopedBufs_of_arrays (p := 0) (pcfgs (F := F)) adm (Ix := Ix) (Name := ℕ) (U := U) (Lvl := Lvl)
    launch0.win launch0.arr_whole c (pd V d1 d2) ((pd V d1 d2 0 c).share_full fun _ => rfl)
    (Vr (V c) c) (Vr (Vout (Ix := Ix) (U := U) (Lvl := Lvl) V c) c) ((pd V d1 d2 0 c).arrAt · cfg0.N) (hF0 V d1 d2 c) (hrest0 V c)
  rw [Pipeline.unscopedBufs_held] at hjoin
  iintro ⟨Ha, HO, -, Hrest, HE⟩
  imodintro
  isplitl [Ha Hrest]
  · iapply hjoin; isplitl [Ha] <;> iassumption
  isplitl [HO]
  · unfold Pipeline.Dat.owesAt Pipeline.owesWithin
    icases HO with ⟨%W, -, HO⟩; iexists W; iexact HO
  iexact HE

set_option backward.isDefEq.respectTransparency.types false in
/-- Region 0 over the thread state "every unscoped buffer at V, the core owing nothing, a rest E'": entered from
    V, left at V with the result array at its two write-backs.  Its arrays split out of the unscoped buffers and
    put back at the exit contents; nothing owed; no semaphore of the kernel's own; the rest bypasses the region. -/
def R0 : Pipeline.RegionSeg (pcfgs (F := F)) adm (pd V d1 d2) ι defs₀ 𝒱₀ L lv 0 where
  win := launch0.win.to₀
  block_pos := launch0.block_pos
  stage_whole := launch0.stage_whole
  K := PEmpty
  osem k := k.elim
  ho := Pipeline.OwnSemFacts.none _
  hbody c := body0 (V c) c 𝒱₀ ι
  hwaits := Pipeline.hwaits_of_owed_zero _ _ _ _ L lv 0 fun _ _ => rfl
  pre := pre0 V E'
  post := post0 V E'
  X _ := iprop(emp)
  Y _ := iprop(emp)
  Z := Z0 V E'
  hentry c := hentry0 V d1 d2 ι L lv E' c
  hin c := by
    rw [show (pd V d1 d2 0 c).Φ 0 = Pipeline.scopedRest spec0 c from rfl]
    iintro ⟨-, -, Hr⟩
    iexact Hr
  hout c := by
    rw [Pipeline.ownSems0_none, show (pd V d1 d2 0 c).Φ (Fin.last _) = Pipeline.scopedRest spec0 c from rfl]
    iintro Hr
    isplitr; · iempintro
    isplitr; · iempintro
    iexact Hr
  hexit c := hexit0 V d1 d2 ι E' c

end Record2

end Cert.Kernel.R0

end
-- ==== Proof.K.R1Step.lean ====
import proofs.«134856_j3556232921452_1_alg».proof.Proof.Gen.Kernel.Launch
import proofs.«134856_j3556232921452_1_alg».proof.Proof.Gen.Kernel.Skeleton
import proofs.«134856_j3556232921452_1_alg».proof.Proof.Gen.Kernel.Points
import Idealize.ShloMosaic.Lib.Pipeline.FrameBody
import Idealize.ShloMosaic.Lib.Pipeline.Value

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! # The pair-sum kernel: what one grid point adds to the accumulator

The grid is 8 x 8. At point (i, j) the body reads row blocks i and j of the padded points (512 x 512 each) and the
blocks i and j of their squared norms (512 each). It forms the 512 x 512 block
n_a + n_b - 2 (a b^T), the product taken of the two blocks rounded to bf16, keeps the entries whose global row index
512 i + r is below the global column index 512 j + s with both below 4000, puts zero elsewhere, sums the block, and
adds the sum to a 1 x 1 accumulator, which it first sets to zero at the point (0, 0). -/

/-- The guard of the zeroing store: both grid coordinates are zero (the scalar chain as printed). -/
abbrev cond1 (i : grid1.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- The guard holds at the first point of the grid and at no other. -/
theorem hcond1 : ∀ t : Fin cfg1.N, cond1 (grid1.coords t) ↔ t.val = 0 :=
  (by decide +kernel : ∀ t : Fin grid1.N, cond1 (grid1.coords t) ↔ t.val = 0)

/-- One accumulation at point `i`: the masked sum of the block built from `(x0, s0)` against `(x1, s1)`, added to `a`. -/
def step1 (i : grid1.Coords) (x0 x1 : Vec F S512x512 .f32) (s0 s1 : Vec F S512 .f32) (a : Vec F S1x1 .f32) : Vec F S1x1 .f32 :=
  k1_pay1 (k1_pay3 x0 x1 s0 s1) (k1_pay4 i) (k1_pay5 (F := F)) a

/-- What the body leaves in the accumulator at point `i`, having found `acc` there: one accumulation onto zero at the
    point (0, 0), onto `acc` at every other point. -/
def acc1 (i : grid1.Coords) (x0 x1 : Vec F S512x512 .f32) (s0 s1 : Vec F S512 .f32) (acc : Vec F S1x1 .f32) : Vec F S1x1 .f32 :=
  step1 i x0 x1 s0 s1 (if cond1 i then k1_pay2 (F := F) else acc)

theorem acc1_first (i : grid1.Coords) (hc : cond1 i) (x0 x1 : Vec F S512x512 .f32) (s0 s1 : Vec F S512 .f32) (acc : Vec F S1x1 .f32) :
    acc1 i x0 x1 s0 s1 acc = step1 i x0 x1 s0 s1 (k1_pay2 (F := F)) := by
  unfold acc1; rw [if_pos hc]

theorem acc1_later (i : grid1.Coords) (hc : ¬cond1 i) (x0 x1 : Vec F S512x512 .f32) (s0 s1 : Vec F S512 .f32) (acc : Vec F S1x1 .f32) :
    acc1 i x0 x1 s0 s1 acc = step1 i x0 x1 s0 s1 acc := by
  unfold acc1; rw [if_neg hc]

/-- The zero offsets of a rank-2 and of a rank-1 whole-buffer rectangle. -/
theorem hz2 : (![0, 0] : Fin 2 → Nat) = fun _ => 0 := funext fun a => by fin_cases a <;> rfl
theorem hz1 : (![0] : Fin 1 → Nat) = fun _ => 0 := funext fun a => by fin_cases a <;> rfl

end Cert.Kernel.R1

end
-- ==== Proof.K.R1BodyFirst.lean ====
import proofs.«134856_j3556232921452_1_alg».proof.Proof.K.R1Step
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! # The pair-sum kernel's body at the point (0, 0) -/

set_option maxHeartbeats 1000000 in
/-- THE FIRST POINT. From the four input buffers held whole at `x0 x1 s0 s1` and the accumulator's buffer at anything,
    the body runs to its return leaving the inputs as they were and the accumulator at one accumulation onto zero:
    the zeroing store happens, and the read-back before the last store reads the zero it wrote. -/
theorem body_first (𝒱₀ : Variants) (c : Dev nD) (i : grid1.Coords)
    (arg2 : Memref sig .tc .vmem S512x512 .f32) (harg2 : arg2.IsWhole) (arg3 : Memref sig .tc .vmem S512x512 .f32) (harg3 : arg3.IsWhole)
    (arg4 : Memref sig .tc .vmem S512 .f32) (harg4 : arg4.IsWhole) (arg5 : Memref sig .tc .vmem S512 .f32) (harg5 : arg5.IsWhole)
    (arg6 : Memref sig .tc .vmem S1x1 .f32) (harg6 : arg6.IsWhole) (hc : cond1 i)
    (x0 x1 : Vec F S512x512 .f32) (s0 s1 : Vec F S512 .f32) (E : Set ℕ) (K : PUnit → sProp 𝕄) :
    iprop(owns (c : Thread nD τ) arg2 fullShare x0 ∗ owns (c : Thread nD τ) arg3 fullShare x1
        ∗ owns (c : Thread nD τ) arg4 fullShare s0 ∗ owns (c : Thread nD τ) arg5 fullShare s1
        ∗ (∃ d, owns (c : Thread nD τ) arg6 fullShare d)
        ∗ (iprop(owns (c : Thread nD τ) arg2 fullShare x0 ∗ owns (c : Thread nD τ) arg3 fullShare x1
        ∗ owns (c : Thread nD τ) arg4 fullShare s0 ∗ owns (c : Thread nD τ) arg5 fullShare s1
            ∗ owns (c : Thread nD τ) arg6 fullShare (step1 i x0 x1 s0 s1 (k1_pay2 (F := F)))) -∗ K ⟨⟩))
      ⊢ wp frame (wpE (defs₀ (F := F)) 𝒱₀ c none) E (cc1_kernel i arg2 harg2 arg3 harg3 arg4 harg4 arg5 harg5 arg6 harg6) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1
  obtain rfl := harg4.eq_unread hf2; obtain rfl := harg5.eq_unread hf3
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap; (· iexact H4)
  ipureintro
  rw [View.read_writes_eq_canon _ _ _ (fun y => ⟨_, List.mem_cons_self, View.mem_set_unit_zero (S := S1x1) hz2 inb_S1x1_S1x1_0_0 y⟩)]
  rw [View.canon_cons_unit_zero (S := S1x1) hz2]
  sl_unfold_words
  rw [View.readCov_unit_zero (S := S1x1) _ hz2]
  unfold step1
  simp only [View.readAt_eq_ld, harg2.read_unread, harg3.read_unread, harg4.read_unread, harg5.read_unread,
    View.ld_unit_zero (S := S512x512) hz2, View.ld_unit_zero (S := S512) hz1]

end Cert.Kernel.R1

end
-- ==== Proof.K.R1BodyLater.lean ====
import proofs.«134856_j3556232921452_1_alg».proof.Proof.K.R1Step
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! # The pair-sum kernel's body at a point other than (0, 0) -/

set_option maxHeartbeats 1000000 in
/-- A LATER POINT. From the four input buffers held whole at `x0 x1 s0 s1` and the accumulator's buffer at `acc`, the
    body runs to its return leaving the inputs as they were and the accumulator at one accumulation onto `acc`: the
    zeroing store does not happen. -/
theorem body_later (𝒱₀ : Variants) (c : Dev nD) (i : grid1.Coords)
    (arg2 : Memref sig .tc .vmem S512x512 .f32) (harg2 : arg2.IsWhole) (arg3 : Memref sig .tc .vmem S512x512 .f32) (harg3 : arg3.IsWhole)
    (arg4 : Memref sig .tc .vmem S512 .f32) (harg4 : arg4.IsWhole) (arg5 : Memref sig .tc .vmem S512 .f32) (harg5 : arg5.IsWhole)
    (arg6 : Memref sig .tc .vmem S1x1 .f32) (harg6 : arg6.IsWhole) (hc : ¬cond1 i)
    (x0 x1 : Vec F S512x512 .f32) (s0 s1 : Vec F S512 .f32) (acc : Vec F S1x1 .f32) (E : Set ℕ) (K : PUnit → sProp 𝕄) :
    iprop(owns (c : Thread nD τ) arg2 fullShare x0 ∗ owns (c : Thread nD τ) arg3 fullShare x1
        ∗ owns (c : Thread nD τ) arg4 fullShare s0 ∗ owns (c : Thread nD τ) arg5 fullShare s1
        ∗ owns (c : Thread nD τ) arg6 fullShare acc
        ∗ (iprop(owns (c : Thread nD τ) arg2 fullShare x0 ∗ owns (c : Thread nD τ) arg3 fullShare x1
        ∗ owns (c : Thread nD τ) arg4 fullShare s0 ∗ owns (c : Thread nD τ) arg5 fullShare s1
            ∗ owns (c : Thread nD τ) arg6 fullShare (step1 i x0 x1 s0 s1 acc)) -∗ K ⟨⟩))
      ⊢ wp frame (wpE (defs₀ (F := F)) 𝒱₀ c none) E (cc1_kernel i arg2 harg2 arg3 harg3 arg4 harg4 arg5 harg5 arg6 harg6) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1
  obtain rfl := harg4.eq_unread hf2; obtain rfl := harg5.eq_unread hf3
  obtain rfl := harg6.eq_unread hf4
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap; (· iexact H4)
  ipureintro
  rw [View.read_writes_eq_canon _ _ _ (fun y => ⟨_, List.mem_cons_self, View.mem_set_unit_zero (S := S1x1) hz2 inb_S1x1_S1x1_0_0 y⟩)]
  rw [View.canon_cons_unit_zero (S := S1x1) hz2]
  sl_unfold_words
  unfold step1
  simp only [View.readAt_eq_ld, harg2.read_unread, harg3.read_unread, harg4.read_unread, harg5.read_unread, harg6.read_unread,
    View.ld_unit_zero (S := S512x512) hz2, View.ld_unit_zero (S := S512) hz1, View.ld_unit_zero (S := S1x1) hz2]

end Cert.Kernel.R1

end
-- ==== Proof.K.R1Body.lean ====
import proofs.«134856_j3556232921452_1_alg».proof.Proof.K.R1BodyFirst
import proofs.«134856_j3556232921452_1_alg».proof.Proof.K.R1BodyLater

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

/-! # The pair-sum kernel's body at any grid point -/

/-- AT ANY POINT. From the four input buffers held whole at `x0 x1 s0 s1` and the accumulator's buffer at `acc`, the body
    runs to its return leaving the inputs as they were and the accumulator at `acc1 i x0 x1 s0 s1 acc`: by cases on the
    guard of the zeroing store. -/
theorem kernel1 (𝒱₀ : Variants) (c : Dev nD) (i : grid1.Coords)
    (arg2 : Memref sig .tc .vmem S512x512 .f32) (harg2 : arg2.IsWhole) (arg3 : Memref sig .tc .vmem S512x512 .f32) (harg3 : arg3.IsWhole)
    (arg4 : Memref sig .tc .vmem S512 .f32) (harg4 : arg4.IsWhole) (arg5 : Memref sig .tc .vmem S512 .f32) (harg5 : arg5.IsWhole)
    (arg6 : Memref sig .tc .vmem S1x1 .f32) (harg6 : arg6.IsWhole)
    (x0 x1 : Vec F S512x512 .f32) (s0 s1 : Vec F S512 .f32) (acc : Vec F S1x1 .f32) (E : Set ℕ) (K : PUnit → sProp 𝕄) :
    iprop(owns (c : Thread nD τ) arg2 fullShare x0 ∗ owns (c : Thread nD τ) arg3 fullShare x1
        ∗ owns (c : Thread nD τ) arg4 fullShare s0 ∗ owns (c : Thread nD τ) arg5 fullShare s1
        ∗ owns (c : Thread nD τ) arg6 fullShare acc
        ∗ (iprop(owns (c : Thread nD τ) arg2 fullShare x0 ∗ owns (c : Thread nD τ) arg3 fullShare x1
        ∗ owns (c : Thread nD τ) arg4 fullShare s0 ∗ owns (c : Thread nD τ) arg5 fullShare s1
            ∗ owns (c : Thread nD τ) arg6 fullShare (acc1 i x0 x1 s0 s1 acc)) -∗ K ⟨⟩))
      ⊢ wp frame (wpE (defs₀ (F := F)) 𝒱₀ c none) E (cc1_kernel i arg2 harg2 arg3 harg3 arg4 harg4 arg5 harg5 arg6 harg6) K := by
  by_cases hc : cond1 i
  · rw [acc1_first i hc]
    iintro ⟨H0, H1, H2, H3, H4, Hk⟩
    iapply (body_first 𝒱₀ c i arg2 harg2 arg3 harg3 arg4 harg4 arg5 harg5 arg6 harg6 hc x0 x1 s0 s1 E K)
    isplitl [H0]; · iexact H0
    isplitl [H1]; · iexact H1
    isplitl [H2]; · iexact H2
    isplitl [H3]; · iexact H3
    isplitl [H4]; · iexists _; iexact H4
    iexact Hk
  · rw [acc1_later i hc]
    exact body_later 𝒱₀ c i arg2 harg2 arg3 harg3 arg4 harg4 arg5 harg5 arg6 harg6 hc x0 x1 s0 s1 acc E K

end Cert.Kernel.R1

end
-- ==== Proof.K.R1Dat.lean ====
import proofs.«134856_j3556232921452_1_alg».proof.Proof.K.R1Body
import proofs.«134856_j3556232921452_1_alg».proof.Proof.Gen.Kernel.Regions
import Idealize.ShloMosaic.Lib.Pipeline.Frame
import Idealize.ShloMosaic.Lib.Pipeline.FrameBody

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! # The pair-sum region's proof data

Windows 0 and 1 stage row blocks i and j of the padded points, windows 2 and 3 blocks i and j of their squared norms,
window 4 the 1 x 1 result. The body only reads the four inputs, so after it each holds its block; the result's buffer
is the running sum, carried from point to point and written back once, after the last point. Two windows on one
array each hold a half share of it. -/

variable (V : Valuation τ sig (Elt F)) (c : Dev nD)

/-- Window `w`'s block at point `t`, read off its array as the region finds it. -/
def blk1 (w : Fin cfg1.W) (t : Fin cfg1.N) : ((cfg1.win w).xblock (cfg1.grid.coords t)).Idx → Elt F (cfg1.win w).elt :=
  ((cfg1.win w).blk t).view.read (Elt F) (V (Pipeline.arrRef spec1 w))

/-- THE RUNNING SUM after point `n`: one accumulation at the point, of its four blocks, onto the sum after the point
    before (at the first point the body starts from zero whatever it is given). -/
def accAt : (n : ℕ) → n < cfg1.N → Vec F S1x1 .f32
  | 0, h => acc1 (grid1.coords ⟨0, h⟩) (blk1 V 0 ⟨0, h⟩) (blk1 V 1 ⟨0, h⟩) (blk1 V 2 ⟨0, h⟩) (blk1 V 3 ⟨0, h⟩) (k1_pay2 (F := F))
  | n + 1, h => acc1 (grid1.coords ⟨n + 1, h⟩) (blk1 V 0 ⟨n + 1, h⟩) (blk1 V 1 ⟨n + 1, h⟩) (blk1 V 2 ⟨n + 1, h⟩) (blk1 V 3 ⟨n + 1, h⟩)
      (accAt n (Nat.lt_of_succ_lt h))

theorem accAt_zero (h : 0 < cfg1.N) :
    accAt V 0 h = acc1 (grid1.coords ⟨0, h⟩) (blk1 V 0 ⟨0, h⟩) (blk1 V 1 ⟨0, h⟩) (blk1 V 2 ⟨0, h⟩) (blk1 V 3 ⟨0, h⟩) (k1_pay2 (F := F)) := rfl

theorem accAt_succ (n : ℕ) (h : n + 1 < cfg1.N) :
    accAt V (n + 1) h = acc1 (grid1.coords ⟨n + 1, h⟩) (blk1 V 0 ⟨n + 1, h⟩) (blk1 V 1 ⟨n + 1, h⟩) (blk1 V 2 ⟨n + 1, h⟩) (blk1 V 3 ⟨n + 1, h⟩)
      (accAt V n (Nat.lt_of_succ_lt h)) := rfl

/-- The proof data on core `c`: the arrays as the region finds them; after the body each input's buffer at its block
    and the result's at the running sum; the invariant the scoped buffers no window stages; a half share of an array
    two windows read; nothing owed. -/
def dat1 : Dat τ (Elt F) Ix ℕ U Lvl cfg1 c where
  A w := V (Pipeline.arrRef spec1 w)
  after w t := match w with
    | ⟨0, _⟩ => blk1 V 0 t
    | ⟨1, _⟩ => blk1 V 1 t
    | ⟨2, _⟩ => blk1 V 2 t
    | ⟨3, _⟩ => blk1 V 3 t
    | ⟨4, _⟩ => accAt V t.val t.isLt
  Φ _ := Pipeline.scopedRest (Ix := Ix) (Name := ℕ) (U := U) (Lvl := Lvl) (Val := Elt F) spec1 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (w : Fin cfg1.W) : (dat1 (Ix := Ix) (U := U) (Lvl := Lvl) V c).A w = V (Pipeline.arrRef spec1 w) := by
  dsimp only [dat1]

theorem after1_0 (t : Fin cfg1.N) : (dat1 (Ix := Ix) (U := U) (Lvl := Lvl) V c).after 0 t = blk1 V 0 t := by dsimp only [dat1]
theorem after1_1 (t : Fin cfg1.N) : (dat1 (Ix := Ix) (U := U) (Lvl := Lvl) V c).after 1 t = blk1 V 1 t := by dsimp only [dat1]
theorem after1_2 (t : Fin cfg1.N) : (dat1 (Ix := Ix) (U := U) (Lvl := Lvl) V c).after 2 t = blk1 V 2 t := by dsimp only [dat1]
theorem after1_3 (t : Fin cfg1.N) : (dat1 (Ix := Ix) (U := U) (Lvl := Lvl) V c).after 3 t = blk1 V 3 t := by dsimp only [dat1]
theorem after1_4 (t : Fin cfg1.N) : (dat1 (Ix := Ix) (U := U) (Lvl := Lvl) V c).after 4 t = accAt V t.val t.isLt := by dsimp only [dat1]

/-! ## What the body finds in each staging buffer -/

/-- Each input's current staging buffer holds its block at every point, fetched there or not: unfetched, the block
    index has not moved since the point before, and the body left the block in place. -/
theorem before1_0 (t : Fin cfg1.N) (d) : (dat1 (Ix := Ix) (U := U) (Lvl := Lvl) V c).before 0 t d = blk1 V 0 t :=
  ((dat1 (Ix := Ix) (U := U) (Lvl := Lvl) V c).before_in_eq_fetched 0 rfl (fun _ => rfl) (fun _ _ _ => rfl)
    (fun t => by rw [after1_0]; unfold Dat.blockOf blk1; rw [A_eq]; try rfl) t d).trans
    (by unfold Dat.fetched Dat.blockOf blk1; rw [A_eq]; try rfl)
theorem before1_1 (t : Fin cfg1.N) (d) : (dat1 (Ix := Ix) (U := U) (Lvl := Lvl) V c).before 1 t d = blk1 V 1 t :=
  ((dat1 (Ix := Ix) (U := U) (Lvl := Lvl) V c).before_in_eq_fetched 1 rfl (fun _ => rfl) (fun _ _ _ => rfl)
    (fun t => by rw [after1_1]; unfold Dat.blockOf blk1; rw [A_eq]; try rfl) t d).trans
    (by unfold Dat.fetched Dat.blockOf blk1; rw [A_eq]; try rfl)
theorem before1_2 (t : Fin cfg1.N) (d) : (dat1 (Ix := Ix) (U := U) (Lvl := Lvl) V c).before 2 t d = blk1 V 2 t :=
  ((dat1 (Ix := Ix) (U := U) (Lvl := Lvl) V c).before_in_eq_fetched 2 rfl (fun _ => rfl) (fun _ _ _ => rfl)
    (fun t => by rw [after1_2]; unfold Dat.blockOf blk1; rw [A_eq]; try rfl) t d).trans
    (by unfold Dat.fetched Dat.blockOf blk1; rw [A_eq]; try rfl)
theorem before1_3 (t : Fin cfg1.N) (d) : (dat1 (Ix := Ix) (U := U) (Lvl := Lvl) V c).before 3 t d = blk1 V 3 t :=
  ((dat1 (Ix := Ix) (U := U) (Lvl := Lvl) V c).before_in_eq_fetched 3 rfl (fun _ => rfl) (fun _ _ _ => rfl)
    (fun t => by rw [after1_3]; unfold Dat.blockOf blk1; rw [A_eq]; try rfl) t d).trans
    (by unfold Dat.fetched Dat.blockOf blk1; rw [A_eq]; try rfl)

/-- After the first point the result's staging buffer holds the running sum the point before left: it is written back
    only after the last point, the window is live and uncut. -/
theorem before1_4_later (t : Fin cfg1.N) (h0 : t.val ≠ 0) (d) :
    (dat1 (Ix := Ix) (U := U) (Lvl := Lvl) V c).before 4 t d = accAt V (t.val - 1) (Nat.lt_of_le_of_lt (Nat.sub_le _ _) t.isLt) := by
  have hN : t.val < 64 := lt_of_lt_of_eq t.isLt (show cfg1.N = 64 from N_1)
  rw [Dat.before_out_kept (dat1 (Ix := Ix) (U := U) (Lvl := Lvl) V c) 4 rfl t h0 (Bool.eq_false_iff.mpr fun h => by have := (flush1_4 _).mp h; dsimp only at this; omega)
    (fun _ => rfl) (fun _ _ => rfl)]
  dsimp only [dat1]

/-- The running sum at the first point, -/
theorem accAt_first (t : Fin cfg1.N) (h0 : t.val = 0) :
    accAt V t.val t.isLt = step1 (grid1.coords t) (blk1 V 0 t) (blk1 V 1 t) (blk1 V 2 t) (blk1 V 3 t) (k1_pay2 (F := F)) := by
  obtain ⟨n, hn⟩ := t
  cases n with
  | zero => exact acc1_first _ ((hcond1 ⟨0, hn⟩).mpr rfl) _ _ _ _ _
  | succ n => exact absurd h0 (Nat.succ_ne_zero n)

/-- and at a later one. -/
theorem accAt_later (t : Fin cfg1.N) (h0 : t.val ≠ 0) :
    accAt V t.val t.isLt = step1 (grid1.coords t) (blk1 V 0 t) (blk1 V 1 t) (blk1 V 2 t) (blk1 V 3 t)
      (accAt V (t.val - 1) (Nat.lt_of_le_of_lt (Nat.sub_le _ _) t.isLt)) := by
  obtain ⟨n, hn⟩ := t
  cases n with
  | zero => exact absurd rfl h0
  | succ n => exact acc1_later _ (fun h => h0 ((hcond1 ⟨n + 1, hn⟩).mp h)) _ _ _ _ _

/-! ## The body obligation -/

/-- What the body is called with at point `t`, the windows one by one, -/
def bodyPre (ι : Ix) (t : Fin cfg1.N) : sProp 𝕄 :=
  iprop((dat1 (Ix := Ix) (U := U) (Lvl := Lvl) V c).Φ t.castSucc ∗ (dat1 (Ix := Ix) (U := U) (Lvl := Lvl) V c).owesAt ι t.castSucc
    ∗ (∃ d, owns (c : Thread nD τ) (st1_0 t) fullShare ((dat1 (Ix := Ix) (U := U) (Lvl := Lvl) V c).before 0 t d))
    ∗ (∃ d, owns (c : Thread nD τ) (st1_1 t) fullShare ((dat1 (Ix := Ix) (U := U) (Lvl := Lvl) V c).before 1 t d))
    ∗ (∃ d, owns (c : Thread nD τ) (st1_2 t) fullShare ((dat1 (Ix := Ix) (U := U) (Lvl := Lvl) V c).before 2 t d))
    ∗ (∃ d, owns (c : Thread nD τ) (st1_3 t) fullShare ((dat1 (Ix := Ix) (U := U) (Lvl := Lvl) V c).before 3 t d))
    ∗ (∃ d, owns (c : Thread nD τ) (st1_4 t) fullShare ((dat1 (Ix := Ix) (U := U) (Lvl := Lvl) V c).before 4 t d)))

/-- and what it returns. -/
def bodyPost (ι : Ix) (t : Fin cfg1.N) : sProp 𝕄 :=
  iprop((dat1 (Ix := Ix) (U := U) (Lvl := Lvl) V c).Φ t.succ ∗ (dat1 (Ix := Ix) (U := U) (Lvl := Lvl) V c).owesAt ι t.succ
    ∗ owns (c : Thread nD τ) (st1_0 t) fullShare ((dat1 (Ix := Ix) (U := U) (Lvl := Lvl) V c).after 0 t)
    ∗ owns (c : Thread nD τ) (st1_1 t) fullShare ((dat1 (Ix := Ix) (U := U) (Lvl := Lvl) V c).after 1 t)
    ∗ owns (c : Thread nD τ) (st1_2 t) fullShare ((dat1 (Ix := Ix) (U := U) (Lvl := Lvl) V c).after 2 t)
    ∗ owns (c : Thread nD τ) (st1_3 t) fullShare ((dat1 (Ix := Ix) (U := U) (Lvl := Lvl) V c).after 3 t)
    ∗ owns (c : Thread nD τ) (st1_4 t) fullShare ((dat1 (Ix := Ix) (U := U) (Lvl := Lvl) V c).after 4 t))

set_option maxHeartbeats 800000 in
/-- The body at any point: the inputs' buffers hold their blocks; at the first point the result's buffer holds anything
    and the body starts the sum from zero, at a later point it holds the sum so far and the body adds to it; the
    invariant passes through unread; the core owes nothing throughout. -/
theorem sound_body (𝒱₀ : Variants) (ι : Ix) (t : Fin cfg1.N) :
    bodyPre (U := U) (Lvl := Lvl) V c ι t ⊢ wp frame (wpE (defs₀ (F := F)) 𝒱₀ c none) Set.univ (bodyAt1 t) (fun _ => bodyPost (U := U) (Lvl := Lvl) V c ι t) := by
  unfold bodyPre bodyPost bodyAt1
  simp only [before1_0, before1_1, before1_2, before1_3]
  rw [show (dat1 (Ix := Ix) (U := U) (Lvl := Lvl) V c).Φ t.succ = (dat1 (Ix := Ix) (U := U) (Lvl := Lvl) V c).Φ t.castSucc from rfl,
    show (dat1 (Ix := Ix) (U := U) (Lvl := Lvl) V c).owesAt ι t.succ = (dat1 (Ix := Ix) (U := U) (Lvl := Lvl) V c).owesAt ι t.castSucc from rfl,
    after1_0, after1_1, after1_2, after1_3, after1_4]
  by_cases h0 : t.val = 0
  · rw [accAt_first V t h0]
    iintro ⟨HΦ, Ho, ⟨%d0, H0⟩, ⟨%d1, H1⟩, ⟨%d2, H2⟩, ⟨%d3, H3⟩, ⟨%d4, H4⟩⟩
    iapply (body_first 𝒱₀ c (grid1.coords t) _ _ _ _ _ _ _ _ _ _ ((hcond1 t).mpr h0) (blk1 V 0 t) (blk1 V 1 t) (blk1 V 2 t) (blk1 V 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [accAt_later V t h0]
    simp only [before1_4_later V c t h0]
    iintro ⟨HΦ, Ho, ⟨%d0, H0⟩, ⟨%d1, H1⟩, ⟨%d2, H2⟩, ⟨%d3, H3⟩, ⟨%d4, H4⟩⟩
    iapply (body_later 𝒱₀ c (grid1.coords t) _ _ _ _ _ _ _ _ _ _ (fun h => h0 ((hcond1 t).mp h)) (blk1 V 0 t) (blk1 V 1 t) (blk1 V 2 t) (blk1 V 3 t) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body1 (𝒱₀ : Variants) (ι : Ix) : BodyObligationLoose (dat1 (Ix := Ix) (U := U) (Lvl := Lvl) V c) (defs₀ (F := F)) 𝒱₀ ι Set.univ :=
  have h : BodyObligation (dat1 (Ix := Ix) (U := U) (Lvl := Lvl) V c) (defs₀ (F := F)) 𝒱₀ ι Set.univ := fun t => by
    rw [bigSep_W1, bigSep_W1]
    exact sound_body (U := U) (Lvl := Lvl) V c 𝒱₀ ι t
  h.loose

end Cert.Kernel.R1

end
-- ==== Proof.K.R1Seg.lean ====
import proofs.«134856_j3556232921452_1_alg».proof.Proof.K.R1Dat
import proofs.«134856_j3556232921452_1_alg».proof.Proof.K.PDats
import Idealize.ShloMosaic.Lib.Pipeline.Regions

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! # The pair-sum region as a segment of the program

The region is entered holding every unscoped buffer whole. Three of them are its arrays: the padded points, read by
windows 0 and 1, their squared norms, read by windows 2 and 3, and the 1 x 1 result. An array two windows read is
dealt to them as the two halves of its full share, and the halves are joined again when the region is left; the
result's array comes back holding the last running sum; every other unscoped buffer goes round the region untouched. -/

/-- The buffers behind the region's arrays, one by one. -/
theorem arrBufs1_eq (c : Dev nD) (W : (b : Ref sig .tc) → Buf (Elt F) ((c : Thread nD τ).loc b)) :
    (Pipeline.arrBufs (Ix := Ix) (Name := ℕ) (U := U) (Lvl := Lvl) spec1 c W : sProp 𝕄)
      = iprop((((c : Thread nD τ).loc main_v5) ↦{fullShare} W main_v5) ∗ (((c : Thread nD τ).loc main_v7) ↦{fullShare} W main_v7)
          ∗ (((c : Thread nD τ).loc main_v8) ↦{fullShare} W main_v8)) := by
  unfold Pipeline.arrBufs
  exact bigSep_eq_bigSepL_of_eq [main_v5, main_v7, main_v8] (by decide) (by decide) _

/-- The region's arrays as the pipeline holds them, window by window: a half of the points to each of windows 0 and
    1, a half of the norms to each of windows 2 and 3, the result whole. -/
theorem arrays1_eq (V : Valuation τ sig (Elt F)) (c : Dev nD)
    (G : (w : Fin cfg1.W) → Buf (Elt F) ((cfg1.win w).arr.view.loc (c : Thread nD τ))) :
    ((dat1 (Ix := Ix) (U := U) (Lvl := Lvl) V c).arrays G : sProp 𝕄)
      = iprop((((c : Thread nD τ).loc main_v5) ↦{fullShare.left} G 0) ∗ (((c : Thread nD τ).loc main_v5) ↦{fullShare.right} G 1)
          ∗ (((c : Thread nD τ).loc main_v7) ↦{fullShare.left} G 2) ∗ (((c : Thread nD τ).loc main_v7) ↦{fullShare.right} G 3)
          ∗ (((c : Thread nD τ).loc main_v8) ↦{fullShare} G 4)) := by
  have h : ∀ w : Fin cfg1.W,
      ((cfg1.win w).arr.view.loc (c : Thread nD τ) ↦[(cfg1.win w).arr.view.set]{(dat1 (Ix := Ix) (U := U) (Lvl := Lvl) V c).share w} G w : sProp 𝕄)
        = ((cfg1.win w).arr.view.loc (c : Thread nD τ) ↦{(dat1 (Ix := Ix) (U := U) (Lvl := Lvl) V c).share w} G w) :=
    fun w => by rw [(arr_whole1 w).set_eq_univ]
  unfold Dat.arrays
  refine (bigSep_congr fun w _ => h w).trans ?_
  rw [bigSep_W1]
  rfl

/-- The unscoped buffers that are no array of the region do not see what the result's array holds. -/
theorem unscopedRest1_update (c : Dev nD) (W : Valuation τ sig (Elt F)) (X) :
    (Pipeline.unscopedRest (Ix := Ix) (Name := ℕ) (U := U) (Lvl := Lvl) spec1 c (fun b => Function.update W main_v8 X b) : sProp 𝕄)
      = Pipeline.unscopedRest spec1 c (fun b => W b) := by
  unfold Pipeline.unscopedRest
  refine bigSep_congr fun b hb => ?_
  have hne : b ≠ main_v8 := fun h => by
    subst h; exact (Finset.mem_sdiff.mp hb).2 (Finset.mem_image.mpr ⟨4, Finset.mem_univ _, rfl⟩)
  dsimp only
  rw [Function.update_of_ne (StableHlo.devRef_ne_of_ne hne)]

section Seg

variable (L : GSem nD τ sig → Finset Ix) (lv : GSem nD τ sig → Ix → Lvl) (ι : Ix)
variable (V : (c : Dev nD) → Valuation τ sig (Elt F))
variable (E' : Dev nD → sProp (MT nD τ sig Ix (Elt F) ℕ U Lvl))

/-- The thread state the region is entered from: every unscoped buffer whole at `V c`, the core's dues at zero, any rest. -/
def pre1 (c : Dev nD) : sProp 𝕄 :=
  iprop(StableHlo.held (c : Thread nD τ) (Pipeline.ucRefs τ sig) (V c)
    ∗ (∃ W, owes (c : Thread nD τ) (0 : CellTallies nD τ sig Ix) W) ∗ E' c)

/-- The one it is left in: the same, the result's array at the last running sum. -/
def post1 (c : Dev nD) : sProp 𝕄 :=
  iprop(StableHlo.held (c : Thread nD τ) (Pipeline.ucRefs τ sig) (Function.update (V c) main_v8 ((dat1 (Ix := Ix) (U := U) (Lvl := Lvl) (V c) c).arrAt 4 64))
    ∗ (∃ W, owes (c : Thread nD τ) (0 : CellTallies nD τ sig Ix) W) ∗ E' c)

/-- What goes round the region: the unscoped buffers that are no array of it, and the rest. -/
def Z1 (c : Dev nD) : sProp 𝕄 :=
  iprop(Pipeline.unscopedRest (Ix := Ix) (Name := ℕ) (U := U) (Lvl := Lvl) spec1 c (fun b => V c b) ∗ E' c)

/-- ENTRY. -/
theorem hentry1 (c : Dev nD) :
    iprop(pre1 V E' c ∗ Pipeline.ownSems0 (Ix := Ix) (Name := ℕ) (U := U) (Lvl := Lvl) (Val := Elt F) (τ := τ) (fun k : PEmpty => k.elim) c ∗ levAts L lv)
      ⊢ |={Set.univ}=> iprop((dat1 (Ix := Ix) (U := U) (Lvl := Lvl) (V c) c).arrays ((dat1 (Ix := Ix) (U := U) (Lvl := Lvl) (V c) c).arrAt · 0)
          ∗ Pipeline.prefHeld (pcfgs (F := F) 1).pre c (fun _ => fullShare) (adm (F := F) 1).1
          ∗ (dat1 (Ix := Ix) (U := U) (Lvl := Lvl) (V c) c).owesAt ι 0 ∗ (emp : sProp 𝕄) ∗ Z1 V E' c) := by
  unfold pre1 Z1
  have hs : (unscopedBufs (Ix := Ix) (Name := ℕ) (U := U) (Lvl := Lvl) c (fun b => V c b) : sProp 𝕄)
      = iprop(Pipeline.arrBufs spec1 c (fun b => V c b) ∗ Pipeline.unscopedRest spec1 c (fun b => V c b)) :=
    Pipeline.unscopedBufs_split₀ cfgs 1 winFacts₀1.arr_unscoped c _
  rw [← Pipeline.unscopedBufs_held (Ix := Ix) (Name := ℕ) (U := U) (Lvl := Lvl) c (V c), hs, arrBufs1_eq, arrays1_eq]
  iintro ⟨⟨⟨⟨H5, H7, H8⟩, Hrest⟩, HO, HE⟩, -, -⟩
  ihave H5' := (pointsTo_share (PosShare.mem_left_op_right fullShare)).1 $$ H5
  icases H5' with ⟨H5l, H5r⟩
  ihave H7' := (pointsTo_share (PosShare.mem_left_op_right fullShare)).1 $$ H7
  icases H7' with ⟨H7l, H7r⟩
  imodintro
  isplitl [H5l H5r H7l H7r H8]
  · isplitl [H5l]; · iexact H5l
    isplitl [H5r]; · iexact H5r
    isplitl [H7l]; · iexact H7l
    isplitl [H7r]; · iexact H7r
    iexact H8
  isplitr
  · unfold Pipeline.prefHeld; rw [show (Finset.univ : Finset (Fin 0)) = ∅ from rfl, BI.bigSep_empty]; iempintro
  isplitl [HO]
  · unfold Pipeline.Dat.owesAt Pipeline.owesWithin
    icases HO with ⟨%W, HO⟩; iexists W; isplitr; · ipureintro; exact fun _ _ => Or.inl trivial
    iexact HO
  isplitr; · iempintro
  isplitl [Hrest]; · iexact Hrest
  iexact HE

/-- The invariant before the first point is the scoped buffers no window stages. -/
theorem hin1 (c : Dev nD) :
    iprop((emp : sProp 𝕄) ∗ Pipeline.prefHeld (pcfgs (F := F) 1).pre c (fun _ => fullShare) (adm (F := F) 1).1
        ∗ Pipeline.scopedRest (Ix := Ix) (Name := ℕ) (U := U) (Lvl := Lvl) (Val := Elt F) spec1 c)
      ⊢ (dat1 (Ix := Ix) (U := U) (Lvl := Lvl) (V c) c).Φ 0 := by
  rw [show (dat1 (Ix := Ix) (U := U) (Lvl := Lvl) (V c) c).Φ 0 = Pipeline.scopedRest (Ix := Ix) (Name := ℕ) (U := U) (Lvl := Lvl) (Val := Elt F) spec1 c from rfl]
  iintro ⟨-, -, Hr⟩
  iexact Hr

/-- After the last point it gives them back; the kernel has no semaphore of its own. -/
theorem hout1 (c : Dev nD) :
    (dat1 (Ix := Ix) (U := U) (Lvl := Lvl) (V c) c).Φ (Fin.last cfg1.N)
      ⊢ iprop((emp : sProp 𝕄) ∗ Pipeline.ownSems0 (Ix := Ix) (Name := ℕ) (U := U) (Lvl := Lvl) (Val := Elt F) (τ := τ) (fun k : PEmpty => k.elim) c
          ∗ Pipeline.scopedRest (Ix := Ix) (Name := ℕ) (U := U) (Lvl := Lvl) (Val := Elt F) spec1 c) := by
  rw [show (dat1 (Ix := Ix) (U := U) (Lvl := Lvl) (V c) c).Φ (Fin.last cfg1.N) = Pipeline.scopedRest (Ix := Ix) (Name := ℕ) (U := U) (Lvl := Lvl) (Val := Elt F) spec1 c from rfl]
  iintro Hr
  isplitr; · iempintro
  isplitr
  · unfold Pipeline.ownSems0; rw [Finset.univ_eq_empty, BI.bigSep_empty]; iempintro
  iexact Hr

/-- EXIT: the halves of each shared array are joined again; the result's array holds the last running sum. -/
theorem hexit1 (c : Dev nD) :
    iprop((dat1 (Ix := Ix) (U := U) (Lvl := Lvl) (V c) c).arrays ((dat1 (Ix := Ix) (U := U) (Lvl := Lvl) (V c) c).arrAt · cfg1.N) ∗ (dat1 (Ix := Ix) (U := U) (Lvl := Lvl) (V c) c).owesAt ι (Fin.last cfg1.N) ∗ (emp : sProp 𝕄) ∗ Z1 V E' c)
      ⊢ |={Set.univ}=> post1 V E' c := by
  unfold post1 Z1
  have hs : (unscopedBufs (Ix := Ix) (Name := ℕ) (U := U) (Lvl := Lvl) c (fun b => Function.update (V c) main_v8 ((dat1 (Ix := Ix) (U := U) (Lvl := Lvl) (V c) c).arrAt 4 64) b) : sProp 𝕄)
      = iprop(Pipeline.arrBufs spec1 c (fun b => Function.update (V c) main_v8 ((dat1 (Ix := Ix) (U := U) (Lvl := Lvl) (V c) c).arrAt 4 64) b)
          ∗ Pipeline.unscopedRest spec1 c (fun b => Function.update (V c) main_v8 ((dat1 (Ix := Ix) (U := U) (Lvl := Lvl) (V c) c).arrAt 4 64) b)) :=
    Pipeline.unscopedBufs_split₀ cfgs 1 winFacts₀1.arr_unscoped c _
  rw [← Pipeline.unscopedBufs_held (Ix := Ix) (Name := ℕ) (U := U) (Lvl := Lvl) c (Function.update (V c) main_v8 ((dat1 (Ix := Ix) (U := U) (Lvl := Lvl) (V c) c).arrAt 4 64)),
    hs, arrBufs1_eq, unscopedRest1_update, arrays1_eq]
  dsimp only
  rw [(dat1 (Ix := Ix) (U := U) (Lvl := Lvl) (V c) c).arrAt_in 0 rfl, (dat1 (Ix := Ix) (U := U) (Lvl := Lvl) (V c) c).arrAt_in 1 rfl, (dat1 (Ix := Ix) (U := U) (Lvl := Lvl) (V c) c).arrAt_in 2 rfl, (dat1 (Ix := Ix) (U := U) (Lvl := Lvl) (V c) c).arrAt_in 3 rfl,
    Function.update_of_ne (StableHlo.devRef_ne_of_ne (by decide : main_v5 ≠ main_v8)),
    Function.update_of_ne (StableHlo.devRef_ne_of_ne (by decide : main_v7 ≠ main_v8)), Function.update_self]
  iintro ⟨⟨H5l, H5r, H7l, H7r, H8⟩, HO, -, Hrest, HE⟩
  ihave H5 := (pointsTo_share (PosShare.mem_left_op_right fullShare)).2 $$ [H5l H5r]
  · isplitl [H5l]; · iexact H5l
    iexact H5r
  ihave H7 := (pointsTo_share (PosShare.mem_left_op_right fullShare)).2 $$ [H7l H7r]
  · isplitl [H7l]; · iexact H7l
    iexact H7r
  imodintro
  isplitl [H5 H7 H8 Hrest]
  · isplitl [H5 H7 H8]
    · isplitl [H5]; · iexact H5
      isplitl [H7]; · iexact H7
      iexact H8
    iexact Hrest
  isplitl [HO]
  · unfold Pipeline.Dat.owesAt Pipeline.owesWithin
    icases HO with ⟨%W, -, HO⟩; iexists W; iexact HO
  iexact HE

variable (𝒱₀ : Variants)
variable (d0 : (c : Dev nD) → Dat τ (Elt F) Ix ℕ U Lvl cfg0 c) (d2 : (c : Dev nD) → Dat τ (Elt F) Ix ℕ U Lvl cfg2 c)

set_option backward.isDefEq.respectTransparency.types false in
/-- THE REGION as a segment: the layout, no semaphore of its own, the body obligation, and the four entailments
    around the thread states `pre1` and `post1`. -/
def R1 : Pipeline.RegionSeg (pcfgs (F := F)) adm (pdats3 d0 (fun c => dat1 (V c) c) d2) ι defs₀ 𝒱₀ L lv 1 where
  win := winFacts₀1
  block_pos := block_pos1
  stage_whole := stage_whole1
  K := PEmpty
  osem := fun k => k.elim
  ho := Pipeline.OwnSemFacts.none _
  hbody := fun c => body1 (V c) c 𝒱₀ ι
  hwaits := Pipeline.hwaits_of_owed_zero _ _ _ _ L lv 1 fun _ _ => rfl
  pre := pre1 V E'
  post := post1 V E'
  X := fun _ => iprop(emp)
  Y := fun _ => iprop(emp)
  Z := Z1 V E'
  hentry := hentry1 L lv ι V E'
  hin := hin1 V
  hout := hout1 V
  hexit := hexit1 ι V E'

/-- info: 'Cert.Kernel.R1.R1' depends on axioms: [propext, Classical.choice, Quot.sound] -/
#guard_msgs in #print axioms R1

end Seg

end Cert.Kernel.R1

end
-- ==== Proof.K.R2Step.lean ====
import proofs.«134856_j3556232921452_1_alg».proof.Proof.Gen.Kernel.Launch
import proofs.«134856_j3556232921452_1_alg».proof.Proof.Gen.Kernel.Skeleton
import proofs.«134856_j3556232921452_1_alg».proof.Proof.Gen.Kernel.Points
import Idealize.ShloMosaic.Lib.Pipeline.FrameBody
import Idealize.ShloMosaic.Lib.Pipeline.Value

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! # The centred pair-sum kernel: what one grid point adds to the accumulator

The grid is 8 x 8. At point (i, j) the body reads row blocks i and j of the padded points (512 x 512 each), the blocks
i and j of their squared norms (512 each) and a 1 x 1 mean m. It forms the 512 x 512 block
n_a + n_b - 2 (a b^T), the product taken of the two blocks rounded to bf16, subtracts m from every entry and squares,
keeps the entries whose global row index 512 i + r is below the global column index 512 j + s with both below 4000,
puts zero elsewhere, sums the block, and adds the sum to a 1 x 1 accumulator, which it first sets to zero at the
point (0, 0). -/

/-- The guard of the zeroing store: both grid coordinates are zero (the scalar chain as printed). -/
abbrev cond2 (i : grid2.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- The guard holds at the first point of the grid and at no other. -/
theorem hcond2 : ∀ t : Fin cfg2.N, cond2 (grid2.coords t) ↔ t.val = 0 :=
  (by decide +kernel : ∀ t : Fin grid2.N, cond2 (grid2.coords t) ↔ t.val = 0)

/-- One accumulation at point `i`: the masked sum of the squared deviations from `mu` of the block built from
    `(x0, s0)` against `(x1, s1)`, added to `a`. -/
def step2 (i : grid2.Coords) (x0 x1 : Vec F S512x512 .f32) (s0 s1 : Vec F S512 .f32) (mu a : Vec F S1x1 .f32) : Vec F S1x1 .f32 :=
  k2_pay1 (k2_pay3 x0 x1 s0 s1) (k2_pay4 i) mu a

/-- What the body leaves in the accumulator at point `i`, having found `acc` there: one accumulation onto zero at the
    point (0, 0), onto `acc` at every other point. -/
def acc2 (i : grid2.Coords) (x0 x1 : Vec F S512x512 .f32) (s0 s1 : Vec F S512 .f32) (mu acc : Vec F S1x1 .f32) : Vec F S1x1 .f32 :=
  step2 i x0 x1 s0 s1 mu (if cond2 i then k2_pay2 (F := F) else acc)

theorem acc2_first (i : grid2.Coords) (hc : cond2 i) (x0 x1 : Vec F S512x512 .f32) (s0 s1 : Vec F S512 .f32) (mu acc : Vec F S1x1 .f32) :
    acc2 i x0 x1 s0 s1 mu acc = step2 i x0 x1 s0 s1 mu (k2_pay2 (F := F)) := by
  unfold acc2; rw [if_pos hc]

theorem acc2_later (i : grid2.Coords) (hc : ¬cond2 i) (x0 x1 : Vec F S512x512 .f32) (s0 s1 : Vec F S512 .f32) (mu acc : Vec F S1x1 .f32) :
    acc2 i x0 x1 s0 s1 mu acc = step2 i x0 x1 s0 s1 mu acc := by
  unfold acc2; rw [if_neg hc]

/-- The zero offsets of a rank-2 and of a rank-1 whole-buffer rectangle. -/
theorem hz2 : (![0, 0] : Fin 2 → Nat) = fun _ => 0 := funext fun a => by fin_cases a <;> rfl
theorem hz1 : (![0] : Fin 1 → Nat) = fun _ => 0 := funext fun a => by fin_cases a <;> rfl

end Cert.Kernel.R2

end
-- ==== Proof.K.R2BodyFirst.lean ====
import proofs.«134856_j3556232921452_1_alg».proof.Proof.K.R2Step
import Idealize.ShloMosaic.Lib.Tactic

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! # The centred pair-sum kernel's body at the point (0, 0) -/

set_option maxHeartbeats 1000000 in
/-- THE FIRST POINT. From the five input buffers held whole at `x0 x1 s0 s1 mu` and the accumulator's buffer at
    anything, the body runs to its return leaving the inputs as they were and the accumulator at one accumulation
    onto zero: the zeroing store happens, and the read-back before the last store reads the zero it wrote. -/
theorem body_first (𝒱₀ : Variants) (c : Dev nD) (i : grid2.Coords)
    (arg2 : Memref sig .tc .vmem S512x512 .f32) (harg2 : arg2.IsWhole) (arg3 : Memref sig .tc .vmem S512x512 .f32) (harg3 : arg3.IsWhole)
    (arg4 : Memref sig .tc .vmem S512 .f32) (harg4 : arg4.IsWhole) (arg5 : Memref sig .tc .vmem S512 .f32) (harg5 : arg5.IsWhole)
    (arg6 : Memref sig .tc .vmem S1x1 .f32) (harg6 : arg6.IsWhole) (arg7 : Memref sig .tc .vmem S1x1 .f32) (harg7 : arg7.IsWhole) (hc : cond2 i)
    (x0 x1 : Vec F S512x512 .f32) (s0 s1 : Vec F S512 .f32) (mu : Vec F S1x1 .f32) (E : Set ℕ) (K : PUnit → sProp 𝕄) :
    iprop(owns (c : Thread nD τ) arg2 fullShare x0 ∗ owns (c : Thread nD τ) arg3 fullShare x1
        ∗ owns (c : Thread nD τ) arg4 fullShare s0 ∗ owns (c : Thread nD τ) arg5 fullShare s1
        ∗ owns (c : Thread nD τ) arg6 fullShare mu
        ∗ (∃ d, owns (c : Thread nD τ) arg7 fullShare d)
        ∗ (iprop(owns (c : Thread nD τ) arg2 fullShare x0 ∗ owns (c : Thread nD τ) arg3 fullShare x1
        ∗ owns (c : Thread nD τ) arg4 fullShare s0 ∗ owns (c : Thread nD τ) arg5 fullShare s1
        ∗ owns (c : Thread nD τ) arg6 fullShare mu
            ∗ owns (c : Thread nD τ) arg7 fullShare (step2 i x0 x1 s0 s1 mu (k2_pay2 (F := F)))) -∗ K ⟨⟩))
      ⊢ wp frame (wpE (defs₀ (F := F)) 𝒱₀ c none) E (cc2_kernel i arg2 harg2 arg3 harg3 arg4 harg4 arg5 harg5 arg6 harg6 arg7 harg7) K := by
  simp only [cc2_kernel_eq_skeleton]; unfold cc2_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg2.eq_unread hf0; obtain rfl := harg3.eq_unread hf1
  obtain rfl := harg4.eq_unread hf2; obtain rfl := harg5.eq_unread hf3
  obtain rfl := harg6.eq_unread hf4
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr; swap; (· iexact H5)
  ipureintro
  rw [View.read_writes_eq_canon _ _ _ (fun y => ⟨_, List.mem_cons_self, View.mem_set_unit_zero (S := S1x1) hz2 inb_S1x1_S1x1_0_0 y⟩)]
  rw [View.canon_cons_unit_zero (S := S1x1) hz2]
  sl_unfold_words
  rw [View.readCov_unit_zero (S := S1x1) _ hz2]
  unfold step2
  simp only [View.readAt_eq_ld, harg2.read_unread, harg3.read_unread, harg4.read_unread, harg5.read_unread, harg6.read_unread,
    View.ld_unit_zero (S := S512x512) hz2, View.ld_unit_zero (S := S512) hz1, View.ld_unit_zero (S := S1x1) hz2]

end Cert.Kernel.R2

end
-- ==== Proof.K.R2BodyLater.lean ====
import proofs.«134856_j3556232921452_1_alg».proof.Proof.K.R2Step
import Idealize.ShloMosaic.Lib.Tactic

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! # The centred pair-sum kernel's body at a point other than (0, 0) -/

set_option maxHeartbeats 1000000 in
/-- A LATER POINT. From the five input buffers held whole at `x0 x1 s0 s1 mu` and the accumulator's buffer at `acc`,
    the body runs to its return leaving the inputs as they were and the accumulator at one accumulation onto `acc`:
    the zeroing store does not happen. -/
theorem body_later (𝒱₀ : Variants) (c : Dev nD) (i : grid2.Coords)
    (arg2 : Memref sig .tc .vmem S512x512 .f32) (harg2 : arg2.IsWhole) (arg3 : Memref sig .tc .vmem S512x512 .f32) (harg3 : arg3.IsWhole)
    (arg4 : Memref sig .tc .vmem S512 .f32) (harg4 : arg4.IsWhole) (arg5 : Memref sig .tc .vmem S512 .f32) (harg5 : arg5.IsWhole)
    (arg6 : Memref sig .tc .vmem S1x1 .f32) (harg6 : arg6.IsWhole) (arg7 : Memref sig .tc .vmem S1x1 .f32) (harg7 : arg7.IsWhole) (hc : ¬cond2 i)
    (x0 x1 : Vec F S512x512 .f32) (s0 s1 : Vec F S512 .f32) (mu : Vec F S1x1 .f32) (acc : Vec F S1x1 .f32) (E : Set ℕ) (K : PUnit → sProp 𝕄) :
    iprop(owns (c : Thread nD τ) arg2 fullShare x0 ∗ owns (c : Thread nD τ) arg3 fullShare x1
        ∗ owns (c : Thread nD τ) arg4 fullShare s0 ∗ owns (c : Thread nD τ) arg5 fullShare s1
        ∗ owns (c : Thread nD τ) arg6 fullShare mu
        ∗ owns (c : Thread nD τ) arg7 fullShare acc
        ∗ (iprop(owns (c : Thread nD τ) arg2 fullShare x0 ∗ owns (c : Thread nD τ) arg3 fullShare x1
        ∗ owns (c : Thread nD τ) arg4 fullShare s0 ∗ owns (c : Thread nD τ) arg5 fullShare s1
        ∗ owns (c : Thread nD τ) arg6 fullShare mu
            ∗ owns (c : Thread nD τ) arg7 fullShare (step2 i x0 x1 s0 s1 mu acc)) -∗ K ⟨⟩))
      ⊢ wp frame (wpE (defs₀ (F := F)) 𝒱₀ c none) E (cc2_kernel i arg2 harg2 arg3 harg3 arg4 harg4 arg5 harg5 arg6 harg6 arg7 harg7) K := by
  simp only [cc2_kernel_eq_skeleton]; unfold cc2_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1
  obtain rfl := harg4.eq_unread hf2; obtain rfl := harg5.eq_unread hf3
  obtain rfl := harg6.eq_unread hf4; obtain rfl := harg7.eq_unread hf5
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr; swap; (· iexact H5)
  ipureintro
  rw [View.read_writes_eq_canon _ _ _ (fun y => ⟨_, List.mem_cons_self, View.mem_set_unit_zero (S := S1x1) hz2 inb_S1x1_S1x1_0_0 y⟩)]
  rw [View.canon_cons_unit_zero (S := S1x1) hz2]
  sl_unfold_words
  unfold step2
  simp only [View.readAt_eq_ld, harg2.read_unread, harg3.read_unread, harg4.read_unread, harg5.read_unread, harg6.read_unread, harg7.read_unread,
    View.ld_unit_zero (S := S512x512) hz2, View.ld_unit_zero (S := S512) hz1, View.ld_unit_zero (S := S1x1) hz2]

end Cert.Kernel.R2

end
-- ==== Proof.K.R2Body.lean ====
import proofs.«134856_j3556232921452_1_alg».proof.Proof.K.R2BodyFirst
import proofs.«134856_j3556232921452_1_alg».proof.Proof.K.R2BodyLater

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! # The centred pair-sum kernel's body at any grid point -/

/-- AT ANY POINT. From the five input buffers held whole at `x0 x1 s0 s1 mu` and the accumulator's buffer at `acc`, the
    body runs to its return leaving the inputs as they were and the accumulator at `acc2 i x0 x1 s0 s1 mu acc`: by cases
    on the guard of the zeroing store. -/
theorem kernel2 (𝒱₀ : Variants) (c : Dev nD) (i : grid2.Coords)
    (arg2 : Memref sig .tc .vmem S512x512 .f32) (harg2 : arg2.IsWhole) (arg3 : Memref sig .tc .vmem S512x512 .f32) (harg3 : arg3.IsWhole)
    (arg4 : Memref sig .tc .vmem S512 .f32) (harg4 : arg4.IsWhole) (arg5 : Memref sig .tc .vmem S512 .f32) (harg5 : arg5.IsWhole)
    (arg6 : Memref sig .tc .vmem S1x1 .f32) (harg6 : arg6.IsWhole) (arg7 : Memref sig .tc .vmem S1x1 .f32) (harg7 : arg7.IsWhole)
    (x0 x1 : Vec F S512x512 .f32) (s0 s1 : Vec F S512 .f32) (mu : Vec F S1x1 .f32) (acc : Vec F S1x1 .f32) (E : Set ℕ) (K : PUnit → sProp 𝕄) :
    iprop(owns (c : Thread nD τ) arg2 fullShare x0 ∗ owns (c : Thread nD τ) arg3 fullShare x1
        ∗ owns (c : Thread nD τ) arg4 fullShare s0 ∗ owns (c : Thread nD τ) arg5 fullShare s1
        ∗ owns (c : Thread nD τ) arg6 fullShare mu
        ∗ owns (c : Thread nD τ) arg7 fullShare acc
        ∗ (iprop(owns (c : Thread nD τ) arg2 fullShare x0 ∗ owns (c : Thread nD τ) arg3 fullShare x1
        ∗ owns (c : Thread nD τ) arg4 fullShare s0 ∗ owns (c : Thread nD τ) arg5 fullShare s1
        ∗ owns (c : Thread nD τ) arg6 fullShare mu
            ∗ owns (c : Thread nD τ) arg7 fullShare (acc2 i x0 x1 s0 s1 mu acc)) -∗ K ⟨⟩))
      ⊢ wp frame (wpE (defs₀ (F := F)) 𝒱₀ c none) E (cc2_kernel i arg2 harg2 arg3 harg3 arg4 harg4 arg5 harg5 arg6 harg6 arg7 harg7) K := by
  by_cases hc : cond2 i
  · rw [acc2_first i hc]
    iintro ⟨H0, H1, H2, H3, H4, H5, Hk⟩
    iapply (body_first 𝒱₀ c i arg2 harg2 arg3 harg3 arg4 harg4 arg5 harg5 arg6 harg6 arg7 harg7 hc x0 x1 s0 s1 mu E K)
    isplitl [H0]; · iexact H0
    isplitl [H1]; · iexact H1
    isplitl [H2]; · iexact H2
    isplitl [H3]; · iexact H3
    isplitl [H4]; · iexact H4
    isplitl [H5]; · iexists _; iexact H5
    iexact Hk
  · rw [acc2_later i hc]
    exact body_later 𝒱₀ c i arg2 harg2 arg3 harg3 arg4 harg4 arg5 harg5 arg6 harg6 arg7 harg7 hc x0 x1 s0 s1 mu acc E K

end Cert.Kernel.R2

end
-- ==== Proof.K.R2Dat.lean ====
import proofs.«134856_j3556232921452_1_alg».proof.Proof.K.R2Body
import proofs.«134856_j3556232921452_1_alg».proof.Proof.Gen.Kernel.Regions
import Idealize.ShloMosaic.Lib.Pipeline.Frame
import Idealize.ShloMosaic.Lib.Pipeline.FrameBody

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! # The centred pair-sum region's proof data

Windows 0 and 1 stage row blocks i and j of the padded points, windows 2 and 3 blocks i and j of their squared norms,
window 4 the 1 x 1 mean (one block, the whole array, fetched at the first point and kept at every later one), window 5
the 1 x 1 result. The body only reads the five inputs, so after it each holds its block; the result's buffer is the
running sum, carried from point to point and written back once, after the last point. Two windows on one array each
hold a half share of it. -/

variable (V : Valuation τ sig (Elt F)) (c : Dev nD)

/-- Window `w`'s block at point `t`, read off its array as the region finds it. -/
def blk2 (w : Fin cfg2.W) (t : Fin cfg2.N) : ((cfg2.win w).xblock (cfg2.grid.coords t)).Idx → Elt F (cfg2.win w).elt :=
  ((cfg2.win w).blk t).view.read (Elt F) (V (Pipeline.arrRef spec2 w))

/-- THE RUNNING SUM after point `n`: one accumulation at the point, of its five blocks, onto the sum after the point
    before (at the first point the body starts from zero whatever it is given). -/
def acc2At : (n : ℕ) → n < cfg2.N → Vec F S1x1 .f32
  | 0, h => acc2 (grid2.coords ⟨0, h⟩) (blk2 V 0 ⟨0, h⟩) (blk2 V 1 ⟨0, h⟩) (blk2 V 2 ⟨0, h⟩) (blk2 V 3 ⟨0, h⟩) (blk2 V 4 ⟨0, h⟩) (k2_pay2 (F := F))
  | n + 1, h => acc2 (grid2.coords ⟨n + 1, h⟩) (blk2 V 0 ⟨n + 1, h⟩) (blk2 V 1 ⟨n + 1, h⟩) (blk2 V 2 ⟨n + 1, h⟩) (blk2 V 3 ⟨n + 1, h⟩)
      (blk2 V 4 ⟨n + 1, h⟩) (acc2At n (Nat.lt_of_succ_lt h))

theorem acc2At_zero (h : 0 < cfg2.N) :
    acc2At V 0 h = acc2 (grid2.coords ⟨0, h⟩) (blk2 V 0 ⟨0, h⟩) (blk2 V 1 ⟨0, h⟩) (blk2 V 2 ⟨0, h⟩) (blk2 V 3 ⟨0, h⟩) (blk2 V 4 ⟨0, h⟩) (k2_pay2 (F := F)) := rfl

theorem acc2At_succ (n : ℕ) (h : n + 1 < cfg2.N) :
    acc2At V (n + 1) h = acc2 (grid2.coords ⟨n + 1, h⟩) (blk2 V 0 ⟨n + 1, h⟩) (blk2 V 1 ⟨n + 1, h⟩) (blk2 V 2 ⟨n + 1, h⟩) (blk2 V 3 ⟨n + 1, h⟩)
      (blk2 V 4 ⟨n + 1, h⟩) (acc2At V n (Nat.lt_of_succ_lt h)) := rfl

/-- The proof data on core `c`: the arrays as the region finds them; after the body each input's buffer at its block
    and the result's at the running sum; the invariant the scoped buffers no window stages; a half share of an array
    two windows read; nothing owed. -/
def dat2 : Dat τ (Elt F) Ix ℕ U Lvl cfg2 c where
  A w := V (Pipeline.arrRef spec2 w)
  after w t := match w with
    | ⟨0, _⟩ => blk2 V 0 t
    | ⟨1, _⟩ => blk2 V 1 t
    | ⟨2, _⟩ => blk2 V 2 t
    | ⟨3, _⟩ => blk2 V 3 t
    | ⟨4, _⟩ => blk2 V 4 t
    | ⟨5, _⟩ => acc2At V t.val t.isLt
  Φ _ := Pipeline.scopedRest (Ix := Ix) (Name := ℕ) (U := U) (Lvl := Lvl) (Val := Elt F) spec2 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq (w : Fin cfg2.W) : (dat2 (Ix := Ix) (U := U) (Lvl := Lvl) V c).A w = V (Pipeline.arrRef spec2 w) := by
  dsimp only [dat2]

theorem after2_0 (t : Fin cfg2.N) : (dat2 (Ix := Ix) (U := U) (Lvl := Lvl) V c).after 0 t = blk2 V 0 t := by dsimp only [dat2]
theorem after2_1 (t : Fin cfg2.N) : (dat2 (Ix := Ix) (U := U) (Lvl := Lvl) V c).after 1 t = blk2 V 1 t := by dsimp only [dat2]
theorem after2_2 (t : Fin cfg2.N) : (dat2 (Ix := Ix) (U := U) (Lvl := Lvl) V c).after 2 t = blk2 V 2 t := by dsimp only [dat2]
theorem after2_3 (t : Fin cfg2.N) : (dat2 (Ix := Ix) (U := U) (Lvl := Lvl) V c).after 3 t = blk2 V 3 t := by dsimp only [dat2]
theorem after2_4 (t : Fin cfg2.N) : (dat2 (Ix := Ix) (U := U) (Lvl := Lvl) V c).after 4 t = blk2 V 4 t := by dsimp only [dat2]
theorem after2_5 (t : Fin cfg2.N) : (dat2 (Ix := Ix) (U := U) (Lvl := Lvl) V c).after 5 t = acc2At V t.val t.isLt := by dsimp only [dat2]

/-! ## What the body finds in each staging buffer -/

/-- Each input's current staging buffer holds its block at every point, fetched there or not: unfetched, the block
    index has not moved since the point before, and the body left the block in place. -/
theorem before2_0 (t : Fin cfg2.N) (d) : (dat2 (Ix := Ix) (U := U) (Lvl := Lvl) V c).before 0 t d = blk2 V 0 t :=
  ((dat2 (Ix := Ix) (U := U) (Lvl := Lvl) V c).before_in_eq_fetched 0 rfl (fun _ => rfl) (fun _ _ _ => rfl)
    (fun t => by rw [after2_0]; unfold Dat.blockOf blk2; rw [A_eq]; try rfl) t d).trans
    (by unfold Dat.fetched Dat.blockOf blk2; rw [A_eq]; try rfl)
theorem before2_1 (t : Fin cfg2.N) (d) : (dat2 (Ix := Ix) (U := U) (Lvl := Lvl) V c).before 1 t d = blk2 V 1 t :=
  ((dat2 (Ix := Ix) (U := U) (Lvl := Lvl) V c).before_in_eq_fetched 1 rfl (fun _ => rfl) (fun _ _ _ => rfl)
    (fun t => by rw [after2_1]; unfold Dat.blockOf blk2; rw [A_eq]; try rfl) t d).trans
    (by unfold Dat.fetched Dat.blockOf blk2; rw [A_eq]; try rfl)
theorem before2_2 (t : Fin cfg2.N) (d) : (dat2 (Ix := Ix) (U := U) (Lvl := Lvl) V c).before 2 t d = blk2 V 2 t :=
  ((dat2 (Ix := Ix) (U := U) (Lvl := Lvl) V c).before_in_eq_fetched 2 rfl (fun _ => rfl) (fun _ _ _ => rfl)
    (fun t => by rw [after2_2]; unfold Dat.blockOf blk2; rw [A_eq]; try rfl) t d).trans
    (by unfold Dat.fetched Dat.blockOf blk2; rw [A_eq]; try rfl)
theorem before2_3 (t : Fin cfg2.N) (d) : (dat2 (Ix := Ix) (U := U) (Lvl := Lvl) V c).before 3 t d = blk2 V 3 t :=
  ((dat2 (Ix := Ix) (U := U) (Lvl := Lvl) V c).before_in_eq_fetched 3 rfl (fun _ => rfl) (fun _ _ _ => rfl)
    (fun t => by rw [after2_3]; unfold Dat.blockOf blk2; rw [A_eq]; try rfl) t d).trans
    (by unfold Dat.fetched Dat.blockOf blk2; rw [A_eq]; try rfl)
theorem before2_4 (t : Fin cfg2.N) (d) : (dat2 (Ix := Ix) (U := U) (Lvl := Lvl) V c).before 4 t d = blk2 V 4 t :=
  ((dat2 (Ix := Ix) (U := U) (Lvl := Lvl) V c).before_in_eq_fetched 4 rfl (fun _ => rfl) (fun _ _ _ => rfl)
    (fun t => by rw [after2_4]; unfold Dat.blockOf blk2; rw [A_eq]; try rfl) t d).trans
    (by unfold Dat.fetched Dat.blockOf blk2; rw [A_eq]; try rfl)

/-- After the first point the result's staging buffer holds the running sum the point before left: it is written back
    only after the last point, the window is live and uncut. -/
theorem before2_5_later (t : Fin cfg2.N) (h0 : t.val ≠ 0) (d) :
    (dat2 (Ix := Ix) (U := U) (Lvl := Lvl) V c).before 5 t d = acc2At V (t.val - 1) (Nat.lt_of_le_of_lt (Nat.sub_le _ _) t.isLt) := by
  have hN : t.val < 64 := lt_of_lt_of_eq t.isLt (show cfg2.N = 64 from N_2)
  rw [Dat.before_out_kept (dat2 (Ix := Ix) (U := U) (Lvl := Lvl) V c) 5 rfl t h0 (Bool.eq_false_iff.mpr fun h => by have := (flush2_5 _).mp h; dsimp only at this; omega)
    (fun _ => rfl) (fun _ _ => rfl)]
  dsimp only [dat2]

/-- The running sum at the first point, -/
theorem acc2At_first (t : Fin cfg2.N) (h0 : t.val = 0) :
    acc2At V t.val t.isLt = step2 (grid2.coords t) (blk2 V 0 t) (blk2 V 1 t) (blk2 V 2 t) (blk2 V 3 t) (blk2 V 4 t) (k2_pay2 (F := F)) := by
  obtain ⟨n, hn⟩ := t
  cases n with
  | zero => exact acc2_first _ ((hcond2 ⟨0, hn⟩).mpr rfl) _ _ _ _ _ _
  | succ n => exact absurd h0 (Nat.succ_ne_zero n)

/-- and at a later one. -/
theorem acc2At_later (t : Fin cfg2.N) (h0 : t.val ≠ 0) :
    acc2At V t.val t.isLt = step2 (grid2.coords t) (blk2 V 0 t) (blk2 V 1 t) (blk2 V 2 t) (blk2 V 3 t) (blk2 V 4 t)
      (acc2At V (t.val - 1) (Nat.lt_of_le_of_lt (Nat.sub_le _ _) t.isLt)) := by
  obtain ⟨n, hn⟩ := t
  cases n with
  | zero => exact absurd rfl h0
  | succ n => exact acc2_later _ (fun h => h0 ((hcond2 ⟨n + 1, hn⟩).mp h)) _ _ _ _ _ _

/-- The mean's window has one block, the whole 1 x 1 array: its block index is zero at every point. -/
theorem idx2_4 : ∀ t : Fin cfg2.N, win2_4.index t (0 : Fin 2) = 0 ∧ win2_4.index t (1 : Fin 2) = 0 :=
  (by decide +kernel : ∀ t : Fin grid2.N, win2_4.index t (0 : Fin 2) = 0 ∧ win2_4.index t (1 : Fin 2) = 0)

/-- At every point the mean's block is the mean's array. -/
theorem blk2_4_apply (t : Fin cfg2.N) (y : S1x1.Idx) : blk2 V 4 t y = V main_v11 y := by
  obtain ⟨e0, e1⟩ := idx2_4 t
  show V main_v11 (((cfg2.win 4).blk t).view.emb y) = V main_v11 y
  refine congrArg (V main_v11) (funext fun a => Fin.ext ?_)
  match a with
  | ⟨0, _⟩ => show win2_4.index t (0 : Fin 2) * 1 + 1 * (y 0).val = (y 0).val; omega
  | ⟨1, _⟩ => show win2_4.index t (1 : Fin 2) * 1 + 1 * (y 1).val = (y 1).val; omega

/-! ## The body obligation -/

/-- What the body is called with at point `t`, the windows one by one, -/
def bodyPre (ι : Ix) (t : Fin cfg2.N) : sProp 𝕄 :=
  iprop((dat2 (Ix := Ix) (U := U) (Lvl := Lvl) V c).Φ t.castSucc ∗ (dat2 (Ix := Ix) (U := U) (Lvl := Lvl) V c).owesAt ι t.castSucc
    ∗ (∃ d, owns (c : Thread nD τ) (st2_0 t) fullShare ((dat2 (Ix := Ix) (U := U) (Lvl := Lvl) V c).before 0 t d))
    ∗ (∃ d, owns (c : Thread nD τ) (st2_1 t) fullShare ((dat2 (Ix := Ix) (U := U) (Lvl := Lvl) V c).before 1 t d))
    ∗ (∃ d, owns (c : Thread nD τ) (st2_2 t) fullShare ((dat2 (Ix := Ix) (U := U) (Lvl := Lvl) V c).before 2 t d))
    ∗ (∃ d, owns (c : Thread nD τ) (st2_3 t) fullShare ((dat2 (Ix := Ix) (U := U) (Lvl := Lvl) V c).before 3 t d))
    ∗ (∃ d, owns (c : Thread nD τ) (st2_4 t) fullShare ((dat2 (Ix := Ix) (U := U) (Lvl := Lvl) V c).before 4 t d))
    ∗ (∃ d, owns (c : Thread nD τ) (st2_5 t) fullShare ((dat2 (Ix := Ix) (U := U) (Lvl := Lvl) V c).before 5 t d)))

/-- and what it returns. -/
def bodyPost (ι : Ix) (t : Fin cfg2.N) : sProp 𝕄 :=
  iprop((dat2 (Ix := Ix) (U := U) (Lvl := Lvl) V c).Φ t.succ ∗ (dat2 (Ix := Ix) (U := U) (Lvl := Lvl) V c).owesAt ι t.succ
    ∗ owns (c : Thread nD τ) (st2_0 t) fullShare ((dat2 (Ix := Ix) (U := U) (Lvl := Lvl) V c).after 0 t)
    ∗ owns (c : Thread nD τ) (st2_1 t) fullShare ((dat2 (Ix := Ix) (U := U) (Lvl := Lvl) V c).after 1 t)
    ∗ owns (c : Thread nD τ) (st2_2 t) fullShare ((dat2 (Ix := Ix) (U := U) (Lvl := Lvl) V c).after 2 t)
    ∗ owns (c : Thread nD τ) (st2_3 t) fullShare ((dat2 (Ix := Ix) (U := U) (Lvl := Lvl) V c).after 3 t)
    ∗ owns (c : Thread nD τ) (st2_4 t) fullShare ((dat2 (Ix := Ix) (U := U) (Lvl := Lvl) V c).after 4 t)
    ∗ owns (c : Thread nD τ) (st2_5 t) fullShare ((dat2 (Ix := Ix) (U := U) (Lvl := Lvl) V c).after 5 t))

set_option maxHeartbeats 800000 in
/-- The body at any point: the inputs' buffers hold their blocks; at the first point the result's buffer holds anything
    and the body starts the sum from zero, at a later point it holds the sum so far and the body adds to it; the
    invariant passes through unread; the core owes nothing throughout. -/
theorem sound_body (𝒱₀ : Variants) (ι : Ix) (t : Fin cfg2.N) :
    bodyPre (U := U) (Lvl := Lvl) V c ι t ⊢ wp frame (wpE (defs₀ (F := F)) 𝒱₀ c none) Set.univ (bodyAt2 t) (fun _ => bodyPost (U := U) (Lvl := Lvl) V c ι t) := by
  unfold bodyPre bodyPost bodyAt2
  simp only [before2_0, before2_1, before2_2, before2_3, before2_4]
  rw [show (dat2 (Ix := Ix) (U := U) (Lvl := Lvl) V c).Φ t.succ = (dat2 (Ix := Ix) (U := U) (Lvl := Lvl) V c).Φ t.castSucc from rfl,
    show (dat2 (Ix := Ix) (U := U) (Lvl := Lvl) V c).owesAt ι t.succ = (dat2 (Ix := Ix) (U := U) (Lvl := Lvl) V c).owesAt ι t.castSucc from rfl,
    after2_0, after2_1, after2_2, after2_3, after2_4, after2_5]
  by_cases h0 : t.val = 0
  · rw [acc2At_first V t h0]
    iintro ⟨HΦ, Ho, ⟨%d0, H0⟩, ⟨%d1, H1⟩, ⟨%d2, H2⟩, ⟨%d3, H3⟩, ⟨%d4, H4⟩, ⟨%d5, H5⟩⟩
    iapply (body_first 𝒱₀ c (grid2.coords t) _ _ _ _ _ _ _ _ _ _ _ _ ((hcond2 t).mpr h0) (blk2 V 0 t) (blk2 V 1 t) (blk2 V 2 t) (blk2 V 3 t) (blk2 V 4 t) Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc2At_later V t h0]
    simp only [before2_5_later V c t h0]
    iintro ⟨HΦ, Ho, ⟨%d0, H0⟩, ⟨%d1, H1⟩, ⟨%d2, H2⟩, ⟨%d3, H3⟩, ⟨%d4, H4⟩, ⟨%d5, H5⟩⟩
    iapply (body_later 𝒱₀ c (grid2.coords t) _ _ _ _ _ _ _ _ _ _ _ _ (fun h => h0 ((hcond2 t).mp h)) (blk2 V 0 t) (blk2 V 1 t) (blk2 V 2 t) (blk2 V 3 t) (blk2 V 4 t) _ Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body2 (𝒱₀ : Variants) (ι : Ix) : BodyObligationLoose (dat2 (Ix := Ix) (U := U) (Lvl := Lvl) V c) (defs₀ (F := F)) 𝒱₀ ι Set.univ :=
  have h : BodyObligation (dat2 (Ix := Ix) (U := U) (Lvl := Lvl) V c) (defs₀ (F := F)) 𝒱₀ ι Set.univ := fun t => by
    rw [bigSep_W2, bigSep_W2]
    exact sound_body (U := U) (Lvl := Lvl) V c 𝒱₀ ι t
  h.loose

end Cert.Kernel.R2

end
-- ==== Proof.K.R2Seg.lean ====
import proofs.«134856_j3556232921452_1_alg».proof.Proof.K.R2Dat
import proofs.«134856_j3556232921452_1_alg».proof.Proof.K.PDats
import Idealize.ShloMosaic.Lib.Pipeline.Regions

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! # The centred pair-sum region as a segment of the program

The region is entered holding every unscoped buffer whole. Four of them are its arrays: the padded points, read by
windows 0 and 1, their squared norms, read by windows 2 and 3, the 1 x 1 mean, read by window 4, and the 1 x 1
result. An array two windows read is dealt to them as the two halves of its full share, and the halves are joined
again when the region is left; the result's array comes back holding the last running sum; every other unscoped
buffer goes round the region untouched. -/

/-- The buffers behind the region's arrays, one by one. -/
theorem arrBufs2_eq (c : Dev nD) (W : (b : Ref sig .tc) → Buf (Elt F) ((c : Thread nD τ).loc b)) :
    (Pipeline.arrBufs (Ix := Ix) (Name := ℕ) (U := U) (Lvl := Lvl) spec2 c W : sProp 𝕄)
      = iprop((((c : Thread nD τ).loc main_v5) ↦{fullShare} W main_v5) ∗ (((c : Thread nD τ).loc main_v7) ↦{fullShare} W main_v7)
          ∗ (((c : Thread nD τ).loc main_v11) ↦{fullShare} W main_v11) ∗ (((c : Thread nD τ).loc main_v12) ↦{fullShare} W main_v12)) := by
  unfold Pipeline.arrBufs
  exact bigSep_eq_bigSepL_of_eq [main_v5, main_v7, main_v11, main_v12] (by decide) (by decide) _

/-- The region's arrays as the pipeline holds them, window by window: a half of the points to each of windows 0 and
    1, a half of the norms to each of windows 2 and 3, the mean and the result whole. -/
theorem arrays2_eq (V : Valuation τ sig (Elt F)) (c : Dev nD)
    (G : (w : Fin cfg2.W) → Buf (Elt F) ((cfg2.win w).arr.view.loc (c : Thread nD τ))) :
    ((dat2 (Ix := Ix) (U := U) (Lvl := Lvl) V c).arrays G : sProp 𝕄)
      = iprop((((c : Thread nD τ).loc main_v5) ↦{fullShare.left} G 0) ∗ (((c : Thread nD τ).loc main_v5) ↦{fullShare.right} G 1)
          ∗ (((c : Thread nD τ).loc main_v7) ↦{fullShare.left} G 2) ∗ (((c : Thread nD τ).loc main_v7) ↦{fullShare.right} G 3)
          ∗ (((c : Thread nD τ).loc main_v11) ↦{fullShare} G 4) ∗ (((c : Thread nD τ).loc main_v12) ↦{fullShare} G 5)) := by
  have h : ∀ w : Fin cfg2.W,
      ((cfg2.win w).arr.view.loc (c : Thread nD τ) ↦[(cfg2.win w).arr.view.set]{(dat2 (Ix := Ix) (U := U) (Lvl := Lvl) V c).share w} G w : sProp 𝕄)
        = ((cfg2.win w).arr.view.loc (c : Thread nD τ) ↦{(dat2 (Ix := Ix) (U := U) (Lvl := Lvl) V c).share w} G w) :=
    fun w => by rw [(arr_whole2 w).set_eq_univ]
  unfold Dat.arrays
  refine (bigSep_congr fun w _ => h w).trans ?_
  rw [bigSep_W2]
  rfl

/-- The unscoped buffers that are no array of the region do not see what the result's array holds. -/
theorem unscopedRest2_update (c : Dev nD) (W : Valuation τ sig (Elt F)) (X) :
    (Pipeline.unscopedRest (Ix := Ix) (Name := ℕ) (U := U) (Lvl := Lvl) spec2 c (fun b => Function.update W main_v12 X b) : sProp 𝕄)
      = Pipeline.unscopedRest spec2 c (fun b => W b) := by
  unfold Pipeline.unscopedRest
  refine bigSep_congr fun b hb => ?_
  have hne : b ≠ main_v12 := fun h => by
    subst h; exact (Finset.mem_sdiff.mp hb).2 (Finset.mem_image.mpr ⟨5, Finset.mem_univ _, rfl⟩)
  dsimp only
  rw [Function.update_of_ne (StableHlo.devRef_ne_of_ne hne)]

section Seg

variable (L : GSem nD τ sig → Finset Ix) (lv : GSem nD τ sig → Ix → Lvl) (ι : Ix)
variable (V : (c : Dev nD) → Valuation τ sig (Elt F))
variable (E' : Dev nD → sProp (MT nD τ sig Ix (Elt F) ℕ U Lvl))

/-- The thread state the region is entered from: every unscoped buffer whole at `V c`, the core's dues at zero, any rest. -/
def pre2 (c : Dev nD) : sProp 𝕄 :=
  iprop(StableHlo.held (c : Thread nD τ) (Pipeline.ucRefs τ sig) (V c)
    ∗ (∃ W, owes (c : Thread nD τ) (0 : CellTallies nD τ sig Ix) W) ∗ E' c)

/-- The one it is left in: the same, the result's array at the last running sum. -/
def post2 (c : Dev nD) : sProp 𝕄 :=
  iprop(StableHlo.held (c : Thread nD τ) (Pipeline.ucRefs τ sig) (Function.update (V c) main_v12 ((dat2 (Ix := Ix) (U := U) (Lvl := Lvl) (V c) c).arrAt 5 64))
    ∗ (∃ W, owes (c : Thread nD τ) (0 : CellTallies nD τ sig Ix) W) ∗ E' c)

/-- What goes round the region: the unscoped buffers that are no array of it, and the rest. -/
def Z2 (c : Dev nD) : sProp 𝕄 :=
  iprop(Pipeline.unscopedRest (Ix := Ix) (Name := ℕ) (U := U) (Lvl := Lvl) spec2 c (fun b => V c b) ∗ E' c)

/-- ENTRY: each shared array's full share is dealt to its two windows as its halves. -/
theorem hentry2 (c : Dev nD) :
    iprop(pre2 V E' c ∗ Pipeline.ownSems0 (Ix := Ix) (Name := ℕ) (U := U) (Lvl := Lvl) (Val := Elt F) (τ := τ) (fun k : PEmpty => k.elim) c ∗ levAts L lv)
      ⊢ |={Set.univ}=> iprop((dat2 (Ix := Ix) (U := U) (Lvl := Lvl) (V c) c).arrays ((dat2 (Ix := Ix) (U := U) (Lvl := Lvl) (V c) c).arrAt · 0)
          ∗ Pipeline.prefHeld (pcfgs (F := F) 2).pre c (fun _ => fullShare) (adm (F := F) 2).1
          ∗ (dat2 (Ix := Ix) (U := U) (Lvl := Lvl) (V c) c).owesAt ι 0 ∗ (emp : sProp 𝕄) ∗ Z2 V E' c) := by
  unfold pre2 Z2
  have hs : (unscopedBufs (Ix := Ix) (Name := ℕ) (U := U) (Lvl := Lvl) c (fun b => V c b) : sProp 𝕄)
      = iprop(Pipeline.arrBufs spec2 c (fun b => V c b) ∗ Pipeline.unscopedRest spec2 c (fun b => V c b)) :=
    Pipeline.unscopedBufs_split₀ cfgs 2 winFacts₀2.arr_unscoped c _
  rw [← Pipeline.unscopedBufs_held (Ix := Ix) (Name := ℕ) (U := U) (Lvl := Lvl) c (V c), hs, arrBufs2_eq, arrays2_eq]
  iintro ⟨⟨⟨⟨H5, H7, H11, H12⟩, Hrest⟩, HO, HE⟩, -, -⟩
  ihave H5' := (pointsTo_share (PosShare.mem_left_op_right fullShare)).1 $$ H5
  icases H5' with ⟨H5l, H5r⟩
  ihave H7' := (pointsTo_share (PosShare.mem_left_op_right fullShare)).1 $$ H7
  icases H7' with ⟨H7l, H7r⟩
  imodintro
  isplitl [H5l H5r H7l H7r H11 H12]
  · isplitl [H5l]; · iexact H5l
    isplitl [H5r]; · iexact H5r
    isplitl [H7l]; · iexact H7l
    isplitl [H7r]; · iexact H7r
    isplitl [H11]; · iexact H11
    iexact H12
  isplitr
  · unfold Pipeline.prefHeld; rw [show (Finset.univ : Finset (Fin 0)) = ∅ from rfl, BI.bigSep_empty]; iempintro
  isplitl [HO]
  · unfold Pipeline.Dat.owesAt Pipeline.owesWithin
    icases HO with ⟨%W, HO⟩; iexists W; isplitr; · ipureintro; exact fun _ _ => Or.inl trivial
    iexact HO
  isplitr; · iempintro
  isplitl [Hrest]; · iexact Hrest
  iexact HE

/-- The invariant before the first point is the scoped buffers no window stages. -/
theorem hin2 (c : Dev nD) :
    iprop((emp : sProp 𝕄) ∗ Pipeline.prefHeld (pcfgs (F := F) 2).pre c (fun _ => fullShare) (adm (F := F) 2).1
        ∗ Pipeline.scopedRest (Ix := Ix) (Name := ℕ) (U := U) (Lvl := Lvl) (Val := Elt F) spec2 c)
      ⊢ (dat2 (Ix := Ix) (U := U) (Lvl := Lvl) (V c) c).Φ 0 := by
  rw [show (dat2 (Ix := Ix) (U := U) (Lvl := Lvl) (V c) c).Φ 0 = Pipeline.scopedRest (Ix := Ix) (Name := ℕ) (U := U) (Lvl := Lvl) (Val := Elt F) spec2 c from rfl]
  iintro ⟨-, -, Hr⟩
  iexact Hr

/-- After the last point it gives them back; the kernel has no semaphore of its own. -/
theorem hout2 (c : Dev nD) :
    (dat2 (Ix := Ix) (U := U) (Lvl := Lvl) (V c) c).Φ (Fin.last cfg2.N)
      ⊢ iprop((emp : sProp 𝕄) ∗ Pipeline.ownSems0 (Ix := Ix) (Name := ℕ) (U := U) (Lvl := Lvl) (Val := Elt F) (τ := τ) (fun k : PEmpty => k.elim) c
          ∗ Pipeline.scopedRest (Ix := Ix) (Name := ℕ) (U := U) (Lvl := Lvl) (Val := Elt F) spec2 c) := by
  rw [show (dat2 (Ix := Ix) (U := U) (Lvl := Lvl) (V c) c).Φ (Fin.last cfg2.N) = Pipeline.scopedRest (Ix := Ix) (Name := ℕ) (U := U) (Lvl := Lvl) (Val := Elt F) spec2 c from rfl]
  iintro Hr
  isplitr; · iempintro
  isplitr
  · unfold Pipeline.ownSems0; rw [Finset.univ_eq_empty, BI.bigSep_empty]; iempintro
  iexact Hr

/-- EXIT: the halves of each shared array are joined again; the result's array holds the last running sum. -/
theorem hexit2 (c : Dev nD) :
    iprop((dat2 (Ix := Ix) (U := U) (Lvl := Lvl) (V c) c).arrays ((dat2 (Ix := Ix) (U := U) (Lvl := Lvl) (V c) c).arrAt · cfg2.N) ∗ (dat2 (Ix := Ix) (U := U) (Lvl := Lvl) (V c) c).owesAt ι (Fin.last cfg2.N) ∗ (emp : sProp 𝕄) ∗ Z2 V E' c)
      ⊢ |={Set.univ}=> post2 V E' c := by
  unfold post2 Z2
  have hs : (unscopedBufs (Ix := Ix) (Name := ℕ) (U := U) (Lvl := Lvl) c (fun b => Function.update (V c) main_v12 ((dat2 (Ix := Ix) (U := U) (Lvl := Lvl) (V c) c).arrAt 5 64) b) : sProp 𝕄)
      = iprop(Pipeline.arrBufs spec2 c (fun b => Function.update (V c) main_v12 ((dat2 (Ix := Ix) (U := U) (Lvl := Lvl) (V c) c).arrAt 5 64) b)
          ∗ Pipeline.unscopedRest spec2 c (fun b => Function.update (V c) main_v12 ((dat2 (Ix := Ix) (U := U) (Lvl := Lvl) (V c) c).arrAt 5 64) b)) :=
    Pipeline.unscopedBufs_split₀ cfgs 2 winFacts₀2.arr_unscoped c _
  rw [← Pipeline.unscopedBufs_held (Ix := Ix) (Name := ℕ) (U := U) (Lvl := Lvl) c (Function.update (V c) main_v12 ((dat2 (Ix := Ix) (U := U) (Lvl := Lvl) (V c) c).arrAt 5 64)),
    hs, arrBufs2_eq, unscopedRest2_update, arrays2_eq]
  dsimp only
  rw [(dat2 (Ix := Ix) (U := U) (Lvl := Lvl) (V c) c).arrAt_in 0 rfl, (dat2 (Ix := Ix) (U := U) (Lvl := Lvl) (V c) c).arrAt_in 1 rfl, (dat2 (Ix := Ix) (U := U) (Lvl := Lvl) (V c) c).arrAt_in 2 rfl, (dat2 (Ix := Ix) (U := U) (Lvl := Lvl) (V c) c).arrAt_in 3 rfl, (dat2 (Ix := Ix) (U := U) (Lvl := Lvl) (V c) c).arrAt_in 4 rfl,
    Function.update_of_ne (StableHlo.devRef_ne_of_ne (by decide : main_v5 ≠ main_v12)),
    Function.update_of_ne (StableHlo.devRef_ne_of_ne (by decide : main_v7 ≠ main_v12)),
    Function.update_of_ne (StableHlo.devRef_ne_of_ne (by decide : main_v11 ≠ main_v12)), Function.update_self]
  iintro ⟨⟨H5l, H5r, H7l, H7r, H11, H12⟩, HO, -, Hrest, HE⟩
  ihave H5 := (pointsTo_share (PosShare.mem_left_op_right fullShare)).2 $$ [H5l H5r]
  · isplitl [H5l]; · iexact H5l
    iexact H5r
  ihave H7 := (pointsTo_share (PosShare.mem_left_op_right fullShare)).2 $$ [H7l H7r]
  · isplitl [H7l]; · iexact H7l
    iexact H7r
  imodintro
  isplitl [H5 H7 H11 H12 Hrest]
  · isplitl [H5 H7 H11 H12]
    · isplitl [H5]; · iexact H5
      isplitl [H7]; · iexact H7
      isplitl [H11]; · iexact H11
      iexact H12
    iexact Hrest
  isplitl [HO]
  · unfold Pipeline.Dat.owesAt Pipeline.owesWithin
    icases HO with ⟨%W, -, HO⟩; iexists W; iexact HO
  iexact HE

variable (𝒱₀ : Variants)
variable (d0 : (c : Dev nD) → Dat τ (Elt F) Ix ℕ U Lvl cfg0 c) (d1 : (c : Dev nD) → Dat τ (Elt F) Ix ℕ U Lvl cfg1 c)

set_option backward.isDefEq.respectTransparency.types false in
/-- THE REGION as a segment: the layout, no semaphore of its own, the body obligation, and the four entailments
    around the thread states `pre2` and `post2`. -/
def R2 : Pipeline.RegionSeg (pcfgs (F := F)) adm (pdats3 d0 d1 (fun c => dat2 (V c) c)) ι defs₀ 𝒱₀ L lv 2 where
  win := winFacts₀2
  block_pos := block_pos2
  stage_whole := stage_whole2
  K := PEmpty
  osem := fun k => k.elim
  ho := Pipeline.OwnSemFacts.none _
  hbody := fun c => body2 (V c) c 𝒱₀ ι
  hwaits := Pipeline.hwaits_of_owed_zero _ _ _ _ L lv 2 fun _ _ => rfl
  pre := pre2 V E'
  post := post2 V E'
  X := fun _ => iprop(emp)
  Y := fun _ => iprop(emp)
  Z := Z2 V E'
  hentry := hentry2 L lv ι V E'
  hin := hin2 V
  hout := hout2 V
  hexit := hexit2 ι V E'

/-- info: 'Cert.Kernel.R2.R2' depends on axioms: [propext, Classical.choice, Quot.sound] -/
#guard_msgs in #print axioms R2

end Seg

end Cert.Kernel.R2

end
-- ==== Proof.K.KIFinal.lean ====
/-
  The kernel program's run, with its result named, at the launch the three kernels need.

  No kernel here has a semaphore of its own and no core owes another anything, so the run is taken at the pipeline library's
  own algebra, with no levels assigned and nothing owed at launch; beside the buffers a core carries only that it owes
  nothing. The three regions' records are entered from the contents the host operations made before them and left at those
  contents with the region's output array replaced by what its proof data compute — the staged family of the regions'
  outputs —, which is exactly how the contents between items are defined.
-/
import proofs.«134856_j3556232921452_1_alg».proof.Proof.K.KIRun
import proofs.«134856_j3556232921452_1_alg».proof.Proof.K.KIData
import proofs.«134856_j3556232921452_1_alg».proof.Proof.K.R0Seg
import proofs.«134856_j3556232921452_1_alg».proof.Proof.K.R1Seg
import proofs.«134856_j3556232921452_1_alg».proof.Proof.K.R2Seg
import Idealize.ShloMosaic.Lib.Pipeline.Kit

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-- The pipeline library's algebra alone: no kernel here has a semaphore of its own. -/
abbrev EP₀ : Emb (UR sig nD τ) (MT nD τ sig Unit (Elt F) ℕ (UR sig nD τ) ℕ) := emb₁
/-- No core owes another anything: no level is assigned. -/
abbrev L₀ : GSem nD τ sig → Finset Unit := fun _ => ∅
abbrev lv₀ : GSem nD τ sig → Unit → ℕ := fun _ _ => 0
/-- The launch element: the pipeline library's at the staging cells. -/
def u₀ : UR sig nD τ := initOf (Pipeline.cells cfgs cellOf_inj) (Pipeline.launchToks cfgs cellOf_inj)
/-- What rides beside the buffers between items: the core owes nothing. -/
abbrev E₀ (k : Fin 4) (c : Dev nD) : sProp (MT nD τ sig Unit (Elt F) ℕ (UR sig nD τ) ℕ) :=
  iprop((∃ W, owes (c : Thread nD τ) (0 : CellTallies nD τ sig Unit) W) ∗ emp)

theorem hu₀ : (ownU (u₀) : sProp (MT nD τ sig Unit (Elt F) ℕ (UR sig nD τ) ℕ))
    ⊢ |={Set.univ}=> iprop(BI.own ((EP₀ (F := F)) (initOf (Pipeline.cells cfgs cellOf_inj) (Pipeline.launchToks cfgs cellOf_inj)))
        ∗ bigSep Finset.univ fun _ : Dev nD => (BI.emp : sProp (MT nD τ sig Unit (Elt F) ℕ (UR sig nD τ) ℕ))) := by
  unfold u₀
  rw [ownU_emb₁]
  iintro Hu
  imodintro
  isplitl [Hu]; · iexact Hu
  iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
  iempintro

theorem hE0_core (ρ : Dev nD → PrngReg) (c : Dev nD) :
    iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (BI.emp : sProp (MT nD τ sig Unit (Elt F) ℕ (UR sig nD τ) ℕ)))
      ⊢ (E₀ (F := F) 0 c : sProp (MT nD τ sig Unit (Elt F) ℕ (UR sig nD τ) ℕ)) := by
  iintro ⟨-, HO, -, -, -⟩
  isplitl [HO]
  · iexists ∅; iexact HO
  · iempintro

theorem hE0 (ρ : Dev nD → PrngReg) :
    iprop((bigSep Finset.univ fun c : Dev nD => iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (BI.emp : sProp (MT nD τ sig Unit (Elt F) ℕ (UR sig nD τ) ℕ)))) ∗ levAts L₀ lv₀)
      ⊢ (|={Set.univ}=> bigSep Finset.univ (E₀ (F := F) 0) : sProp (MT nD τ sig Unit (Elt F) ℕ (UR sig nD τ) ℕ)) := by
  have hmono : (bigSep Finset.univ fun c : Dev nD => iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (BI.emp : sProp (MT nD τ sig Unit (Elt F) ℕ (UR sig nD τ) ℕ))))
      ⊢ (bigSep Finset.univ (E₀ (F := F) 0) : sProp (MT nD τ sig Unit (Elt F) ℕ (UR sig nD τ) ℕ)) :=
    bigSep_mono fun c _ => hE0_core ρ c
  iintro ⟨H, -⟩
  imodintro
  iapply hmono
  iexact H

theorem hE3 (c : Dev nD) : E₀ (F := F) 3 c ⊢ (iprop(∃ W, owes (c : Thread nD τ) (0 : CellTallies nD τ sig Unit) W) : sProp (MT nD τ sig Unit (Elt F) ℕ (UR sig nD τ) ℕ)) := by
  iintro ⟨H, -⟩
  iexact H

/-! ## The regions' outputs and proof data -/

/-- What the distance kernel leaves in its output array from the contents it is entered from. -/
def o3 (V : Valuation τ sig (Elt F)) (c : Dev nD) : Buf (Elt F) ((c : Thread nD τ).loc main_v2) :=
  (R0.dat0 (Ix := Unit) (U := UR sig nD τ) (Lvl := ℕ) V c).arrAt 2 2
/-- What the first pair-sum kernel leaves. -/
def o7 (V : Valuation τ sig (Elt F)) (c : Dev nD) : Buf (Elt F) ((c : Thread nD τ).loc main_v8) :=
  (R1.dat1 (Ix := Unit) (U := UR sig nD τ) (Lvl := ℕ) V c).arrAt 4 64
/-- What the second pair-sum kernel leaves. -/
def o9 (V : Valuation τ sig (Elt F)) (c : Dev nD) : Buf (Elt F) ((c : Thread nD τ).loc main_v12) :=
  (R2.dat2 (Ix := Unit) (U := UR sig nD τ) (Lvl := ℕ) V c).arrAt 5 64

variable (m : (ℓ : Loc nD τ sig) → Buf (Elt F) ℓ)

/-- The regions' outputs, as one family. -/
abbrev outs : Outs (F := F) := outsC m o3 o7 o9

/-- The three regions' proof data, each over the contents its region is entered from. -/
abbrev pdats₀ : (p : Fin 3) → (c : Dev nD) → Dat τ (Elt F) Unit ℕ (UR sig nD τ) ℕ (cfgs p) c :=
  pdats3 (fun c => R0.dat0 (V2 m c) c) (fun c => R1.dat1 (V6 m (outs m) c) c) (fun c => R2.dat2 (V8 m (outs m) c) c)

theorem V3_eq (c : Dev nD) : V3 m (outs m) c = Function.update (V2 m c) main_v2 (o3 (V2 m c) c) := by
  show Function.update (V2 m c) main_v2 (outsC m o3 o7 o9 3 main_v2 c) = _
  rw [outsC_3]

theorem V7_eq (c : Dev nD) : V7 m (outs m) c = Function.update (V6 m (outs m) c) main_v8 (o7 (V6 m (outs m) c) c) := by
  show Function.update (V6 m (outs m) c) main_v8 (outsC m o3 o7 o9 7 main_v8 c) = _
  rw [outs_7]

theorem V9_eq (c : Dev nD) : V9 m (outs m) c = Function.update (V8 m (outs m) c) main_v12 (o9 (V8 m (outs m) c) c) := by
  show Function.update (V8 m (outs m) c) main_v12 (outsC m o3 o7 o9 9 main_v12 c) = _
  rw [outs_9]

/-! ## The run -/

/-- Region 0's record over the shared family of proof data. -/
abbrev reg0 : RegionSeg (pcfgs (F := F)) adm (pdats₀ m) () defs₀ Variants.none L₀ lv₀ 0 :=
  R0.R0 (fun c => V2 m c) (fun c => R1.dat1 (V6 m (outs m) c) c) (fun c => R2.dat2 (V8 m (outs m) c) c) () Variants.none L₀ lv₀
    (fun _ => (BI.emp : sProp (MT nD τ sig Unit (Elt F) ℕ (UR sig nD τ) ℕ)))

/-- Region 1's record over the same family. -/
abbrev reg1 : RegionSeg (pcfgs (F := F)) adm (pdats₀ m) () defs₀ Variants.none L₀ lv₀ 1 :=
  R1.R1 L₀ lv₀ () (fun c => V6 m (outs m) c) (fun _ => (BI.emp : sProp (MT nD τ sig Unit (Elt F) ℕ (UR sig nD τ) ℕ))) Variants.none
    (fun c => R0.dat0 (V2 m c) c) (fun c => R2.dat2 (V8 m (outs m) c) c)

theorem hpre0 (c : Dev nD) : iprop(StableHlo.held (c : Thread nD τ) (Pipeline.ucRefs τ sig) (V2 m c) ∗ E₀ (F := F) 0 c) ⊢ (reg0 m).pre c := .rfl

theorem hpost0 (c : Dev nD) : (reg0 m).post c ⊢ iprop(StableHlo.held (c : Thread nD τ) (Pipeline.ucRefs τ sig) (V3 m (outs m) c) ∗ E₀ (F := F) 1 c) := by
  rw [V3_eq]
  exact .rfl

theorem hpre1 (c : Dev nD) : iprop(StableHlo.held (c : Thread nD τ) (Pipeline.ucRefs τ sig) (V6 m (outs m) c) ∗ E₀ (F := F) 1 c) ⊢ (reg1 m).pre c := by
  show _ ⊢ R1.pre1 (fun c => V6 m (outs m) c) (fun _ => (BI.emp : sProp (MT nD τ sig Unit (Elt F) ℕ (UR sig nD τ) ℕ))) c
  unfold R1.pre1
  exact .rfl

theorem hpost1 (c : Dev nD) : (reg1 m).post c ⊢ iprop(StableHlo.held (c : Thread nD τ) (Pipeline.ucRefs τ sig) (V7 m (outs m) c) ∗ E₀ (F := F) 2 c) := by
  show R1.post1 (fun c => V6 m (outs m) c) (fun _ => (BI.emp : sProp (MT nD τ sig Unit (Elt F) ℕ (UR sig nD τ) ℕ))) c ⊢ _
  unfold R1.post1
  rw [V7_eq]
  exact .rfl

/-- Region 2's record over the same family. -/
abbrev reg2 : RegionSeg (pcfgs (F := F)) adm (pdats₀ m) () defs₀ Variants.none L₀ lv₀ 2 :=
  R2.R2 L₀ lv₀ () (fun c => V8 m (outs m) c) (fun _ => (BI.emp : sProp (MT nD τ sig Unit (Elt F) ℕ (UR sig nD τ) ℕ))) Variants.none
    (fun c => R0.dat0 (V2 m c) c) (fun c => R1.dat1 (V6 m (outs m) c) c)

theorem hpre2 (c : Dev nD) : iprop(StableHlo.held (c : Thread nD τ) (Pipeline.ucRefs τ sig) (V8 m (outs m) c) ∗ E₀ (F := F) 2 c) ⊢ (reg2 m).pre c := by
  show _ ⊢ R2.pre2 (fun c => V8 m (outs m) c) (fun _ => (BI.emp : sProp (MT nD τ sig Unit (Elt F) ℕ (UR sig nD τ) ℕ))) c
  unfold R2.pre2
  exact .rfl

theorem hpost2 (c : Dev nD) : (reg2 m).post c ⊢ iprop(StableHlo.held (c : Thread nD τ) (Pipeline.ucRefs τ sig) (V9 m (outs m) c) ∗ E₀ (F := F) 3 c) := by
  show R2.post2 (fun c => V8 m (outs m) c) (fun _ => (BI.emp : sProp (MT nD τ sig Unit (Elt F) ℕ (UR sig nD τ) ℕ))) c ⊢ _
  unfold R2.post2
  rw [V9_eq]
  exact .rfl

/-- THE RUN. From any memory with zero counters, every weakly fair execution of @main terminates; the result buffer ends at
    what the last host stretch makes of the three regions' outputs, and both arguments end as launched. -/
theorem run_named (ρ : Dev nD → PrngReg) :
    θ_run defs (onTc (τ := τ) (main (F := F))) ⟨m, fun _ => 0, ρ⟩ (fun r => ∀ c : Dev nD,
      r.2.mem ((c.tc : Thread nD τ).loc main_v16) = V10 m (outs m) c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond m (EP₀ (F := F)) () Variants.none L₀ lv₀ (fun _ _ => rfl) ρ (outs m) (pdats₀ m) (fun _ => 0)
    (fun _ => (BI.emp : sProp (MT nD τ sig Unit (Elt F) ℕ (UR sig nD τ) ℕ))) u₀ hu₀ (E₀ (F := F)) (hE0 ρ) hE3
    (reg0 m) (hpre0 m) (hpost0 m) (reg1 m) (hpre1 m) (hpost1 m) (reg2 m) (hpre2 m) (hpost2 m)

end Cert.Kernel.Hand

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibTileLayout.lean ====
import Idealize.ShloMosaic.Lib.ValueLayout
import Idealize.ShloMosaic.PureOps.Ideal.Laws

/-!
# Columns, one-entry blocks and sums along one axis, read at an index

A tile's loss is first summed along each row, the row sums are stood up as a column, and the column is summed into
one number, which is then spread over a small block. Each of these steps moves numbers without changing them, or adds
them up along one axis. Here each step is read at an index written by its coordinates:

* a column `[a, 1]` spread over `[a, b]` has, at `(p, c)`, the column's entry `p`;
* a one-entry block `[1, 1]` spread over `[a, b]` has that entry everywhere;
* a vector `[a]` stood up as a column `[a, 1]` has, at `(i, 0)`, the vector's entry `i`;
* the sum of an `[a, b]` array along axis 1, started from zero, is at `p` the sum over `q < b` of the entry `(p, q)`,
  and along axis 0 it is at `c` the sum over `p < a` of the entry `(p, c)`.
-/

namespace Cert.TileLayout

open Idealize.ShloMosaic Idealize.ShloMosaic.ValueIdx
open scoped BigOperators

variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry block `[1, 1]` broadcast to `[a, b]` reads that one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A vector `[a]` cast to a column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of an `[a, b]` array along axis 1, started from zero, is at `p` the sum over the row `p`. -/
theorem sum_axis1_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ q : Fin b, src (ix2 p q) := by
  refine (Ideal.multiReduction_add_single src acc h hφ hacc (ix1 p)).trans ?_
  show ∑ q : Fin b, src (h.lift (ix1 p) q) = _
  refine Finset.sum_congr rfl fun q _ => congrArg src ?_
  funext c
  refine Fin.ext ?_
  match c with
  | ⟨0, _⟩ => rfl
  | ⟨1, _⟩ => rfl

/-- The sum of an `[a, b]` array along axis 0, started from zero, is at `c` the sum over the column `c`. -/
theorem sum_axis0_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ p : Fin a, src (ix2 p c) := by
  refine (Ideal.multiReduction_add_single src acc h hφ hacc (ix1 c)).trans ?_
  show ∑ p : Fin a, src (h.lift (ix1 c) p) = _
  refine Finset.sum_congr rfl fun p _ => congrArg src ?_
  funext d
  refine Fin.ext ?_
  match d with
  | ⟨0, _⟩ => rfl
  | ⟨1, _⟩ => rfl

end Cert.TileLayout
-- ==== Proof.Spec.lean ====
/-
  The mathematics of the result at the extended reals, free of both programs.

  Arguments: `x : Fin 512 → Fin 512 → EReal` (the batch of 512 feature rows of length 512) and
  `W : Fin 1000 → Fin 4 → Fin 512 → EReal` (for each of 1000 classes, 4 centre rows of length 512).
  The 4000 centre rows in flat order are `w m = W (m / 4) (m % 4)`.

  * `dist b n` : the greatest over the four centres `k` of class `n` of
    `exp (-(‖x b‖² + ‖w (4n+k)‖² - 2 ⟨x b, w (4n+k)⟩) / 10)`;
  * `norm m n = ‖w m‖² + ‖w n‖² - 2 ⟨w m, w n⟩`, the squared distance of two centre rows;
  * `S1` : the sum of `norm m n` over the pairs `m < n`; `mu = den * S1`;
  * `S2` : the sum of `(norm m n - mu)²` over the pairs `m < n`; `rw = den * S2`;
  * `G b j` : `dist b j` for `j < 1000`, and `rw` in the last column `j = 1000`.

  The constants `two`, `ten`, `den`, `one`, `zero` are the extended reals that the float words of 2, 10,
  2 / (4000² - 4000), 1 and 0 denote; of their values only `one = 1` and `zero = 0` are ever used.
-/
import Idealize.ShloMosaic.PureOps.Ideal
import Idealize.ShloMosaic.Lib.ValueIdx

noncomputable section

open scoped BigOperators

namespace Cert.Spec

open Idealize.ShloMosaic Idealize.ShloMosaic.ValueIdx

/-- The literal `2.0`. -/
abbrev two : EReal := Ideal.ofBits .f32 0x40000000#32
/-- The literal `10.0`. -/
abbrev ten : EReal := Ideal.ofBits .f32 0x41200000#32
/-- The literal `2 / (4000 * 4000 - 4000)`, rounded to a float. -/
abbrev den : EReal := Ideal.ofBits .f32 0x34064055#32
/-- The literal `1.0`. -/
abbrev one : EReal := Ideal.ofBits .f32 0x3F800000#32
/-- The literal `0.0`. -/
abbrev zero : EReal := Ideal.ofBits .f32 0x00000000#32

/-- Centre row `m` of the flat `[4000, 512]` arrangement: class `m / 4`, centre `m % 4`. -/
def w (W : Fin 1000 → Fin 4 → Fin 512 → EReal) (m : Fin 4000) (h : Fin 512) : EReal :=
  W ⟨m.val / 4, by have := m.isLt; omega⟩ ⟨m.val % 4, by omega⟩ h

/-- Centre `k` of class `n` is flat row `4 n + k`. -/
def ctr (n : Fin 1000) (k : Fin 4) : Fin 4000 := ⟨4 * n.val + k.val, by have := n.isLt; have := k.isLt; omega⟩

theorem w_ctr (W : Fin 1000 → Fin 4 → Fin 512 → EReal) (n : Fin 1000) (k : Fin 4) (h : Fin 512) :
    w W (ctr n k) h = W n k h := by
  have e1 : (⟨(4 * n.val + k.val) / 4, by have := n.isLt; have := k.isLt; omega⟩ : Fin 1000) = n :=
    Fin.ext (by have := k.isLt; show (4 * n.val + k.val) / 4 = n.val; omega)
  have e2 : (⟨(4 * n.val + k.val) % 4, by omega⟩ : Fin 4) = k :=
    Fin.ext (by have := k.isLt; show (4 * n.val + k.val) % 4 = k.val; omega)
  show W ⟨(4 * n.val + k.val) / 4, _⟩ ⟨(4 * n.val + k.val) % 4, _⟩ h = W n k h
  rw [e1, e2]

/-- `‖x b‖²`. -/
def xsq (x : Fin 512 → Fin 512 → EReal) (b : Fin 512) : EReal := ∑ h : Fin 512, x b h * x b h
/-- `‖w m‖²`. -/
def wsq (W : Fin 1000 → Fin 4 → Fin 512 → EReal) (m : Fin 4000) : EReal := ∑ h : Fin 512, w W m h * w W m h
/-- `⟨x b, w m⟩`. -/
def xw (x : Fin 512 → Fin 512 → EReal) (W : Fin 1000 → Fin 4 → Fin 512 → EReal) (b : Fin 512) (m : Fin 4000) : EReal :=
  ∑ h : Fin 512, x b h * w W m h
/-- `⟨w m, w n⟩`. -/
def ww (W : Fin 1000 → Fin 4 → Fin 512 → EReal) (m n : Fin 4000) : EReal := ∑ h : Fin 512, w W m h * w W n h

/-- The squared distance of feature row `b` to centre row `m`: `‖x b‖² + ‖w m‖² - 2 ⟨x b, w m⟩`. -/
def sqd (x : Fin 512 → Fin 512 → EReal) (W : Fin 1000 → Fin 4 → Fin 512 → EReal) (b : Fin 512) (m : Fin 4000) : EReal :=
  (xsq x b + wsq W m) - two * xw x W b m
/-- `exp (-(squared distance) / 10)`: the negation, then the quotient by the literal ten, then the exponential. -/
def aff (x : Fin 512 → Fin 512 → EReal) (W : Fin 1000 → Fin 4 → Fin 512 → EReal) (b : Fin 512) (m : Fin 4000) : EReal :=
  Ideal.exp (Ideal.div (-(sqd x W b m)) ten)
/-- The greatest of the four centres' values, folded from the first centre on. -/
def dist (x : Fin 512 → Fin 512 → EReal) (W : Fin 1000 → Fin 4 → Fin 512 → EReal) (b : Fin 512) (n : Fin 1000) : EReal :=
  max (max (max (aff x W b (ctr n 0)) (aff x W b (ctr n 1))) (aff x W b (ctr n 2))) (aff x W b (ctr n 3))

/-- The squared distance of two centre rows: `‖w m‖² + ‖w n‖² - 2 ⟨w m, w n⟩`. -/
def norm (W : Fin 1000 → Fin 4 → Fin 512 → EReal) (m n : Fin 4000) : EReal :=
  (wsq W m + wsq W n) - two * ww W m n

/-- The sum of a function of two centre rows over the pairs `m < n` (the strict upper triangle). -/
def pairSum (g : Fin 4000 → Fin 4000 → EReal) : EReal :=
  ∑ m : Fin 4000, ∑ n : Fin 4000, if m < n then g m n else 0

/-- A function of two centre rows, extended by zero to all pairs of naturals. -/
def ext (g : Fin 4000 → Fin 4000 → EReal) (m n : ℕ) : EReal :=
  if h : m < 4000 ∧ n < 4000 then g ⟨m, h.1⟩ ⟨n, h.2⟩ else 0

theorem ext_eq (g : Fin 4000 → Fin 4000 → EReal) (m n : ℕ) (hm : m < 4000) (hn : n < 4000) :
    ext g m n = g ⟨m, hm⟩ ⟨n, hn⟩ := dif_pos ⟨hm, hn⟩

/-- The strict-upper-triangle sum over naturals below 4000 of the extension is the sum over the pairs. -/
theorem sum_range_ext (g : Fin 4000 → Fin 4000 → EReal) :
    (∑ m ∈ Finset.range 4000, ∑ n ∈ Finset.range 4000, if m < n then ext g m n else 0) = pairSum g := by
  unfold pairSum
  rw [← Fin.sum_univ_eq_sum_range (fun m => ∑ n ∈ Finset.range 4000, if m < n then ext g m n else 0) 4000]
  refine Finset.sum_congr rfl fun m _ => ?_
  rw [← Fin.sum_univ_eq_sum_range (fun n => if (m : ℕ) < n then ext g m n else 0) 4000]
  refine Finset.sum_congr rfl fun n _ => ?_
  have hmn : ((m : ℕ) < (n : ℕ)) ↔ m < n := Fin.lt_def.symm
  by_cases h : m < n
  · rw [if_pos h, if_pos (hmn.mpr h), ext, dif_pos ⟨m.isLt, n.isLt⟩]
  · rw [if_neg h, if_neg (fun h' => h (hmn.mp h'))]

/-- `S1`: the sum of the squared distances of the pairs of centre rows. -/
def S1 (W : Fin 1000 → Fin 4 → Fin 512 → EReal) : EReal := pairSum (norm W)
/-- Their scaled sum, the mean. -/
def mu (W : Fin 1000 → Fin 4 → Fin 512 → EReal) : EReal := den * S1 W
/-- The squared deviation of a pair's squared distance from the mean. -/
def dev (W : Fin 1000 → Fin 4 → Fin 512 → EReal) (m n : Fin 4000) : EReal := (norm W m n - mu W) * (norm W m n - mu W)
/-- `S2`: the sum of the squared deviations over the pairs. -/
def S2 (W : Fin 1000 → Fin 4 → Fin 512 → EReal) : EReal := pairSum (dev W)
/-- The regularizer: the scaled sum of squared deviations. -/
def rw (W : Fin 1000 → Fin 4 → Fin 512 → EReal) : EReal := den * S2 W

/-- THE RESULT, by coordinates: column `j < 1000` of row `b` is `dist b j`, the last column is `rw`. -/
def G (x : Fin 512 → Fin 512 → EReal) (W : Fin 1000 → Fin 4 → Fin 512 → EReal) (b : Fin 512) (j : Fin 1001) : EReal :=
  if h : j.val < 1000 then dist x W b ⟨j.val, h⟩ else rw W

/-- A `[512, 512]` array read by coordinates. -/
def mat (x0 : (⟨2, ![512, 512]⟩ : Shape).Idx → EReal) : Fin 512 → Fin 512 → EReal := fun b h => x0 (ix2 b h)
/-- A `[1000, 4, 512]` array read by coordinates. -/
def ten3 (x1 : (⟨3, ![1000, 4, 512]⟩ : Shape).Idx → EReal) : Fin 1000 → Fin 4 → Fin 512 → EReal := fun c k h => x1 (ix3 c k h)

/-- THE RESULT as a `[512, 1001]` array of the two argument arrays. -/
def Garr (x0 : (⟨2, ![512, 512]⟩ : Shape).Idx → EReal) (x1 : (⟨3, ![1000, 4, 512]⟩ : Shape).Idx → EReal) :
    (⟨2, ![512, 1001]⟩ : Shape).Idx → EReal :=
  fun i => G (mat x0) (ten3 x1) ⟨(i 0).val, idx2_lt0 i⟩ ⟨(i 1).val, idx2_lt1 i⟩

theorem Garr_ix2 (x0 : (⟨2, ![512, 512]⟩ : Shape).Idx → EReal) (x1 : (⟨3, ![1000, 4, 512]⟩ : Shape).Idx → EReal)
    (b : Fin 512) (j : Fin 1001) : Garr x0 x1 (ix2 b j) = G (mat x0) (ten3 x1) b j := rfl

/-- The host's negation followed by the host's quotient, and the kernel's negation followed by the kernel's
    quotient, are one function of the extended reals: `(-a) / t`. -/
theorem hostNeg_hostDiv (a t : Ideal .f32) :
    FloatOps.hostDivf (FloatOps.hostNegf a) t = Ideal.div (-a) t := rfl
theorem neg_div (a t : Ideal .f32) :
    FloatOps.divf (FloatOps.negf a) t = Ideal.div (-a) t := rfl
theorem hostNeg_hostDiv_eq (a t : Ideal .f32) :
    FloatOps.hostDivf (FloatOps.hostNegf a) t = FloatOps.divf (FloatOps.negf a) t := rfl

end Cert.Spec

end
-- ==== Proof.R0Pay.lean ====
/-
  Region 0, the distance kernel: the value its body stores, read at an index over the extended reals.

  For a 512x512 block x and a [1,512,512] slab w of centre rows, write
    |x_p|^2 = sum_h x(p,h)^2,   |w_q|^2 = sum_h w(0,q,h)^2,   <x_p, w_q> = sum_h x(p,h) w(0,q,h).
  The body forms, for each of its four slabs, the exponential of -(|x_p|^2 + |w_q|^2 - 2 <x_p, w_q>) / 10 at
  every (p, q) -- the norms by lane sums, the inner products by one matrix product of x with the transposed
  slab -- and stores the maximum of the four, folded from the first slab on.  The change of float format before
  the matrix product is the identity on the extended reals.
-/
import proofs.«134856_j3556232921452_1_alg».proof.Proof.R0Body
import proofs.«134856_j3556232921452_1_alg».proof.Proof.LibPlainDot
import proofs.«134856_j3556232921452_1_alg».proof.Proof.LibTileLayout
import proofs.«134856_j3556232921452_1_alg».proof.Proof.Spec
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.R0Value

open Cert.KernelIdeal Cert.KernelIdeal.Gen Cert.KernelIdeal.R0
open Idealize.ShloMosaic Idealize.ShloMosaic.ValueIdx

/-! ## The payloads as one expression, at any float instance -/

section Generic

variable {F : FTy → Type} [FloatOps F]

/-- |w_q|^2 spread over the rows: the slab squared, summed along the lanes, laid as one row and broadcast. -/
def sqw (w : Vec F S1x512x512 .f32) : FVec F S512x512 .f32 :=
  broadcastTo S512x512
    (shapeCast S1x512
      (multiReduction .add [1] S512
        (mulf (shapeCast S512x512 w shapeCasts_S1x512x512_S512x512) (shapeCast S512x512 w shapeCasts_S1x512x512_S512x512))
        0x00000000#32 reduces_S512x512_S512 (.inl rfl) rfl)
      shapeCasts_S512_S1x512)
    broadcasts_S1x512_S512x512

/-- <x_p, w_q>: the matrix product of the narrowed x with the narrowed slab transposed, from zero. -/
def dotw (v1 : FVec F S512x512 .bf16) (w : Vec F S1x512x512 .f32) : FVec F S512x512 .f32 :=
  matmul dot_S512x512_S512x512_S512x512_1_0_0_1_n_n none v1
    (transpose S512x512 [1, 0] (truncf .bf16 (shapeCast S512x512 w shapeCasts_S1x512x512_S512x512) bitsLt_bf16_f32)
      transposes_S512x512_p1_0_S512x512)
    (constant S512x512 .f32 0x00000000#32)

/-- |x_p|^2 + |w_q|^2 - 2 <x_p, w_q>, from the narrowed x (v1) and the column of its row norms (v4). -/
def sqd (v1 : FVec F S512x512 .bf16) (v4 : FVec F S512x1 .f32) (w : Vec F S1x512x512 .f32) : FVec F S512x512 .f32 :=
  subf (addf (broadcastTo S512x512 v4 broadcasts_S512x1_S512x512) (sqw w))
    (mulf (broadcast S512x512 (Scalar.ofBits .f32 0x40000000#32)) (dotw v1 w))

/-- 0 - (the squared distance). -/
def nsq (v1 : FVec F S512x512 .bf16) (v4 : FVec F S512x1 .f32) (w : Vec F S1x512x512 .f32) : FVec F S512x512 .f32 :=
  subf (broadcast S512x512 (Scalar.ofBits .f32 0x00000000#32)) (sqd v1 v4 w)

/-- exp ((0 - the squared distance) / 10). -/
def expo (v1 : FVec F S512x512 .bf16) (v4 : FVec F S512x1 .f32) (w : Vec F S1x512x512 .f32) : FVec F S512x512 .f32 :=
  exp (divf (nsq v1 v4 w) (broadcast S512x512 (Scalar.ofBits .f32 0x41200000#32)))

theorem pay3_eq (x : Vec F S512x512 .f32) (w : Vec F S1x512x512 .f32) : k0_pay3 x w = expo (k0_pay1 x) (k0_pay2 x) w := rfl
theorem pay4_eq (x : Vec F S512x512 .f32) (w : Vec F S1x512x512 .f32) : k0_pay4 x w = nsq (k0_pay1 x) (k0_pay2 x) w := rfl
theorem pay5_eq (v1 : FVec F S512x512 .bf16) (v4 : FVec F S512x1 .f32) (v23 v39 : FVec F S512x512 .f32) (c : F .f32)
    (w2 w3 : Vec F S1x512x512 .f32) :
    k0_pay5 v1 v4 v23 v39 c w2 w3
      = maximumf (maximumf (maximumf v23 (exp (divf v39 (broadcast S512x512 c)))) (expo v1 v4 w2)) (expo v1 v4 w3) := rfl

/-- The stored value: the maximum of the four slabs' exponentials, folded from the first slab on. -/
theorem val0_eq (x : Vec F S512x512 .f32) (w0 w1 w2 w3 : Vec F S1x512x512 .f32) :
    val0 x w0 w1 w2 w3
      = maximumf (maximumf (maximumf (expo (k0_pay1 x) (k0_pay2 x) w0) (expo (k0_pay1 x) (k0_pay2 x) w1))
          (expo (k0_pay1 x) (k0_pay2 x) w2)) (expo (k0_pay1 x) (k0_pay2 x) w3) := rfl

end Generic

/-! ## Read at an index, over the extended reals -/

section AtIdeal

/-- |x_p|^2. -/
def xs (x : FVec Ideal S512x512 .f32) (p : Fin 512) : EReal := ∑ h : Fin 512, x (ix2 p h) * x (ix2 p h)
/-- |w_q|^2, for row q of the slab. -/
def ws (w : FVec Ideal S1x512x512 .f32) (q : Fin 512) : EReal :=
  ∑ h : Fin 512, w (ix3 (0 : Fin 1) q h) * w (ix3 (0 : Fin 1) q h)
/-- <x_p, w_q>. -/
def xw (x : FVec Ideal S512x512 .f32) (w : FVec Ideal S1x512x512 .f32) (p q : Fin 512) : EReal :=
  ∑ h : Fin 512, x (ix2 p h) * w (ix3 (0 : Fin 1) q h)
/-- exp (-(|x_p|^2 + |w_q|^2 - 2 <x_p, w_q>) / 10). -/
def aff (x : FVec Ideal S512x512 .f32) (w : FVec Ideal S1x512x512 .f32) (p q : Fin 512) : EReal :=
  Ideal.exp (Ideal.div (-((xs x p + ws w q) - Cert.Spec.two * xw x w p q)) Cert.Spec.ten)

/-- The column of row norms of x. -/
theorem pay2_apply (x : FVec Ideal S512x512 .f32) (p : Fin 512) (u : Fin 1) : k0_pay2 (F := Ideal) x (ix2 p u) = xs x p := by
  unfold k0_pay2
  refine (Cert.TileLayout.shapeCast_a_a1_apply _ _ p u).trans ?_
  exact Cert.TileLayout.sum_axis1_apply _ _ _ _ _ p

/-- The slab's row norms, spread over the rows. -/
theorem sqw_apply (w : FVec Ideal S1x512x512 .f32) (p q : Fin 512) : sqw (F := Ideal) w (ix2 p q) = ws w q := by
  unfold sqw
  refine (broadcastTo_1b_ab_apply _ _ p q).trans ?_
  refine (shapeCast_a_1a_apply _ _ (0 : Fin 1) q).trans ?_
  refine (Cert.TileLayout.sum_axis1_apply _ _ _ _ _ q).trans ?_
  refine Finset.sum_congr rfl fun h _ => ?_
  show shapeCast S512x512 w shapeCasts_S1x512x512_S512x512 (ix2 q h) * shapeCast S512x512 w shapeCasts_S1x512x512_S512x512 (ix2 q h) = _
  rw [shapeCast_1ab_ab_apply]

/-- The matrix product's entry (p, q) is the inner product of row p of x with row q of the slab. -/
theorem dotw_apply (x : FVec Ideal S512x512 .f32) (w : FVec Ideal S1x512x512 .f32) (p q : Fin 512) :
    dotw (F := Ideal) (k0_pay1 x) w (ix2 p q) = xw x w p q := by
  unfold dotw
  refine (Cert.LibPlainDot.matmul_zero_apply dot_S512x512_S512x512_S512x512_1_0_0_1_n_n ⟨rfl, rfl, rfl, rfl, rfl, rfl⟩ none _ _ p q).trans ?_
  refine Finset.sum_congr rfl fun h _ => ?_
  refine congrArg (x (ix2 p h) * ·) ?_
  refine (transpose_ix2_apply _ _ h q).trans ?_
  exact shapeCast_1ab_ab_apply w _ q h

/-- The squared distance at (p, q). -/
theorem sqd_apply (x : FVec Ideal S512x512 .f32) (w : FVec Ideal S1x512x512 .f32) (p q : Fin 512) :
    sqd (F := Ideal) (k0_pay1 x) (k0_pay2 x) w (ix2 p q) = (xs x p + ws w q) - Cert.Spec.two * xw x w p q := by
  show (broadcastTo S512x512 (k0_pay2 (F := Ideal) x) broadcasts_S512x1_S512x512 (ix2 p q) + sqw (F := Ideal) w (ix2 p q))
      - Ideal.ofBits .f32 0x40000000#32 * dotw (F := Ideal) (k0_pay1 x) w (ix2 p q) = _
  rw [Cert.TileLayout.broadcastTo_a1_ab_apply, pay2_apply, sqw_apply, dotw_apply]

/-- One slab's exponential at (p, q). -/
theorem expo_apply (x : FVec Ideal S512x512 .f32) (w : FVec Ideal S1x512x512 .f32) (p q : Fin 512) :
    expo (F := Ideal) (k0_pay1 x) (k0_pay2 x) w (ix2 p q) = aff x w p q := by
  show Ideal.exp (Ideal.div (Ideal.ofBits .f32 0x00000000#32 - sqd (F := Ideal) (k0_pay1 x) (k0_pay2 x) w (ix2 p q)) (Ideal.ofBits .f32 0x41200000#32)) = _
  rw [sqd_apply, Ideal.ofBits_zero_f32, zero_sub]
  rfl

/-- THE STORED VALUE at (p, q): the greatest of the four slabs' exponentials, folded from the first. -/
theorem val0_apply (x : FVec Ideal S512x512 .f32) (w0 w1 w2 w3 : FVec Ideal S1x512x512 .f32) (p q : Fin 512) :
    val0 (F := Ideal) x w0 w1 w2 w3 (ix2 p q) = max (max (max (aff x w0 p q) (aff x w1 p q)) (aff x w2 p q)) (aff x w3 p q) := by
  rw [val0_eq]
  show max (max (max (expo (F := Ideal) (k0_pay1 x) (k0_pay2 x) w0 (ix2 p q)) (expo (F := Ideal) (k0_pay1 x) (k0_pay2 x) w1 (ix2 p q)))
      (expo (F := Ideal) (k0_pay1 x) (k0_pay2 x) w2 (ix2 p q))) (expo (F := Ideal) (k0_pay1 x) (k0_pay2 x) w3 (ix2 p q)) = _
  rw [expo_apply, expo_apply, expo_apply, expo_apply]

end AtIdeal

end Cert.KernelIdeal.R0Value

end
-- ==== Proof.R0Value.lean ====
/-
  Region 0, the distance kernel: the result array after the region, read at an index.

  The result [512,1024] is written back in two blocks of 512 columns; block t holds, at (p, q), the greatest
  over the four centres k of exp (-(|x_p|^2 + |w_{k,n}|^2 - 2 <x_p, w_{k,n}>) / 10) with n = 512 t + q, where
  x is the first operand [512,512] and w the second [4,1024,512].  The two blocks cover the array, so the
  array ends holding that one function of the two operands.
-/
import proofs.«134856_j3556232921452_1_alg».proof.Proof.R0Seg
import proofs.«134856_j3556232921452_1_alg».proof.Proof.R0Pay
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.R0Value

open Cert.KernelIdeal Cert.KernelIdeal.Gen Cert.KernelIdeal.R0
open Idealize.ShloMosaic Idealize.ShloMosaic.ValueIdx Idealize.ShloMosaic.TcCoe
open Idealize.SL Idealize.SL.RA
open Idealize.ShloMosaic.Pipeline (Dat)

/-! ## The result as one function of the two operands -/

/-- exp (-(|x_b|^2 + |w_{k,n}|^2 - 2 <x_b, w_{k,n}>) / 10), for the whole operands. -/
def affA (X : S512x512.Idx → EReal) (Wp : S4x1024x512.Idx → EReal) (k : Fin 4) (b : Fin 512) (n : Fin 1024) : EReal :=
  Ideal.exp (Ideal.div (-(((∑ h : Fin 512, X (ix2 b h) * X (ix2 b h)) + ∑ h : Fin 512, Wp (ix3 k n h) * Wp (ix3 k n h))
    - Cert.Spec.two * ∑ h : Fin 512, X (ix2 b h) * Wp (ix3 k n h))) Cert.Spec.ten)

/-- The greatest of the four centres' values, folded from the first centre on. -/
def dist4 (X : S512x512.Idx → EReal) (Wp : S4x1024x512.Idx → EReal) (b : Fin 512) (n : Fin 1024) : EReal :=
  max (max (max (affA X Wp 0 b n) (affA X Wp 1 b n)) (affA X Wp 2 b n)) (affA X Wp 3 b n)

/-- The whole result array. -/
def Gres (X : S512x512.Idx → EReal) (Wp : S4x1024x512.Idx → EReal) : S512x1024.Idx → EReal :=
  fun i => dist4 X Wp ⟨(i 0).val, idx2_lt0 i⟩ ⟨(i 1).val, idx2_lt1 i⟩

theorem Gres_ix2 (X : S512x512.Idx → EReal) (Wp : S4x1024x512.Idx → EReal) (b : Fin 512) (n : Fin 1024) :
    Gres X Wp (ix2 b n) = dist4 X Wp b n := rfl

/-! ## The windows' index maps over the grid -/

/-- The first operand's one block is block (0, 0); the second operand's block at point t is (0, t, 0); the result's
    is (0, t). -/
theorem idx_facts : ∀ t : Fin cfg0.N, win0_0.index t (0 : Fin 2) = 0 ∧ win0_0.index t (1 : Fin 2) = 0
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = t.val :=
  (by decide +kernel : ∀ t : Fin grid0.N, _)

/-! ## The blocks read off the operands -/

section Blocks

variable (V : Valuation τ sig (Elt Ideal))

/-- An element of the first operand's one block is the operand's element. -/
theorem blk0_0_apply (t : Fin cfg0.N) (p h : Fin 512) : blk0 V 0 t (ix2 p h) = V main_arg0 (ix2 p h) := by
  obtain ⟨e0, e1, -⟩ := idx_facts t
  show V main_arg0 (((cfg0.win 0).blk t).view.emb (ix2 p h)) = V main_arg0 (ix2 p h)
  refine congrArg (V main_arg0) (funext fun a => Fin.ext ?_)
  match a with
  | ⟨0, _⟩ => show win0_0.index t (0 : Fin 2) * 512 + 1 * p.val = p.val; omega
  | ⟨1, _⟩ => show win0_0.index t (1 : Fin 2) * 512 + 1 * h.val = h.val; omega

/-- Row q of slab k of the second operand's block at point t is row 512 t + q of centre k. -/
theorem blk0_1_apply (t : Fin cfg0.N) (k : Fin 4) (q h : Fin 512) (n : Fin 1024) (hn : n.val = t.val * 512 + q.val) :
    blk0 V 1 t (ix3 k q h) = V main_v1 (ix3 k n h) := by
  obtain ⟨-, -, e2, e3, e4, -⟩ := idx_facts t
  show V main_v1 (((cfg0.win 1).blk t).view.emb (ix3 k q h)) = V main_v1 (ix3 k n h)
  refine congrArg (V main_v1) (funext fun a => Fin.ext ?_)
  match a with
  | ⟨0, _⟩ => show win0_1.index t (0 : Fin 3) * 4 + 1 * k.val = k.val; omega
  | ⟨1, _⟩ => show win0_1.index t (1 : Fin 3) * 512 + 1 * q.val = n.val; omega
  | ⟨2, _⟩ => show win0_1.index t (2 : Fin 3) * 512 + 1 * h.val = h.val; omega

end Blocks

/-- The exponential of a block and a slab that are read off the operands is the operands' own. -/
theorem aff_congr (x : FVec Ideal S512x512 .f32) (w : FVec Ideal S1x512x512 .f32)
    (X : S512x512.Idx → EReal) (Wp : S4x1024x512.Idx → EReal) (k : Fin 4) (p q : Fin 512) (n : Fin 1024)
    (hx : ∀ h, x (ix2 p h) = X (ix2 p h)) (hw : ∀ h, w (ix3 (0 : Fin 1) q h) = Wp (ix3 k n h)) :
    aff x w p q = affA X Wp k p n := by
  unfold aff affA xs ws xw
  simp only [hx, hw]

/-! ## What a point writes back, the cover, and the array -/

section Final

variable {Ix : Type} [DecidableEq Ix] {U : Type} [URA U] {Lvl : Type} [Preorder Lvl]
variable (V : Valuation τ sig (Elt Ideal)) (c : Dev nD)

/-- A load through slab k of the second operand's buffer reads row (k, q, h) of the block. -/
theorem ld_rW (Y : Vec Ideal S4x512x512 .f32) (q h : Fin 512) :
    View.ld (Val := Elt Ideal) (e' := .f32) Y rW0 (ix3 (0 : Fin 1) q h) = Y (ix3 (0 : Fin 4) q h) ∧ View.ld (Val := Elt Ideal) (e' := .f32) Y rW1 (ix3 (0 : Fin 1) q h) = Y (ix3 (1 : Fin 4) q h)
    ∧ View.ld (Val := Elt Ideal) (e' := .f32) Y rW2 (ix3 (0 : Fin 1) q h) = Y (ix3 (2 : Fin 4) q h) ∧ View.ld (Val := Elt Ideal) (e' := .f32) Y rW3 (ix3 (0 : Fin 1) q h) = Y (ix3 (3 : Fin 4) q h) := by
  refine ⟨congrArg Y (funext fun a => Fin.ext ?_), congrArg Y (funext fun a => Fin.ext ?_),
    congrArg Y (funext fun a => Fin.ext ?_), congrArg Y (funext fun a => Fin.ext ?_)⟩ <;>
  · match a with
    | ⟨0, _⟩ => rfl
    | ⟨1, _⟩ => show 0 + 1 * q.val = q.val; omega
    | ⟨2, _⟩ => show 0 + 1 * h.val = h.val; omega

/-- WHAT POINT t WRITES BACK is block t of Gres of the two operands as the region finds them. -/
theorem flushed_eq (t : Fin cfg0.N) :
    (dat0 (Ix := Ix) (U := U) (Lvl := Lvl) V c).flushed 2 t
      = ((cfg0.win 2).blk t).view.read (Elt Ideal) (Gres (V main_arg0) (V main_v1)) := by
  show (cfg0.win 2).cut (grid0.coords t) ((dat0 (Ix := Ix) (U := U) (Lvl := Lvl) V c).after 2 t) = _
  rw [after0_2, out0_eq]
  funext j
  obtain ⟨p, q, rfl⟩ : ∃ (p : Fin 512) (q : Fin 512), j = ix2 p q := ⟨j 0, j 1, eq_ix2 j⟩
  have hq := q.isLt
  have ht : t.val < 2 := Nat.lt_of_lt_of_eq t.isLt N_0
  obtain ⟨-, -, -, -, -, e5, e6⟩ := idx_facts t
  have hemb : ((cfg0.win 2).blk t).view.emb (ix2 p q) = ix2 p (⟨t.val * 512 + q.val, by omega⟩ : Fin 1024) := by
    funext a; apply Fin.ext
    match a with
    | ⟨0, _⟩ => show win0_2.index t (0 : Fin 2) * 512 + 1 * p.val = p.val; omega
    | ⟨1, _⟩ => show win0_2.index t (1 : Fin 2) * 512 + 1 * q.val = t.val * 512 + q.val; omega
  show val0 (F := Ideal) (blk0 V 0 t) (View.ld (blk0 V 1 t) rW0) (View.ld (blk0 V 1 t) rW1) (View.ld (blk0 V 1 t) rW2)
      (View.ld (blk0 V 1 t) rW3) (ix2 p q) = Gres (V main_arg0) (V main_v1) (((cfg0.win 2).blk t).view.emb (ix2 p q))
  rw [hemb, Gres_ix2]
  refine (val0_apply (blk0 V 0 t) (View.ld (blk0 V 1 t) rW0) (View.ld (blk0 V 1 t) rW1) (View.ld (blk0 V 1 t) rW2)
    (View.ld (blk0 V 1 t) rW3) p q).trans ?_
  unfold dist4
  have hx : ∀ h, blk0 V 0 t (ix2 p h) = V main_arg0 (ix2 p h) := fun h => blk0_0_apply V t p h
  have h0 := aff_congr (blk0 V 0 t) (View.ld (blk0 V 1 t) rW0) (V main_arg0) (V main_v1) 0 p q ⟨t.val * 512 + q.val, by omega⟩ hx
    fun h => ((ld_rW (blk0 V 1 t) q h).1).trans (blk0_1_apply V t 0 q h _ rfl)
  have h1 := aff_congr (blk0 V 0 t) (View.ld (blk0 V 1 t) rW1) (V main_arg0) (V main_v1) 1 p q ⟨t.val * 512 + q.val, by omega⟩ hx
    fun h => ((ld_rW (blk0 V 1 t) q h).2.1).trans (blk0_1_apply V t 1 q h _ rfl)
  have h2 := aff_congr (blk0 V 0 t) (View.ld (blk0 V 1 t) rW2) (V main_arg0) (V main_v1) 2 p q ⟨t.val * 512 + q.val, by omega⟩ hx
    fun h => ((ld_rW (blk0 V 1 t) q h).2.2.1).trans (blk0_1_apply V t 2 q h _ rfl)
  have h3 := aff_congr (blk0 V 0 t) (View.ld (blk0 V 1 t) rW3) (V main_arg0) (V main_v1) 3 p q ⟨t.val * 512 + q.val, by omega⟩ hx
    fun h => ((ld_rW (blk0 V 1 t) q h).2.2.2).trans (blk0_1_apply V t 3 q h _ rfl)
  exact congrArg₂ max (congrArg₂ max (congrArg₂ max h0 h1) h2) h3

/-- An index of the array is in point t's block iff each coordinate is in the block's range on its axis. -/
theorem mem_blk (t : Fin cfg0.N) (i : S512x1024.Idx) :
    i ∈ ((cfg0.win 2).blk t).view.set ↔ ∀ a : Fin 2, win0_2.index t a * S512x512.size a ≤ (i a).val
      ∧ (i a).val < win0_2.index t a * S512x512.size a + S512x512.size a := by
  show i ∈ ((View.whole main_v2).slice (win0_2.rect t)).set ↔ _
  rw [View.set_slice_whole, Rect.mem_set_unit]
  exact Iff.rfl

/-- Every index of the array is in the block of the point its column falls in. -/
theorem cover (i : S512x1024.Idx) : ∃ t : Fin cfg0.N, (cfg0.win 2).flush t = true ∧ i ∈ ((cfg0.win 2).blk t).view.set := by
  have hi0 : (i 0).val < 512 := (i 0).isLt
  have hi1 : (i 1).val < 1024 := (i 1).isLt
  let t : Fin cfg0.N := ⟨(i 1).val / 512, by show _ < grid0.N; rw [N_0]; omega⟩
  obtain ⟨-, -, -, -, -, e5, e6⟩ := idx_facts t
  have e6' : win0_2.index t (1 : Fin 2) = (i 1).val / 512 := e6
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- THE ARRAY after the region: Gres of the two operands. -/
theorem final : (dat0 (Ix := Ix) (U := U) (Lvl := Lvl) V c).arrAt 2 cfg0.N = Gres (V main_arg0) (V main_v1) :=
  (dat0 V c).arrAt_eq_of_cover 2 (Gres (V main_arg0) (V main_v1)) (fun t _ => flushed_eq V c t) cover

/-- THE ARRAY read at (b, n): the greatest over the four centres of the exponentials. -/
theorem final_apply (b : Fin 512) (n : Fin 1024) :
    (dat0 (Ix := Ix) (U := U) (Lvl := Lvl) V c).arrAt 2 2 (ix2 b n) = dist4 (V main_arg0) (V main_v1) b n := by
  have h := final (Ix := Ix) (U := U) (Lvl := Lvl) V c
  rw [show cfg0.N = 2 from N_0] at h
  rw [h]
  rfl

end Final

end Cert.KernelIdeal.R0Value

end
-- ==== Proof.HostReads.lean ====
/-
  What the host operations between the kernel regions make of the regions' inputs and outputs.

  `wT a1` is the centres transposed to `[4, 1000, 512]` and padded with 24 zero classes to `[4, 1024, 512]`;
  `wP a1` is the centres flattened to `[4000, 512]` and padded with 96 zero rows to `[4096, 512]`;
  `sP a1` is the sum of squares along each of the 4096 padded rows. Each buffer a region reads is one of these
  (or an argument, or a scaled region output), and the result is the first region's output cut to 1000 columns,
  joined to the column of the scaled third region's output.
-/
import proofs.«134856_j3556232921452_1_alg».proof.Proof.Gen.KernelIdeal.Regions
import Idealize.ShloMosaic.Lib.StableHlo.Run

noncomputable section

namespace Cert.KernelIdeal.HostReads

open Cert.KernelIdeal Cert.KernelIdeal.Gen Idealize.ShloMosaic Idealize.ShloMosaic.TcCoe Idealize.SL.Sem Idealize.ShloMosaic.StableHlo

variable {F : FTy → Type} [FloatOps F]

/-- The centres, transposed to centre-major order and padded with zero classes up to 1024. -/
def wT (a1 : (⟨S1000x4x512, .f32⟩ : BufTy).Contents (Elt F)) : (⟨S4x1024x512, .f32⟩ : BufTy).Contents (Elt F) :=
  pad S4x1024x512 ![0, 0, 0] ![0, 24, 0] ![0, 0, 0]
    (transpose S4x1000x512 [1, 0, 2] a1 transposes_S1000x4x512_S4x1000x512_1_0_2)
    (sitofp .f32 (constantI S_ 32 0#32)) pads_S4x1000x512_S4x1024x512_000_0240_000 h_S_

/-- The centres as 4000 flat rows, padded with zero rows up to 4096. -/
def wP (a1 : (⟨S1000x4x512, .f32⟩ : BufTy).Contents (Elt F)) : (⟨S4096x512, .f32⟩ : BufTy).Contents (Elt F) :=
  pad S4096x512 ![0, 0] ![96, 0] ![0, 0] (shapeCast S4000x512 a1 shapeCasts_S1000x4x512_S4000x512)
    (sitofp .f32 (constantI S_ 32 0#32)) pads_S4000x512_S4096x512_0960_000 h_S_

/-- The sum of squares along each padded row. -/
def sP (a1 : (⟨S1000x4x512, .f32⟩ : BufTy).Contents (Elt F)) : (⟨S4096, .f32⟩ : BufTy).Contents (Elt F) :=
  Host.reduceAdd (mulf (wP a1) (wP a1)) (constant S_ .f32 0x00000000#32) reducesTo_S4096x512_S4096_d1 h_S_

variable (m : (ℓ : Loc nD τ sig) → Buf (Elt F) ℓ) (outs : Outs (F := F)) (c : Dev nD)

/-- The first argument is untouched when the first region starts. -/
theorem V2_arg0 : V2 m c main_arg0 = m ((c : Thread nD τ).loc main_arg0) := by
  rw [V2_of m c main_arg0 (by decide), V1_of m c main_arg0 (by decide)]

/-- The first region's second operand: the transposed, padded centres. -/
theorem V2_v1 : V2 m c main_v1 = wT (m ((c : Thread nD τ).loc main_arg1)) := by
  dsimp only [V2, V1, V0, hostOps0, hostOps0_1]
  after_results
  rfl

/-- The second argument is untouched after the first region. -/
theorem V3_arg1 : V3 m outs c main_arg1 = m ((c : Thread nD τ).loc main_arg1) := by
  rw [V3_of m outs c main_arg1 (by decide), V2_of m c main_arg1 (by decide), V1_of m c main_arg1 (by decide)]

/-- What the first region leaves in its output. -/
theorem V3_v2 : V3 m outs c main_v2 = outs 3 main_v2 c := by
  simp only [V3, Function.update_self]

/-- The flat centres. -/
theorem V4_v4 : V4 m outs c main_v4 = shapeCast S4000x512 (m ((c : Thread nD τ).loc main_arg1)) shapeCasts_S1000x4x512_S4000x512 := by
  dsimp only [V4, hostOps1]
  after_results
  rw [V3_arg1]
  rfl

/-- The first region's output cut to its 1000 columns. -/
theorem V4_v3 : V4 m outs c main_v3
    = extractStridedSlice S512x1000 ![0, 0] (outs 3 main_v2 c) slices_S512x1024_S512x1000_0_0 := by
  dsimp only [V4, hostOps1]
  after_results
  rw [V3_v2]

/-- The padded flat centres. -/
theorem V5_v5 : V5 m outs c main_v5 = wP (m ((c : Thread nD τ).loc main_arg1)) := by
  dsimp only [V5, hostOps1_1]
  after_results
  rw [V3_arg1]
  rfl

/-- The second region's first two operands: the padded flat centres. -/
theorem V6_v5 : V6 m outs c main_v5 = wP (m ((c : Thread nD τ).loc main_arg1)) := by
  rw [V6_of m outs c main_v5 (by decide)]
  exact V5_v5 m outs c

/-- The second region's last two operands: the padded rows' sums of squares. -/
theorem V6_v7 : V6 m outs c main_v7 = sP (m ((c : Thread nD τ).loc main_arg1)) := by
  dsimp only [V6, hostOps1_2]
  after_results
  rw [V3_arg1]
  rfl

/-- What the second region leaves in its output. -/
theorem V7_v8 : V7 m outs c main_v8 = outs 7 main_v8 c := by
  simp only [V7, Function.update_self]

/-- The third region's first two operands. -/
theorem V8_v5 : V8 m outs c main_v5 = wP (m ((c : Thread nD τ).loc main_arg1)) := by
  rw [V8_of m outs c main_v5 (by decide), V7_of m outs c main_v5 (by decide)]
  exact V6_v5 m outs c

/-- The third region's next two operands. -/
theorem V8_v7 : V8 m outs c main_v7 = sP (m ((c : Thread nD τ).loc main_arg1)) := by
  rw [V8_of m outs c main_v7 (by decide), V7_of m outs c main_v7 (by decide)]
  exact V6_v7 m outs c

/-- The third region's last operand: the second region's output, scaled. -/
theorem V8_v11 : V8 m outs c main_v11
    = shapeCast S1x1 (mulf (constant S_ .f32 0x34064055#32) (shapeCast S_ (outs 7 main_v8 c) shapeCasts_S1x1_S_)) shapeCasts_S_S1x1 := by
  dsimp only [V8, hostOps2]
  after_results
  rw [V7_v8]
  rfl

/-- What the third region leaves in its output. -/
theorem V9_v12 : V9 m outs c main_v12 = outs 9 main_v12 c := by
  simp only [V9, Function.update_self]

/-- The first region's output cut to 1000 columns is still there after the third region. -/
theorem V9_v3 : V9 m outs c main_v3
    = extractStridedSlice S512x1000 ![0, 0] (outs 3 main_v2 c) slices_S512x1024_S512x1000_0_0 := by
  rw [V9_of m outs c main_v3 (by decide), V8_of m outs c main_v3 (by decide), V7_of m outs c main_v3 (by decide),
    V6_of m outs c main_v3 (by decide), V5_of m outs c main_v3 (by decide)]
  exact V4_v3 m outs c

/-- THE RESULT: the first region's 1000 columns joined to the column of the third region's output, scaled. -/
theorem V10_v16 : V10 m outs c main_v16
    = concatenate S512x1001 1 [⟨S512x1000, extractStridedSlice S512x1000 ![0, 0] (outs 3 main_v2 c) slices_S512x1024_S512x1000_0_0⟩,
        ⟨S512x1, broadcastInDim S512x1 ![] bcast_S_S512x1 (mulf (constant S_ .f32 0x34064055#32) (shapeCast S_ (outs 9 main_v12 c) shapeCasts_S1x1_S_))⟩]
        concatenates_S512x1000_S512x1_S512x1001_d1 := by
  dsimp only [V10, hostOps3]
  after_results
  rw [V9_v3, V9_v12]
  rfl

end Cert.KernelIdeal.HostReads

end
-- ==== Proof.HostReadsIdeal.lean ====
/-
  The host operations' arrays of the kernel program, read at an index at the extended reals.

  With `W` the centres by coordinates: the transposed, padded centres `wT` hold `W n k h` at `(k, n, h)` for a
  class `n < 1000` and zero in the 24 padding classes; the flat, padded centres `wP` hold the flat row `w m` for
  `m < 4000` and zero in the 96 padding rows; `sP` is the sum of squares along each padded row, so `‖w m‖²` for
  `m < 4000`; a scaled region output is `den` times it; and the result reads the first region's output in its first
  1000 columns and the scaled third region's output in the last.
-/
import proofs.«134856_j3556232921452_1_alg».proof.Proof.HostReads
import proofs.«134856_j3556232921452_1_alg».proof.Proof.Spec
import Idealize.ShloMosaic.Lib.KernelVsHost
import Idealize.ShloMosaic.Lib.ValueLayout
import Idealize.ShloMosaic.Lib.Pipeline.Value
import Idealize.ShloMosaic.PureOps.Ideal.Laws

noncomputable section

open scoped BigOperators

namespace Cert.KernelIdeal.HostReadsIdeal

open Cert.KernelIdeal Cert.KernelIdeal.Gen Cert.KernelIdeal.HostReads Idealize.ShloMosaic Idealize.ShloMosaic.ValueIdx

variable (a1 : (⟨S1000x4x512, .f32⟩ : BufTy).Contents (Elt Ideal))

/-- The padding value, the integer zero as a float, is zero. -/
theorem padv (i : S_.Idx) : (sitofp .f32 (constantI S_ 32 0#32) : FVec Ideal S_ .f32) i = 0 := by
  show (((0#32 : BitVec 32).toInt : ℝ) : EReal) = 0
  simp

/-- The transposed, padded centres at centre `k`, class slot `n`, column `h`. -/
theorem wT_at (k : Fin 4) (n : Fin 1024) (h : Fin 512) :
    wT (F := Ideal) a1 (ix3 k n h) = if hn : n.val < 1000 then Cert.Spec.ten3 a1 ⟨n.val, hn⟩ k h else 0 := by
  unfold wT
  by_cases hn : n.val < 1000
  · rw [dif_pos hn]
    refine (pad_apply_of_inside _ _ _ _ _ pads_S4x1000x512_S4x1024x512_000_0240_000 h_S_ (ix3 k n h)
      (ix3 k (⟨n.val, hn⟩ : Fin 1000) h) (fun a => by
        match a with
        | ⟨0, _⟩ => show k.val = 0 + k.val * (0 + 1); omega
        | ⟨1, _⟩ => show n.val = 0 + n.val * (0 + 1); omega
        | ⟨2, _⟩ => show h.val = 0 + h.val * (0 + 1); omega)).trans ?_
    exact transpose_apply _ a1 transposes_S1000x4x512_S4x1000x512_1_0_2 (ix3 k (⟨n.val, hn⟩ : Fin 1000) h)
      (ix3 (⟨n.val, hn⟩ : Fin 1000) k h) (fun b => by
        match b with
        | ⟨0, _⟩ => rfl
        | ⟨1, _⟩ => rfl
        | ⟨2, _⟩ => rfl)
  · rw [dif_neg hn]
    refine (pad_apply_of_not_inside _ _ _ _ _ pads_S4x1000x512_S4x1024x512_000_0240_000 h_S_ (ix3 k n h) 1 (fun hc => hn ?_)).trans
      (padv _)
    have h3 := hc.2.2
    have : (n.val - 0) / (0 + 1) < 1000 := h3
    omega

/-- The flat, padded centres at row `mm`, column `h`. -/
theorem wP_at (mm : Fin 4096) (h : Fin 512) :
    wP (F := Ideal) a1 (ix2 mm h) = if hm : mm.val < 4000 then Cert.Spec.w (Cert.Spec.ten3 a1) ⟨mm.val, hm⟩ h else 0 := by
  unfold wP
  by_cases hm : mm.val < 4000
  · rw [dif_pos hm]
    refine (pad_apply_of_inside _ _ _ _ _ pads_S4000x512_S4096x512_0960_000 h_S_ (ix2 mm h)
      (ix2 (⟨mm.val, hm⟩ : Fin 4000) h) (fun a => by
        match a with
        | ⟨0, _⟩ => show mm.val = 0 + mm.val * (0 + 1); omega
        | ⟨1, _⟩ => show h.val = 0 + h.val * (0 + 1); omega)).trans ?_
    have hh := h.isLt
    refine (shapeCast_apply a1 shapeCasts_S1000x4x512_S4000x512 (ix2 (⟨mm.val, hm⟩ : Fin 4000) h)
      (ix3 (⟨mm.val / 4, by omega⟩ : Fin 1000) (⟨mm.val % 4, by omega⟩ : Fin 4) h) (by
        rewrite [Shape.rowMajor_val_three, Shape.rowMajor_val_two]
        show (mm.val / 4 * 4 + mm.val % 4) * 512 + h.val = mm.val * 512 + h.val
        omega)).trans ?_
    rfl
  · rw [dif_neg hm]
    refine (pad_apply_of_not_inside _ _ _ _ _ pads_S4000x512_S4096x512_0960_000 h_S_ (ix2 mm h) 0 (fun hc => hm ?_)).trans
      (padv _)
    have h3 := hc.2.2
    have : (mm.val - 0) / (0 + 1) < 4000 := h3
    omega

/-- The sum of squares along padded row `mm`. -/
theorem sP_at (mm : Fin 4096) :
    sP (F := Ideal) a1 (ix1 mm) = ∑ h : Fin 512, wP (F := Ideal) a1 (ix2 mm h) * wP (F := Ideal) a1 (ix2 mm h) := by
  unfold sP
  generalize wP (F := Ideal) a1 = y
  have key : ∀ z : FVec Ideal S4096x512 .f32,
      Host.reduceAdd z (constant (F := Ideal) S_ .f32 0x00000000#32) reducesTo_S4096x512_S4096_d1 h_S_ (ix1 mm)
        = (constant (F := Ideal) S_ .f32 0x00000000#32) (Shape.Idx.first h_S_) + ∑ k : Fin 512, z (ix2 mm k) := by
    intro z
    simp only [Host.reduceAdd, Ideal.hostReduceAdd_def]
    rw [Ideal.hostReduceAdd_single reducesTo_S4096x512_S4096_d1 (by decide)]
    refine congrArg (_ + ·) (Finset.sum_congr rfl fun k _ => ?_)
    exact congrArg z (funext fun a => Fin.ext (by match a with | ⟨0, _⟩ => rfl | ⟨1, _⟩ => rfl))
  rw [key, constant_apply, Ideal.ofBits_zero_f32, zero_add]
  rfl

/-- For a row below 4000 that is the squared norm of the flat centre row. -/
theorem sP_lt (mm : Fin 4096) (hm : mm.val < 4000) :
    sP (F := Ideal) a1 (ix1 mm) = Cert.Spec.wsq (Cert.Spec.ten3 a1) ⟨mm.val, hm⟩ := by
  rw [sP_at]
  unfold Cert.Spec.wsq
  refine Finset.sum_congr rfl fun h _ => ?_
  rw [wP_at, dif_pos hm]

/-- A padding row's sum of squares is zero. -/
theorem sP_ge (mm : Fin 4096) (hm : ¬ mm.val < 4000) : sP (F := Ideal) a1 (ix1 mm) = 0 := by
  rw [sP_at]
  refine Finset.sum_eq_zero fun h _ => ?_
  rw [wP_at, dif_neg hm, mul_zero]

/-- A `[1, 1]` array scaled through the scalar shape: `den` times its one entry. -/
theorem scaled11_at (o7 : Vec Ideal S1x1 .f32) (i : S1x1.Idx) :
    (shapeCast S1x1 (mulf (constant (F := Ideal) S_ .f32 0x34064055#32) (shapeCast S_ o7 shapeCasts_S1x1_S_)) shapeCasts_S_S1x1) i
      = Cert.Spec.den * o7 (ix2 (0 : Fin 1) (0 : Fin 1)) := by
  have h0 : ∀ k : S_.Idx, (S_.rowMajor k).val = 0 := fun k => Shape.rowMajorPi_zero _ _
  have h1 : ∀ j : S1x1.Idx, (S1x1.rowMajor j).val = 0 := fun j => by
    rw [Shape.rowMajor_val_two]
    have a := (j 0).isLt; have b := (j 1).isLt
    show (j 0).val * 1 + (j 1).val = 0
    have a' : (j 0).val < 1 := a
    have b' : (j 1).val < 1 := b
    omega
  refine (shapeCast_apply _ shapeCasts_S_S1x1 i ix0 ((h0 _).trans (h1 _).symm)).trans ?_
  show Ideal.ofBits .f32 0x34064055#32 * shapeCast S_ o7 shapeCasts_S1x1_S_ ix0 = _
  rw [shapeCast_apply o7 shapeCasts_S1x1_S_ ix0 (ix2 (0 : Fin 1) (0 : Fin 1)) ((h1 _).trans (h0 _).symm)]

/-- The scalar scaled and spread down a column: `den` times the one entry, in every row. -/
theorem scaledCol_at (o9 : Vec Ideal S1x1 .f32) (i : S512x1.Idx) :
    (broadcastInDim S512x1 ![] bcast_S_S512x1 (mulf (constant (F := Ideal) S_ .f32 0x34064055#32) (shapeCast S_ o9 shapeCasts_S1x1_S_))) i
      = Cert.Spec.den * o9 (ix2 (0 : Fin 1) (0 : Fin 1)) := by
  have h0 : ∀ k : S_.Idx, (S_.rowMajor k).val = 0 := fun k => Shape.rowMajorPi_zero _ _
  have h1 : ∀ j : S1x1.Idx, (S1x1.rowMajor j).val = 0 := fun j => by
    rw [Shape.rowMajor_val_two]
    show (j 0).val * 1 + (j 1).val = 0
    have a' : (j 0).val < 1 := (j 0).isLt
    have b' : (j 1).val < 1 := (j 1).isLt
    omega
  refine (broadcastInDim_apply _ bcast_S_S512x1 _ i ix0 (fun a => a.elim0)).trans ?_
  show Ideal.ofBits .f32 0x34064055#32 * shapeCast S_ o9 shapeCasts_S1x1_S_ ix0 = _
  rw [shapeCast_apply o9 shapeCasts_S1x1_S_ ix0 (ix2 (0 : Fin 1) (0 : Fin 1)) ((h1 _).trans (h0 _).symm)]

/-- THE RESULT at row `b`, column `j`: the first region's output in the first 1000 columns, the scaled third region's
    output in the last. -/
theorem result_at (o3 : Vec Ideal S512x1024 .f32) (o9 : Vec Ideal S1x1 .f32) (b : Fin 512) (j : Fin 1001) :
    (concatenate S512x1001 1 [⟨S512x1000, extractStridedSlice S512x1000 ![0, 0] o3 slices_S512x1024_S512x1000_0_0⟩,
        ⟨S512x1, broadcastInDim S512x1 ![] bcast_S_S512x1 (mulf (constant (F := Ideal) S_ .f32 0x34064055#32) (shapeCast S_ o9 shapeCasts_S1x1_S_))⟩]
        concatenates_S512x1000_S512x1_S512x1001_d1) (ix2 b j)
      = if hj : j.val < 1000 then o3 (ix2 b (⟨j.val, by omega⟩ : Fin 1024)) else Cert.Spec.den * o9 (ix2 (0 : Fin 1) (0 : Fin 1)) := by
  by_cases hj : j.val < 1000
  · rw [dif_pos hj]
    refine (concatenate_pair_apply_left 1 _ _ concatenates_S512x1000_S512x1_S512x1001_d1 (ix2 b j) rfl
      (ix2 b (⟨j.val, hj⟩ : Fin 1000)) (fun c => by
        match c with
        | ⟨0, _⟩ => rfl
        | ⟨1, _⟩ => rfl)).trans ?_
    exact slice2_axis1_apply 0 o3 slices_S512x1024_S512x1000_0_0 b (⟨j.val, hj⟩ : Fin 1000) (⟨j.val, by omega⟩ : Fin 1024)
      (by show j.val = 0 + j.val; omega)
  · rw [dif_neg hj]
    refine (concatenate_pair_apply_right 1 _ _ concatenates_S512x1000_S512x1_S512x1001_d1 (ix2 b j) rfl rfl
      (ix2 b (⟨0, Nat.one_pos⟩ : Fin 1)) (fun c hc => by
        match c with
        | ⟨0, _⟩ => rfl
        | ⟨1, _⟩ => exact absurd rfl hc) (by
        have := j.isLt
        show 0 + 1000 = j.val
        omega)).trans ?_
    exact scaledCol_at o9 _

end Cert.KernelIdeal.HostReadsIdeal

end
-- ==== Proof.DistLink.lean ====
/-
  The distance kernel's array is the specification's distances on the first 1000 classes.

  The kernel reads the weights transposed to [4, 1000, 512] and padded with zero rows to 1024 classes; at class n < 1000 and
  centre k that array's row is the weights' row (n, k), which is row 4 n + k of the flat weights. So each of the four terms
  the kernel maximises over is the specification's term at centre k of class n, and the nested maximum is the same one.
-/
import proofs.«134856_j3556232921452_1_alg».proof.Proof.R0Value
import proofs.«134856_j3556232921452_1_alg».proof.Proof.HostReadsIdeal

noncomputable section

namespace Cert.KernelIdeal.DistLink

open Cert.KernelIdeal Cert.KernelIdeal.Gen Cert.KernelIdeal.R0Value Cert.KernelIdeal.HostReads Cert.KernelIdeal.HostReadsIdeal
open Idealize.ShloMosaic Idealize.ShloMosaic.ValueIdx
open scoped BigOperators

variable (a0 : (⟨S512x512, .f32⟩ : BufTy).Contents (Elt Ideal)) (a1 : (⟨S1000x4x512, .f32⟩ : BufTy).Contents (Elt Ideal))

/-- One centre's term: the kernel's, over the padded transposed weights, is the specification's at that centre. -/
theorem affA_eq (k : Fin 4) (b : Fin 512) (n : Fin 1024) (hn : n.val < 1000) :
    affA a0 (wT (F := Ideal) a1) k b n
      = Cert.Spec.aff (Cert.Spec.mat a0) (Cert.Spec.ten3 a1) b (Cert.Spec.ctr ⟨n.val, hn⟩ k) := by
  unfold affA Cert.Spec.aff Cert.Spec.sqd Cert.Spec.xsq Cert.Spec.wsq Cert.Spec.xw
  simp only [wT_at, dif_pos hn, Cert.Spec.w_ctr]
  rfl

/-- The maximum over the four centres. -/
theorem dist4_eq (b : Fin 512) (n : Fin 1024) (hn : n.val < 1000) :
    dist4 a0 (wT (F := Ideal) a1) b n = Cert.Spec.dist (Cert.Spec.mat a0) (Cert.Spec.ten3 a1) b ⟨n.val, hn⟩ := by
  unfold dist4 Cert.Spec.dist
  rw [affA_eq a0 a1 0 b n hn, affA_eq a0 a1 1 b n hn, affA_eq a0 a1 2 b n hn, affA_eq a0 a1 3 b n hn]

end Cert.KernelIdeal.DistLink

end
-- ==== Proof.R1Acc.lean ====
/-
  What the first pair-sum region leaves in its result array: the running sum after the last grid point.

  The result window's one block is the whole `[1, 1]` array and is written back once, after point 63; what is written
  is what the body left in the staging buffer there, the running sum `accAt V 63`. Every index of the array lies in
  that block, so the array ends holding that sum.
-/
import proofs.«134856_j3556232921452_1_alg».proof.Proof.R1Dat
import proofs.«134856_j3556232921452_1_alg».proof.Proof.Gen.KernelIdeal.Points
import Idealize.ShloMosaic.Lib.Pipeline.Value

set_option maxRecDepth 16384

noncomputable section

namespace Cert.KernelIdeal.R1

open Cert.KernelIdeal Cert.KernelIdeal.Gen
open Idealize.ShloMosaic Idealize.ShloMosaic.TcCoe
open Idealize.SL Idealize.SL.RA Idealize.SL.Sem
open Idealize.ShloMosaic.Pipeline (Dat Cfg Window)

variable {F : FTy → Type} [FloatOps F]
variable {Ix : Type} [DecidableEq Ix] {U : Type} [URA U] {Lvl : Type} [Preorder Lvl]

variable (V : Valuation τ sig (Elt F)) (c : Dev nD)

/-- The last grid point is point 63. -/
theorem h63 : 63 < cfg1.N := by rw [show cfg1.N = 64 from N_1]; decide

/-- The last grid point. -/
abbrev tLast : Fin cfg1.N := ⟨63, h63⟩

/-- The running sum after the last point, as contents of the result array (its one block is the array). -/
abbrev result1 : Buf (Elt F) ((c : Thread nD τ).loc main_v8) := accAt V 63 h63

/-- The one write-back, after point 63, writes the running sum: block (0, 0) of the `[1, 1]` array, read through zero
    offsets, is the array. -/
theorem flushed1_eq (t : Fin cfg1.N) (hf : (cfg1.win 4).flush t = true) :
    (dat1 (Ix := Ix) (U := U) (Lvl := Lvl) V c).flushed 4 t = ((cfg1.win 4).blk t).view.read (Elt F) (result1 V c) := by
  have hN : cfg1.N = 64 := N_1
  have h3 : t.val = 63 := by have := (flush1_4 t).mp hf; have := t.isLt; omega
  obtain rfl : t = tLast := Fin.ext h3
  show (cfg1.win 4).cut (grid1.coords tLast) ((dat1 (Ix := Ix) (U := U) (Lvl := Lvl) V c).after 4 tLast) = _
  rw [after1_4]
  have hz' : (fun a => win1_4.index tLast a * main_v8.ty.shape.size a) = fun _ => 0 := funext fun a => by fin_cases a <;> decide
  exact (Memref.read_access_unit_zero (Elt F) main_v8 hz' (fun a => by rw [congrFun hz' a]; simp) (result1 V c)).symm

/-- So the result array ends holding the running sum after point 63: that point's block covers it. -/
theorem arrAt_N : (dat1 (Ix := Ix) (U := U) (Lvl := Lvl) V c).arrAt 4 cfg1.N = result1 V c :=
  (dat1 (Ix := Ix) (U := U) (Lvl := Lvl) V c).arrAt_eq_of_cover 4 (result1 V c) (flushed1_eq V c) fun i =>
    ⟨tLast, (flush1_4 tLast).mpr rfl, by
      show i ∈ ((View.whole main_v8).slice (win1_4.rect tLast)).set
      rw [View.set_slice_whole, Rect.mem_set_unit]
      intro a
      have h0 : (i 0 : Nat) < 1 := (i 0).isLt
      have h1 : (i 1 : Nat) < 1 := (i 1).isLt
      match a with
      | ⟨0, _⟩ => show win1_4.index tLast 0 * win1_4.size 0 ≤ (i 0 : Nat) ∧ (i 0 : Nat) < win1_4.index tLast 0 * win1_4.size 0 + win1_4.xsize (grid1.coords tLast) 0
                  rw [show win1_4.index tLast 0 * win1_4.size 0 = 0 from by decide +kernel, show win1_4.xsize (grid1.coords tLast) 0 = 1 from by decide +kernel]; omega
      | ⟨1, _⟩ => show win1_4.index tLast 1 * win1_4.size 1 ≤ (i 1 : Nat) ∧ (i 1 : Nat) < win1_4.index tLast 1 * win1_4.size 1 + win1_4.xsize (grid1.coords tLast) 1
                  rw [show win1_4.index tLast 1 * win1_4.size 1 = 0 from by decide +kernel, show win1_4.xsize (grid1.coords tLast) 1 = 1 from by decide +kernel]; omega⟩

/-- The same, index by index, with the number of points written out. -/
theorem arrAt_last (i) : (dat1 (Ix := Ix) (U := U) (Lvl := Lvl) V c).arrAt 4 64 i = accAt V 63 h63 i := by
  have e := arrAt_N (Ix := Ix) (U := U) (Lvl := Lvl) V c
  rw [show cfg1.N = 64 from N_1] at e
  exact congrFun e i

end Cert.KernelIdeal.R1

end
-- ==== Proof.PairStep.lean ====
/-
  One step of the two pair-sum kernels, read at the exact-real instance.

  At a grid point (i, j) the body holds two blocks of 512 rows of the padded flat weights, X (rows 512 i + r) and Y (rows
  512 j + c), and the matching entries of the squared row norms, s and t. It forms the 512 by 512 tile
      norm (r, c) = (s r + t c) - 2 * ∑ h, X (r, h) * Y (c, h),
  keeps the entries whose matrix position lies strictly above the diagonal and inside the 4000 by 4000 matrix,
      (512 i + r < 4000 ∧ 512 j + c < 4000) ∧ 512 i + r < 512 j + c,
  puts zero elsewhere, sums each row, sums the row sums, and adds the total to the 1 by 1 accumulator. The second kernel does
  the same with (norm (r, c) - mu) * (norm (r, c) - mu) in place of norm (r, c), mu the 1 by 1 mean it is handed.
-/
import proofs.«134856_j3556232921452_1_alg».proof.Proof.Gen.KernelIdeal.Skeleton
import proofs.«134856_j3556232921452_1_alg».proof.Proof.LibTileLayout
import proofs.«134856_j3556232921452_1_alg».proof.Proof.LibPlainDot
import Idealize.ShloMosaic.Lib.ValueIdx
import Idealize.ShloMosaic.Lib.ValueLayout
import Idealize.ShloMosaic.Lib.Pipeline.Value
import Idealize.ShloMosaic.Lib.WordArith
import Idealize.ShloMosaic.PureOps.Ideal.Laws

noncomputable section

namespace Cert.KernelIdeal.PairStep

open Cert.KernelIdeal Cert.KernelIdeal.Gen
open Idealize.ShloMosaic Idealize.ShloMosaic.ValueIdx
open scoped BigOperators

/-! ## Row and column numbers as 32-bit words -/

/-- The word `i * 512 + r` is the word of the number `512 i + r`. -/
theorem word_eq (i r : ℕ) :
    IntOp.addi (Scalar.muli (BitVec.ofNat 32 i) 512#32) (BitVec.ofNat 32 r) = BitVec.ofNat 32 (512 * i + r) := by
  show BitVec.ofNat 32 i * 512#32 + BitVec.ofNat 32 r = _
  rw [show (512#32 : BitVec 32) = BitVec.ofNat 32 512 from rfl, ← BitVec.ofNat_mul, ← BitVec.ofNat_add, Nat.mul_comm]

/-- Signed comparison of the words of two numbers below 2^31 is comparison of the numbers. -/
theorem slt_small (a b : ℕ) (ha : a < 2 ^ 31) (hb : b < 2 ^ 31) :
    IntOp.cmpi .slt (BitVec.ofNat 32 a) (BitVec.ofNat 32 b) = BitVec.ofBool (decide (a < b)) := by
  show BitVec.ofBool ((BitVec.ofNat 32 a).slt (BitVec.ofNat 32 b)) = _
  congr 1
  simp only [BitVec.slt, WordArith.toInt_ofNat_small a ha, WordArith.toInt_ofNat_small b hb, Nat.cast_lt]

/-- The tile's mask at (r, c): inside the 4000 by 4000 matrix and strictly above its diagonal. -/
def keep (i j : ℕ) (r c : Fin 512) : Prop :=
  (512 * i + r.val < 4000 ∧ 512 * j + c.val < 4000) ∧ 512 * i + r.val < 512 * j + c.val

instance (i j : ℕ) (r c : Fin 512) : Decidable (keep i j r c) := by unfold keep; infer_instance

/-- The first kernel's mask word at (r, c) is 1 exactly on the kept positions. -/
theorem mask1_apply (p : grid1.Coords) (r c : Fin 512) :
    k1_pay4 p (ix2 r c) = BitVec.ofBool (decide (keep (p 0).val (p 1).val r c)) := by
  have hi : (p 0).val < 8 := (p 0).isLt
  have hj : (p 1).val < 8 := (p 1).isLt
  have hr := r.isLt
  have hc := c.isLt
  unfold k1_pay4
  show IntOp.andi (IntOp.andi
      (IntOp.cmpi .slt (IntOp.addi (Scalar.muli (BitVec.ofNat 32 (p 0).val) 512#32) (iota .tc S512x512 32 [0] iota_S512x512_d0_w32 (ix2 r c))) 4000#32)
      (IntOp.cmpi .slt (IntOp.addi (Scalar.muli (BitVec.ofNat 32 (p 1).val) 512#32) (iota .tc S512x512 32 [1] iota_S512x512_d1_w32 (ix2 r c))) 4000#32))
      (IntOp.cmpi .slt (IntOp.addi (Scalar.muli (BitVec.ofNat 32 (p 0).val) 512#32) (iota .tc S512x512 32 [0] iota_S512x512_d0_w32 (ix2 r c)))
        (IntOp.addi (Scalar.muli (BitVec.ofNat 32 (p 1).val) 512#32) (iota .tc S512x512 32 [1] iota_S512x512_d1_w32 (ix2 r c)))) = _
  rw [iota_single_apply, iota_single_apply]
  show IntOp.andi (IntOp.andi
      (IntOp.cmpi .slt (IntOp.addi (Scalar.muli (BitVec.ofNat 32 (p 0).val) 512#32) (BitVec.ofNat 32 r.val)) (BitVec.ofNat 32 4000))
      (IntOp.cmpi .slt (IntOp.addi (Scalar.muli (BitVec.ofNat 32 (p 1).val) 512#32) (BitVec.ofNat 32 c.val)) (BitVec.ofNat 32 4000)))
      (IntOp.cmpi .slt (IntOp.addi (Scalar.muli (BitVec.ofNat 32 (p 0).val) 512#32) (BitVec.ofNat 32 r.val))
        (IntOp.addi (Scalar.muli (BitVec.ofNat 32 (p 1).val) 512#32) (BitVec.ofNat 32 c.val))) = _
  rw [word_eq, word_eq, slt_small _ _ (by omega) (by omega), slt_small _ _ (by omega) (by omega), slt_small _ _ (by omega) (by omega),
    WordArith.andi_ofBool, WordArith.andi_ofBool]
  congr 1
  rw [Bool.eq_iff_iff]
  simp only [keep, Bool.and_eq_true, decide_eq_true_eq, and_assoc]

/-! ## The tile of squared distances between rows -/

/-- The product's dimension numbers: rows of the left operand against columns of the right one. -/
theorem plain512 : Cert.LibPlainDot.Plain dot_S512x512_S512x512_S512x512_1_0_0_1_n_n := ⟨rfl, rfl, rfl, rfl, rfl, rfl⟩

/-- The first kernel's tile at (r, c): the two squared norms less twice the rows' inner product. -/
theorem norm1_apply (x0 x1 : Vec Ideal S512x512 .f32) (s0 s1 : Vec Ideal S512 .f32) (r c : Fin 512) :
    k1_pay3 (F := Ideal) x0 x1 s0 s1 (ix2 r c)
      = (s0 (ix1 r) + s1 (ix1 c)) - Ideal.ofBits .f32 0x40000000#32 * ∑ h : Fin 512, x0 (ix2 r h) * x1 (ix2 c h) := by
  unfold k1_pay3
  dsimp only
  simp only [shapeCast_self]
  rw [subf_apply, addf_apply, mulf_apply, broadcast_apply,
    Cert.TileLayout.broadcastTo_a1_ab_apply, Cert.TileLayout.shapeCast_a_a1_apply,
    broadcastTo_1b_ab_apply, shapeCast_a_1a_apply]
  refine congrArg (fun z => s0 (ix1 r) + s1 (ix1 c) - Ideal.ofBits .f32 0x40000000#32 * z) ?_
  refine (Cert.LibPlainDot.matmul_zero_apply _ plain512 none _ _ r c).trans ?_
  refine Finset.sum_congr rfl fun h _ => ?_
  rw [truncf_apply, transpose_ix2_apply, truncf_apply]

/-! ## One step of the first kernel -/

/-- The first kernel's step: the accumulator plus the tile's kept entries, summed row by row. -/
theorem step1_apply (p : grid1.Coords) (x0 x1 : Vec Ideal S512x512 .f32) (s0 s1 : Vec Ideal S512 .f32) (a : Vec Ideal S1x1 .f32) :
    k1_pay1 (F := Ideal) (k1_pay3 x0 x1 s0 s1) (k1_pay4 p) (k1_pay5 (F := Ideal)) a (ix2 (0 : Fin 1) (0 : Fin 1))
      = a (ix2 (0 : Fin 1) (0 : Fin 1)) + ∑ r : Fin 512, ∑ c : Fin 512,
          if keep (p 0).val (p 1).val r c
          then (s0 (ix1 r) + s1 (ix1 c)) - Ideal.ofBits .f32 0x40000000#32 * ∑ h : Fin 512, x0 (ix2 r h) * x1 (ix2 c h)
          else 0 := by
  unfold k1_pay1
  dsimp only
  simp only [shapeCast_self]
  rw [addf_apply]
  refine congrArg (a (ix2 (0 : Fin 1) (0 : Fin 1)) + ·) ?_
  refine (Cert.TileLayout.shapeCast_a_a1_apply _ _ (0 : Fin 1) (0 : Fin 1)).trans ?_
  refine (Cert.TileLayout.sum_axis0_apply _ _ _ _ _ (0 : Fin 1)).trans ?_
  refine Finset.sum_congr rfl fun r _ => ?_
  refine (Cert.TileLayout.shapeCast_a_a1_apply _ _ r (0 : Fin 1)).trans ?_
  refine (Cert.TileLayout.sum_axis1_apply _ _ _ _ _ r).trans ?_
  refine Finset.sum_congr rfl fun c _ => ?_
  rw [select_apply, mask1_apply, norm1_apply]
  by_cases hk : keep (p 0).val (p 1).val r c
  · rw [if_pos hk, decide_eq_true hk]
    exact select_one _ _
  · rw [if_neg hk, decide_eq_false hk]
    refine (select_zero _ _).trans ?_
    show Ideal.ofBits .f32 0x00000000#32 = 0
    exact Ideal.ofBits_zero_f32

/-! ## The second kernel: the same tile and mask, squared deviations from the mean -/

/-- The second kernel's mask word at (r, c) is 1 exactly on the kept positions. -/
theorem mask2_apply (p : grid2.Coords) (r c : Fin 512) :
    k2_pay4 p (ix2 r c) = BitVec.ofBool (decide (keep (p 0).val (p 1).val r c)) := by
  have hi : (p 0).val < 8 := (p 0).isLt
  have hj : (p 1).val < 8 := (p 1).isLt
  have hr := r.isLt
  have hc := c.isLt
  unfold k2_pay4
  show IntOp.andi (IntOp.andi
      (IntOp.cmpi .slt (IntOp.addi (Scalar.muli (BitVec.ofNat 32 (p 0).val) 512#32) (iota .tc S512x512 32 [0] iota_S512x512_d0_w32 (ix2 r c))) 4000#32)
      (IntOp.cmpi .slt (IntOp.addi (Scalar.muli (BitVec.ofNat 32 (p 1).val) 512#32) (iota .tc S512x512 32 [1] iota_S512x512_d1_w32 (ix2 r c))) 4000#32))
      (IntOp.cmpi .slt (IntOp.addi (Scalar.muli (BitVec.ofNat 32 (p 0).val) 512#32) (iota .tc S512x512 32 [0] iota_S512x512_d0_w32 (ix2 r c)))
        (IntOp.addi (Scalar.muli (BitVec.ofNat 32 (p 1).val) 512#32) (iota .tc S512x512 32 [1] iota_S512x512_d1_w32 (ix2 r c)))) = _
  rw [iota_single_apply, iota_single_apply]
  show IntOp.andi (IntOp.andi
      (IntOp.cmpi .slt (IntOp.addi (Scalar.muli (BitVec.ofNat 32 (p 0).val) 512#32) (BitVec.ofNat 32 r.val)) (BitVec.ofNat 32 4000))
      (IntOp.cmpi .slt (IntOp.addi (Scalar.muli (BitVec.ofNat 32 (p 1).val) 512#32) (BitVec.ofNat 32 c.val)) (BitVec.ofNat 32 4000)))
      (IntOp.cmpi .slt (IntOp.addi (Scalar.muli (BitVec.ofNat 32 (p 0).val) 512#32) (BitVec.ofNat 32 r.val))
        (IntOp.addi (Scalar.muli (BitVec.ofNat 32 (p 1).val) 512#32) (BitVec.ofNat 32 c.val))) = _
  rw [word_eq, word_eq, slt_small _ _ (by omega) (by omega), slt_small _ _ (by omega) (by omega), slt_small _ _ (by omega) (by omega),
    WordArith.andi_ofBool, WordArith.andi_ofBool]
  congr 1
  rw [Bool.eq_iff_iff]
  simp only [keep, Bool.and_eq_true, decide_eq_true_eq, and_assoc]

/-- The second kernel's tile at (r, c): the same squared distance between rows. -/
theorem norm2_apply (x0 x1 : Vec Ideal S512x512 .f32) (s0 s1 : Vec Ideal S512 .f32) (r c : Fin 512) :
    k2_pay3 (F := Ideal) x0 x1 s0 s1 (ix2 r c)
      = (s0 (ix1 r) + s1 (ix1 c)) - Ideal.ofBits .f32 0x40000000#32 * ∑ h : Fin 512, x0 (ix2 r h) * x1 (ix2 c h) := by
  unfold k2_pay3
  dsimp only
  simp only [shapeCast_self]
  rw [subf_apply, addf_apply, mulf_apply, broadcast_apply,
    Cert.TileLayout.broadcastTo_a1_ab_apply, Cert.TileLayout.shapeCast_a_a1_apply,
    broadcastTo_1b_ab_apply, shapeCast_a_1a_apply]
  refine congrArg (fun z => s0 (ix1 r) + s1 (ix1 c) - Ideal.ofBits .f32 0x40000000#32 * z) ?_
  refine (Cert.LibPlainDot.matmul_zero_apply _ plain512 none _ _ r c).trans ?_
  refine Finset.sum_congr rfl fun h _ => ?_
  rw [truncf_apply, transpose_ix2_apply, truncf_apply]

/-- The second kernel's step: the accumulator plus the kept entries' squared deviations from the mean it is handed. -/
theorem step2_apply (p : grid2.Coords) (x0 x1 : Vec Ideal S512x512 .f32) (s0 s1 : Vec Ideal S512 .f32)
    (mu a : Vec Ideal S1x1 .f32) :
    k2_pay1 (F := Ideal) (k2_pay3 x0 x1 s0 s1) (k2_pay4 p) mu a (ix2 (0 : Fin 1) (0 : Fin 1))
      = a (ix2 (0 : Fin 1) (0 : Fin 1)) + ∑ r : Fin 512, ∑ c : Fin 512,
          if keep (p 0).val (p 1).val r c
          then (((s0 (ix1 r) + s1 (ix1 c)) - Ideal.ofBits .f32 0x40000000#32 * ∑ h : Fin 512, x0 (ix2 r h) * x1 (ix2 c h))
                  - mu (ix2 (0 : Fin 1) (0 : Fin 1)))
               * (((s0 (ix1 r) + s1 (ix1 c)) - Ideal.ofBits .f32 0x40000000#32 * ∑ h : Fin 512, x0 (ix2 r h) * x1 (ix2 c h))
                  - mu (ix2 (0 : Fin 1) (0 : Fin 1)))
          else 0 := by
  unfold k2_pay1
  dsimp only
  simp only [shapeCast_self]
  rw [addf_apply]
  refine congrArg (a (ix2 (0 : Fin 1) (0 : Fin 1)) + ·) ?_
  refine (Cert.TileLayout.shapeCast_a_a1_apply _ _ (0 : Fin 1) (0 : Fin 1)).trans ?_
  refine (Cert.TileLayout.sum_axis0_apply _ _ _ _ _ (0 : Fin 1)).trans ?_
  refine Finset.sum_congr rfl fun r _ => ?_
  refine (Cert.TileLayout.shapeCast_a_a1_apply _ _ r (0 : Fin 1)).trans ?_
  refine (Cert.TileLayout.sum_axis1_apply _ _ _ _ _ r).trans ?_
  refine Finset.sum_congr rfl fun c _ => ?_
  rw [select_apply, mask2_apply, mulf_apply, subf_apply, norm2_apply, Cert.TileLayout.broadcastTo_11_ab_apply]
  by_cases hk : keep (p 0).val (p 1).val r c
  · rw [if_pos hk, decide_eq_true hk]
    exact select_one _ _
  · rw [if_neg hk, decide_eq_false hk]
    refine (select_zero _ _).trans ?_
    show Ideal.ofBits .f32 0x00000000#32 = 0
    exact Ideal.ofBits_zero_f32

end Cert.KernelIdeal.PairStep

end
-- ==== Proof.TileSum.lean ====
/-
  Regrouping a sum over the strict upper triangle of a 4000 × 4000 square by 512 × 512 tiles.

  The square `[0, 4096)²` is cut into an 8 × 8 grid of tiles of 512 × 512; tile `(i, j)` holds the entries
  `(512 i + r, 512 j + c)`, `r, c < 512`. Over an additive commutative monoid (no finiteness is asked of the
  summands: only that `+` is commutative and associative), for `f : ℕ → ℕ → M`:

  * `rowSum f i j r` is the sum along row `r` of tile `(i, j)` of the entries that lie inside the leading
    4000 × 4000 square and strictly above the diagonal, the others counting zero;
  * `tile f i j` is the sum of the tile's 512 row sums;
  * `run f t` is the running sum after the first `t` grid points in row-major order (`s = 8 i + j`), from zero;
  * `run f 64`, the sum over all 64 tiles, is the sum of `f m n` over `m < n < 4000`.
-/
import Idealize.ShloMosaic.PureOps.Ideal

open scoped BigOperators

namespace Cert.TileSum

variable {M : Type*} [AddCommMonoid M]

/-- An entry of the strict upper triangle of the leading 4000 × 4000 square; zero elsewhere. -/
def tri (f : ℕ → ℕ → M) (m n : ℕ) : M := if m < 4000 ∧ n < 4000 ∧ m < n then f m n else 0

/-- The sum along row `r` of tile `(i, j)`. -/
def rowSum (f : ℕ → ℕ → M) (i j : ℕ) (r : Fin 512) : M :=
  ∑ c : Fin 512, if 512 * i + r.val < 4000 ∧ 512 * j + c.val < 4000 ∧ 512 * i + r.val < 512 * j + c.val
    then f (512 * i + r.val) (512 * j + c.val) else 0

/-- The total of tile `(i, j)`: its row sums, summed. -/
def tile (f : ℕ → ℕ → M) (i j : ℕ) : M := ∑ r : Fin 512, rowSum f i j r

theorem tile_eq (f : ℕ → ℕ → M) (i j : ℕ) :
    tile f i j = ∑ r : Fin 512, ∑ c : Fin 512, tri f (512 * i + r.val) (512 * j + c.val) := rfl

/-- The running sum over the grid points in row-major order, from zero. -/
def run (f : ℕ → ℕ → M) : ℕ → M
  | 0 => 0
  | t + 1 => run f t + tile f (t / 8) (t % 8)

@[simp] theorem run_zero (f : ℕ → ℕ → M) : run f 0 = 0 := rfl
theorem run_succ (f : ℕ → ℕ → M) (t : ℕ) : run f (t + 1) = run f t + tile f (t / 8) (t % 8) := rfl

/-- The running sum after `t` points is the sum of the tiles of the points before `t`. -/
theorem run_eq_sum (f : ℕ → ℕ → M) (t : ℕ) : run f t = ∑ s ∈ Finset.range t, tile f (s / 8) (s % 8) := by
  induction t with
  | zero => rfl
  | succ t ih => rw [run_succ, ih, Finset.sum_range_succ]

/-- A sum over `[0, a b)` by `a` blocks of length `b`. -/
theorem sum_blocks (a b N : ℕ) (hN : a * b = N) (H : ℕ → M) :
    ∑ i : Fin a, ∑ r : Fin b, H (b * i.val + r.val) = ∑ m ∈ Finset.range N, H m := by
  subst hN
  rw [← Fin.sum_univ_eq_sum_range, ← Equiv.sum_comp finProdFinEquiv, Fintype.sum_prod_type]
  refine Finset.sum_congr rfl fun i _ => Finset.sum_congr rfl fun r _ => ?_
  rw [finProdFinEquiv_apply_val, Nat.add_comm]

/-- The 64 grid points in row-major order are the 8 × 8 pairs. -/
theorem sum_points (g : ℕ → ℕ → M) :
    ∑ s ∈ Finset.range 64, g (s / 8) (s % 8) = ∑ i : Fin 8, ∑ j : Fin 8, g i.val j.val := by
  rw [← sum_blocks 8 8 64 rfl (fun s => g (s / 8) (s % 8))]
  refine Finset.sum_congr rfl fun i _ => Finset.sum_congr rfl fun j _ => ?_
  have hj := j.isLt
  rw [show (8 * i.val + j.val) / 8 = i.val by omega, show (8 * i.val + j.val) % 8 = j.val by omega]

/-- The 64 tiles together are the square `[0, 4096)²`. -/
theorem sum_tiles (f : ℕ → ℕ → M) :
    ∑ i : Fin 8, ∑ j : Fin 8, tile f i.val j.val
      = ∑ m ∈ Finset.range 4096, ∑ n ∈ Finset.range 4096, tri f m n := by
  rw [← sum_blocks 8 512 4096 rfl (fun m => ∑ n ∈ Finset.range 4096, tri f m n)]
  refine Finset.sum_congr rfl fun i _ => ?_
  simp only [tile_eq]
  rw [Finset.sum_comm]
  refine Finset.sum_congr rfl fun r _ => ?_
  exact sum_blocks 8 512 4096 rfl (fun n => tri f (512 * i.val + r.val) n)

/-- Outside the leading 4000 × 4000 square every entry counts zero. -/
theorem tri_sum (f : ℕ → ℕ → M) :
    (∑ m ∈ Finset.range 4096, ∑ n ∈ Finset.range 4096, tri f m n)
      = ∑ m ∈ Finset.range 4000, ∑ n ∈ Finset.range 4000, if m < n then f m n else 0 := by
  have hsub : Finset.range 4000 ⊆ Finset.range 4096 := Finset.range_mono (by norm_num)
  refine (Finset.sum_subset hsub (fun m _ hm => ?_)).symm.trans ?_
  · refine Finset.sum_eq_zero fun n _ => ?_
    unfold tri
    rw [if_neg (fun h' => hm (Finset.mem_range.2 h'.1))]
  · refine Finset.sum_congr rfl fun m hm => ?_
    refine (Finset.sum_subset hsub (fun n _ hn => ?_)).symm.trans ?_
    · unfold tri
      rw [if_neg (fun h' => hn (Finset.mem_range.2 h'.2.1))]
    · refine Finset.sum_congr rfl fun n hn => ?_
      have hm' := Finset.mem_range.1 hm
      have hn' := Finset.mem_range.1 hn
      unfold tri
      by_cases h : m < n
      · rw [if_pos ⟨hm', hn', h⟩, if_pos h]
      · rw [if_neg (fun h' => h h'.2.2), if_neg h]

/-- THE REGROUPING: the running sum after all 64 tiles is the sum over the pairs `m < n < 4000`. -/
theorem run_all (f : ℕ → ℕ → M) :
    run f 64 = ∑ m ∈ Finset.range 4000, ∑ n ∈ Finset.range 4000, if m < n then f m n else 0 := by
  rw [run_eq_sum, sum_points (fun i j => tile f i j), sum_tiles, tri_sum]

end Cert.TileSum
-- ==== Proof.PairTile.lean ====
/-
  One step of a pair-sum kernel adds one tile of the strict upper triangle.

  The padded flat weights are an array A5 of 4096 rows of 512 entries and their squared row norms an array A7 of 4096 entries;
  at grid point (i, j) the body's four blocks are rows 512 i + r of A5 and A7 and rows 512 j + c of A5 and A7. Whenever the
  arrays compute g on the first 4000 rows — (A7 m + A7 n) - 2 * ∑ h, A5 (m, h) * A5 (n, h) = g m n —, the step adds to the
  accumulator exactly the tile (i, j) of g extended by zero: the sum over the tile's positions that lie inside the 4000 by 4000
  matrix and strictly above its diagonal. The second kernel adds the tile of (g - mu) * (g - mu).
-/
import proofs.«134856_j3556232921452_1_alg».proof.Proof.PairStep
import proofs.«134856_j3556232921452_1_alg».proof.Proof.TileSum
import proofs.«134856_j3556232921452_1_alg».proof.Proof.Spec

noncomputable section

namespace Cert.KernelIdeal.PairTile

open Cert.KernelIdeal Cert.KernelIdeal.Gen Cert.KernelIdeal.PairStep
open Idealize.ShloMosaic Idealize.ShloMosaic.ValueIdx
open scoped BigOperators

/-- Row `512 i + r` of a 4096-row array (the remainder is idle for i < 8). -/
def row (i : ℕ) (r : Fin 512) : Fin 4096 := ⟨(512 * i + r.val) % 4096, Nat.mod_lt _ (by norm_num)⟩

/-- One of the first 4000 rows, as a row of the padded array. -/
def up (m : Fin 4000) : Fin 4096 := ⟨m.val, by have := m.isLt; omega⟩

theorem row_eq_up (i : ℕ) (r : Fin 512) (h : 512 * i + r.val < 4000) : row i r = up ⟨512 * i + r.val, h⟩ :=
  Fin.ext (Nat.mod_eq_of_lt (by show 512 * i + r.val < 4096; omega))

variable (A5 : (⟨2, ![4096, 512]⟩ : Shape).Idx → EReal) (A7 : (⟨1, ![4096]⟩ : Shape).Idx → EReal)

/-- The squared distance between rows m and n as the arrays spell it. -/
def tileNorm (m n : Fin 4096) : EReal :=
  (A7 (ix1 m) + A7 (ix1 n)) - Ideal.ofBits .f32 0x40000000#32 * ∑ h : Fin 512, A5 (ix2 m h) * A5 (ix2 n h)

/-- A sum over a tile of a kept-or-zero term is the tile of the zero-extended function. -/
theorem tile_sum (i j : ℕ) (g : Fin 4000 → Fin 4000 → EReal) (e : Fin 512 → Fin 512 → EReal)
    (he : ∀ (r c : Fin 512) (hm : 512 * i + r.val < 4000) (hn : 512 * j + c.val < 4000),
      512 * i + r.val < 512 * j + c.val → e r c = g ⟨512 * i + r.val, hm⟩ ⟨512 * j + c.val, hn⟩) :
    (∑ r : Fin 512, ∑ c : Fin 512, if keep i j r c then e r c else 0) = Cert.TileSum.tile (Cert.Spec.ext g) i j := by
  unfold Cert.TileSum.tile Cert.TileSum.rowSum
  refine Finset.sum_congr rfl fun r _ => Finset.sum_congr rfl fun c _ => ?_
  by_cases hk : keep i j r c
  · have hk' : 512 * i + r.val < 4000 ∧ 512 * j + c.val < 4000 ∧ 512 * i + r.val < 512 * j + c.val := ⟨hk.1.1, hk.1.2, hk.2⟩
    rw [if_pos hk, if_pos hk', Cert.Spec.ext_eq g _ _ hk'.1 hk'.2.1]
    exact he r c hk'.1 hk'.2.1 hk'.2.2
  · rw [if_neg hk, if_neg fun h' => hk ⟨⟨h'.1, h'.2.1⟩, h'.2.2⟩]

/-- The first kernel's step at tile (p 0, p 1) adds the tile of g. -/
theorem step1_tile (p : grid1.Coords) (x0 x1 : Vec Ideal S512x512 .f32) (s0 s1 : Vec Ideal S512 .f32) (a : Vec Ideal S1x1 .f32)
    (hx0 : ∀ r h : Fin 512, x0 (ix2 r h) = A5 (ix2 (row (p 0).val r) h))
    (hx1 : ∀ c h : Fin 512, x1 (ix2 c h) = A5 (ix2 (row (p 1).val c) h))
    (hs0 : ∀ r : Fin 512, s0 (ix1 r) = A7 (ix1 (row (p 0).val r)))
    (hs1 : ∀ c : Fin 512, s1 (ix1 c) = A7 (ix1 (row (p 1).val c)))
    (g : Fin 4000 → Fin 4000 → EReal) (hg : ∀ m n : Fin 4000, tileNorm A5 A7 (up m) (up n) = g m n) :
    k1_pay1 (F := Ideal) (k1_pay3 x0 x1 s0 s1) (k1_pay4 p) (k1_pay5 (F := Ideal)) a (ix2 (0 : Fin 1) (0 : Fin 1))
      = a (ix2 (0 : Fin 1) (0 : Fin 1)) + Cert.TileSum.tile (Cert.Spec.ext g) (p 0).val (p 1).val := by
  rw [step1_apply]
  refine congrArg (a (ix2 (0 : Fin 1) (0 : Fin 1)) + ·) ?_
  refine tile_sum (p 0).val (p 1).val g _ fun r c hm hn _ => ?_
  rw [hs0, hs1, row_eq_up _ r hm, row_eq_up _ c hn, ← hg]
  unfold tileNorm
  refine congrArg (fun z => A7 (ix1 (up ⟨512 * (p 0).val + r.val, hm⟩)) + A7 (ix1 (up ⟨512 * (p 1).val + c.val, hn⟩)) - Ideal.ofBits .f32 0x40000000#32 * z) ?_
  refine Finset.sum_congr rfl fun h _ => ?_
  rw [hx0, hx1, row_eq_up _ r hm, row_eq_up _ c hn]

/-- The second kernel's step at tile (p 0, p 1) adds the tile of the squared deviations of g from the mean it is handed. -/
theorem step2_tile (p : grid2.Coords) (x0 x1 : Vec Ideal S512x512 .f32) (s0 s1 : Vec Ideal S512 .f32) (mu a : Vec Ideal S1x1 .f32)
    (hx0 : ∀ r h : Fin 512, x0 (ix2 r h) = A5 (ix2 (row (p 0).val r) h))
    (hx1 : ∀ c h : Fin 512, x1 (ix2 c h) = A5 (ix2 (row (p 1).val c) h))
    (hs0 : ∀ r : Fin 512, s0 (ix1 r) = A7 (ix1 (row (p 0).val r)))
    (hs1 : ∀ c : Fin 512, s1 (ix1 c) = A7 (ix1 (row (p 1).val c)))
    (g : Fin 4000 → Fin 4000 → EReal) (hg : ∀ m n : Fin 4000, tileNorm A5 A7 (up m) (up n) = g m n) :
    k2_pay1 (F := Ideal) (k2_pay3 x0 x1 s0 s1) (k2_pay4 p) mu a (ix2 (0 : Fin 1) (0 : Fin 1))
      = a (ix2 (0 : Fin 1) (0 : Fin 1))
        + Cert.TileSum.tile (Cert.Spec.ext fun m n => (g m n - mu (ix2 (0 : Fin 1) (0 : Fin 1))) * (g m n - mu (ix2 (0 : Fin 1) (0 : Fin 1))))
            (p 0).val (p 1).val := by
  rw [step2_apply]
  refine congrArg (a (ix2 (0 : Fin 1) (0 : Fin 1)) + ·) ?_
  refine tile_sum (p 0).val (p 1).val _ _ fun r c hm hn _ => ?_
  have e : (s0 (ix1 r) + s1 (ix1 c)) - Ideal.ofBits .f32 0x40000000#32 * ∑ h : Fin 512, x0 (ix2 r h) * x1 (ix2 c h)
      = g ⟨512 * (p 0).val + r.val, hm⟩ ⟨512 * (p 1).val + c.val, hn⟩ := by
    rw [hs0, hs1, row_eq_up _ r hm, row_eq_up _ c hn, ← hg]
    unfold tileNorm
    refine congrArg (fun z => A7 (ix1 (up ⟨512 * (p 0).val + r.val, hm⟩)) + A7 (ix1 (up ⟨512 * (p 1).val + c.val, hn⟩)) - Ideal.ofBits .f32 0x40000000#32 * z) ?_
    refine Finset.sum_congr rfl fun h _ => ?_
    rw [hx0, hx1, row_eq_up _ r hm, row_eq_up _ c hn]
  rw [e]

end Cert.KernelIdeal.PairTile

end
-- ==== Proof.PairAcc1.lean ====
/-
  The first pair-sum kernel's accumulator after each grid point.

  The grid's 64 points are the tiles (t / 8, t % 8) in row-major order. At point t the body's four blocks are rows
  512 (t / 8) + r of the padded weights and of their squared norms, and rows 512 (t % 8) + c of the same two arrays. The
  accumulator is reset at the first point and carried afterwards, so after point n it holds the running sum of the tiles
  0, …, n of the zero-extended function the arrays compute on their first 4000 rows.
-/
import proofs.«134856_j3556232921452_1_alg».proof.Proof.R1Dat
import proofs.«134856_j3556232921452_1_alg».proof.Proof.PairTile

noncomputable section

namespace Cert.KernelIdeal.PairAcc1

open Cert.KernelIdeal Cert.KernelIdeal.Gen Cert.KernelIdeal.R1 Cert.KernelIdeal.PairTile
open Idealize.ShloMosaic Idealize.ShloMosaic.ValueIdx Idealize.ShloMosaic.TcCoe
open scoped BigOperators

/-- The schedule, decided over the 64 points: the grid coordinates and each window's block index at point t. -/
theorem idx_facts1 : ∀ t : Fin cfg1.N, (grid1.coords t 0).val = t.val / 8 ∧ (grid1.coords t 1).val = t.val % 8
    ∧ win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 1) = t.val / 8 ∧ win1_3.index t (0 : Fin 1) = t.val % 8 :=
  (by decide +kernel : ∀ t : Fin grid1.N, _)

theorem lt64 (t : Fin cfg1.N) : t.val < 64 := by
  have h : t.val < grid1.N := t.isLt
  rw [N_1] at h
  exact h

variable (V : Valuation τ sig (Elt Ideal))

/-- The padded flat weights and their squared row norms, as the region finds them. -/
abbrev A5 : (⟨2, ![4096, 512]⟩ : Shape).Idx → EReal := V main_v5
abbrev A7 : (⟨1, ![4096]⟩ : Shape).Idx → EReal := V main_v7

theorem blk_x0 (t : Fin cfg1.N) (r h : Fin 512) : blk1 V 0 t (ix2 r h) = A5 V (ix2 (row (grid1.coords t 0).val r) h) := by
  obtain ⟨c0, c1, e0, e1, -⟩ := idx_facts1 t
  have ht := lt64 t
  have hr := r.isLt
  unfold blk1
  show (V main_v5 : (⟨2, ![4096, 512]⟩ : Shape).Idx → EReal) (((cfg1.win 0).blk t).view.emb (ix2 r h)) = _
  refine congrArg (V main_v5 : (⟨2, ![4096, 512]⟩ : Shape).Idx → EReal) (funext fun a => Fin.ext ?_)
  match a with
  | ⟨0, _⟩ =>
    show win1_0.index t (0 : Fin 2) * 512 + 1 * r.val = (512 * (grid1.coords t 0).val + r.val) % 4096
    rw [c0, e0]; omega
  | ⟨1, _⟩ =>
    show win1_0.index t (1 : Fin 2) * 512 + 1 * h.val = h.val
    rw [e1]; omega

theorem blk_x1 (t : Fin cfg1.N) (c h : Fin 512) : blk1 V 1 t (ix2 c h) = A5 V (ix2 (row (grid1.coords t 1).val c) h) := by
  obtain ⟨c0, c1, -, -, e0, e1, -⟩ := idx_facts1 t
  have ht := lt64 t
  have hc := c.isLt
  unfold blk1
  show (V main_v5 : (⟨2, ![4096, 512]⟩ : Shape).Idx → EReal) (((cfg1.win 1).blk t).view.emb (ix2 c h)) = _
  refine congrArg (V main_v5 : (⟨2, ![4096, 512]⟩ : Shape).Idx → EReal) (funext fun a => Fin.ext ?_)
  match a with
  | ⟨0, _⟩ =>
    show win1_1.index t (0 : Fin 2) * 512 + 1 * c.val = (512 * (grid1.coords t 1).val + c.val) % 4096
    rw [c1, e0]; omega
  | ⟨1, _⟩ =>
    show win1_1.index t (1 : Fin 2) * 512 + 1 * h.val = h.val
    rw [e1]; omega

theorem blk_s0 (t : Fin cfg1.N) (r : Fin 512) : blk1 V 2 t (ix1 r) = A7 V (ix1 (row (grid1.coords t 0).val r)) := by
  obtain ⟨c0, c1, -, -, -, -, e0, -⟩ := idx_facts1 t
  have ht := lt64 t
  have hr := r.isLt
  unfold blk1
  show (V main_v7 : (⟨1, ![4096]⟩ : Shape).Idx → EReal) (((cfg1.win 2).blk t).view.emb (ix1 r)) = _
  refine congrArg (V main_v7 : (⟨1, ![4096]⟩ : Shape).Idx → EReal) (funext fun a => Fin.ext ?_)
  match a with
  | ⟨0, _⟩ =>
    show win1_2.index t (0 : Fin 1) * 512 + 1 * r.val = (512 * (grid1.coords t 0).val + r.val) % 4096
    rw [c0, e0]; omega

theorem blk_s1 (t : Fin cfg1.N) (c : Fin 512) : blk1 V 3 t (ix1 c) = A7 V (ix1 (row (grid1.coords t 1).val c)) := by
  obtain ⟨c0, c1, -, -, -, -, -, e0⟩ := idx_facts1 t
  have ht := lt64 t
  have hc := c.isLt
  unfold blk1
  show (V main_v7 : (⟨1, ![4096]⟩ : Shape).Idx → EReal) (((cfg1.win 3).blk t).view.emb (ix1 c)) = _
  refine congrArg (V main_v7 : (⟨1, ![4096]⟩ : Shape).Idx → EReal) (funext fun a => Fin.ext ?_)
  match a with
  | ⟨0, _⟩ =>
    show win1_3.index t (0 : Fin 1) * 512 + 1 * c.val = (512 * (grid1.coords t 1).val + c.val) % 4096
    rw [c1, e0]; omega

variable (g : Fin 4000 → Fin 4000 → EReal) (hg : ∀ m n : Fin 4000, tileNorm (A5 V) (A7 V) (up m) (up n) = g m n)

include hg in
/-- One step at point t adds tile (t / 8, t % 8). -/
theorem step_at (t : Fin cfg1.N) (a : Vec Ideal S1x1 .f32) :
    step1 (grid1.coords t) (blk1 V 0 t) (blk1 V 1 t) (blk1 V 2 t) (blk1 V 3 t) a (ix2 (0 : Fin 1) (0 : Fin 1))
      = a (ix2 (0 : Fin 1) (0 : Fin 1)) + Cert.TileSum.tile (Cert.Spec.ext g) (t.val / 8) (t.val % 8) := by
  obtain ⟨c0, c1, -⟩ := idx_facts1 t
  unfold step1
  rw [step1_tile (A5 V) (A7 V) (grid1.coords t) _ _ _ _ a (blk_x0 V t) (blk_x1 V t) (blk_s0 V t) (blk_s1 V t) g hg, c0, c1]

include hg in
/-- After point n the accumulator holds the running sum of the tiles 0 … n. -/
theorem acc_run : ∀ (n : ℕ) (h : n < cfg1.N),
    accAt V n h (ix2 (0 : Fin 1) (0 : Fin 1)) = Cert.TileSum.run (Cert.Spec.ext g) (n + 1)
  | 0, h => by
    have e := accAt_first V ⟨0, h⟩ rfl
    rw [show accAt V 0 h = accAt V (⟨0, h⟩ : Fin cfg1.N).val (⟨0, h⟩ : Fin cfg1.N).isLt from rfl, e, step_at V g hg ⟨0, h⟩,
      Cert.TileSum.run_succ, Cert.TileSum.run_zero]
    refine congrArg (· + Cert.TileSum.tile (Cert.Spec.ext g) (0 / 8) (0 % 8)) ?_
    show Ideal.ofBits .f32 0x00000000#32 = 0
    exact Ideal.ofBits_zero_f32
  | n + 1, h => by
    have e := accAt_later V ⟨n + 1, h⟩ (Nat.succ_ne_zero n)
    rw [show accAt V (n + 1) h = accAt V (⟨n + 1, h⟩ : Fin cfg1.N).val (⟨n + 1, h⟩ : Fin cfg1.N).isLt from rfl, e, step_at V g hg ⟨n + 1, h⟩,
      Cert.TileSum.run_succ _ (n + 1)]
    refine congrArg (· + Cert.TileSum.tile (Cert.Spec.ext g) ((n + 1) / 8) ((n + 1) % 8)) ?_
    exact acc_run n (Nat.lt_of_succ_lt h)

end Cert.KernelIdeal.PairAcc1

end
-- ==== Proof.PairArrays.lean ====
/-
  The padded arrays of the kernel program compute the squared distance of two centre rows: on rows `m, n < 4000`,
  `sP m + sP n - 2 ∑ h, wP (m, h) * wP (n, h)` is `‖w m‖² + ‖w n‖² - 2 ⟨w m, w n⟩`.
-/
import proofs.«134856_j3556232921452_1_alg».proof.Proof.HostReadsIdeal
import proofs.«134856_j3556232921452_1_alg».proof.Proof.PairTile

noncomputable section

open scoped BigOperators

namespace Cert.KernelIdeal.PairArrays

open Cert.KernelIdeal Cert.KernelIdeal.Gen Cert.KernelIdeal.HostReads Cert.KernelIdeal.HostReadsIdeal
open Idealize.ShloMosaic Idealize.ShloMosaic.ValueIdx

/-- On two of the first 4000 rows the arrays' squared distance is the specification's. -/
theorem norm_arrays (a1 : (⟨S1000x4x512, .f32⟩ : BufTy).Contents (Elt Ideal)) (m n : Fin 4000) :
    Cert.KernelIdeal.PairTile.tileNorm (wP (F := Ideal) a1) (sP (F := Ideal) a1) (Cert.KernelIdeal.PairTile.up m)
      (Cert.KernelIdeal.PairTile.up n) = Cert.Spec.norm (Cert.Spec.ten3 a1) m n := by
  unfold Cert.KernelIdeal.PairTile.tileNorm Cert.Spec.norm Cert.Spec.ww
  have hm : (Cert.KernelIdeal.PairTile.up m).val < 4000 := m.isLt
  have hn : (Cert.KernelIdeal.PairTile.up n).val < 4000 := n.isLt
  have hs : (∑ h : Fin 512, wP (F := Ideal) a1 (ix2 (Cert.KernelIdeal.PairTile.up m) h)
        * wP (F := Ideal) a1 (ix2 (Cert.KernelIdeal.PairTile.up n) h))
      = ∑ h : Fin 512, Cert.Spec.w (Cert.Spec.ten3 a1) m h * Cert.Spec.w (Cert.Spec.ten3 a1) n h :=
    Finset.sum_congr rfl fun h _ => by
      rw [wP_at a1 (Cert.KernelIdeal.PairTile.up m) h, wP_at a1 (Cert.KernelIdeal.PairTile.up n) h, dif_pos hm, dif_pos hn]
      rfl
  rw [sP_lt a1 (Cert.KernelIdeal.PairTile.up m) hm, sP_lt a1 (Cert.KernelIdeal.PairTile.up n) hn, hs]
  rfl

end Cert.KernelIdeal.PairArrays

end
-- ==== Proof.PairTiles.lean ====
/-
  The tiled running sum of a function of two centre rows, extended by zero, is its sum over the pairs `m < n`.
-/
import proofs.«134856_j3556232921452_1_alg».proof.Proof.Spec
import proofs.«134856_j3556232921452_1_alg».proof.Proof.TileSum

namespace Cert.Spec

/-- After all 64 tiles the running sum of `ext g` is `pairSum g`. -/
theorem run_ext (g : Fin 4000 → Fin 4000 → EReal) : Cert.TileSum.run (ext g) 64 = pairSum g :=
  (Cert.TileSum.run_all (ext g)).trans (sum_range_ext g)

/-- With `g` the squared distance of two centre rows: the first pair sum. -/
theorem run_norm (W : Fin 1000 → Fin 4 → Fin 512 → EReal) : Cert.TileSum.run (ext (norm W)) 64 = S1 W := run_ext _

/-- With `g` the squared deviation from the mean: the second pair sum. -/
theorem run_dev (W : Fin 1000 → Fin 4 → Fin 512 → EReal) : Cert.TileSum.run (ext (dev W)) 64 = S2 W := run_ext _

end Cert.Spec
-- ==== Proof.RegionValues.lean ====
/-
  What each kernel region leaves in its output, at the extended reals, in terms of the specification.

  Region 0 leaves, in column `n < 1000` of row `b`, the greatest over the four centres of class `n` of the
  exponentials: `dist b n`. Region 1 leaves the sum of the squared distances of the pairs of centre rows, `S1`:
  its accumulator after the last of the 64 tiles is the running sum of all the tiles of the squared distance
  extended by zero, which is the sum over the pairs `m < n < 4000`.
-/
import proofs.«134856_j3556232921452_1_alg».proof.Proof.R0Value
import proofs.«134856_j3556232921452_1_alg».proof.Proof.DistLink
import proofs.«134856_j3556232921452_1_alg».proof.Proof.R1Acc
import proofs.«134856_j3556232921452_1_alg».proof.Proof.PairAcc1
import proofs.«134856_j3556232921452_1_alg».proof.Proof.PairArrays
import proofs.«134856_j3556232921452_1_alg».proof.Proof.PairTiles
import proofs.«134856_j3556232921452_1_alg».proof.Proof.HostReads

set_option maxRecDepth 16384

noncomputable section

namespace Cert.KernelIdeal.RegionValues

open Cert.KernelIdeal Cert.KernelIdeal.Gen Cert.KernelIdeal.HostReads
open Idealize.ShloMosaic Idealize.ShloMosaic.ValueIdx Idealize.ShloMosaic.TcCoe
open Idealize.SL Idealize.SL.RA Idealize.SL.Sem

variable {Ix : Type} [DecidableEq Ix] {U : Type} [URA U] {Lvl : Type} [Preorder Lvl]
variable (m : (ℓ : Loc nD τ sig) → Buf (Elt Ideal) ℓ) (outs : Outs (F := Ideal)) (c : Dev nD)

/-- Region 0's output at row `b`, column `n < 1000`: the specification's `dist`. -/
theorem region0_value (b : Fin 512) (n : Fin 1024) (hn : n.val < 1000) :
    (Cert.KernelIdeal.R0.dat0 (Ix := Ix) (U := U) (Lvl := Lvl) (V2 m c) c).arrAt 2 2 (ix2 b n)
      = Cert.Spec.dist (Cert.Spec.mat (m ((c : Thread nD τ).loc main_arg0)))
          (Cert.Spec.ten3 (m ((c : Thread nD τ).loc main_arg1))) b ⟨n.val, hn⟩ := by
  rw [Cert.KernelIdeal.R0Value.final_apply, V2_arg0, V2_v1]
  exact Cert.KernelIdeal.DistLink.dist4_eq _ _ b n hn

/-- The arrays region 1 reads compute the squared distance of two centre rows. -/
theorem norm_V6 (p q : Fin 4000) :
    Cert.KernelIdeal.PairTile.tileNorm (Cert.KernelIdeal.PairAcc1.A5 (V6 m outs c)) (Cert.KernelIdeal.PairAcc1.A7 (V6 m outs c))
      (Cert.KernelIdeal.PairTile.up p) (Cert.KernelIdeal.PairTile.up q)
      = Cert.Spec.norm (Cert.Spec.ten3 (m ((c : Thread nD τ).loc main_arg1))) p q := by
  show Cert.KernelIdeal.PairTile.tileNorm (V6 m outs c main_v5) (V6 m outs c main_v7) _ _ = _
  rw [V6_v5, V6_v7]
  exact Cert.KernelIdeal.PairArrays.norm_arrays _ p q

/-- Region 1's output: the sum of the squared distances over the pairs of centre rows. -/
theorem region1_value :
    (Cert.KernelIdeal.R1.dat1 (Ix := Ix) (U := U) (Lvl := Lvl) (V6 m outs c) c).arrAt 4 64 (ix2 (0 : Fin 1) (0 : Fin 1))
      = Cert.Spec.S1 (Cert.Spec.ten3 (m ((c : Thread nD τ).loc main_arg1))) := by
  rw [Cert.KernelIdeal.R1.arrAt_last,
    Cert.KernelIdeal.PairAcc1.acc_run (V6 m outs c) _ (norm_V6 m outs c) 63 Cert.KernelIdeal.R1.h63]
  exact Cert.Spec.run_norm _

end Cert.KernelIdeal.RegionValues

end
-- ==== Proof.R2Acc.lean ====
/-
  What the second pair-sum region leaves in its result array: the running sum after the last grid point.

  The result window's one block is the whole `[1, 1]` array and is written back once, after point 63; what is written
  is what the body left in the staging buffer there, the running sum `acc2At V 63`. Every index of the array lies in
  that block, so the array ends holding that sum.
-/
import proofs.«134856_j3556232921452_1_alg».proof.Proof.R2Dat
import proofs.«134856_j3556232921452_1_alg».proof.Proof.Gen.KernelIdeal.Points
import Idealize.ShloMosaic.Lib.Pipeline.Value

set_option maxRecDepth 16384

noncomputable section

namespace Cert.KernelIdeal.R2

open Cert.KernelIdeal Cert.KernelIdeal.Gen
open Idealize.ShloMosaic Idealize.ShloMosaic.TcCoe
open Idealize.SL Idealize.SL.RA Idealize.SL.Sem
open Idealize.ShloMosaic.Pipeline (Dat Cfg Window)

variable {F : FTy → Type} [FloatOps F]
variable {Ix : Type} [DecidableEq Ix] {U : Type} [URA U] {Lvl : Type} [Preorder Lvl]

variable (V : Valuation τ sig (Elt F)) (c : Dev nD)

/-- The last grid point is point 63. -/
theorem h63 : 63 < cfg2.N := by rw [show cfg2.N = 64 from N_2]; decide

/-- The last grid point. -/
abbrev tLast : Fin cfg2.N := ⟨63, h63⟩

/-- The running sum after the last point, as contents of the result array (its one block is the array). -/
abbrev result2 : Buf (Elt F) ((c : Thread nD τ).loc main_v12) := acc2At V 63 h63

/-- The one write-back, after point 63, writes the running sum: block (0, 0) of the `[1, 1]` array, read through zero
    offsets, is the array. -/
theorem flushed2_eq (t : Fin cfg2.N) (hf : (cfg2.win 5).flush t = true) :
    (dat2 (Ix := Ix) (U := U) (Lvl := Lvl) V c).flushed 5 t = ((cfg2.win 5).blk t).view.read (Elt F) (result2 V c) := by
  have hN : cfg2.N = 64 := N_2
  have h3 : t.val = 63 := by have := (flush2_5 t).mp hf; have := t.isLt; omega
  obtain rfl : t = tLast := Fin.ext h3
  show (cfg2.win 5).cut (grid2.coords tLast) ((dat2 (Ix := Ix) (U := U) (Lvl := Lvl) V c).after 5 tLast) = _
  rw [after2_5]
  have hz' : (fun a => win2_5.index tLast a * main_v12.ty.shape.size a) = fun _ => 0 := funext fun a => by fin_cases a <;> decide
  exact (Memref.read_access_unit_zero (Elt F) main_v12 hz' (fun a => by rw [congrFun hz' a]; simp) (result2 V c)).symm

/-- So the result array ends holding the running sum after point 63: that point's block covers it. -/
theorem arrAt_N : (dat2 (Ix := Ix) (U := U) (Lvl := Lvl) V c).arrAt 5 cfg2.N = result2 V c :=
  (dat2 (Ix := Ix) (U := U) (Lvl := Lvl) V c).arrAt_eq_of_cover 5 (result2 V c) (flushed2_eq V c) fun i =>
    ⟨tLast, (flush2_5 tLast).mpr rfl, by
      show i ∈ ((View.whole main_v12).slice (win2_5.rect tLast)).set
      rw [View.set_slice_whole, Rect.mem_set_unit]
      intro a
      have h0 : (i 0 : Nat) < 1 := (i 0).isLt
      have h1 : (i 1 : Nat) < 1 := (i 1).isLt
      match a with
      | ⟨0, _⟩ => show win2_5.index tLast 0 * win2_5.size 0 ≤ (i 0 : Nat) ∧ (i 0 : Nat) < win2_5.index tLast 0 * win2_5.size 0 + win2_5.xsize (grid2.coords tLast) 0
                  rw [show win2_5.index tLast 0 * win2_5.size 0 = 0 from by decide +kernel, show win2_5.xsize (grid2.coords tLast) 0 = 1 from by decide +kernel]; omega
      | ⟨1, _⟩ => show win2_5.index tLast 1 * win2_5.size 1 ≤ (i 1 : Nat) ∧ (i 1 : Nat) < win2_5.index tLast 1 * win2_5.size 1 + win2_5.xsize (grid2.coords tLast) 1
                  rw [show win2_5.index tLast 1 * win2_5.size 1 = 0 from by decide +kernel, show win2_5.xsize (grid2.coords tLast) 1 = 1 from by decide +kernel]; omega⟩

/-- The same, index by index, with the number of points written out. -/
theorem arrAt_last (i) : (dat2 (Ix := Ix) (U := U) (Lvl := Lvl) V c).arrAt 5 64 i = acc2At V 63 h63 i := by
  have e := arrAt_N (Ix := Ix) (U := U) (Lvl := Lvl) V c
  rw [show cfg2.N = 64 from N_2] at e
  exact congrFun e i

end Cert.KernelIdeal.R2

end
-- ==== Proof.PairAcc2.lean ====
/-
  The second pair-sum kernel's accumulator after each grid point.

  The same 64 tiles (t / 8, t % 8) and the same four blocks of the padded weights and their squared norms as the first
  kernel, and one more input: the 1 by 1 mean, whose one block is the whole array at every point. The accumulator is reset at
  the first point and carried afterwards, so after point n it holds the running sum of the tiles 0, …, n of the squared
  deviations, extended by zero, of the function the arrays compute on their first 4000 rows from that mean.
-/
import proofs.«134856_j3556232921452_1_alg».proof.Proof.R2Dat
import proofs.«134856_j3556232921452_1_alg».proof.Proof.PairTile

noncomputable section

namespace Cert.KernelIdeal.PairAcc2

open Cert.KernelIdeal Cert.KernelIdeal.Gen Cert.KernelIdeal.R2 Cert.KernelIdeal.PairTile
open Idealize.ShloMosaic Idealize.ShloMosaic.ValueIdx Idealize.ShloMosaic.TcCoe
open scoped BigOperators

/-- The schedule, decided over the 64 points: the grid coordinates and each window's block index at point t. -/
theorem idx_facts2 : ∀ t : Fin cfg2.N, (grid2.coords t 0).val = t.val / 8 ∧ (grid2.coords t 1).val = t.val % 8
    ∧ win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 1) = t.val / 8 ∧ win2_3.index t (0 : Fin 1) = t.val % 8
    ∧ win2_4.index t (0 : Fin 2) = 0 ∧ win2_4.index t (1 : Fin 2) = 0 :=
  (by decide +kernel : ∀ t : Fin grid2.N, _)

theorem lt64 (t : Fin cfg2.N) : t.val < 64 := by
  have h : t.val < grid2.N := t.isLt
  rw [N_2] at h
  exact h

variable (V : Valuation τ sig (Elt Ideal))

/-- The padded flat weights and their squared row norms, as the region finds them. -/
abbrev A5 : (⟨2, ![4096, 512]⟩ : Shape).Idx → EReal := V main_v5
abbrev A7 : (⟨1, ![4096]⟩ : Shape).Idx → EReal := V main_v7

theorem blk_x0 (t : Fin cfg2.N) (r h : Fin 512) : blk2 V 0 t (ix2 r h) = A5 V (ix2 (row (grid2.coords t 0).val r) h) := by
  obtain ⟨c0, c1, e0, e1, -⟩ := idx_facts2 t
  have ht := lt64 t
  have hr := r.isLt
  unfold blk2
  show (V main_v5 : (⟨2, ![4096, 512]⟩ : Shape).Idx → EReal) (((cfg2.win 0).blk t).view.emb (ix2 r h)) = _
  refine congrArg (V main_v5 : (⟨2, ![4096, 512]⟩ : Shape).Idx → EReal) (funext fun a => Fin.ext ?_)
  match a with
  | ⟨0, _⟩ =>
    show win2_0.index t (0 : Fin 2) * 512 + 1 * r.val = (512 * (grid2.coords t 0).val + r.val) % 4096
    rw [c0, e0]; omega
  | ⟨1, _⟩ =>
    show win2_0.index t (1 : Fin 2) * 512 + 1 * h.val = h.val
    rw [e1]; omega

theorem blk_x1 (t : Fin cfg2.N) (c h : Fin 512) : blk2 V 1 t (ix2 c h) = A5 V (ix2 (row (grid2.coords t 1).val c) h) := by
  obtain ⟨c0, c1, -, -, e0, e1, -⟩ := idx_facts2 t
  have ht := lt64 t
  have hc := c.isLt
  unfold blk2
  show (V main_v5 : (⟨2, ![4096, 512]⟩ : Shape).Idx → EReal) (((cfg2.win 1).blk t).view.emb (ix2 c h)) = _
  refine congrArg (V main_v5 : (⟨2, ![4096, 512]⟩ : Shape).Idx → EReal) (funext fun a => Fin.ext ?_)
  match a with
  | ⟨0, _⟩ =>
    show win2_1.index t (0 : Fin 2) * 512 + 1 * c.val = (512 * (grid2.coords t 1).val + c.val) % 4096
    rw [c1, e0]; omega
  | ⟨1, _⟩ =>
    show win2_1.index t (1 : Fin 2) * 512 + 1 * h.val = h.val
    rw [e1]; omega

theorem blk_s0 (t : Fin cfg2.N) (r : Fin 512) : blk2 V 2 t (ix1 r) = A7 V (ix1 (row (grid2.coords t 0).val r)) := by
  obtain ⟨c0, c1, -, -, -, -, e0, -⟩ := idx_facts2 t
  have ht := lt64 t
  have hr := r.isLt
  unfold blk2
  show (V main_v7 : (⟨1, ![4096]⟩ : Shape).Idx → EReal) (((cfg2.win 2).blk t).view.emb (ix1 r)) = _
  refine congrArg (V main_v7 : (⟨1, ![4096]⟩ : Shape).Idx → EReal) (funext fun a => Fin.ext ?_)
  match a with
  | ⟨0, _⟩ =>
    show win2_2.index t (0 : Fin 1) * 512 + 1 * r.val = (512 * (grid2.coords t 0).val + r.val) % 4096
    rw [c0, e0]; omega

theorem blk_s1 (t : Fin cfg2.N) (c : Fin 512) : blk2 V 3 t (ix1 c) = A7 V (ix1 (row (grid2.coords t 1).val c)) := by
  obtain ⟨c0, c1, -, -, -, -, -, e0, -⟩ := idx_facts2 t
  have ht := lt64 t
  have hc := c.isLt
  unfold blk2
  show (V main_v7 : (⟨1, ![4096]⟩ : Shape).Idx → EReal) (((cfg2.win 3).blk t).view.emb (ix1 c)) = _
  refine congrArg (V main_v7 : (⟨1, ![4096]⟩ : Shape).Idx → EReal) (funext fun a => Fin.ext ?_)
  match a with
  | ⟨0, _⟩ =>
    show win2_3.index t (0 : Fin 1) * 512 + 1 * c.val = (512 * (grid2.coords t 1).val + c.val) % 4096
    rw [c1, e0]; omega

/-- The mean the region is handed: the one entry of its 1 by 1 array. -/
abbrev Mu : EReal := (V main_v11 : (⟨2, ![1, 1]⟩ : Shape).Idx → EReal) (ix2 (0 : Fin 1) (0 : Fin 1))

theorem blk_mu (t : Fin cfg2.N) : blk2 V 4 t (ix2 (0 : Fin 1) (0 : Fin 1)) = Mu V := by
  obtain ⟨-, -, -, -, -, -, -, -, e0, e1⟩ := idx_facts2 t
  unfold blk2
  show (V main_v11 : (⟨2, ![1, 1]⟩ : Shape).Idx → EReal) (((cfg2.win 4).blk t).view.emb (ix2 (0 : Fin 1) (0 : Fin 1))) = _
  refine congrArg (V main_v11 : (⟨2, ![1, 1]⟩ : Shape).Idx → EReal) (funext fun a => Fin.ext ?_)
  match a with
  | ⟨0, _⟩ =>
    show win2_4.index t (0 : Fin 2) * 1 + 1 * 0 = 0
    rw [e0]
  | ⟨1, _⟩ =>
    show win2_4.index t (1 : Fin 2) * 1 + 1 * 0 = 0
    rw [e1]

variable (g : Fin 4000 → Fin 4000 → EReal) (hg : ∀ m n : Fin 4000, tileNorm (A5 V) (A7 V) (up m) (up n) = g m n)

include hg in
/-- One step at point t adds tile (t / 8, t % 8) of the squared deviations from the mean. -/
theorem step_at (t : Fin cfg2.N) (a : Vec Ideal S1x1 .f32) :
    step2 (grid2.coords t) (blk2 V 0 t) (blk2 V 1 t) (blk2 V 2 t) (blk2 V 3 t) (blk2 V 4 t) a (ix2 (0 : Fin 1) (0 : Fin 1))
      = a (ix2 (0 : Fin 1) (0 : Fin 1))
        + Cert.TileSum.tile (Cert.Spec.ext fun m n => (g m n - Mu V) * (g m n - Mu V)) (t.val / 8) (t.val % 8) := by
  obtain ⟨c0, c1, -⟩ := idx_facts2 t
  unfold step2
  rw [step2_tile (A5 V) (A7 V) (grid2.coords t) _ _ _ _ (blk2 V 4 t) a (blk_x0 V t) (blk_x1 V t) (blk_s0 V t) (blk_s1 V t) g hg,
    blk_mu V t, c0, c1]

include hg in
/-- After point n the accumulator holds the running sum of the tiles 0 … n of the squared deviations from the mean. -/
theorem acc_run : ∀ (n : ℕ) (h : n < cfg2.N),
    acc2At V n h (ix2 (0 : Fin 1) (0 : Fin 1)) = Cert.TileSum.run (Cert.Spec.ext fun m n => (g m n - Mu V) * (g m n - Mu V)) (n + 1)
  | 0, h => by
    have e := acc2At_first V ⟨0, h⟩ rfl
    rw [show acc2At V 0 h = acc2At V (⟨0, h⟩ : Fin cfg2.N).val (⟨0, h⟩ : Fin cfg2.N).isLt from rfl, e, step_at V g hg ⟨0, h⟩,
      Cert.TileSum.run_succ, Cert.TileSum.run_zero]
    refine congrArg (· + Cert.TileSum.tile (Cert.Spec.ext fun m n => (g m n - Mu V) * (g m n - Mu V)) (0 / 8) (0 % 8)) ?_
    show Ideal.ofBits .f32 0x00000000#32 = 0
    exact Ideal.ofBits_zero_f32
  | n + 1, h => by
    have e := acc2At_later V ⟨n + 1, h⟩ (Nat.succ_ne_zero n)
    rw [show acc2At V (n + 1) h = acc2At V (⟨n + 1, h⟩ : Fin cfg2.N).val (⟨n + 1, h⟩ : Fin cfg2.N).isLt from rfl, e, step_at V g hg ⟨n + 1, h⟩,
      Cert.TileSum.run_succ _ (n + 1)]
    refine congrArg (· + Cert.TileSum.tile (Cert.Spec.ext fun m n => (g m n - Mu V) * (g m n - Mu V)) ((n + 1) / 8) ((n + 1) % 8)) ?_
    exact acc_run n (Nat.lt_of_succ_lt h)

end Cert.KernelIdeal.PairAcc2

end
-- ==== Proof.RegionValues2.lean ====
/-
  What the third kernel region leaves in its output, at the extended reals, in terms of the specification.

  Given that the second region left the first pair sum `S1`, the mean handed to the third region is `den * S1 = mu`;
  its accumulator after the last of the 64 tiles is the running sum of all the tiles of the squared deviation from
  `mu` of the squared distance, extended by zero, which is the sum over the pairs `m < n < 4000`: `S2`.
-/
import proofs.«134856_j3556232921452_1_alg».proof.Proof.RegionValues
import proofs.«134856_j3556232921452_1_alg».proof.Proof.R2Acc
import proofs.«134856_j3556232921452_1_alg».proof.Proof.PairAcc2
import proofs.«134856_j3556232921452_1_alg».proof.Proof.HostReadsIdeal

set_option maxRecDepth 16384

noncomputable section

namespace Cert.KernelIdeal.RegionValues

open Cert.KernelIdeal Cert.KernelIdeal.Gen Cert.KernelIdeal.HostReads
open Idealize.ShloMosaic Idealize.ShloMosaic.ValueIdx Idealize.ShloMosaic.TcCoe
open Idealize.SL Idealize.SL.RA Idealize.SL.Sem

variable {Ix : Type} [DecidableEq Ix] {U : Type} [URA U] {Lvl : Type} [Preorder Lvl]
variable (m : (ℓ : Loc nD τ sig) → Buf (Elt Ideal) ℓ) (outs : Outs (F := Ideal)) (c : Dev nD)

/-- The arrays region 2 reads compute the squared distance of two centre rows. -/
theorem norm_V8 (p q : Fin 4000) :
    Cert.KernelIdeal.PairTile.tileNorm (Cert.KernelIdeal.PairAcc2.A5 (V8 m outs c)) (Cert.KernelIdeal.PairAcc2.A7 (V8 m outs c))
      (Cert.KernelIdeal.PairTile.up p) (Cert.KernelIdeal.PairTile.up q)
      = Cert.Spec.norm (Cert.Spec.ten3 (m ((c : Thread nD τ).loc main_arg1))) p q := by
  show Cert.KernelIdeal.PairTile.tileNorm (V8 m outs c main_v5) (V8 m outs c main_v7) _ _ = _
  rw [V8_v5, V8_v7]
  exact Cert.KernelIdeal.PairArrays.norm_arrays _ p q

/-- The mean region 2 is handed: `den` times what region 1 left. -/
theorem mu_V8 (hmu : outs 7 main_v8 c (ix2 (0 : Fin 1) (0 : Fin 1)) = Cert.Spec.S1 (Cert.Spec.ten3 (m ((c : Thread nD τ).loc main_arg1)))) :
    Cert.KernelIdeal.PairAcc2.Mu (V8 m outs c) = Cert.Spec.mu (Cert.Spec.ten3 (m ((c : Thread nD τ).loc main_arg1))) := by
  show (V8 m outs c main_v11 : (⟨2, ![1, 1]⟩ : Shape).Idx → EReal) (ix2 (0 : Fin 1) (0 : Fin 1)) = _
  refine (congrFun (V8_v11 m outs c) _).trans ((Cert.KernelIdeal.HostReadsIdeal.scaled11_at (outs 7 main_v8 c) _).trans ?_)
  rw [hmu]
  rfl

/-- Region 2's output: the sum of the squared deviations over the pairs of centre rows. -/
theorem region2_value (hmu : outs 7 main_v8 c (ix2 (0 : Fin 1) (0 : Fin 1)) = Cert.Spec.S1 (Cert.Spec.ten3 (m ((c : Thread nD τ).loc main_arg1)))) :
    (Cert.KernelIdeal.R2.dat2 (Ix := Ix) (U := U) (Lvl := Lvl) (V8 m outs c) c).arrAt 5 64 (ix2 (0 : Fin 1) (0 : Fin 1))
      = Cert.Spec.S2 (Cert.Spec.ten3 (m ((c : Thread nD τ).loc main_arg1))) := by
  rw [Cert.KernelIdeal.R2.arrAt_last,
    Cert.KernelIdeal.PairAcc2.acc_run (V8 m outs c) _ (norm_V8 m outs c) 63 Cert.KernelIdeal.R2.h63,
    mu_V8 m outs c hmu]
  exact Cert.Spec.run_dev _

end Cert.KernelIdeal.RegionValues

end
-- ==== Proof.KernelIsSpec.lean ====
/-
  The kernel program's result is the specification.

  The result array is the first region's output cut to its 1000 columns, joined to the column of the scaled third
  region's output. The first region's output is `dist` in those columns; the second region's output is the first
  pair sum `S1`, so the mean handed to the third region is `mu` and its output is the second pair sum `S2`; the
  last column is then `den * S2 = rw`.
-/
import proofs.«134856_j3556232921452_1_alg».proof.Proof.RegionValues2
import proofs.«134856_j3556232921452_1_alg».proof.Proof.HostReadsIdeal
import proofs.«134856_j3556232921452_1_alg».proof.Proof.Spec

set_option maxRecDepth 16384

noncomputable section

namespace Cert.KernelIdeal.RegionValues

open Cert.KernelIdeal Cert.KernelIdeal.Gen Cert.KernelIdeal.HostReads
open Idealize.ShloMosaic Idealize.ShloMosaic.ValueIdx Idealize.ShloMosaic.TcCoe
open Idealize.SL Idealize.SL.RA Idealize.SL.Sem

variable {Ix : Type} [DecidableEq Ix] {U : Type} [URA U] {Lvl : Type} [Preorder Lvl]
variable (m : (ℓ : Loc nD τ sig) → Buf (Elt Ideal) ℓ) (outs : Outs (F := Ideal)) (c : Dev nD)

/-- THE KERNEL PROGRAM'S RESULT IS THE SPECIFICATION, when each region's output array is what its run leaves. -/
theorem kernel_is_spec
    (h3 : outs 3 main_v2 c = (Cert.KernelIdeal.R0.dat0 (Ix := Ix) (U := U) (Lvl := Lvl) (V2 m c) c).arrAt 2 2)
    (h7 : outs 7 main_v8 c = (Cert.KernelIdeal.R1.dat1 (Ix := Ix) (U := U) (Lvl := Lvl) (V6 m outs c) c).arrAt 4 64)
    (h9 : outs 9 main_v12 c = (Cert.KernelIdeal.R2.dat2 (Ix := Ix) (U := U) (Lvl := Lvl) (V8 m outs c) c).arrAt 5 64) :
    V10 m outs c main_v16
      = Cert.Spec.Garr (m ((c : Thread nD τ).loc main_arg0)) (m ((c : Thread nD τ).loc main_arg1)) := by
  have hmu : outs 7 main_v8 c (ix2 (0 : Fin 1) (0 : Fin 1)) = Cert.Spec.S1 (Cert.Spec.ten3 (m ((c : Thread nD τ).loc main_arg1))) :=
    (congrFun h7 _).trans (region1_value (Ix := Ix) (U := U) (Lvl := Lvl) m outs c)
  have hS2 : outs 9 main_v12 c (ix2 (0 : Fin 1) (0 : Fin 1)) = Cert.Spec.S2 (Cert.Spec.ten3 (m ((c : Thread nD τ).loc main_arg1))) :=
    (congrFun h9 _).trans (region2_value (Ix := Ix) (U := U) (Lvl := Lvl) m outs c hmu)
  funext i
  obtain ⟨b, j, rfl⟩ : ∃ (b : Fin 512) (j : Fin 1001), i = ix2 b j := ⟨i 0, i 1, eq_ix2 i⟩
  rw [Cert.Spec.Garr_ix2]
  refine (congrFun (V10_v16 m outs c) _).trans ((Cert.KernelIdeal.HostReadsIdeal.result_at (outs 3 main_v2 c) (outs 9 main_v12 c) b j).trans ?_)
  unfold Cert.Spec.G
  by_cases hj : j.val < 1000
  · rw [dif_pos hj, dif_pos hj]
    exact (congrFun h3 _).trans (region0_value (Ix := Ix) (U := U) (Lvl := Lvl) m c b ⟨j.val, by omega⟩ hj)
  · rw [dif_neg hj, dif_neg hj, hS2]
    rfl

end Cert.KernelIdeal.RegionValues

end
-- ==== Proof.RefRun.lean ====
/-
  What the reference leaves in its result buffer, as its last stage applied to the two arguments.

  The reference is a straight line of 69 host operations; after the line a buffer holds the fold of the operations over the
  launch contents. The fold is read here in two steps, because the last operation joins two arrays along axis 1 and its
  operands stand inside dependent pairs: first the two operands are read off the first 68 operations — the distances
  (the maximum over the four centres) and the regularizer's column —, each as its stage of the arguments; then the last
  operation is applied to them. The stages are the read-at-an-index module's `val_` functions, so every later step can
  read the result index by index.
-/
import proofs.«134856_j3556232921452_1_alg».proof.Proof.RefRunP
import proofs.«134856_j3556232921452_1_alg».proof.Proof.RefReadP

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 8192 in
set_option maxHeartbeats 8000000 in
/-- After the first 68 operations the distances' buffer holds its stage of the two arguments. -/
theorem dist_stage (V : Valuation τ sig (Elt F)) :
    after opsA V (Proc.devRef .tc main_v19)
      = ReadP.val_main_v19 (F := F) (V (Proc.devRef .tc main_arg0)) (V (Proc.devRef .tc main_arg1)) := by
  after_results_simp
  rfl

set_option maxRecDepth 8192 in
set_option maxHeartbeats 27600000 in
/-- After the first 68 operations the regularizer's column holds its stage of the second argument. -/
theorem col_stage (V : Valuation τ sig (Elt F)) :
    after opsA V (Proc.devRef .tc main_v46) = ReadP.val_main_v46 (F := F) (V (Proc.devRef .tc main_arg1)) := by
  after_results_simp
  rfl

/-- After the whole line the result buffer holds the last stage of the two arguments. -/
theorem result_stage (V : Valuation τ sig (Elt F)) :
    after ops V (Proc.devRef .tc main_v47)
      = ReadP.val_main_v47 (F := F) (V (Proc.devRef .tc main_arg0)) (V (Proc.devRef .tc main_arg1)) := by
  rw [ops_split, after_append]
  -- W: the contents after the first 68 operations; the last operation joins two of its entries
  generalize hW : after opsA V = W
  simp only [after_cons, after_nil]
  rw [binary_result]
  subst hW
  rw [dist_stage, col_stage]
  rfl

end Cert.ReferenceIdeal.RefRun

end
-- ==== Proof.RefIsSpec.lean ====
/-
  The reference's stages, read at an index, are the mathematics of `Cert.Spec`.

  Each stage of the reference is read at coordinates: the flat centre rows (`w`), the squared norms (`xsq`,
  `wsq`), the inner products (`xw`, `ww`), the squared distances (`sqd`, `norm`), the exponential of the
  negated tenth (`aff`), the greatest over the four centres (`dist`: the reduce starts from `-∞`, the neutral
  element of `max`), the strict-upper-triangle mask (`0` on and below the diagonal, `1` above it: a product
  with it is the entry above the diagonal and zero elsewhere, at every extended real), the two sums over all
  pairs, and the last column joined to the 1000 columns of `dist`.
-/
import proofs.«134856_j3556232921452_1_alg».proof.Proof.RefReadP
import proofs.«134856_j3556232921452_1_alg».proof.Proof.Spec
import Idealize.ShloMosaic.Lib.WordArith
import Idealize.ShloMosaic.Lib.IdealHost
import Idealize.ShloMosaic.PureOps.Reduce

noncomputable section

open scoped BigOperators

namespace Cert.ReferenceIdeal.RefValue

open Cert.ReferenceIdeal Cert.ReferenceIdeal.Gen Cert.ReferenceIdeal.ReadP Idealize.ShloMosaic Idealize.ShloMosaic.ValueIdx
open Cert.Spec

variable (x0 : (⟨S512x512, .f32⟩ : BufTy).Contents (Elt Ideal)) (x1 : (⟨S1000x4x512, .f32⟩ : BufTy).Contents (Elt Ideal))

/-! ### Index equations: the composed index maps of the layout operations, by coordinates -/

theorem e_v2 (b k : Fin 512) : idx_main_v2 (ix1 b) k = ix2 b k :=
  funext fun a => Fin.ext (by match a with | ⟨0, _⟩ => rfl | ⟨1, _⟩ => rfl)
theorem e_v5 (m : Fin 4000) (k : Fin 512) : idx_main_v5 (ix1 m) k = ix2 m k :=
  funext fun a => Fin.ext (by match a with | ⟨0, _⟩ => rfl | ⟨1, _⟩ => rfl)
theorem e_v6l (b : Fin 512) (m : Fin 4000) (k : Fin 512) : lidx_main_v6 (ix2 b m) k = ix2 b k :=
  funext fun a => Fin.ext (by match a with | ⟨0, _⟩ => rfl | ⟨1, _⟩ => rfl)
theorem e_v6r (b : Fin 512) (m : Fin 4000) (k : Fin 512) : ridx_main_v6 (ix2 b m) k = ix2 m k :=
  funext fun a => Fin.ext (by match a with | ⟨0, _⟩ => rfl | ⟨1, _⟩ => rfl)
theorem e_v8 (b : Fin 512) (m : Fin 4000) : idx_main_v3 (idx_main_v8 (ix2 b m)) = ix1 b :=
  funext fun a => Fin.ext (by match a with | ⟨0, _⟩ => rfl)
theorem e_v9 (b : Fin 512) (m : Fin 4000) : idx_main_v7 (idx_main_v9 (ix2 b m)) = ix1 m :=
  funext fun a => Fin.ext (by match a with | ⟨0, _⟩ => rfl)

/-- The flat row `m`, column `h` of the reshaped centres is centre `m % 4` of class `m / 4`. -/
theorem v0_at (m : Fin 4000) (h : Fin 512) : val_main_v0 (F := Ideal) x1 (ix2 m h) = w (ten3 x1) m h := by
  rw [val_main_v0_apply]
  unfold w ten3
  refine congrArg x1 (funext fun a => Fin.ext ?_)
  have hm := m.isLt; have hh := h.isLt
  match a with
  | ⟨0, _⟩ => show (m.val * 512 + h.val) / 2048 = m.val / 4; omega
  | ⟨1, _⟩ => show (m.val * 512 + h.val) / 512 % 4 = m.val % 4; omega
  | ⟨2, _⟩ => show (m.val * 512 + h.val) % 512 = h.val; omega

/-- The sum of squares along feature row `b`. -/
theorem v2_at (b : Fin 512) : val_main_v2 (F := Ideal) x0 (ix1 b) = xsq (mat x0) b := by
  rw [val_main_v2_apply, val_main_cst_apply, Ideal.ofBits_def, Ideal.ofBits_zero_f32, zero_add]
  unfold xsq mat
  refine Finset.sum_congr rfl fun k _ => ?_
  rw [val_main_v1_apply, e_v2, Ideal.mulf_def]

/-- The sum of squares along centre row `m`. -/
theorem v5_at (m : Fin 4000) : val_main_v5 (F := Ideal) x1 (ix1 m) = wsq (ten3 x1) m := by
  rw [val_main_v5_apply, val_main_cst_0_apply, Ideal.ofBits_def, Ideal.ofBits_zero_f32, zero_add]
  unfold wsq
  refine Finset.sum_congr rfl fun k _ => ?_
  rw [val_main_v4_apply, e_v5, Ideal.mulf_def, v0_at]

/-- The inner product of feature row `b` and centre row `m`. -/
theorem v6_at (b : Fin 512) (m : Fin 4000) : val_main_v6 (F := Ideal) x0 x1 (ix2 b m) = xw (mat x0) (ten3 x1) b m := by
  rw [val_main_v6_apply]
  unfold xw mat
  refine Finset.sum_congr rfl fun k _ => ?_
  rw [e_v6l, e_v6r, v0_at]

/-- The squared distance of feature row `b` and centre row `m`. -/
theorem v13_at (b : Fin 512) (m : Fin 4000) : val_main_v13 (F := Ideal) x0 x1 (ix2 b m) = sqd (mat x0) (ten3 x1) b m := by
  rw [val_main_v13_apply, val_main_v10_apply, val_main_v12_apply, val_main_v8_apply, val_main_v3_apply,
    val_main_v9_apply, val_main_v7_apply, val_main_v11_apply, val_main_cst_1_apply, e_v8, e_v9,
    v2_at, v5_at, v6_at, Ideal.subf_def, Ideal.addf_def, Ideal.mulf_def, Ideal.ofBits_def]
  rfl

/-! ### The greatest of the four centres' values -/

theorem e_v14 (b : Fin 512) (n : Fin 1000) (k : Fin 4) : idx_main_v14 (ix3 b n k) = ix2 b (ctr n k) :=
  funext fun a => Fin.ext (by
    have hb := b.isLt; have hn := n.isLt; have hk := k.isLt
    match a with
    | ⟨0, _⟩ => show ((b.val * 1000 + n.val) * 4 + k.val) / 4000 = b.val; omega
    | ⟨1, _⟩ => show ((b.val * 1000 + n.val) * 4 + k.val) % 4000 = 4 * n.val + k.val; omega)

/-- The exponential of the negated tenth of the squared distance, at feature row `b` and centre `k` of class `n`. -/
theorem v18_at (b : Fin 512) (n : Fin 1000) (k : Fin 4) :
    val_main_v18 (F := Ideal) x0 x1 (ix3 b n k) = aff (mat x0) (ten3 x1) b (ctr n k) := by
  rw [val_main_v18_apply, val_main_v17_apply, val_main_v15_apply, val_main_v14_apply, val_main_v16_apply,
    val_main_cst_2_apply, e_v14, v13_at]
  rfl

/-- A fold of a commutative, associative operation over four values, from `b`. -/
theorem fold4 {α : Type} (f : α → α → α) [Std.Commutative f] [Std.Associative f] (b : α) (g : Fin 4 → α) :
    (Finset.univ : Finset (Fin 4)).fold f b g = f b (f (f (f (g 0) (g 1)) (g 2)) (g 3)) := by
  simp only [Fin.univ_succ, Finset.fold_cons, Finset.fold_map, Finset.univ_unique, Finset.fold_singleton]
  show f (g 0) (f (g 1) (f (g 2) (f (g 3) b))) = _
  ac_rfl

/-- The reduced index `(b, n)` with centre `k` put back on the last axis is `(b, n, k)`. -/
theorem lift_ix3 (h : S512x1000x4.Reduces [2] S512x1000) (b : Fin 512) (n : Fin 1000) (k : Fin (S512x1000x4.size 2)) :
    h.lift (ix2 b n) k = ix3 b n (⟨k.val, (k.isLt : k.val < 4)⟩ : Fin 4) := by
  funext c; apply Fin.ext
  fin_cases c <;> rfl

/-- From `-∞`, the neutral element of `max`, the reduce over the four centres is the greatest of their values. -/
theorem v19_at (b : Fin 512) (n : Fin 1000) : val_main_v19 (F := Ideal) x0 x1 (ix2 b n) = dist (mat x0) (ten3 x1) b n := by
  unfold val_main_v19
  have h : S512x1000x4.Reduces [2] S512x1000 := by decide
  rw [Host.reduce_eq_fold_single FloatOps.maximumf _ _ reducesTo_S512x1000x4_S512x1000_d2 h h_S_]
  have e := fold4 (max : Ideal .f32 → Ideal .f32 → Ideal .f32) (Ideal.ofBits .f32 0xFF800000#32)
    (fun k : Fin 4 => aff (mat x0) (ten3 x1) b (ctr n k))
  have hb : max (Ideal.ofBits .f32 0xFF800000#32) = (id : Ideal .f32 → Ideal .f32) := by
    funext y; show max (Ideal.ofBits .f32 0xFF800000#32) y = y; simp [Ideal.ofBits, Ideal.ieee]
  rw [hb] at e
  refine Eq.trans ?_ e
  have hf : (val_main_v18 (F := Ideal) x0 x1 ∘ h.lift (ix2 b n)) = fun k : Fin 4 => aff (mat x0) (ten3 x1) b (ctr n k) :=
    funext fun (k : Fin 4) =>
      (congrArg (val_main_v18 (F := Ideal) x0 x1) (lift_ix3 h b n k)).trans (v18_at x0 x1 b n k)
  exact congrArg (fun f => Finset.fold max (Ideal.ofBits .f32 0xFF800000#32) f (Finset.univ : Finset (Fin 4))) hf

/-! ### The squared distances of the pairs of centre rows, and the mask of the strict upper triangle -/

theorem e_v20l (m n : Fin 4000) (k : Fin 512) : lidx_main_v20 (ix2 m n) k = ix2 m k :=
  funext fun a => Fin.ext (by match a with | ⟨0, _⟩ => rfl | ⟨1, _⟩ => rfl)
theorem e_v20r (m n : Fin 4000) (k : Fin 512) : ridx_main_v20 (ix2 m n) k = ix2 n k :=
  funext fun a => Fin.ext (by match a with | ⟨0, _⟩ => rfl | ⟨1, _⟩ => rfl)
theorem e_v23 (m n : Fin 4000) : idx_main_v21 (idx_main_v23 (ix2 m n)) = ix1 m :=
  funext fun a => Fin.ext (by match a with | ⟨0, _⟩ => rfl)
theorem e_v24 (m n : Fin 4000) : idx_main_v22 (idx_main_v24 (ix2 m n)) = ix1 n :=
  funext fun a => Fin.ext (by match a with | ⟨0, _⟩ => rfl)

/-- The inner product of centre rows `m` and `n`. -/
theorem v20_at (m n : Fin 4000) : val_main_v20 (F := Ideal) x1 (ix2 m n) = ww (ten3 x1) m n := by
  rw [val_main_v20_apply]
  unfold ww
  refine Finset.sum_congr rfl fun k _ => ?_
  rw [e_v20l, e_v20r, v0_at, v0_at]

/-- The squared distance of centre rows `m` and `n`. -/
theorem v28_at (m n : Fin 4000) : val_main_v28 (F := Ideal) x1 (ix2 m n) = Cert.Spec.norm (ten3 x1) m n := by
  rw [val_main_v28_apply, val_main_v25_apply, val_main_v27_apply, val_main_v23_apply, val_main_v21_apply,
    val_main_v24_apply, val_main_v22_apply, val_main_v26_apply, val_main_cst_4_apply, e_v23, e_v24,
    v20_at, Ideal.subf_def, Ideal.addf_def, Ideal.mulf_def, Ideal.ofBits_def]
  unfold Cert.Spec.norm
  rw [v5_at x1 m, v5_at x1 n]

/-- The mask: `1` strictly above the diagonal, `0` on and below it. -/
theorem v30_at (m n : Fin 4000) : val_main_v30 (F := Ideal) (ix2 m n) = if m < n then (1 : EReal) else 0 := by
  rw [val_main_v30_apply, val_main_call0_v4_apply, val_main_call0_v2_apply, val_main_call0_v0_apply,
    val_main_call0_v1_apply, val_main_call0_c_apply, val_main_call0_v3_apply, val_main_call0_v5_apply,
    val_main_call0_cst_apply, val_main_v29_apply, val_main_cst_5_apply]
  have hm := m.isLt; have hn := n.isLt
  have hc : IntOp.cmpi .sge (IntOp.addi (BitVec.ofNat 32 m.val) 0#32) (BitVec.ofNat 32 n.val) = (1 : BitVec 1) ↔ n ≤ m := by
    show IntOp.cmpi .sge (IntOp.addi (BitVec.ofNat 32 m.val) 0#32) (BitVec.ofNat 32 n.val) = 1#1 ↔ n ≤ m
    rw [IntOp.cmpi_sge, IntOp.addi, BitVec.add_zero, WordArith.toInt_ofNat_small _ (by omega),
      WordArith.toInt_ofNat_small _ (by omega)]
    exact Iff.trans Int.ofNat_le Fin.le_def.symm
  show Scalar.select (IntOp.cmpi .sge (IntOp.addi (BitVec.ofNat 32 m.val) 0#32) (BitVec.ofNat 32 n.val))
    (Ideal.ofBits .f32 0x00000000#32) (Ideal.ofBits .f32 0x3F800000#32) = _
  unfold Scalar.select
  by_cases h : m < n
  · rw [if_neg (fun h1 => absurd (hc.mp h1) (not_le.mpr h)), if_pos h, Ideal.ofBits_one_f32]
  · rw [if_pos (hc.mpr (not_lt.mp h)), if_neg h, Ideal.ofBits_zero_f32]

/-- The masked squared distance: the entry above the diagonal, zero elsewhere. -/
theorem v31_at (m n : Fin 4000) :
    val_main_v31 (F := Ideal) x1 (ix2 m n) = if m < n then Cert.Spec.norm (ten3 x1) m n else 0 := by
  rw [val_main_v31_apply, v28_at, v30_at, Ideal.mulf_def]
  by_cases h : m < n
  · rw [if_pos h, if_pos h, mul_one]
  · rw [if_neg h, if_neg h, mul_zero]

/-- A sum over all of a `[4000, 4000]` array that vanishes off the strict upper triangle is the sum over the pairs. -/
theorem sumPairs (y : S4000x4000.Idx → EReal) (g : Fin 4000 → Fin 4000 → EReal)
    (hy : ∀ m n : Fin 4000, y (ix2 m n) = if m < n then g m n else 0) : ∑ j : S4000x4000.Idx, y j = pairSum g := by
  rw [sum_idx2]
  unfold pairSum
  exact Finset.sum_congr rfl fun m _ => Finset.sum_congr rfl fun n _ => hy m n

/-- The first pair sum. -/
theorem v32_eq (i : S_.Idx) : val_main_v32 (F := Ideal) x1 i = S1 (ten3 x1) := by
  rw [val_main_v32_apply, val_main_cst_6_apply, Ideal.ofBits_def, Ideal.ofBits_zero_f32, zero_add]
  exact sumPairs _ _ (v31_at x1)

/-- The mean. -/
theorem v33_eq (i : S_.Idx) : val_main_v33 (F := Ideal) x1 i = mu (ten3 x1) := by
  rw [val_main_v33_apply, val_main_cst_7_apply, v32_eq, Ideal.mulf_def, Ideal.ofBits_def]
  rfl

/-- The masked squared deviation: above the diagonal the mask is `1` both times it multiplies; elsewhere the last
    product is with `0`. -/
theorem v37_at (m n : Fin 4000) :
    val_main_v37 (F := Ideal) x1 (ix2 m n) = if m < n then dev (ten3 x1) m n else 0 := by
  rw [val_main_v37_apply, val_main_v36_apply, val_main_v35_apply, val_main_v34_apply, v31_at, v33_eq, v30_at,
    Ideal.mulf_def, Ideal.mulf_def, Ideal.subf_def]
  by_cases h : m < n
  · rw [if_pos h, if_pos h, if_pos h, mul_one]
    rfl
  · rw [if_neg h, if_neg h, if_neg h, mul_zero]

/-- The second pair sum. -/
theorem v38_eq (i : S_.Idx) : val_main_v38 (F := Ideal) x1 i = S2 (ten3 x1) := by
  rw [val_main_v38_apply, val_main_cst_8_apply, Ideal.ofBits_def, Ideal.ofBits_zero_f32, zero_add]
  exact sumPairs _ _ (v37_at x1)

/-- The regularizer. -/
theorem v39_eq (i : S_.Idx) : val_main_v39 (F := Ideal) x1 i = Cert.Spec.rw (ten3 x1) := by
  rw [val_main_v39_apply, val_main_cst_9_apply, v38_eq, Ideal.mulf_def, Ideal.ofBits_def]
  rfl

/-- The last column: the regularizer in every row (the product with the column of ones changes nothing). -/
theorem v46_at (i : S512x1.Idx) : val_main_v46 (F := Ideal) x1 i = Cert.Spec.rw (ten3 x1) := by
  rw [val_main_v46_apply, val_main_v44_apply, val_main_cst_11_apply, val_main_v45_apply, v39_eq, Ideal.mulf_def,
    Ideal.ofBits_def, Ideal.ofBits_one_f32, one_mul]

/-! ### The result: 1000 columns of `dist`, then the column of the regularizer -/

/-- THE REFERENCE IS THE SPECIFICATION, index by index. -/
theorem ref_is_spec : val_main_v47 (F := Ideal) x0 x1 = Garr x0 x1 := by
  funext i
  obtain ⟨b, j, rfl⟩ : ∃ (b : Fin 512) (j : Fin 1001), i = ix2 b j := ⟨i 0, i 1, eq_ix2 i⟩
  rw [Garr_ix2]
  unfold val_main_v47 G
  by_cases h : j.val < 1000
  · rw [dif_pos h]
    refine (concatenate_pair_apply_left 1 _ _ concatenates_S512x1000_S512x1_S512x1001_d1 (ix2 b j) rfl
      (ix2 b (⟨j.val, h⟩ : Fin 1000)) (fun c => by
        match c with
        | ⟨0, _⟩ => rfl
        | ⟨1, _⟩ => rfl)).trans ?_
    exact v19_at x0 x1 b ⟨j.val, h⟩
  · rw [dif_neg h]
    refine (concatenate_pair_apply_right 1 _ _ concatenates_S512x1000_S512x1_S512x1001_d1 (ix2 b j) rfl rfl
      (ix2 b (⟨0, Nat.one_pos⟩ : Fin 1)) (fun c hc => by
        match c with
        | ⟨0, _⟩ => rfl
        | ⟨1, _⟩ => exact absurd rfl hc) (by
        have := j.isLt
        show 0 + 1000 = j.val
        omega)).trans ?_
    exact v46_at x1 _

end Cert.ReferenceIdeal.RefValue

end
-- ==== Proof.Claims.lean ====
/-
  The five claims.

  Frames. The kernel program's run — the three kernels' records under the pipeline library's launch, the host operations
  between them — terminates with both arguments as launched, at the word-level instance and at the exact-real one alike: the
  same proof at two instances. The reference is a straight line of host operations; its run terminates with both arguments
  as launched.

  Preservation. The idealized kernel program is the kernel program's own text read at exact reals: no operation was rewritten.

  Equality of the results at exact reals. The kernel program's result is the distances' array sliced to 1000 columns joined
  with a column holding the scaled second pair sum: the distance kernel leaves exp (-(|f b|² + |w m|² - 2 f b · w m) / 10)
  maximised over the four centres of each class; the first pair-sum kernel's 64 tiles add up to the sum over the strict upper
  triangle of the squared distances between the 4000 flat weight rows, whose scaled value is the mean; the second kernel's
  tiles add up to the sum over the same triangle of the squared deviations from that mean. The reference computes the same
  three quantities on whole arrays, masking with a 0/1 triangle where the kernels select. Both results are one function
  (`Cert.Spec.Garr`) of the two arguments.
-/
import proofs.«134856_j3556232921452_1_alg».proof.Defs
import proofs.«134856_j3556232921452_1_alg».proof.Proof.KIFinal
import proofs.«134856_j3556232921452_1_alg».proof.Proof.K.KIFinal
import proofs.«134856_j3556232921452_1_alg».proof.Proof.KernelIsSpec
import proofs.«134856_j3556232921452_1_alg».proof.Proof.RefRun
import proofs.«134856_j3556232921452_1_alg».proof.Proof.RefIsSpec
import proofs.«134856_j3556232921452_1_alg».proof.Proof.Gen.Kernel
import proofs.«134856_j3556232921452_1_alg».proof.Proof.Gen.KernelIdeal
import proofs.«134856_j3556232921452_1_alg».proof.Proof.Gen.ReferenceIdeal
import proofs.«134856_j3556232921452_1_alg».proof.Proof.Gen.Pre_finite_inputs

noncomputable section

namespace Cert.Proof.Claims

open Idealize.ShloMosaic Idealize.ShloMosaic.TcCoe Idealize.SL.Sem

/-- The kernel program at the word-level instance runs and leaves its arguments alone. -/
theorem frame_p : Cert.frame_Kernel := fun m ρ _ =>
  (θ_run Cert.Kernel.defs _ _).mono (fun _ h c => (h c).2) (Cert.Kernel.Hand.run_named (F := Bits) m ρ)

/-- The same at the exact-real instance. -/
theorem frame_pi : Cert.frame_KernelIdeal := fun m ρ _ =>
  (θ_run Cert.KernelIdeal.defs _ _).mono (fun _ h c => (h c).2) (Cert.KernelIdeal.Hand.run_named (F := Ideal) m ρ)

/-- The reference runs and leaves its arguments alone. -/
theorem frame_ri : Cert.frame_ReferenceIdeal := fun m ρ _ =>
  (θ_run Cert.ReferenceIdeal.defs _ _).mono (fun _ h c => (h c).2) (Cert.ReferenceIdeal.ValueP.run (F := Ideal) m ρ)

/-- No operation was rewritten. -/
theorem preserves : Cert.preserves_Kernel_KernelIdeal := trivial

/-- At exact reals both programs end with the specification's array of the two arguments. -/
theorem algebraic : Cert.algebraic_KernelIdeal_ReferenceIdeal := by
  intro m ρ m' ρ' _ hagree
  refine ⟨fun c => Cert.Spec.Garr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.KernelIdeal.Hand.run_named (F := Ideal) m ρ)
    exact Cert.KernelIdeal.RegionValues.kernel_is_spec (Ix := Unit) (U := UR Cert.KernelIdeal.sig Cert.KernelIdeal.nD Cert.KernelIdeal.τ) (Lvl := ℕ)
      m (Cert.KernelIdeal.Hand.outs m) c
      (Cert.KernelIdeal.Hand.outsC_3 m _ _ _ c) (Cert.KernelIdeal.Hand.outs_7 m _ _ _ c) (Cert.KernelIdeal.Hand.outs_9 m _ _ _ c)
  · refine (θ_run Cert.ReferenceIdeal.defs _ _).mono (fun _ h c => ⟨(h c).1.trans ?_, (h c).2⟩)
      (Cert.ReferenceIdeal.ValueP.run (F := Ideal) m' ρ')
    refine (Cert.ReferenceIdeal.RefRun.result_stage _).trans ((Cert.ReferenceIdeal.RefValue.ref_is_spec _ _).trans ?_)
    exact congrArg₂ Cert.Spec.Garr (hagree c).1 (hagree c).2

end Cert.Proof.Claims

end
-- ==== Proof.lean ====
/-
  The proof of `Cert.Claim` for the centre-distance kernel with its pairwise regularizer, against its jnp reference.

  The kernel program computes, for a batch f : [512, 512] and class centres W : [1000, 4, 512],
    column n < 1000 of row b :  the greatest over the four centres k of exp (-(|f b|² + |W n k|² - 2 f b · W n k) / 10),
    column 1000 of every row :  den * ∑ over pairs m < n of flat centre rows of (|w m - w n|² - mu)², mu = den * ∑ m < n, |w m - w n|²,
  with three kernels — one for the distances, over two blocks of 512 classes; two for the pair sums, each over an 8 by 8 grid
  of 512 by 512 tiles of the padded 4096 by 4096 matrix, masked to the strict upper triangle of its first 4000 rows and
  columns and accumulated into one entry — and host operations between them (transpose, pads, squared row norms, the two
  scalings by den, the final join). The reference computes the same function on whole arrays.

  The modules: the specification (Spec), the regrouping of the triangle's sum by tiles (TileSum, PairTiles); the reference's
  run and its stages read as the specification (RefRunP, RefReadP, RefRun, RefIsSpec); per kernel the body's triple, the proof
  data and the region's record (R0Body … R0Seg, R1Step … R1Seg, R2Step … R2Seg, PDats), written once for any float instance
  and instantiated at the word-level program as well (K/…); the run of the whole program with its result named (KIRun, KIData,
  KIFinal); the values at exact reals — the host operations read at an index (HostReads, HostReadsIdeal), the distance kernel's
  array (R0Pay, R0Value, DistLink), one step of a pair-sum kernel as one tile (PairStep, PairTile, PairArrays), the accumulators
  after every point (PairAcc1, PairAcc2, R1Acc, R2Acc), each region's output (RegionValues, RegionValues2) and the result
  (KernelIsSpec) —; and the five claims (Claims), assembled here behind the witnesses of the programs' stated facts.
-/
import proofs.«134856_j3556232921452_1_alg».proof.Defs
import proofs.«134856_j3556232921452_1_alg».proof.Proof.Claims
import proofs.«134856_j3556232921452_1_alg».proof.Proof.Gen.Kernel
import proofs.«134856_j3556232921452_1_alg».proof.Proof.Gen.KernelIdeal
import proofs.«134856_j3556232921452_1_alg».proof.Proof.Gen.ReferenceIdeal
import proofs.«134856_j3556232921452_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Claims.frame_p, Cert.Proof.Claims.frame_pi, Cert.Proof.Claims.frame_ri, Cert.Proof.Claims.preserves,
    Cert.Proof.Claims.algebraic⟩

end Cert.Proof

end
